-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v88)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v88) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v139) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S500000x1 : Shape := ⟨2, ![500000, 1]⟩
abbrev S2x4000000 : Shape := ⟨2, ![2, 4000000]⟩
abbrev S500000 : Shape := ⟨1, ![500000]⟩
abbrev S10000 : Shape := ⟨1, ![10000]⟩
abbrev S1x64 : Shape := ⟨2, ![1, 64]⟩
abbrev S64 : Shape := ⟨1, ![64]⟩
abbrev S64x64 : Shape := ⟨2, ![64, 64]⟩
abbrev S3x64x64 : Shape := ⟨3, ![3, 64, 64]⟩
abbrev S3x64 : Shape := ⟨2, ![3, 64]⟩
abbrev S64x16 : Shape := ⟨2, ![64, 16]⟩
abbrev S16 : Shape := ⟨1, ![16]⟩
abbrev S_ : Shape := ⟨0, ![]⟩

class Facts : Prop where
  bcast_S_S500000x1 : S_.BroadcastsInDim S500000x1 (![] : Fin 0 → Fin S500000x1.rank)
  reducesTo_S500000x1_S_d0_1 : S500000x1.ReducesTo [0, 1] S_
  h_S_ : 0 < S_.numel
  bcast_S_S1x64 : S_.BroadcastsInDim S1x64 (![] : Fin 0 → Fin S1x64.rank)
  reducesTo_S1x64_S_d0_1 : S1x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S3x64x64 : S_.BroadcastsInDim S3x64x64 (![] : Fin 0 → Fin S3x64x64.rank)
  reducesTo_S3x64x64_S_d0_1_2 : S3x64x64.ReducesTo [0, 1, 2] S_
  bcast_S_S3x64 : S_.BroadcastsInDim S3x64 (![] : Fin 0 → Fin S3x64.rank)
  reducesTo_S3x64_S_d0_1 : S3x64.ReducesTo [0, 1] S_
  bcast_S_S64x16 : S_.BroadcastsInDim S64x16 (![] : Fin 0 → Fin S64x16.rank)
  reducesTo_S64x16_S_d0_1 : S64x16.ReducesTo [0, 1] S_
  bcast_S_S16 : S_.BroadcastsInDim S16 (![] : Fin 0 → Fin S16.rank)
  reducesTo_S16_S_d0 : S16.ReducesTo [0] S_

variable [Facts]

def fn_part3 {F : FTy → Type} [FloatOps F] (main_arg14 : FVec F S64x16 .f32) (main_arg15 : FVec F S16 .f32) (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  let main_v54 : FVec F S64x16 .f32 := Host.absf main_arg14
  let main_cst_20 : FVec F S_ .f32 := constant S_ .f32 0x7F800000#32
  let main_v55 : FVec F S64x16 .f32 := broadcastInDim S64x16 ![] bcast_S_S64x16 main_cst_20
  let main_v56 : IVec S64x16 1 := cmpf .olt main_v54 main_v55
  let main_c_21 : IVec S_ 1 := constantI S_ 1 1#1
  let main_v57 : IVec S_ 1 := (fun x v => Host.reduce IntOp.andi x v reducesTo_S64x16_S_d0_1 h_S_) main_v56 main_c_21
  let main_v58 : IVec S_ 1 := andi main_v53 main_v57
  let main_v59 : FVec F S16 .f32 := Host.absf main_arg15
  let main_cst_22 : FVec F S_ .f32 := constant S_ .f32 0x7F800000#32
  let main_v60 : FVec F S16 .f32 := broadcastInDim S16 ![] bcast_S_S16 main_cst_22
  let main_v61 : IVec S16 1 := cmpf .olt main_v59 main_v60
  let main_c_23 : IVec S_ 1 := constantI S_ 1 1#1
  let main_v62 : IVec S_ 1 := (fun x v => Host.reduce IntOp.andi x v reducesTo_S16_S_d0 h_S_) main_v61 main_c_23
  let main_v63 : IVec S_ 1 := andi main_v58 main_v62
  main_v63

def fn_part2 {F : FTy → Type} [FloatOps F] (main_arg10 : FVec F S3x64x64 .f32) (main_arg11 : FVec F S3x64 .f32) (main_arg12 : FVec F S64x64 .f32) (main_arg13 : FVec F S64 .f32) (main_arg14 : FVec F S64x16 .f32) (main_arg15 : FVec F S16 .f32) (main_v33 : IVec S_ 1) : IVec S_ 1 :=
  let main_v34 : FVec F S3x64x64 .f32 := Host.absf main_arg10
  let main_cst_12 : FVec F S_ .f32 := constant S_ .f32 0x7F800000#32
  let main_v35 : FVec F S3x64x64 .f32 := broadcastInDim S3x64x64 ![] bcast_S_S3x64x64 main_cst_12
  let main_v36 : IVec S3x64x64 1 := cmpf .olt main_v34 main_v35
  let main_c_13 : IVec S_ 1 := constantI S_ 1 1#1
  let main_v37 : IVec S_ 1 := (fun x v => Host.reduce IntOp.andi x v reducesTo_S3x64x64_S_d0_1_2 h_S_) main_v36 main_c_13
  let main_v38 : IVec S_ 1 := andi main_v33 main_v37
  let main_v39 : FVec F S3x64 .f32 := Host.absf main_arg11
  let main_cst_14 : FVec F S_ .f32 := constant S_ .f32 0x7F800000#32
  let main_v40 : FVec F S3x64 .f32 := broadcastInDim S3x64 ![] bcast_S_S3x64 main_cst_14
  let main_v41 : IVec S3x64 1 := cmpf .olt main_v39 main_v40
  let main_c_15 : IVec S_ 1 := constantI S_ 1 1#1
  let main_v42 : IVec S_ 1 := (fun x v => Host.reduce IntOp.andi x v reducesTo_S3x64_S_d0_1 h_S_) main_v41 main_c_15
  let main_v43 : IVec S_ 1 := andi main_v38 main_v42
  let main_v44 : FVec F S64x64 .f32 := Host.absf main_arg12
  let main_cst_16 : FVec F S_ .f32 := constant S_ .f32 0x7F800000#32
  let main_v45 : FVec F S64x64 .f32 := broadcastInDim S64x64 ![] bcast_S_S64x64 main_cst_16
  let main_v46 : IVec S64x64 1 := cmpf .olt main_v44 main_v45
  let main_c_17 : IVec S_ 1 := constantI S_ 1 1#1
  let main_v47 : IVec S_ 1 := (fun x v => Host.reduce IntOp.andi x v reducesTo_S64x64_S_d0_1 h_S_) main_v46 main_c_17
  let main_v48 : IVec S_ 1 := andi main_v43 main_v47
  let main_v49 : FVec F S64 .f32 := Host.absf main_arg13
  let main_cst_18 : FVec F S_ .f32 := constant S_ .f32 0x7F800000#32
  let main_v50 : FVec F S64 .f32 := broadcastInDim S64 ![] bcast_S_S64 main_cst_18
  fn_part3 (F := F) main_arg14 main_arg15 main_v48 main_v49 main_v50

def fn_part1 {F : FTy → Type} [FloatOps F] (main_arg7 : FVec F S64 .f32) (main_arg8 : FVec F S3x64x64 .f32) (main_arg9 : FVec F S3x64 .f32) (main_arg10 : FVec F S3x64x64 .f32) (main_arg11 : FVec F S3x64 .f32) (main_arg12 : FVec F S64x64 .f32) (main_arg13 : FVec F S64 .f32) (main_arg14 : FVec F S64x16 .f32) (main_arg15 : FVec F S16 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg7
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S3x64x64 .f32 := Host.absf main_arg8
  let main_cst_8 : FVec F S_ .f32 := constant S_ .f32 0x7F800000#32
  let main_v25 : FVec F S3x64x64 .f32 := broadcastInDim S3x64x64 ![] bcast_S_S3x64x64 main_cst_8
  let main_v26 : IVec S3x64x64 1 := cmpf .olt main_v24 main_v25
  let main_c_9 : IVec S_ 1 := constantI S_ 1 1#1
  let main_v27 : IVec S_ 1 := (fun x v => Host.reduce IntOp.andi x v reducesTo_S3x64x64_S_d0_1_2 h_S_) main_v26 main_c_9
  let main_v28 : IVec S_ 1 := andi main_v23 main_v27
  let main_v29 : FVec F S3x64 .f32 := Host.absf main_arg9
  let main_cst_10 : FVec F S_ .f32 := constant S_ .f32 0x7F800000#32
  let main_v30 : FVec F S3x64 .f32 := broadcastInDim S3x64 ![] bcast_S_S3x64 main_cst_10
  let main_v31 : IVec S3x64 1 := cmpf .olt main_v29 main_v30
  let main_c_11 : IVec S_ 1 := constantI S_ 1 1#1
  let main_v32 : IVec S_ 1 := (fun x v => Host.reduce IntOp.andi x v reducesTo_S3x64_S_d0_1 h_S_) main_v31 main_c_11
  let main_v33 : IVec S_ 1 := andi main_v28 main_v32
  fn_part2 (F := F) main_arg10 main_arg11 main_arg12 main_arg13 main_arg14 main_arg15 main_v33

def fn {F : FTy → Type} [FloatOps F] (main_arg0 : FVec F S500000x1 .f32) (main_arg1 : IVec S2x4000000 32) (main_arg2 : IVec S500000 32) (main_arg3 : IVec S10000 32) (main_arg4 : FVec F S1x64 .f32) (main_arg5 : FVec F S64 .f32) (main_arg6 : FVec F S64x64 .f32) (main_arg7 : FVec F S64 .f32) (main_arg8 : FVec F S3x64x64 .f32) (main_arg9 : FVec F S3x64 .f32) (main_arg10 : FVec F S3x64x64 .f32) (main_arg11 : FVec F S3x64 .f32) (main_arg12 : FVec F S64x64 .f32) (main_arg13 : FVec F S64 .f32) (main_arg14 : FVec F S64x16 .f32) (main_arg15 : FVec F S16 .f32) : IVec S_ 1 :=
  let main_v0 : FVec F S500000x1 .f32 := Host.absf main_arg0
  let main_cst : FVec F S_ .f32 := constant S_ .f32 0x7F800000#32
  let main_v1 : FVec F S500000x1 .f32 := broadcastInDim S500000x1 ![] bcast_S_S500000x1 main_cst
  let main_v2 : IVec S500000x1 1 := cmpf .olt main_v0 main_v1
  let main_c : IVec S_ 1 := constantI S_ 1 1#1
  let main_v3 : IVec S_ 1 := (fun x v => Host.reduce IntOp.andi x v reducesTo_S500000x1_S_d0_1 h_S_) main_v2 main_c
  let main_v4 : FVec F S1x64 .f32 := Host.absf main_arg4
  let main_cst_0 : FVec F S_ .f32 := constant S_ .f32 0x7F800000#32
  let main_v5 : FVec F S1x64 .f32 := broadcastInDim S1x64 ![] bcast_S_S1x64 main_cst_0
  let main_v6 : IVec S1x64 1 := cmpf .olt main_v4 main_v5
  let main_c_1 : IVec S_ 1 := constantI S_ 1 1#1
  let main_v7 : IVec S_ 1 := (fun x v => Host.reduce IntOp.andi x v reducesTo_S1x64_S_d0_1 h_S_) main_v6 main_c_1
  let main_v8 : IVec S_ 1 := andi main_v3 main_v7
  let main_v9 : FVec F S64 .f32 := Host.absf main_arg5
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg6
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg7 main_arg8 main_arg9 main_arg10 main_arg11 main_arg12 main_arg13 main_arg14 main_arg15 main_v13 main_v16
-- ==== Kernel.lean ====
abbrev S500000x1 : Shape := ⟨2, ![500000, 1]⟩
abbrev S2x4000000 : Shape := ⟨2, ![2, 4000000]⟩
abbrev S500000 : Shape := ⟨1, ![500000]⟩
abbrev S10000 : Shape := ⟨1, ![10000]⟩
abbrev S1x64 : Shape := ⟨2, ![1, 64]⟩
abbrev S64 : Shape := ⟨1, ![64]⟩
abbrev S64x64 : Shape := ⟨2, ![64, 64]⟩
abbrev S3x64x64 : Shape := ⟨3, ![3, 64, 64]⟩
abbrev S3x64 : Shape := ⟨2, ![3, 64]⟩
abbrev S64x16 : Shape := ⟨2, ![64, 16]⟩
abbrev S16 : Shape := ⟨1, ![16]⟩
abbrev S1x4000000 : Shape := ⟨2, ![1, 4000000]⟩
abbrev S4000000 : Shape := ⟨1, ![4000000]⟩
abbrev S_ : Shape := ⟨0, ![]⟩
abbrev S4000000x1 : Shape := ⟨2, ![4000000, 1]⟩
abbrev S500000x64 : Shape := ⟨2, ![500000, 64]⟩
abbrev S10000x1 : Shape := ⟨2, ![10000, 1]⟩
abbrev S10000x64 : Shape := ⟨2, ![10000, 64]⟩
abbrev S1x64x64 : Shape := ⟨3, ![1, 64, 64]⟩
abbrev S4000000x64 : Shape := ⟨2, ![4000000, 64]⟩
abbrev S100x64 : Shape := ⟨2, ![100, 64]⟩
abbrev S1x16 : Shape := ⟨2, ![1, 16]⟩
abbrev S100x16 : Shape := ⟨2, ![100, 16]⟩

abbrev nBuf : Space → Nat
  | .hbm => 119
  | .vmem => 46
  | .smem => 0
  | _ => 0

abbrev bufTy : (tb : Table) → Fin (tcTables nBuf tb) → BufTy
  | .hbm, ⟨0, _⟩ => ⟨S500000x1, .f32⟩
  | .hbm, ⟨1, _⟩ => ⟨S2x4000000, .i32⟩
  | .hbm, ⟨2, _⟩ => ⟨S500000, .i32⟩
  | .hbm, ⟨3, _⟩ => ⟨S10000, .i32⟩
  | .hbm, ⟨4, _⟩ => ⟨S1x64, .f32⟩
  | .hbm, ⟨5, _⟩ => ⟨S64, .f32⟩
  | .hbm, ⟨6, _⟩ => ⟨S64x64, .f32⟩
  | .hbm, ⟨7, _⟩ => ⟨S64, .f32⟩
  | .hbm, ⟨8, _⟩ => ⟨S3x64x64, .f32⟩
  | .hbm, ⟨9, _⟩ => ⟨S3x64, .f32⟩
  | .hbm, ⟨10, _⟩ => ⟨S3x64x64, .f32⟩
  | .hbm, ⟨11, _⟩ => ⟨S3x64, .f32⟩
  | .hbm, ⟨12, _⟩ => ⟨S64x64, .f32⟩
  | .hbm, ⟨13, _⟩ => ⟨S64, .f32⟩
  | .hbm, ⟨14, _⟩ => ⟨S64x16, .f32⟩
  | .hbm, ⟨15, _⟩ => ⟨S16, .f32⟩
  | .hbm, ⟨16, _⟩ => ⟨S1x4000000, .i32⟩
  | .hbm, ⟨17, _⟩ => ⟨S4000000, .i32⟩
  | .hbm, ⟨18, _⟩ => ⟨S1x4000000, .i32⟩
  | .hbm, ⟨19, _⟩ => ⟨S4000000, .i32⟩
  | .hbm, ⟨20, _⟩ => ⟨S_, .i32⟩
  | .hbm, ⟨21, _⟩ => ⟨S4000000, .i32⟩
  | .hbm, ⟨22, _⟩ => ⟨S4000000, .i1⟩
  | .hbm, ⟨23, _⟩ => ⟨S_, .i32⟩
  | .hbm, ⟨24, _⟩ => ⟨S4000000, .i32⟩
  | .hbm, ⟨25, _⟩ => ⟨S4000000, .i32⟩
  | .hbm, ⟨26, _⟩ => ⟨S4000000, .i32⟩
  | .hbm, ⟨27, _⟩ => ⟨S4000000x1, .i32⟩
  | .hbm, ⟨28, _⟩ => ⟨S4000000x1, .f32⟩
  | .hbm, ⟨29, _⟩ => ⟨S_, .f32⟩
  | .hbm, ⟨30, _⟩ => ⟨S500000x1, .f32⟩
  | .hbm, ⟨31, _⟩ => ⟨S4000000x1, .i32⟩
  | .hbm, ⟨32, _⟩ => ⟨S500000x1, .f32⟩
  | .hbm, ⟨33, _⟩ => ⟨S1x64, .f32⟩
  | .hbm, ⟨34, _⟩ => ⟨S1x64, .f32⟩
  | .hbm, ⟨35, _⟩ => ⟨S500000x64, .f32⟩
  | .hbm, ⟨36, _⟩ => ⟨S1x64x64, .f32⟩
  | .hbm, ⟨37, _⟩ => ⟨S64x64, .f32⟩
  | .hbm, ⟨38, _⟩ => ⟨S1x64, .f32⟩
  | .hbm, ⟨39, _⟩ => ⟨S64, .f32⟩
  | .hbm, ⟨40, _⟩ => ⟨S1x64x64, .f32⟩
  | .hbm, ⟨41, _⟩ => ⟨S64x64, .f32⟩
  | .hbm, ⟨42, _⟩ => ⟨S1x64, .f32⟩
  | .hbm, ⟨43, _⟩ => ⟨S64, .f32⟩
  | .hbm, ⟨44, _⟩ => ⟨S_, .i32⟩
  | .hbm, ⟨45, _⟩ => ⟨S4000000, .i32⟩
  | .hbm, ⟨46, _⟩ => ⟨S4000000, .i1⟩
  | .hbm, ⟨47, _⟩ => ⟨S_, .i32⟩
  | .hbm, ⟨48, _⟩ => ⟨S4000000, .i32⟩
  | .hbm, ⟨49, _⟩ => ⟨S4000000, .i32⟩
  | .hbm, ⟨50, _⟩ => ⟨S4000000, .i32⟩
  | .hbm, ⟨51, _⟩ => ⟨S4000000x1, .i32⟩
  | .hbm, ⟨52, _⟩ => ⟨S4000000x64, .f32⟩
  | .hbm, ⟨53, _⟩ => ⟨S_, .f32⟩
  | .hbm, ⟨54, _⟩ => ⟨S500000x64, .f32⟩
  | .hbm, ⟨55, _⟩ => ⟨S4000000x1, .i32⟩
  | .hbm, ⟨56, _⟩ => ⟨S500000x64, .f32⟩
  | .hbm, ⟨57, _⟩ => ⟨S1x64, .f32⟩
  | .hbm, ⟨58, _⟩ => ⟨S1x64, .f32⟩
  | .hbm, ⟨59, _⟩ => ⟨S500000x64, .f32⟩
  | .hbm, ⟨60, _⟩ => ⟨S1x64x64, .f32⟩
  | .hbm, ⟨61, _⟩ => ⟨S64x64, .f32⟩
  | .hbm, ⟨62, _⟩ => ⟨S1x64, .f32⟩
  | .hbm, ⟨63, _⟩ => ⟨S64, .f32⟩
  | .hbm, ⟨64, _⟩ => ⟨S1x64x64, .f32⟩
  | .hbm, ⟨65, _⟩ => ⟨S64x64, .f32⟩
  | .hbm, ⟨66, _⟩ => ⟨S1x64, .f32⟩
  | .hbm, ⟨67, _⟩ => ⟨S64, .f32⟩
  | .hbm, ⟨68, _⟩ => ⟨S_, .i32⟩
  | .hbm, ⟨69, _⟩ => ⟨S4000000, .i32⟩
  | .hbm, ⟨70, _⟩ => ⟨S4000000, .i1⟩
  | .hbm, ⟨71, _⟩ => ⟨S_, .i32⟩
  | .hbm, ⟨72, _⟩ => ⟨S4000000, .i32⟩
  | .hbm, ⟨73, _⟩ => ⟨S4000000, .i32⟩
  | .hbm, ⟨74, _⟩ => ⟨S4000000, .i32⟩
  | .hbm, ⟨75, _⟩ => ⟨S4000000x1, .i32⟩
  | .hbm, ⟨76, _⟩ => ⟨S4000000x64, .f32⟩
  | .hbm, ⟨77, _⟩ => ⟨S_, .f32⟩
  | .hbm, ⟨78, _⟩ => ⟨S500000x64, .f32⟩
  | .hbm, ⟨79, _⟩ => ⟨S4000000x1, .i32⟩
  | .hbm, ⟨80, _⟩ => ⟨S500000x64, .f32⟩
  | .hbm, ⟨81, _⟩ => ⟨S1x64, .f32⟩
  | .hbm, ⟨82, _⟩ => ⟨S1x64, .f32⟩
  | .hbm, ⟨83, _⟩ => ⟨S500000x64, .f32⟩
  | .hbm, ⟨84, _⟩ => ⟨S1x64x64, .f32⟩
  | .hbm, ⟨85, _⟩ => ⟨S64x64, .f32⟩
  | .hbm, ⟨86, _⟩ => ⟨S1x64, .f32⟩
  | .hbm, ⟨87, _⟩ => ⟨S64, .f32⟩
  | .hbm, ⟨88, _⟩ => ⟨S1x64x64, .f32⟩
  | .hbm, ⟨89, _⟩ => ⟨S64x64, .f32⟩
  | .hbm, ⟨90, _⟩ => ⟨S1x64, .f32⟩
  | .hbm, ⟨91, _⟩ => ⟨S64, .f32⟩
  | .hbm, ⟨92, _⟩ => ⟨S_, .i32⟩
  | .hbm, ⟨93, _⟩ => ⟨S4000000, .i32⟩
  | .hbm, ⟨94, _⟩ => ⟨S4000000, .i1⟩
  | .hbm, ⟨95, _⟩ => ⟨S_, .i32⟩
  | .hbm, ⟨96, _⟩ => ⟨S4000000, .i32⟩
  | .hbm, ⟨97, _⟩ => ⟨S4000000, .i32⟩
  | .hbm, ⟨98, _⟩ => ⟨S4000000, .i32⟩
  | .hbm, ⟨99, _⟩ => ⟨S4000000x1, .i32⟩
  | .hbm, ⟨100, _⟩ => ⟨S4000000x64, .f32⟩
  | .hbm, ⟨101, _⟩ => ⟨S_, .f32⟩
  | .hbm, ⟨102, _⟩ => ⟨S500000x64, .f32⟩
  | .hbm, ⟨103, _⟩ => ⟨S4000000x1, .i32⟩
  | .hbm, ⟨104, _⟩ => ⟨S500000x64, .f32⟩
  | .hbm, ⟨105, _⟩ => ⟨S1x64, .f32⟩
  | .hbm, ⟨106, _⟩ => ⟨S1x64, .f32⟩
  | .hbm, ⟨107, _⟩ => ⟨S500000x64, .f32⟩
  | .hbm, ⟨108, _⟩ => ⟨S_, .f32⟩
  | .hbm, ⟨109, _⟩ => ⟨S10000x64, .f32⟩
  | .hbm, ⟨110, _⟩ => ⟨S500000x1, .i32⟩
  | .hbm, ⟨111, _⟩ => ⟨S10000x64, .f32⟩
  | .hbm, ⟨112, _⟩ => ⟨S_, .f32⟩
  | .hbm, ⟨113, _⟩ => ⟨S100x64, .f32⟩
  | .hbm, ⟨114, _⟩ => ⟨S10000x1, .i32⟩
  | .hbm, ⟨115, _⟩ => ⟨S100x64, .f32⟩
  | .hbm, ⟨116, _⟩ => ⟨S1x64, .f32⟩
  | .hbm, ⟨117, _⟩ => ⟨S1x16, .f32⟩
  | .hbm, ⟨118, _⟩ => ⟨S100x16, .f32⟩
  | .local _ .vmem, ⟨0, _⟩ => ⟨S10000x1, .f32⟩
  | .local _ .vmem, ⟨1, _⟩ => ⟨S10000x1, .f32⟩
  | .local _ .vmem, ⟨2, _⟩ => ⟨S10000x1, .f32⟩
  | .local _ .vmem, ⟨3, _⟩ => ⟨S10000x1, .f32⟩
  | .local _ .vmem, ⟨4, _⟩ => ⟨S1x64, .f32⟩
  | .local _ .vmem, ⟨5, _⟩ => ⟨S1x64, .f32⟩
  | .local _ .vmem, ⟨6, _⟩ => ⟨S64x64, .f32⟩
  | .local _ .vmem, ⟨7, _⟩ => ⟨S1x64, .f32⟩
  | .local _ .vmem, ⟨8, _⟩ => ⟨S10000x64, .f32⟩
  | .local _ .vmem, ⟨9, _⟩ => ⟨S10000x64, .f32⟩
  | .local _ .vmem, ⟨10, _⟩ => ⟨S10000x64, .f32⟩
  | .local _ .vmem, ⟨11, _⟩ => ⟨S10000x64, .f32⟩
  | .local _ .vmem, ⟨12, _⟩ => ⟨S10000x64, .f32⟩
  | .local _ .vmem, ⟨13, _⟩ => ⟨S10000x64, .f32⟩
  | .local _ .vmem, ⟨14, _⟩ => ⟨S64x64, .f32⟩
  | .local _ .vmem, ⟨15, _⟩ => ⟨S1x64, .f32⟩
  | .local _ .vmem, ⟨16, _⟩ => ⟨S64x64, .f32⟩
  | .local _ .vmem, ⟨17, _⟩ => ⟨S1x64, .f32⟩
  | .local _ .vmem, ⟨18, _⟩ => ⟨S10000x64, .f32⟩
  | .local _ .vmem, ⟨19, _⟩ => ⟨S10000x64, .f32⟩
  | .local _ .vmem, ⟨20, _⟩ => ⟨S10000x64, .f32⟩
  | .local _ .vmem, ⟨21, _⟩ => ⟨S10000x64, .f32⟩
  | .local _ .vmem, ⟨22, _⟩ => ⟨S10000x64, .f32⟩
  | .local _ .vmem, ⟨23, _⟩ => ⟨S10000x64, .f32⟩
  | .local _ .vmem, ⟨24, _⟩ => ⟨S64x64, .f32⟩
  | .local _ .vmem, ⟨25, _⟩ => ⟨S1x64, .f32⟩
  | .local _ .vmem, ⟨26, _⟩ => ⟨S64x64, .f32⟩
  | .local _ .vmem, ⟨27, _⟩ => ⟨S1x64, .f32⟩
  | .local _ .vmem, ⟨28, _⟩ => ⟨S10000x64, .f32⟩
  | .local _ .vmem, ⟨29, _⟩ => ⟨S10000x64, .f32⟩
  | .local _ .vmem, ⟨30, _⟩ => ⟨S10000x64, .f32⟩
  | .local _ .vmem, ⟨31, _⟩ => ⟨S10000x64, .f32⟩
  | .local _ .vmem, ⟨32, _⟩ => ⟨S10000x64, .f32⟩
  | .local _ .vmem, ⟨33, _⟩ => ⟨S10000x64, .f32⟩
  | .local _ .vmem, ⟨34, _⟩ => ⟨S64x64, .f32⟩
  | .local _ .vmem, ⟨35, _⟩ => ⟨S1x64, .f32⟩
  | .local _ .vmem, ⟨36, _⟩ => ⟨S64x64, .f32⟩
  | .local _ .vmem, ⟨37, _⟩ => ⟨S1x64, .f32⟩
  | .local _ .vmem, ⟨38, _⟩ => ⟨S10000x64, .f32⟩
  | .local _ .vmem, ⟨39, _⟩ => ⟨S10000x64, .f32⟩
  | .local _ .vmem, ⟨40, _⟩ => ⟨S100x64, .f32⟩
  | .local _ .vmem, ⟨41, _⟩ => ⟨S64x64, .f32⟩
  | .local _ .vmem, ⟨42, _⟩ => ⟨S1x64, .f32⟩
  | .local _ .vmem, ⟨43, _⟩ => ⟨S64x16, .f32⟩
  | .local _ .vmem, ⟨44, _⟩ => ⟨S1x16, .f32⟩
  | .local _ .vmem, ⟨45, _⟩ => ⟨S100x16, .f32⟩
  | _, _ => ⟨S500000x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | _, _ => false

abbrev semScoped : Fin 0 → Bool
  | ⟨_, h⟩ => absurd h (Nat.not_lt_zero _)

abbrev dmaSemScoped : Fin 46 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | _ => false

abbrev sig : RefSig :=
  ofTc nBuf bufTy 0 46 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_c : Ref sig .tc := ⟨.hbm, 20, rfl⟩
abbrev main_v4 : Ref sig .tc := ⟨.hbm, 21, rfl⟩
abbrev main_v5 : Ref sig .tc := ⟨.hbm, 22, rfl⟩
abbrev main_c_0 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_cst : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_c_1 : Ref sig .tc := ⟨.hbm, 44, rfl⟩
abbrev main_v25 : Ref sig .tc := ⟨.hbm, 45, rfl⟩
abbrev main_v26 : Ref sig .tc := ⟨.hbm, 46, rfl⟩
abbrev main_c_2 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_cst_3 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_c_4 : Ref sig .tc := ⟨.hbm, 68, rfl⟩
abbrev main_v46 : Ref sig .tc := ⟨.hbm, 69, rfl⟩
abbrev main_v47 : Ref sig .tc := ⟨.hbm, 70, rfl⟩
abbrev main_c_5 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_cst_6 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_c_7 : Ref sig .tc := ⟨.hbm, 92, rfl⟩
abbrev main_v67 : Ref sig .tc := ⟨.hbm, 93, rfl⟩
abbrev main_v68 : Ref sig .tc := ⟨.hbm, 94, rfl⟩
abbrev main_c_8 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_cst_9 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_cst_10 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_cst_11 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg5_0 : Ref sig .tc := ⟨.vmem, 17, rfl⟩
abbrev cc1_stg6_0 : Ref sig .tc := ⟨.vmem, 18, rfl⟩
abbrev cc1_stg6_1 : Ref sig .tc := ⟨.vmem, 19, rfl⟩
abbrev cc2_stg0_0 : Ref sig .tc := ⟨.vmem, 20, rfl⟩
abbrev cc2_stg0_1 : Ref sig .tc := ⟨.vmem, 21, rfl⟩
abbrev cc2_stg1_0 : Ref sig .tc := ⟨.vmem, 22, rfl⟩
abbrev cc2_stg1_1 : Ref sig .tc := ⟨.vmem, 23, rfl⟩
abbrev cc2_stg2_0 : Ref sig .tc := ⟨.vmem, 24, rfl⟩
abbrev cc2_stg3_0 : Ref sig .tc := ⟨.vmem, 25, rfl⟩
abbrev cc2_stg4_0 : Ref sig .tc := ⟨.vmem, 26, rfl⟩
abbrev cc2_stg5_0 : Ref sig .tc := ⟨.vmem, 27, rfl⟩
abbrev cc2_stg6_0 : Ref sig .tc := ⟨.vmem, 28, rfl⟩
abbrev cc2_stg6_1 : Ref sig .tc := ⟨.vmem, 29, rfl⟩
abbrev cc3_stg0_0 : Ref sig .tc := ⟨.vmem, 30, rfl⟩
abbrev cc3_stg0_1 : Ref sig .tc := ⟨.vmem, 31, rfl⟩
abbrev cc3_stg1_0 : Ref sig .tc := ⟨.vmem, 32, rfl⟩
abbrev cc3_stg1_1 : Ref sig .tc := ⟨.vmem, 33, rfl⟩
abbrev cc3_stg2_0 : Ref sig .tc := ⟨.vmem, 34, rfl⟩
abbrev cc3_stg3_0 : Ref sig .tc := ⟨.vmem, 35, rfl⟩
abbrev cc3_stg4_0 : Ref sig .tc := ⟨.vmem, 36, rfl⟩
abbrev cc3_stg5_0 : Ref sig .tc := ⟨.vmem, 37, rfl⟩
abbrev cc3_stg6_0 : Ref sig .tc := ⟨.vmem, 38, rfl⟩
abbrev cc3_stg6_1 : Ref sig .tc := ⟨.vmem, 39, rfl⟩
abbrev cc4_stg0_0 : Ref sig .tc := ⟨.vmem, 40, rfl⟩
abbrev cc4_stg1_0 : Ref sig .tc := ⟨.vmem, 41, rfl⟩
abbrev cc4_stg2_0 : Ref sig .tc := ⟨.vmem, 42, rfl⟩
abbrev cc4_stg3_0 : Ref sig .tc := ⟨.vmem, 43, rfl⟩
abbrev cc4_stg4_0 : Ref sig .tc := ⟨.vmem, 44, rfl⟩
abbrev cc4_stg5_0 : Ref sig .tc := ⟨.vmem, 45, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem3_0 : DmaSem sig := 15
abbrev cc1_sem4_0 : DmaSem sig := 16
abbrev cc1_sem5_0 : DmaSem sig := 17
abbrev cc1_sem6_0 : DmaSem sig := 18
abbrev cc1_sem6_1 : DmaSem sig := 19
abbrev cc2_sem0_0 : DmaSem sig := 20
abbrev cc2_sem0_1 : DmaSem sig := 21
abbrev cc2_sem1_0 : DmaSem sig := 22
abbrev cc2_sem1_1 : DmaSem sig := 23
abbrev cc2_sem2_0 : DmaSem sig := 24
abbrev cc2_sem3_0 : DmaSem sig := 25
abbrev cc2_sem4_0 : DmaSem sig := 26
abbrev cc2_sem5_0 : DmaSem sig := 27
abbrev cc2_sem6_0 : DmaSem sig := 28
abbrev cc2_sem6_1 : DmaSem sig := 29
abbrev cc3_sem0_0 : DmaSem sig := 30
abbrev cc3_sem0_1 : DmaSem sig := 31
abbrev cc3_sem1_0 : DmaSem sig := 32
abbrev cc3_sem1_1 : DmaSem sig := 33
abbrev cc3_sem2_0 : DmaSem sig := 34
abbrev cc3_sem3_0 : DmaSem sig := 35
abbrev cc3_sem4_0 : DmaSem sig := 36
abbrev cc3_sem5_0 : DmaSem sig := 37
abbrev cc3_sem6_0 : DmaSem sig := 38
abbrev cc3_sem6_1 : DmaSem sig := 39
abbrev cc4_sem0_0 : DmaSem sig := 40
abbrev cc4_sem1_0 : DmaSem sig := 41
abbrev cc4_sem2_0 : DmaSem sig := 42
abbrev cc4_sem3_0 : DmaSem sig := 43
abbrev cc4_sem4_0 : DmaSem sig := 44
abbrev cc4_sem5_0 : DmaSem sig := 45

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S10000x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S10000x64 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S10000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S64x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S64x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x64 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S10000x64 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev grid3 : Pipeline.Grid := ⟨1, ![50], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S10000x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S64x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S64x64 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x64 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 2 → Memref sig .tc .vmem S10000x64 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev grid4 : Pipeline.Grid := ⟨1, ![1], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 1 → Memref sig .tc .vmem S100x64 .f32 := fun | 0 => Memref.whole cc4_stg0_0 | ⟨_ + 1, h⟩ => absurd h (Nat.not_lt.2 (Nat.le_add_left _ _))
abbrev sem4_0 : Fin 1 → DmaSem sig := fun | 0 => cc4_sem0_0 | ⟨_ + 1, h⟩ => absurd h (Nat.not_lt.2 (Nat.le_add_left _ _))
abbrev reads4_0 : Fin grid4.rank → Bool := ![false]

abbrev stage4_1 : Fin 1 → Memref sig .tc .vmem S64x64 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x64 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S64x16 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x16 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S100x16 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

class Facts₀ : Prop where
  slices_S2x4000000_S1x4000000_0_0 : S2x4000000.Slices ![0, 0] S1x4000000
  shapeCasts_S1x4000000_S4000000 : S1x4000000.ShapeCasts S4000000
  slices_S2x4000000_S1x4000000_1_0 : S2x4000000.Slices ![1, 0] S1x4000000
  bcast_S_S4000000 : S_.BroadcastsInDim S4000000 (![] : Fin 0 → Fin S4000000.rank)
  bcast_S4000000_S4000000x1_0 : S4000000.BroadcastsInDim S4000000x1 (![0] : Fin 1 → Fin S4000000x1.rank)
  bcast_S_S500000x1 : S_.BroadcastsInDim S500000x1 (![] : Fin 0 → Fin S500000x1.rank)
  shapeCasts_S64_S1x64 : S64.ShapeCasts S1x64
  inb_S10000x1_S10000x1_0_0 : ∀ a, (![0, 0] : Fin 2 → Nat) a + S10000x1.size a ≤ S10000x1.size a
  h_S10000x1 : 0 < S10000x1.numel
  shapeCasts_S10000x1_S10000x1 : S10000x1.ShapeCasts S10000x1
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  inb_S64x64_S64x64_0_0 : ∀ a, (![0, 0] : Fin 2 → Nat) a + S64x64.size a ≤ S64x64.size a
  h_S64x64 : 0 < S64x64.numel
  inb_S10000x64_S10000x64_0_0 : ∀ a, (![0, 0] : Fin 2 → Nat) a + S10000x64.size a ≤ S10000x64.size a
  h_S10000x64 : 0 < S10000x64.numel
  slices_S3x64x64_S1x64x64_0_0_0 : S3x64x64.Slices ![0, 0, 0] S1x64x64
  shapeCasts_S1x64x64_S64x64 : S1x64x64.ShapeCasts S64x64
  slices_S3x64_S1x64_0_0 : S3x64.Slices ![0, 0] S1x64
  shapeCasts_S1x64_S64 : S1x64.ShapeCasts S64
  bcast_S_S500000x64 : S_.BroadcastsInDim S500000x64 (![] : Fin 0 → Fin S500000x64.rank)
  shapeCasts_S10000x64_S10000x64 : S10000x64.ShapeCasts S10000x64
  shapeCasts_S64x64_S64x64 : S64x64.ShapeCasts S64x64
  slices_S3x64x64_S1x64x64_1_0_0 : S3x64x64.Slices ![1, 0, 0] S1x64x64
  slices_S3x64_S1x64_1_0 : S3x64.Slices ![1, 0] S1x64
  slices_S3x64x64_S1x64x64_2_0_0 : S3x64x64.Slices ![2, 0, 0] S1x64x64
  slices_S3x64_S1x64_2_0 : S3x64.Slices ![2, 0] S1x64
  bcast_S_S10000x64 : S_.BroadcastsInDim S10000x64 (![] : Fin 0 → Fin S10000x64.rank)
  bcast_S500000_S500000x1_0 : S500000.BroadcastsInDim S500000x1 (![0] : Fin 1 → Fin S500000x1.rank)
  bcast_S_S100x64 : S_.BroadcastsInDim S100x64 (![] : Fin 0 → Fin S100x64.rank)
  bcast_S10000_S10000x1_0 : S10000.BroadcastsInDim S10000x1 (![0] : Fin 1 → Fin S10000x1.rank)
  shapeCasts_S16_S1x16 : S16.ShapeCasts S1x16
  inb_S100x64_S100x64_0_0 : ∀ a, (![0, 0] : Fin 2 → Nat) a + S100x64.size a ≤ S100x64.size a
  h_S100x64 : 0 < S100x64.numel
  shapeCasts_S100x64_S100x64 : S100x64.ShapeCasts S100x64
  broadcasts_S1x64_S100x64 : S1x64.Broadcasts S100x64
  inb_S64x16_S64x16_0_0 : ∀ a, (![0, 0] : Fin 2 → Nat) a + S64x16.size a ≤ S64x16.size a
  h_S64x16 : 0 < S64x16.numel
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S100x16 : S1x16.Broadcasts S100x16
  reduces_S100x16_S16 : S100x16.Reduces [0] S16
  inb_S100x16_S100x16_0_0 : ∀ a, (![0, 0] : Fin 2 → Nat) a + S100x16.size a ≤ S100x16.size a
  h_S100x16 : 0 < S100x16.numel
  gather_S500000x1_S4000000x1_S4000000x1_1_0_n_n_0_1_11_wf : GatherDims.WF S500000x1 S4000000x1 S4000000x1 [1] [0] [] [0] [] 1 ![1, 1]
  scatter_S500000x1_S4000000x1_S4000000x1_1_0_0_1_wf : ScatterDims.WF S500000x1 S4000000x1 S4000000x1 [1] [0] [0] 1
  dot_S10000x1_S1x64_S10000x64_1_0_0_1_n_n_wf : DotDims.WF S10000x1 S1x64 S10000x64 [1] [0] [0] [1] [] []
  dot_S10000x64_S64x64_S10000x64_1_0_0_1_n_n_wf : DotDims.WF S10000x64 S64x64 S10000x64 [1] [0] [0] [1] [] []
  gather_S500000x64_S4000000x1_S4000000x64_1_0_n_n_0_1_164_wf : GatherDims.WF S500000x64 S4000000x1 S4000000x64 [1] [0] [] [0] [] 1 ![1, 64]
  scatter_S500000x64_S4000000x1_S4000000x64_1_0_0_1_wf : ScatterDims.WF S500000x64 S4000000x1 S4000000x64 [1] [0] [0] 1
  scatter_S10000x64_S500000x1_S500000x64_1_0_0_1_wf : ScatterDims.WF S10000x64 S500000x1 S500000x64 [1] [0] [0] 1
  scatter_S100x64_S10000x1_S10000x64_1_0_0_1_wf : ScatterDims.WF S100x64 S10000x1 S10000x64 [1] [0] [0] 1
  dot_S100x64_S64x64_S100x64_1_0_0_1_n_n_wf : DotDims.WF S100x64 S64x64 S100x64 [1] [0] [0] [1] [] []
  dot_S100x64_S64x16_S100x16_1_0_0_1_n_n_wf : DotDims.WF S100x64 S64x16 S100x16 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x1.size a ≤ S500000x1.size a
  hwx0_0 : ∀ i : grid0.Coords, EltTy.bits .f32 = 32 ∨ (Rect.block (s := S500000x1) S10000x1.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x1.size a ≤ S500000x1.size a
  hwx0_1 : ∀ i : grid0.Coords, EltTy.bits .f32 = 32 ∨ (Rect.block (s := S500000x1) S10000x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x64.size a ≤ S64x64.size a
  hwx0_4 : ∀ i : grid0.Coords, EltTy.bits .f32 = 32 ∨ (Rect.block (s := S64x64) S64x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x64.size a ≤ S1x64.size a
  hwx0_5 : ∀ i : grid0.Coords, EltTy.bits .f32 = 32 ∨ (Rect.block (s := S1x64) S1x64.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S10000x64.size a ≤ S500000x64.size a
  hwx0_6 : ∀ i : grid0.Coords, EltTy.bits .f32 = 32 ∨ (Rect.block (s := S500000x64) S10000x64.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S500000x64.size a
  hwx1_0 : ∀ i : grid1.Coords, EltTy.bits .f32 = 32 ∨ (Rect.block (s := S500000x64) S10000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x64.size a ≤ S500000x64.size a
  hwx1_1 : ∀ i : grid1.Coords, EltTy.bits .f32 = 32 ∨ (Rect.block (s := S500000x64) S10000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64x64.size a ≤ S64x64.size a
  hwx1_4 : ∀ i : grid1.Coords, EltTy.bits .f32 = 32 ∨ (Rect.block (s := S64x64) S64x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x64.size a ≤ S1x64.size a
  hwx1_5 : ∀ i : grid1.Coords, EltTy.bits .f32 = 32 ∨ (Rect.block (s := S1x64) S1x64.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S10000x64.size a ≤ S500000x64.size a
  hwx1_6 : ∀ i : grid1.Coords, EltTy.bits .f32 = 32 ∨ (Rect.block (s := S500000x64) S10000x64.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S500000x64.size a
  hwx2_0 : ∀ i : grid2.Coords, EltTy.bits .f32 = 32 ∨ (Rect.block (s := S500000x64) S10000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S10000x64.size a ≤ S500000x64.size a
  hwx2_1 : ∀ i : grid2.Coords, EltTy.bits .f32 = 32 ∨ (Rect.block (s := S500000x64) S10000x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x64.size a ≤ S64x64.size a
  hwx2_2 : ∀ i : grid2.Coords, EltTy.bits .f32 = 32 ∨ (Rect.block (s := S64x64) S64x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x64.size a ≤ S1x64.size a
  hwx2_3 : ∀ i : grid2.Coords, EltTy.bits .f32 = 32 ∨ (Rect.block (s := S1x64) S1x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S64x64.size a ≤ S64x64.size a
  hwx2_4 : ∀ i : grid2.Coords, EltTy.bits .f32 = 32 ∨ (Rect.block (s := S64x64) S64x64.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x64.size a ≤ S1x64.size a
  hwx2_5 : ∀ i : grid2.Coords, EltTy.bits .f32 = 32 ∨ (Rect.block (s := S1x64) S1x64.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S10000x64.size a ≤ S500000x64.size a
  hwx2_6 : ∀ i : grid2.Coords, EltTy.bits .f32 = 32 ∨ (Rect.block (s := S500000x64) S10000x64.size (cc2_transform_6 i) (hinb2_6 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x64.size a ≤ S500000x64.size a
  hwx3_0 : ∀ i : grid3.Coords, EltTy.bits .f32 = 32 ∨ (Rect.block (s := S500000x64) S10000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S10000x64.size a ≤ S500000x64.size a
  hwx3_1 : ∀ i : grid3.Coords, EltTy.bits .f32 = 32 ∨ (Rect.block (s := S500000x64) S10000x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S64x64.size a ≤ S64x64.size a
  hwx3_2 : ∀ i : grid3.Coords, EltTy.bits .f32 = 32 ∨ (Rect.block (s := S64x64) S64x64.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x64.size a ≤ S1x64.size a
  hwx3_3 : ∀ i : grid3.Coords, EltTy.bits .f32 = 32 ∨ (Rect.block (s := S1x64) S1x64.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S64x64.size a ≤ S64x64.size a
  hwx3_4 : ∀ i : grid3.Coords, EltTy.bits .f32 = 32 ∨ (Rect.block (s := S64x64) S64x64.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x64.size a ≤ S1x64.size a
  hwx3_5 : ∀ i : grid3.Coords, EltTy.bits .f32 = 32 ∨ (Rect.block (s := S1x64) S1x64.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S10000x64.size a ≤ S500000x64.size a
  hwx3_6 : ∀ i : grid3.Coords, EltTy.bits .f32 = 32 ∨ (Rect.block (s := S500000x64) S10000x64.size (cc3_transform_6 i) (hinb3_6 i)).WholeWords (EltTy.packing .f32)
  hrank4 : 0 < grid4.rank
  hstage4_0 : ∀ j, (stage4_0 j).IsWhole
  nbuf4_0 : grid4.bufCount reads4_0 true = 1
  hreads4_0 : ∀ i i' : grid4.Coords, (∀ a, reads4_0 a = true → i a = i' a) → cc4_transform_0 i = cc4_transform_0 i'
  hinb4_0 : ∀ (i : grid4.Coords) a, (cc4_transform_0 i a + 1) * S100x64.size a ≤ S100x64.size a
  hwx4_0 : ∀ i : grid4.Coords, EltTy.bits .f32 = 32 ∨ (Rect.block (s := S100x64) S100x64.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S64x64.size a ≤ S64x64.size a
  hwx4_1 : ∀ i : grid4.Coords, EltTy.bits .f32 = 32 ∨ (Rect.block (s := S64x64) S64x64.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x64.size a ≤ S1x64.size a
  hwx4_2 : ∀ i : grid4.Coords, EltTy.bits .f32 = 32 ∨ (Rect.block (s := S1x64) S1x64.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S64x16.size a ≤ S64x16.size a
  hwx4_3 : ∀ i : grid4.Coords, EltTy.bits .f32 = 32 ∨ (Rect.block (s := S64x16) S64x16.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x16.size a ≤ S1x16.size a
  hwx4_4 : ∀ i : grid4.Coords, EltTy.bits .f32 = 32 ∨ (Rect.block (s := S1x16) S1x16.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S100x16.size a ≤ S100x16.size a
  hwx4_5 : ∀ i : grid4.Coords, EltTy.bits .f32 = 32 ∨ (Rect.block (s := S100x16) S100x16.size (cc4_transform_5 i) (hinb4_5 i)).WholeWords (EltTy.packing .f32)

variable [Facts₀]

def gather_S500000x1_S4000000x1_S4000000x1_1_0_n_n_0_1_11 : GatherDims S500000x1 S4000000x1 S4000000x1 where
  offsetDims := [1]
  collapsedSliceDims := [0]
  operandBatchingDims := []
  startIndicesBatchingDims := []
  startIndexMap := [0]
  indexVectorDim := 1
  sliceSizes := ![1, 1]
  wf := gather_S500000x1_S4000000x1_S4000000x1_1_0_n_n_0_1_11_wf
def scatter_S500000x1_S4000000x1_S4000000x1_1_0_0_1 : ScatterDims S500000x1 S4000000x1 S4000000x1 where
  updateWindowDims := [1]
  insertedWindowDims := [0]
  scatterDimsToOperandDims := [0]
  indexVectorDim := 1
  wf := scatter_S500000x1_S4000000x1_S4000000x1_1_0_0_1_wf
def dot_S10000x1_S1x64_S10000x64_1_0_0_1_n_n : DotDims S10000x1 S1x64 S10000x64 where
  lhsContracting := [1]
  rhsContracting := [0]
  lhsNonContracting := [0]
  rhsNonContracting := [1]
  lhsBatch := []
  rhsBatch := []
  wf := dot_S10000x1_S1x64_S10000x64_1_0_0_1_n_n_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def gather_S500000x64_S4000000x1_S4000000x64_1_0_n_n_0_1_164 : GatherDims S500000x64 S4000000x1 S4000000x64 where
  offsetDims := [1]
  collapsedSliceDims := [0]
  operandBatchingDims := []
  startIndicesBatchingDims := []
  startIndexMap := [0]
  indexVectorDim := 1
  sliceSizes := ![1, 64]
  wf := gather_S500000x64_S4000000x1_S4000000x64_1_0_n_n_0_1_164_wf
def scatter_S500000x64_S4000000x1_S4000000x64_1_0_0_1 : ScatterDims S500000x64 S4000000x1 S4000000x64 where
  updateWindowDims := [1]
  insertedWindowDims := [0]
  scatterDimsToOperandDims := [0]
  indexVectorDim := 1
  wf := scatter_S500000x64_S4000000x1_S4000000x64_1_0_0_1_wf
def scatter_S10000x64_S500000x1_S500000x64_1_0_0_1 : ScatterDims S10000x64 S500000x1 S500000x64 where
  updateWindowDims := [1]
  insertedWindowDims := [0]
  scatterDimsToOperandDims := [0]
  indexVectorDim := 1
  wf := scatter_S10000x64_S500000x1_S500000x64_1_0_0_1_wf
def scatter_S100x64_S10000x1_S10000x64_1_0_0_1 : ScatterDims S100x64 S10000x1 S10000x64 where
  updateWindowDims := [1]
  insertedWindowDims := [0]
  scatterDimsToOperandDims := [0]
  indexVectorDim := 1
  wf := scatter_S100x64_S10000x1_S10000x64_1_0_0_1_wf
def dot_S100x64_S64x64_S100x64_1_0_0_1_n_n : DotDims S100x64 S64x64 S100x64 where
  lhsContracting := [1]
  rhsContracting := [0]
  lhsNonContracting := [0]
  rhsNonContracting := [1]
  lhsBatch := []
  rhsBatch := []
  wf := dot_S100x64_S64x64_S100x64_1_0_0_1_n_n_wf
def dot_S100x64_S64x16_S100x16_1_0_0_1_n_n : DotDims S100x64 S64x16 S100x16 where
  lhsContracting := [1]
  rhsContracting := [0]
  lhsNonContracting := [0]
  rhsNonContracting := [1]
  lhsBatch := []
  rhsBatch := []
  wf := dot_S100x64_S64x16_S100x16_1_0_0_1_n_n_wf

abbrev win0_0 : Pipeline.Window sig grid0 :=
  Pipeline.Window.ofSpec (Memref.whole main_arg0) S10000x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S10000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v14) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg6) S64x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v15) S1x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v16) S10000x64.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v16) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v34) S10000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v18) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v35) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v22) S64x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v36) S1x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v37) S10000x64.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v37) S10000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v55) S10000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v39) S64x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v56) S1x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v43) S64x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v57) S1x64.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v58) S10000x64.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev win3_0 : Pipeline.Window sig grid3 :=
  Pipeline.Window.ofSpec (Memref.whole main_v58) S10000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v76) S10000x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v60) S64x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v77) S1x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v64) S64x64.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v78) S1x64.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v79) S10000x64.size cc3_transform_6 reads3_6 true false 2 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

abbrev win4_0 : Pipeline.Window sig grid4 :=
  Pipeline.Window.ofSpec (Memref.whole main_v85) S100x64.size cc4_transform_0 reads4_0 false true 1 stage4_0 sem4_0
    hrank4 hreads4_0 hinb4_0 nbuf4_0 (Memref.isWhole_whole _) hwx4_0 hstage4_0

abbrev win4_1 : Pipeline.Window sig grid4 :=
  Pipeline.Window.ofSpec (Memref.whole main_arg12) S64x64.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v86) S1x64.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_arg14) S64x16.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v87) S1x16.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v88) S100x16.size cc4_transform_5 reads4_5 true true 1 stage4_5 sem4_5
    hrank4 hreads4_5 hinb4_5 nbuf4_5 (Memref.isWhole_whole _) hwx4_5 hstage4_5

abbrev win4 : Fin 6 → Pipeline.Window sig grid4 := fun | 0 => win4_0 | 1 => win4_1 | 2 => win4_2 | 3 => win4_3 | 4 => win4_4 | 5 => win4_5 | ⟨_ + 6, h⟩ => absurd h (Nat.not_lt.2 (Nat.le_add_left _ _))
abbrev spec4 : Fin 6 → Pipeline.WinSpec sig grid4.rank := fun w => (win4 w).toWinSpec

class Facts : Prop extends Facts₀ where

variable [Facts]
-- ==== ReferenceIdeal.lean ====
abbrev S500000x1 : Shape := ⟨2, ![500000, 1]⟩
abbrev S2x4000000 : Shape := ⟨2, ![2, 4000000]⟩
abbrev S500000 : Shape := ⟨1, ![500000]⟩
abbrev S10000 : Shape := ⟨1, ![10000]⟩
abbrev S1x64 : Shape := ⟨2, ![1, 64]⟩
abbrev S64 : Shape := ⟨1, ![64]⟩
abbrev S64x64 : Shape := ⟨2, ![64, 64]⟩
abbrev S3x64x64 : Shape := ⟨3, ![3, 64, 64]⟩
abbrev S3x64 : Shape := ⟨2, ![3, 64]⟩
abbrev S64x16 : Shape := ⟨2, ![64, 16]⟩
abbrev S16 : Shape := ⟨1, ![16]⟩
abbrev S1x4000000 : Shape := ⟨2, ![1, 4000000]⟩
abbrev S4000000 : Shape := ⟨1, ![4000000]⟩
abbrev S_ : Shape := ⟨0, ![]⟩
abbrev S4000000x1 : Shape := ⟨2, ![4000000, 1]⟩
abbrev S500000x64 : Shape := ⟨2, ![500000, 64]⟩
abbrev S1x64x64 : Shape := ⟨3, ![1, 64, 64]⟩
abbrev S4000000x64 : Shape := ⟨2, ![4000000, 64]⟩
abbrev S10000x64 : Shape := ⟨2, ![10000, 64]⟩
abbrev S100x64 : Shape := ⟨2, ![100, 64]⟩
abbrev S10000x1 : Shape := ⟨2, ![10000, 1]⟩
abbrev S100x16 : Shape := ⟨2, ![100, 16]⟩
abbrev S1x16 : Shape := ⟨2, ![1, 16]⟩

abbrev nBuf : Space → Nat
  | .hbm => 213
  | .vmem => 0
  | .smem => 0
  | _ => 0

abbrev hbmTy0_0 (i : Nat) : BufTy := match i % 128 with
  | 0 => ⟨S500000x1, .f32⟩
  | 1 => ⟨S2x4000000, .i32⟩
  | 2 => ⟨S500000, .i32⟩
  | 3 => ⟨S10000, .i32⟩
  | 4 => ⟨S1x64, .f32⟩
  | 5 => ⟨S64, .f32⟩
  | 6 => ⟨S64x64, .f32⟩
  | 7 => ⟨S64, .f32⟩
  | 8 => ⟨S3x64x64, .f32⟩
  | 9 => ⟨S3x64, .f32⟩
  | 10 => ⟨S3x64x64, .f32⟩
  | 11 => ⟨S3x64, .f32⟩
  | 12 => ⟨S64x64, .f32⟩
  | 13 => ⟨S64, .f32⟩
  | 14 => ⟨S64x16, .f32⟩
  | 15 => ⟨S16, .f32⟩
  | 16 => ⟨S1x4000000, .i32⟩
  | 17 => ⟨S4000000, .i32⟩
  | 18 => ⟨S1x4000000, .i32⟩
  | 19 => ⟨S4000000, .i32⟩
  | 20 => ⟨S_, .i32⟩
  | 21 => ⟨S4000000, .i32⟩
  | 22 => ⟨S4000000, .i1⟩
  | 23 => ⟨S_, .i32⟩
  | 24 => ⟨S4000000, .i32⟩
  | 25 => ⟨S4000000, .i32⟩
  | 26 => ⟨S4000000, .i32⟩
  | 27 => ⟨S4000000x1, .i32⟩
  | 28 => ⟨S4000000x1, .f32⟩
  | 29 => ⟨S_, .f32⟩
  | 30 => ⟨S500000x1, .f32⟩
  | 31 => ⟨S4000000x1, .i32⟩
  | 32 => ⟨S500000x1, .f32⟩
  | 33 => ⟨S500000x1, .f32⟩
  | 34 => ⟨S500000x64, .f32⟩
  | 35 => ⟨S1x64, .f32⟩
  | 36 => ⟨S500000x64, .f32⟩
  | 37 => ⟨S500000x64, .f32⟩
  | 38 => ⟨S_, .f32⟩
  | 39 => ⟨S500000x64, .f32⟩
  | 40 => ⟨S500000x64, .f32⟩
  | 41 => ⟨S500000x64, .f32⟩
  | 42 => ⟨S1x64, .f32⟩
  | 43 => ⟨S500000x64, .f32⟩
  | 44 => ⟨S500000x64, .f32⟩
  | 45 => ⟨S_, .f32⟩
  | 46 => ⟨S500000x64, .f32⟩
  | 47 => ⟨S500000x64, .f32⟩
  | 48 => ⟨S1x64x64, .f32⟩
  | 49 => ⟨S64x64, .f32⟩
  | 50 => ⟨S1x64, .f32⟩
  | 51 => ⟨S64, .f32⟩
  | 52 => ⟨S1x64x64, .f32⟩
  | 53 => ⟨S64x64, .f32⟩
  | 54 => ⟨S1x64, .f32⟩
  | 55 => ⟨S64, .f32⟩
  | 56 => ⟨S_, .i32⟩
  | 57 => ⟨S4000000, .i32⟩
  | 58 => ⟨S4000000, .i1⟩
  | 59 => ⟨S_, .i32⟩
  | 60 => ⟨S4000000, .i32⟩
  | 61 => ⟨S4000000, .i32⟩
  | 62 => ⟨S4000000, .i32⟩
  | 63 => ⟨S4000000x1, .i32⟩
  | 64 => ⟨S4000000x64, .f32⟩
  | 65 => ⟨S_, .f32⟩
  | 66 => ⟨S500000x64, .f32⟩
  | 67 => ⟨S4000000x1, .i32⟩
  | 68 => ⟨S500000x64, .f32⟩
  | 69 => ⟨S500000x64, .f32⟩
  | 70 => ⟨S500000x64, .f32⟩
  | 71 => ⟨S1x64, .f32⟩
  | 72 => ⟨S500000x64, .f32⟩
  | 73 => ⟨S500000x64, .f32⟩
  | 74 => ⟨S_, .f32⟩
  | 75 => ⟨S500000x64, .f32⟩
  | 76 => ⟨S500000x64, .f32⟩
  | 77 => ⟨S500000x64, .f32⟩
  | 78 => ⟨S1x64, .f32⟩
  | 79 => ⟨S500000x64, .f32⟩
  | 80 => ⟨S500000x64, .f32⟩
  | 81 => ⟨S_, .f32⟩
  | 82 => ⟨S500000x64, .f32⟩
  | 83 => ⟨S500000x64, .f32⟩
  | 84 => ⟨S1x64x64, .f32⟩
  | 85 => ⟨S64x64, .f32⟩
  | 86 => ⟨S1x64, .f32⟩
  | 87 => ⟨S64, .f32⟩
  | 88 => ⟨S1x64x64, .f32⟩
  | 89 => ⟨S64x64, .f32⟩
  | 90 => ⟨S1x64, .f32⟩
  | 91 => ⟨S64, .f32⟩
  | 92 => ⟨S_, .i32⟩
  | 93 => ⟨S4000000, .i32⟩
  | 94 => ⟨S4000000, .i1⟩
  | 95 => ⟨S_, .i32⟩
  | 96 => ⟨S4000000, .i32⟩
  | 97 => ⟨S4000000, .i32⟩
  | 98 => ⟨S4000000, .i32⟩
  | 99 => ⟨S4000000x1, .i32⟩
  | 100 => ⟨S4000000x64, .f32⟩
  | 101 => ⟨S_, .f32⟩
  | 102 => ⟨S500000x64, .f32⟩
  | 103 => ⟨S4000000x1, .i32⟩
  | 104 => ⟨S500000x64, .f32⟩
  | 105 => ⟨S500000x64, .f32⟩
  | 106 => ⟨S500000x64, .f32⟩
  | 107 => ⟨S1x64, .f32⟩
  | 108 => ⟨S500000x64, .f32⟩
  | 109 => ⟨S500000x64, .f32⟩
  | 110 => ⟨S_, .f32⟩
  | 111 => ⟨S500000x64, .f32⟩
  | 112 => ⟨S500000x64, .f32⟩
  | 113 => ⟨S500000x64, .f32⟩
  | 114 => ⟨S1x64, .f32⟩
  | 115 => ⟨S500000x64, .f32⟩
  | 116 => ⟨S500000x64, .f32⟩
  | 117 => ⟨S_, .f32⟩
  | 118 => ⟨S500000x64, .f32⟩
  | 119 => ⟨S500000x64, .f32⟩
  | 120 => ⟨S1x64x64, .f32⟩
  | 121 => ⟨S64x64, .f32⟩
  | 122 => ⟨S1x64, .f32⟩
  | 123 => ⟨S64, .f32⟩
  | 124 => ⟨S1x64x64, .f32⟩
  | 125 => ⟨S64x64, .f32⟩
  | 126 => ⟨S1x64, .f32⟩
  | 127 => ⟨S64, .f32⟩
  | _ => ⟨S500000x1, .f32⟩

abbrev hbmTy0_1 (i : Nat) : BufTy := match i % 128 with
  | 0 => ⟨S_, .i32⟩
  | 1 => ⟨S4000000, .i32⟩
  | 2 => ⟨S4000000, .i1⟩
  | 3 => ⟨S_, .i32⟩
  | 4 => ⟨S4000000, .i32⟩
  | 5 => ⟨S4000000, .i32⟩
  | 6 => ⟨S4000000, .i32⟩
  | 7 => ⟨S4000000x1, .i32⟩
  | 8 => ⟨S4000000x64, .f32⟩
  | 9 => ⟨S_, .f32⟩
  | 10 => ⟨S500000x64, .f32⟩
  | 11 => ⟨S4000000x1, .i32⟩
  | 12 => ⟨S500000x64, .f32⟩
  | 13 => ⟨S500000x64, .f32⟩
  | 14 => ⟨S500000x64, .f32⟩
  | 15 => ⟨S1x64, .f32⟩
  | 16 => ⟨S500000x64, .f32⟩
  | 17 => ⟨S500000x64, .f32⟩
  | 18 => ⟨S_, .f32⟩
  | 19 => ⟨S500000x64, .f32⟩
  | 20 => ⟨S500000x64, .f32⟩
  | 21 => ⟨S500000x64, .f32⟩
  | 22 => ⟨S1x64, .f32⟩
  | 23 => ⟨S500000x64, .f32⟩
  | 24 => ⟨S500000x64, .f32⟩
  | 25 => ⟨S_, .f32⟩
  | 26 => ⟨S500000x64, .f32⟩
  | 27 => ⟨S500000x64, .f32⟩
  | 28 => ⟨S_, .f32⟩
  | 29 => ⟨S10000x64, .f32⟩
  | 30 => ⟨S500000x1, .i32⟩
  | 31 => ⟨S10000x64, .f32⟩
  | 32 => ⟨S_, .f32⟩
  | 33 => ⟨S100x64, .f32⟩
  | 34 => ⟨S10000x1, .i32⟩
  | 35 => ⟨S100x64, .f32⟩
  | 36 => ⟨S100x64, .f32⟩
  | 37 => ⟨S1x64, .f32⟩
  | 38 => ⟨S100x64, .f32⟩
  | 39 => ⟨S100x64, .f32⟩
  | 40 => ⟨S_, .f32⟩
  | 41 => ⟨S100x64, .f32⟩
  | 42 => ⟨S100x64, .f32⟩
  | 43 => ⟨S100x16, .f32⟩
  | 44 => ⟨S1x16, .f32⟩
  | 45 => ⟨S100x16, .f32⟩
  | 46 => ⟨S100x16, .f32⟩
  | 47 => ⟨S_, .f32⟩
  | 48 => ⟨S16, .f32⟩
  | 49 => ⟨S_, .f32⟩
  | 50 => ⟨S16, .f32⟩
  | 51 => ⟨S16, .f32⟩
  | 52 => ⟨S_, .i32⟩
  | 53 => ⟨S_, .f32⟩
  | 54 => ⟨S16, .f32⟩
  | 55 => ⟨S1x16, .f32⟩
  | 56 => ⟨S_, .f32⟩
  | 57 => ⟨S1x16, .f32⟩
  | 58 => ⟨S1x16, .f32⟩
  | 59 => ⟨S100x16, .f32⟩
  | 60 => ⟨S100x16, .f32⟩
  | 61 => ⟨S100x16, .f32⟩
  | 62 => ⟨S_, .f32⟩
  | 63 => ⟨S_, .f32⟩
  | 64 => ⟨S_, .f32⟩
  | 65 => ⟨S_, .f32⟩
  | 66 => ⟨S16, .f32⟩
  | 67 => ⟨S16, .f32⟩
  | 68 => ⟨S16, .f32⟩
  | 69 => ⟨S_, .f32⟩
  | 70 => ⟨S_, .i1⟩
  | 71 => ⟨S_, .f32⟩
  | 72 => ⟨S_, .f32⟩
  | 73 => ⟨S16, .f32⟩
  | 74 => ⟨S16, .f32⟩
  | 75 => ⟨S1x16, .f32⟩
  | 76 => ⟨S100x16, .f32⟩
  | 77 => ⟨S100x16, .f32⟩
  | 78 => ⟨S_, .f32⟩
  | 79 => ⟨S16, .f32⟩
  | 80 => ⟨S16, .f32⟩
  | 81 => ⟨S16, .f32⟩
  | 82 => ⟨S1x16, .f32⟩
  | 83 => ⟨S100x16, .f32⟩
  | 84 => ⟨S100x16, .f32⟩
  | _ => ⟨S500000x1, .f32⟩

abbrev hbmTy (i : Nat) : BufTy := match i / 128 with
  | 0 => hbmTy0_0 i
  | 1 => hbmTy0_1 i
  | _ => ⟨S500000x1, .f32⟩

abbrev bufTy : (tb : Table) → Fin (tcTables nBuf tb) → BufTy
  | .hbm, ⟨i, _⟩ => hbmTy i
  | _, _ => ⟨S500000x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_c : Ref sig .tc := ⟨.hbm, 20, rfl⟩
abbrev main_v4 : Ref sig .tc := ⟨.hbm, 21, rfl⟩
abbrev main_v5 : Ref sig .tc := ⟨.hbm, 22, rfl⟩
abbrev main_c_0 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_cst : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_call0_cst : Ref sig .tc := ⟨.hbm, 38, rfl⟩
abbrev main_call0_v0 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_call1_cst : Ref sig .tc := ⟨.hbm, 45, rfl⟩
abbrev main_call1_v0 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_c_1 : Ref sig .tc := ⟨.hbm, 56, rfl⟩
abbrev main_v33 : Ref sig .tc := ⟨.hbm, 57, rfl⟩
abbrev main_v34 : Ref sig .tc := ⟨.hbm, 58, rfl⟩
abbrev main_c_2 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_cst_3 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_call2_cst : Ref sig .tc := ⟨.hbm, 74, rfl⟩
abbrev main_call2_v0 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_call3_cst : Ref sig .tc := ⟨.hbm, 81, rfl⟩
abbrev main_call3_v0 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_c_4 : Ref sig .tc := ⟨.hbm, 92, rfl⟩
abbrev main_v62 : Ref sig .tc := ⟨.hbm, 93, rfl⟩
abbrev main_v63 : Ref sig .tc := ⟨.hbm, 94, rfl⟩
abbrev main_c_5 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_cst_6 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_call4_cst : Ref sig .tc := ⟨.hbm, 110, rfl⟩
abbrev main_call4_v0 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_call5_cst : Ref sig .tc := ⟨.hbm, 117, rfl⟩
abbrev main_call5_v0 : Ref sig .tc := ⟨.hbm, 118, rfl⟩
abbrev main_v82 : Ref sig .tc := ⟨.hbm, 119, rfl⟩
abbrev main_v83 : Ref sig .tc := ⟨.hbm, 120, rfl⟩
abbrev main_v84 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩
abbrev main_v88 : Ref sig .tc := ⟨.hbm, 125, rfl⟩
abbrev main_v89 : Ref sig .tc := ⟨.hbm, 126, rfl⟩
abbrev main_v90 : Ref sig .tc := ⟨.hbm, 127, rfl⟩
abbrev main_c_7 : Ref sig .tc := ⟨.hbm, 128, rfl⟩
abbrev main_v91 : Ref sig .tc := ⟨.hbm, 129, rfl⟩
abbrev main_v92 : Ref sig .tc := ⟨.hbm, 130, rfl⟩
abbrev main_c_8 : Ref sig .tc := ⟨.hbm, 131, rfl⟩
abbrev main_v93 : Ref sig .tc := ⟨.hbm, 132, rfl⟩
abbrev main_v94 : Ref sig .tc := ⟨.hbm, 133, rfl⟩
abbrev main_v95 : Ref sig .tc := ⟨.hbm, 134, rfl⟩
abbrev main_v96 : Ref sig .tc := ⟨.hbm, 135, rfl⟩
abbrev main_v97 : Ref sig .tc := ⟨.hbm, 136, rfl⟩
abbrev main_cst_9 : Ref sig .tc := ⟨.hbm, 137, rfl⟩
abbrev main_v98 : Ref sig .tc := ⟨.hbm, 138, rfl⟩
abbrev main_v99 : Ref sig .tc := ⟨.hbm, 139, rfl⟩
abbrev main_v100 : Ref sig .tc := ⟨.hbm, 140, rfl⟩
abbrev main_v101 : Ref sig .tc := ⟨.hbm, 141, rfl⟩
abbrev main_v102 : Ref sig .tc := ⟨.hbm, 142, rfl⟩
abbrev main_v103 : Ref sig .tc := ⟨.hbm, 143, rfl⟩
abbrev main_v104 : Ref sig .tc := ⟨.hbm, 144, rfl⟩
abbrev main_v105 : Ref sig .tc := ⟨.hbm, 145, rfl⟩
abbrev main_call6_cst : Ref sig .tc := ⟨.hbm, 146, rfl⟩
abbrev main_call6_v0 : Ref sig .tc := ⟨.hbm, 147, rfl⟩
abbrev main_v106 : Ref sig .tc := ⟨.hbm, 148, rfl⟩
abbrev main_v107 : Ref sig .tc := ⟨.hbm, 149, rfl⟩
abbrev main_v108 : Ref sig .tc := ⟨.hbm, 150, rfl⟩
abbrev main_v109 : Ref sig .tc := ⟨.hbm, 151, rfl⟩
abbrev main_v110 : Ref sig .tc := ⟨.hbm, 152, rfl⟩
abbrev main_call7_cst : Ref sig .tc := ⟨.hbm, 153, rfl⟩
abbrev main_call7_v0 : Ref sig .tc := ⟨.hbm, 154, rfl⟩
abbrev main_v111 : Ref sig .tc := ⟨.hbm, 155, rfl⟩
abbrev main_cst_10 : Ref sig .tc := ⟨.hbm, 156, rfl⟩
abbrev main_v112 : Ref sig .tc := ⟨.hbm, 157, rfl⟩
abbrev main_v113 : Ref sig .tc := ⟨.hbm, 158, rfl⟩
abbrev main_v114 : Ref sig .tc := ⟨.hbm, 159, rfl⟩
abbrev main_cst_11 : Ref sig .tc := ⟨.hbm, 160, rfl⟩
abbrev main_v115 : Ref sig .tc := ⟨.hbm, 161, rfl⟩
abbrev main_v116 : Ref sig .tc := ⟨.hbm, 162, rfl⟩
abbrev main_v117 : Ref sig .tc := ⟨.hbm, 163, rfl⟩
abbrev main_v118 : Ref sig .tc := ⟨.hbm, 164, rfl⟩
abbrev main_v119 : Ref sig .tc := ⟨.hbm, 165, rfl⟩
abbrev main_v120 : Ref sig .tc := ⟨.hbm, 166, rfl⟩
abbrev main_v121 : Ref sig .tc := ⟨.hbm, 167, rfl⟩
abbrev main_call8_cst : Ref sig .tc := ⟨.hbm, 168, rfl⟩
abbrev main_call8_v0 : Ref sig .tc := ⟨.hbm, 169, rfl⟩
abbrev main_v122 : Ref sig .tc := ⟨.hbm, 170, rfl⟩
abbrev main_v123 : Ref sig .tc := ⟨.hbm, 171, rfl⟩
abbrev main_v124 : Ref sig .tc := ⟨.hbm, 172, rfl⟩
abbrev main_v125 : Ref sig .tc := ⟨.hbm, 173, rfl⟩
abbrev main_v126 : Ref sig .tc := ⟨.hbm, 174, rfl⟩
abbrev main_cst_12 : Ref sig .tc := ⟨.hbm, 175, rfl⟩
abbrev main_v127 : Ref sig .tc := ⟨.hbm, 176, rfl⟩
abbrev main_cst_13 : Ref sig .tc := ⟨.hbm, 177, rfl⟩
abbrev main_v128 : Ref sig .tc := ⟨.hbm, 178, rfl⟩
abbrev main_v129 : Ref sig .tc := ⟨.hbm, 179, rfl⟩
abbrev main_c_14 : Ref sig .tc := ⟨.hbm, 180, rfl⟩
abbrev main_call9_cst : Ref sig .tc := ⟨.hbm, 181, rfl⟩
abbrev main_call9_v0 : Ref sig .tc := ⟨.hbm, 182, rfl⟩
abbrev main_call9_v1 : Ref sig .tc := ⟨.hbm, 183, rfl⟩
abbrev main_call9_cst_0 : Ref sig .tc := ⟨.hbm, 184, rfl⟩
abbrev main_call9_v2 : Ref sig .tc := ⟨.hbm, 185, rfl⟩
abbrev main_call9_v3 : Ref sig .tc := ⟨.hbm, 186, rfl⟩
abbrev main_call9_v4 : Ref sig .tc := ⟨.hbm, 187, rfl⟩
abbrev main_call9_v5 : Ref sig .tc := ⟨.hbm, 188, rfl⟩
abbrev main_call9_v6 : Ref sig .tc := ⟨.hbm, 189, rfl⟩
abbrev main_call9_v7 : Ref sig .tc := ⟨.hbm, 190, rfl⟩
abbrev main_call9_cst_1 : Ref sig .tc := ⟨.hbm, 191, rfl⟩
abbrev main_call9_v8 : Ref sig .tc := ⟨.hbm, 192, rfl⟩
abbrev main_call9_cst_2 : Ref sig .tc := ⟨.hbm, 193, rfl⟩
abbrev main_call9_v9 : Ref sig .tc := ⟨.hbm, 194, rfl⟩
abbrev main_call9_v10 : Ref sig .tc := ⟨.hbm, 195, rfl⟩
abbrev main_call9_v11 : Ref sig .tc := ⟨.hbm, 196, rfl⟩
abbrev main_call9_cst_3 : Ref sig .tc := ⟨.hbm, 197, rfl⟩
abbrev main_call9_v12 : Ref sig .tc := ⟨.hbm, 198, rfl⟩
abbrev main_call9_cst_4 : Ref sig .tc := ⟨.hbm, 199, rfl⟩
abbrev main_call9_call0_v0 : Ref sig .tc := ⟨.hbm, 200, rfl⟩
abbrev main_call9_call0_v1 : Ref sig .tc := ⟨.hbm, 201, rfl⟩
abbrev main_v130 : Ref sig .tc := ⟨.hbm, 202, rfl⟩
abbrev main_v131 : Ref sig .tc := ⟨.hbm, 203, rfl⟩
abbrev main_v132 : Ref sig .tc := ⟨.hbm, 204, rfl⟩
abbrev main_v133 : Ref sig .tc := ⟨.hbm, 205, rfl⟩
abbrev main_cst_15 : Ref sig .tc := ⟨.hbm, 206, rfl⟩
abbrev main_v134 : Ref sig .tc := ⟨.hbm, 207, rfl⟩
abbrev main_v135 : Ref sig .tc := ⟨.hbm, 208, rfl⟩
abbrev main_v136 : Ref sig .tc := ⟨.hbm, 209, rfl⟩
abbrev main_v137 : Ref sig .tc := ⟨.hbm, 210, rfl⟩
abbrev main_v138 : Ref sig .tc := ⟨.hbm, 211, rfl⟩
abbrev main_v139 : Ref sig .tc := ⟨.hbm, 212, rfl⟩

abbrev nD : Nat := 1
abbrev τ : Topo := Topo.v7x

variable {F : FTy → Type} [FloatOps F]

class Facts₀ : Prop where
  slices_S2x4000000_S1x4000000_0_0 : S2x4000000.Slices ![0, 0] S1x4000000
  shapeCasts_S1x4000000_S4000000 : S1x4000000.ShapeCasts S4000000
  slices_S2x4000000_S1x4000000_1_0 : S2x4000000.Slices ![1, 0] S1x4000000
  bcast_S_S4000000 : S_.BroadcastsInDim S4000000 (![] : Fin 0 → Fin S4000000.rank)
  bcast_S4000000_S4000000x1_0 : S4000000.BroadcastsInDim S4000000x1 (![0] : Fin 1 → Fin S4000000x1.rank)
  bcast_S_S500000x1 : S_.BroadcastsInDim S500000x1 (![] : Fin 0 → Fin S500000x1.rank)
  bcast_S64_S1x64_1 : S64.BroadcastsInDim S1x64 (![1] : Fin 1 → Fin S1x64.rank)
  bcast_S1x64_S500000x64_0_1 : S1x64.BroadcastsInDim S500000x64 (![0, 1] : Fin 2 → Fin S500000x64.rank)
  bcast_S_S500000x64 : S_.BroadcastsInDim S500000x64 (![] : Fin 0 → Fin S500000x64.rank)
  slices_S3x64x64_S1x64x64_0_0_0 : S3x64x64.Slices ![0, 0, 0] S1x64x64
  shapeCasts_S1x64x64_S64x64 : S1x64x64.ShapeCasts S64x64
  slices_S3x64_S1x64_0_0 : S3x64.Slices ![0, 0] S1x64
  shapeCasts_S1x64_S64 : S1x64.ShapeCasts S64
  slices_S3x64x64_S1x64x64_1_0_0 : S3x64x64.Slices ![1, 0, 0] S1x64x64
  slices_S3x64_S1x64_1_0 : S3x64.Slices ![1, 0] S1x64
  slices_S3x64x64_S1x64x64_2_0_0 : S3x64x64.Slices ![2, 0, 0] S1x64x64
  slices_S3x64_S1x64_2_0 : S3x64.Slices ![2, 0] S1x64
  bcast_S_S10000x64 : S_.BroadcastsInDim S10000x64 (![] : Fin 0 → Fin S10000x64.rank)
  bcast_S500000_S500000x1_0 : S500000.BroadcastsInDim S500000x1 (![0] : Fin 1 → Fin S500000x1.rank)
  bcast_S_S100x64 : S_.BroadcastsInDim S100x64 (![] : Fin 0 → Fin S100x64.rank)
  bcast_S10000_S10000x1_0 : S10000.BroadcastsInDim S10000x1 (![0] : Fin 1 → Fin S10000x1.rank)
  bcast_S1x64_S100x64_0_1 : S1x64.BroadcastsInDim S100x64 (![0, 1] : Fin 2 → Fin S100x64.rank)
  bcast_S16_S1x16_1 : S16.BroadcastsInDim S1x16 (![1] : Fin 1 → Fin S1x16.rank)
  bcast_S1x16_S100x16_0_1 : S1x16.BroadcastsInDim S100x16 (![0, 1] : Fin 2 → Fin S100x16.rank)
  reducesTo_S100x16_S16_d0 : S100x16.ReducesTo [0] S16
  h_S_ : 0 < S_.numel
  bcast_S_S16 : S_.BroadcastsInDim S16 (![] : Fin 0 → Fin S16.rank)
  bcast_S_S1x16 : S_.BroadcastsInDim S1x16 (![] : Fin 0 → Fin S1x16.rank)
  gather_S500000x1_S4000000x1_S4000000x1_1_0_n_n_0_1_11_wf : GatherDims.WF S500000x1 S4000000x1 S4000000x1 [1] [0] [] [0] [] 1 ![1, 1]
  scatter_S500000x1_S4000000x1_S4000000x1_1_0_0_1_wf : ScatterDims.WF S500000x1 S4000000x1 S4000000x1 [1] [0] [0] 1
  dot_S500000x1_S1x64_S500000x64_1_0_0_1_n_n_wf : DotDims.WF S500000x1 S1x64 S500000x64 [1] [0] [0] [1] [] []
  dot_S500000x64_S64x64_S500000x64_1_0_0_1_n_n_wf : DotDims.WF S500000x64 S64x64 S500000x64 [1] [0] [0] [1] [] []
  gather_S500000x64_S4000000x1_S4000000x64_1_0_n_n_0_1_164_wf : GatherDims.WF S500000x64 S4000000x1 S4000000x64 [1] [0] [] [0] [] 1 ![1, 64]
  scatter_S500000x64_S4000000x1_S4000000x64_1_0_0_1_wf : ScatterDims.WF S500000x64 S4000000x1 S4000000x64 [1] [0] [0] 1
  scatter_S10000x64_S500000x1_S500000x64_1_0_0_1_wf : ScatterDims.WF S10000x64 S500000x1 S500000x64 [1] [0] [0] 1
  scatter_S100x64_S10000x1_S10000x64_1_0_0_1_wf : ScatterDims.WF S100x64 S10000x1 S10000x64 [1] [0] [0] 1
  dot_S100x64_S64x64_S100x64_1_0_0_1_n_n_wf : DotDims.WF S100x64 S64x64 S100x64 [1] [0] [0] [1] [] []
  dot_S100x64_S64x16_S100x16_1_0_0_1_n_n_wf : DotDims.WF S100x64 S64x16 S100x16 [1] [0] [0] [1] [] []

variable [Facts₀]

def gather_S500000x1_S4000000x1_S4000000x1_1_0_n_n_0_1_11 : GatherDims S500000x1 S4000000x1 S4000000x1 where
  offsetDims := [1]
  collapsedSliceDims := [0]
  operandBatchingDims := []
  startIndicesBatchingDims := []
  startIndexMap := [0]
  indexVectorDim := 1
  sliceSizes := ![1, 1]
  wf := gather_S500000x1_S4000000x1_S4000000x1_1_0_n_n_0_1_11_wf
def scatter_S500000x1_S4000000x1_S4000000x1_1_0_0_1 : ScatterDims S500000x1 S4000000x1 S4000000x1 where
  updateWindowDims := [1]
  insertedWindowDims := [0]
  scatterDimsToOperandDims := [0]
  indexVectorDim := 1
  wf := scatter_S500000x1_S4000000x1_S4000000x1_1_0_0_1_wf
def dot_S500000x1_S1x64_S500000x64_1_0_0_1_n_n : DotDims S500000x1 S1x64 S500000x64 where
  lhsContracting := [1]
  rhsContracting := [0]
  lhsNonContracting := [0]
  rhsNonContracting := [1]
  lhsBatch := []
  rhsBatch := []
  wf := dot_S500000x1_S1x64_S500000x64_1_0_0_1_n_n_wf
def dot_S500000x64_S64x64_S500000x64_1_0_0_1_n_n : DotDims S500000x64 S64x64 S500000x64 where
  lhsContracting := [1]
  rhsContracting := [0]
  lhsNonContracting := [0]
  rhsNonContracting := [1]
  lhsBatch := []
  rhsBatch := []
  wf := dot_S500000x64_S64x64_S500000x64_1_0_0_1_n_n_wf
def gather_S500000x64_S4000000x1_S4000000x64_1_0_n_n_0_1_164 : GatherDims S500000x64 S4000000x1 S4000000x64 where
  offsetDims := [1]
  collapsedSliceDims := [0]
  operandBatchingDims := []
  startIndicesBatchingDims := []
  startIndexMap := [0]
  indexVectorDim := 1
  sliceSizes := ![1, 64]
  wf := gather_S500000x64_S4000000x1_S4000000x64_1_0_n_n_0_1_164_wf
def scatter_S500000x64_S4000000x1_S4000000x64_1_0_0_1 : ScatterDims S500000x64 S4000000x1 S4000000x64 where
  updateWindowDims := [1]
  insertedWindowDims := [0]
  scatterDimsToOperandDims := [0]
  indexVectorDim := 1
  wf := scatter_S500000x64_S4000000x1_S4000000x64_1_0_0_1_wf
def scatter_S10000x64_S500000x1_S500000x64_1_0_0_1 : ScatterDims S10000x64 S500000x1 S500000x64 where
  updateWindowDims := [1]
  insertedWindowDims := [0]
  scatterDimsToOperandDims := [0]
  indexVectorDim := 1
  wf := scatter_S10000x64_S500000x1_S500000x64_1_0_0_1_wf
def scatter_S100x64_S10000x1_S10000x64_1_0_0_1 : ScatterDims S100x64 S10000x1 S10000x64 where
  updateWindowDims := [1]
  insertedWindowDims := [0]
  scatterDimsToOperandDims := [0]
  indexVectorDim := 1
  wf := scatter_S100x64_S10000x1_S10000x64_1_0_0_1_wf
def dot_S100x64_S64x64_S100x64_1_0_0_1_n_n : DotDims S100x64 S64x64 S100x64 where
  lhsContracting := [1]
  rhsContracting := [0]
  lhsNonContracting := [0]
  rhsNonContracting := [1]
  lhsBatch := []
  rhsBatch := []
  wf := dot_S100x64_S64x64_S100x64_1_0_0_1_n_n_wf
def dot_S100x64_S64x16_S100x16_1_0_0_1_n_n : DotDims S100x64 S64x16 S100x16 where
  lhsContracting := [1]
  rhsContracting := [0]
  lhsNonContracting := [0]
  rhsNonContracting := [1]
  lhsBatch := []
  rhsBatch := []
  wf := dot_S100x64_S64x16_S100x16_1_0_0_1_n_n_wf

class Facts : Prop extends Facts₀ where

variable [Facts]
-- ==== Proof.KRun.lean ====
/-
  The idealised kernel's run with its result named: every weakly fair execution of @main ends with the
  result buffer at the contents the last region's write-backs leave (the last boundary's valuation read at
  that buffer) and the sixteen arguments as launched. The run is the launch of the ten segments — five
  stretches of host operations and five regions — over the thread state "every unscoped buffer at the
  boundary's contents"; the final state is read against the last thread state buffer by buffer.
-/
import proofs.«159217_j87393994539011_1_alg».proof.Proof.Gen.KernelIdeal.Frame

set_option maxRecDepth 16384

noncomputable section

namespace Cert.KernelIdeal.Val

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: the result buffer ends at the last boundary's contents, the arguments as launched. -/
theorem run_main : θ_run defs (onTc (τ := τ) (main (F := F))) ⟨m, fun _ => 0, ρ⟩ (fun r => ∀ c : Dev nD,
      r.2.mem ((c.tc : Thread nD τ).loc main_v88) = W10 m ρ c (Proc.devRef .tc main_v88)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h c =>
      ⟨h c _ (mem_uc main_v88 (by decide)),
       (h c _ (mem_uc main_arg0 (by decide))).trans (W10_main_arg0 m ρ c),
       (h c _ (mem_uc main_arg1 (by decide))).trans (W10_main_arg1 m ρ c),
       (h c _ (mem_uc main_arg2 (by decide))).trans (W10_main_arg2 m ρ c),
       (h c _ (mem_uc main_arg3 (by decide))).trans (W10_main_arg3 m ρ c),
       (h c _ (mem_uc main_arg4 (by decide))).trans (W10_main_arg4 m ρ c),
       (h c _ (mem_uc main_arg5 (by decide))).trans (W10_main_arg5 m ρ c),
       (h c _ (mem_uc main_arg6 (by decide))).trans (W10_main_arg6 m ρ c),
       (h c _ (mem_uc main_arg7 (by decide))).trans (W10_main_arg7 m ρ c),
       (h c _ (mem_uc main_arg8 (by decide))).trans (W10_main_arg8 m ρ c),
       (h c _ (mem_uc main_arg9 (by decide))).trans (W10_main_arg9 m ρ c),
       (h c _ (mem_uc main_arg10 (by decide))).trans (W10_main_arg10 m ρ c),
       (h c _ (mem_uc main_arg11 (by decide))).trans (W10_main_arg11 m ρ c),
       (h c _ (mem_uc main_arg12 (by decide))).trans (W10_main_arg12 m ρ c),
       (h c _ (mem_uc main_arg13 (by decide))).trans (W10_main_arg13 m ρ c),
       (h c _ (mem_uc main_arg14 (by decide))).trans (W10_main_arg14 m ρ c),
       (h c _ (mem_uc main_arg15 (by decide))).trans (W10_main_arg15 m ρ c)⟩)

end Cert.KernelIdeal.Val

end
-- ==== Proof.Model.lean ====
/-
  The reference network as one function of its sixteen argument arrays, written layer by layer with the
  reference's own host operations: the edge list's source and destination columns, the neighbour sum
  (gather the sources' rows, add them into the destinations' rows), the two-matrix perceptron of a layer
  (bias rows broadcast, negative parts clipped), the two pooling sums, and the read-out with its
  per-column standardisation (mean and variance over the hundred graphs).
-/
import proofs.«159217_j87393994539011_1_alg».proof.Proof.Gen.ReferenceIdeal

noncomputable section

namespace Cert.ReferenceIdeal.Model

open Idealize.ShloMosaic Cert.ReferenceIdeal Cert.ReferenceIdeal.Facts₀ Cert.ReferenceIdeal.Facts

variable {F : FTy → Type} [FloatOps F]

/-- Contents of a buffer of shape `s` and element type `e`. -/
abbrev C (F : FTy → Type) (s : Shape) (e : EltTy) : Type := (⟨s, e⟩ : BufTy).Contents (Elt F)

/-! ## The edge list -/

/-- Row 0 of the edge list: every edge's source node. -/
def e1 (ei : C F S2x4000000 .i32) : C F S4000000 .i32 :=
  shapeCast S4000000 (extractStridedSlice S1x4000000 ![0, 0] ei slices_S2x4000000_S1x4000000_0_0) shapeCasts_S1x4000000_S4000000
/-- Row 1 of the edge list: every edge's destination node. -/
def e2 (ei : C F S2x4000000 .i32) : C F S4000000 .i32 :=
  shapeCast S4000000 (extractStridedSlice S1x4000000 ![1, 0] ei slices_S2x4000000_S1x4000000_1_0) shapeCasts_S1x4000000_S4000000
/-- The gather's index column: the sources, a negative one counted from the end. -/
def src (ei : C F S2x4000000 .i32) : C F S4000000x1 .i32 :=
  broadcastInDim S4000000x1 ![0] bcast_S4000000_S4000000x1_0
    (select (cmpi .slt (e1 (F := F) ei) (broadcastInDim S4000000 ![] bcast_S_S4000000 (constantI S_ 32 0#32)))
      (addi (e1 (F := F) ei) (broadcastInDim S4000000 ![] bcast_S_S4000000 (constantI S_ 32 500000#32)))
      (e1 (F := F) ei))
/-- The scatter's index column: the destinations. -/
def dst (ei : C F S2x4000000 .i32) : C F S4000000x1 .i32 :=
  broadcastInDim S4000000x1 ![0] bcast_S4000000_S4000000x1_0 (e2 (F := F) ei)

/-! ## The neighbour sum -/

def zeros1 : C F S500000x1 .f32 := broadcastInDim S500000x1 ![] bcast_S_S500000x1 (constant S_ .f32 0x00000000#32)
def zeros64 : C F S500000x64 .f32 := broadcastInDim S500000x64 ![] bcast_S_S500000x64 (constant S_ .f32 0x00000000#32)

/-- Each node's sum of its in-neighbours' one feature. -/
def agg1 (z : C F S500000x1 .f32) (ei : C F S2x4000000 .i32) : C F S500000x1 .f32 :=
  Host.scatterAdd scatter_S500000x1_S4000000x1_S4000000x1_1_0_0_1 (zeros1 (F := F)) (dst (F := F) ei)
    (Host.gather gather_S500000x1_S4000000x1_S4000000x1_1_0_n_n_0_1_11 z (src (F := F) ei))
/-- Each node's sum of its in-neighbours' sixty-four features. -/
def agg (x : C F S500000x64 .f32) (ei : C F S2x4000000 .i32) : C F S500000x64 .f32 :=
  Host.scatterAdd scatter_S500000x64_S4000000x1_S4000000x64_1_0_0_1 (zeros64 (F := F)) (dst (F := F) ei)
    (Host.gather gather_S500000x64_S4000000x1_S4000000x64_1_0_n_n_0_1_164 x (src (F := F) ei))

/-! ## A layer's perceptron -/

/-- Negative parts clipped. -/
def relu (x : C F S500000x64 .f32) : C F S500000x64 .f32 := maximumf x (zeros64 (F := F))
/-- A bias as a row repeated down the nodes. -/
def rowB (b : C F S64 .f32) : C F S500000x64 .f32 :=
  broadcastInDim S500000x64 ![0, 1] bcast_S1x64_S500000x64_0_1 (broadcastInDim S1x64 ![1] bcast_S64_S1x64_1 b)

/-- The first layer: `relu (relu ((z + A)·Wa + ba)·Wb + bb)`, one input feature. -/
def layer1 (z A : C F S500000x1 .f32) (Wa : C F S1x64 .f32) (ba : C F S64 .f32) (Wb : C F S64x64 .f32) (bb : C F S64 .f32) :
    C F S500000x64 .f32 :=
  relu (addf (Host.dotGeneral dot_S500000x64_S64x64_S500000x64_1_0_0_1_n_n none
    (relu (addf (Host.dotGeneral dot_S500000x1_S1x64_S500000x64_1_0_0_1_n_n none (addf z A) Wa) (rowB ba))) Wb) (rowB bb))
/-- A later layer: `relu (relu ((x + A)·Wa + ba)·Wb + bb)`. -/
def layer (x A : C F S500000x64 .f32) (Wa : C F S64x64 .f32) (ba : C F S64 .f32) (Wb : C F S64x64 .f32) (bb : C F S64 .f32) :
    C F S500000x64 .f32 :=
  relu (addf (Host.dotGeneral dot_S500000x64_S64x64_S500000x64_1_0_0_1_n_n none
    (relu (addf (Host.dotGeneral dot_S500000x64_S64x64_S500000x64_1_0_0_1_n_n none (addf x A) Wa) (rowB ba))) Wb) (rowB bb))

/-! ## The stacked weights' slices -/

def wsl0 (W : C F S3x64x64 .f32) : C F S64x64 .f32 :=
  shapeCast S64x64 (extractStridedSlice S1x64x64 ![0, 0, 0] W slices_S3x64x64_S1x64x64_0_0_0) shapeCasts_S1x64x64_S64x64
def wsl1 (W : C F S3x64x64 .f32) : C F S64x64 .f32 :=
  shapeCast S64x64 (extractStridedSlice S1x64x64 ![1, 0, 0] W slices_S3x64x64_S1x64x64_1_0_0) shapeCasts_S1x64x64_S64x64
def wsl2 (W : C F S3x64x64 .f32) : C F S64x64 .f32 :=
  shapeCast S64x64 (extractStridedSlice S1x64x64 ![2, 0, 0] W slices_S3x64x64_S1x64x64_2_0_0) shapeCasts_S1x64x64_S64x64
def bsl0 (b : C F S3x64 .f32) : C F S64 .f32 :=
  shapeCast S64 (extractStridedSlice S1x64 ![0, 0] b slices_S3x64_S1x64_0_0) shapeCasts_S1x64_S64
def bsl1 (b : C F S3x64 .f32) : C F S64 .f32 :=
  shapeCast S64 (extractStridedSlice S1x64 ![1, 0] b slices_S3x64_S1x64_1_0) shapeCasts_S1x64_S64
def bsl2 (b : C F S3x64 .f32) : C F S64 .f32 :=
  shapeCast S64 (extractStridedSlice S1x64 ![2, 0] b slices_S3x64_S1x64_2_0) shapeCasts_S1x64_S64

/-! ## Pooling: nodes into subgraphs, subgraphs into graphs -/

def pool (x : C F S500000x64 .f32) (n2s : C F S500000 .i32) (s2g : C F S10000 .i32) : C F S100x64 .f32 :=
  Host.scatterAdd scatter_S100x64_S10000x1_S10000x64_1_0_0_1
    (broadcastInDim S100x64 ![] bcast_S_S100x64 (constant S_ .f32 0x00000000#32))
    (broadcastInDim S10000x1 ![0] bcast_S10000_S10000x1_0 s2g)
    (Host.scatterAdd scatter_S10000x64_S500000x1_S500000x64_1_0_0_1
      (broadcastInDim S10000x64 ![] bcast_S_S10000x64 (constant S_ .f32 0x00000000#32))
      (broadcastInDim S500000x1 ![0] bcast_S500000_S500000x1_0 n2s) x)

/-! ## The read-out -/

/-- A sixteen-vector as a row repeated down the hundred graphs. -/
def rowO (v : C F S16 .f32) : C F S100x16 .f32 :=
  broadcastInDim S100x16 ![0, 1] bcast_S1x16_S100x16_0_1 (broadcastInDim S1x16 ![1] bcast_S16_S1x16_1 v)

/-- `relu (p·Wl1 + bl1)·Wl2 + bl2`. -/
def headY (p : C F S100x64 .f32) (Wl1 : C F S64x64 .f32) (bl1 : C F S64 .f32) (Wl2 : C F S64x16 .f32) (bl2 : C F S16 .f32) :
    C F S100x16 .f32 :=
  addf (Host.dotGeneral dot_S100x64_S64x16_S100x16_1_0_0_1_n_n none
    (maximumf (addf (Host.dotGeneral dot_S100x64_S64x64_S100x64_1_0_0_1_n_n none p Wl1)
        (broadcastInDim S100x64 ![0, 1] bcast_S1x64_S100x64_0_1 (broadcastInDim S1x64 ![1] bcast_S64_S1x64_1 bl1)))
      (broadcastInDim S100x64 ![] bcast_S_S100x64 (constant S_ .f32 0x00000000#32))) Wl2) (rowO bl2)

/-- The column means over the hundred graphs. -/
def mean16 (y : C F S100x16 .f32) : C F S16 .f32 :=
  Host.divf (Host.reduceAdd y (constant S_ .f32 0x00000000#32) reducesTo_S100x16_S16_d0 h_S_)
    (broadcastInDim S16 ![] bcast_S_S16 (constant S_ .f32 0x42C80000#32))

/-- The divisor of the variance: a hundred less the (zero) degrees of freedom removed. -/
def varN : C F S_ .f32 := subf (constant S_ .f32 0x42C80000#32) (sitofp .f32 (constantI S_ 32 0#32))

/-- The centred squares of the variance's own mean. -/
def varSq (y : C F S100x16 .f32) : C F S100x16 .f32 :=
  mulf
    (subf y (broadcastInDim S100x16 ![0, 1] bcast_S1x16_S100x16_0_1
      (Host.divf (broadcastInDim S1x16 ![1] bcast_S16_S1x16_1 (Host.reduceAdd y (constant S_ .f32 0x00000000#32) reducesTo_S100x16_S16_d0 h_S_))
        (broadcastInDim S1x16 ![] bcast_S_S1x16 (constant S_ .f32 0x42C80000#32)))))
    (subf y (broadcastInDim S100x16 ![0, 1] bcast_S1x16_S100x16_0_1
      (Host.divf (broadcastInDim S1x16 ![1] bcast_S16_S1x16_1 (Host.reduceAdd y (constant S_ .f32 0x00000000#32) reducesTo_S100x16_S16_d0 h_S_))
        (broadcastInDim S1x16 ![] bcast_S_S1x16 (constant S_ .f32 0x42C80000#32)))))

/-- The column variances (biased), guarded by the divisor's sign as the library writes it. -/
def var16 (y : C F S100x16 .f32) : C F S16 .f32 :=
  select (broadcastInDim S16 ![] bcast_S_S16 (cmpf .ogt (varN (F := F)) (constant S_ .f32 0x00000000#32)))
    (Host.divf (Host.reduceAdd (varSq y) (constant S_ .f32 0x00000000#32) reducesTo_S100x16_S16_d0 h_S_)
      (broadcastInDim S16 ![] bcast_S_S16 (varN (F := F))))
    (broadcastInDim S16 ![] bcast_S_S16 (id (constant S_ .f32 0x7FC00000#32)))

/-- The standardised read-out: `(y − mean) / sqrt (var + ε)`. -/
def head (p : C F S100x64 .f32) (Wl1 : C F S64x64 .f32) (bl1 : C F S64 .f32) (Wl2 : C F S64x16 .f32) (bl2 : C F S16 .f32) :
    C F S100x16 .f32 :=
  Host.divf (subf (headY p Wl1 bl1 Wl2 bl2) (rowO (mean16 (headY p Wl1 bl1 Wl2 bl2))))
    (rowO (Host.sqrt (addf (var16 (headY p Wl1 bl1 Wl2 bl2)) (broadcastInDim S16 ![] bcast_S_S16 (constant S_ .f32 0x3727C5AC#32)))))

/-! ## The whole network -/

def x1 (z : C F S500000x1 .f32) (ei : C F S2x4000000 .i32) (W1a : C F S1x64 .f32) (b1a : C F S64 .f32) (W1b : C F S64x64 .f32) (b1b : C F S64 .f32) :
    C F S500000x64 .f32 := layer1 z (agg1 z ei) W1a b1a W1b b1b

def out (z : C F S500000x1 .f32) (ei : C F S2x4000000 .i32) (n2s : C F S500000 .i32) (s2g : C F S10000 .i32)
    (W1a : C F S1x64 .f32) (b1a : C F S64 .f32) (W1b : C F S64x64 .f32) (b1b : C F S64 .f32)
    (Wsa : C F S3x64x64 .f32) (bsa : C F S3x64 .f32) (Wsb : C F S3x64x64 .f32) (bsb : C F S3x64 .f32)
    (Wl1 : C F S64x64 .f32) (bl1 : C F S64 .f32) (Wl2 : C F S64x16 .f32) (bl2 : C F S16 .f32) : C F S100x16 .f32 :=
  let a := x1 z ei W1a b1a W1b b1b
  let b := layer a (agg a ei) (wsl0 Wsa) (bsl0 bsa) (wsl0 Wsb) (bsl0 bsb)
  let c := layer b (agg b ei) (wsl1 Wsa) (bsl1 bsa) (wsl1 Wsb) (bsl1 bsb)
  let d := layer c (agg c ei) (wsl2 Wsa) (bsl2 bsa) (wsl2 Wsb) (bsl2 bsb)
  head (pool d n2s s2g) Wl1 bl1 Wl2 bl2

end Cert.ReferenceIdeal.Model

end
-- ==== Proof.KHost.lean ====
/-
  What the idealised kernel's buffers hold at each boundary between a stretch of host operations and a
  region, as terms of the launch memory: the edge list's two columns and the weight arrays pass through
  every region untouched; before each region the neighbour sum is the reference's gather-and-add of the
  previous layer's result, the layer's weights are the stacked weights' slices, each bias a one-row
  matrix; before the read-out the pooled features are the two segment sums of the last layer's result.
-/
import proofs.«159217_j87393994539011_1_alg».proof.Proof.Gen.KernelIdeal.Frame
import proofs.«159217_j87393994539011_1_alg».proof.Proof.Model
import Idealize.ShloMosaic.Lib.StableHlo.Run

set_option maxRecDepth 16384

noncomputable section

namespace Cert.KernelIdeal.Val

open Cert.KernelIdeal Cert.KernelIdeal.Gen
open Idealize.ShloMosaic Idealize.ShloMosaic.TcCoe Idealize.ShloMosaic.Tactic Idealize.ShloMosaic.StableHlo
open Idealize.SL.Sem

variable {F : FTy → Type} [FloatOps F]
variable (m : (ℓ : Loc nD τ sig) → Buf (Elt F) ℓ) (ρ : Dev nD → PrngReg)

theorem W1_arg0 (c : Dev nD) : W1 m ρ c (Proc.devRef .tc main_arg0) = (m ((c.tc : Thread nD τ).loc main_arg0)) := by
  show StableHlo.after hostOps0 (W0 m ρ c) (Proc.devRef .tc main_arg0) = _
  after_results_simp
theorem W1_arg4 (c : Dev nD) : W1 m ρ c (Proc.devRef .tc main_arg4) = (m ((c.tc : Thread nD τ).loc main_arg4)) := by
  show StableHlo.after hostOps0 (W0 m ρ c) (Proc.devRef .tc main_arg4) = _
  after_results_simp
theorem W1_arg6 (c : Dev nD) : W1 m ρ c (Proc.devRef .tc main_arg6) = (m ((c.tc : Thread nD τ).loc main_arg6)) := by
  show StableHlo.after hostOps0 (W0 m ρ c) (Proc.devRef .tc main_arg6) = _
  after_results_simp
theorem W1_arg8 (c : Dev nD) : W1 m ρ c (Proc.devRef .tc main_arg8) = (m ((c.tc : Thread nD τ).loc main_arg8)) := by
  show StableHlo.after hostOps0 (W0 m ρ c) (Proc.devRef .tc main_arg8) = _
  after_results_simp
theorem W1_arg9 (c : Dev nD) : W1 m ρ c (Proc.devRef .tc main_arg9) = (m ((c.tc : Thread nD τ).loc main_arg9)) := by
  show StableHlo.after hostOps0 (W0 m ρ c) (Proc.devRef .tc main_arg9) = _
  after_results_simp
theorem W1_arg10 (c : Dev nD) : W1 m ρ c (Proc.devRef .tc main_arg10) = (m ((c.tc : Thread nD τ).loc main_arg10)) := by
  show StableHlo.after hostOps0 (W0 m ρ c) (Proc.devRef .tc main_arg10) = _
  after_results_simp
theorem W1_arg11 (c : Dev nD) : W1 m ρ c (Proc.devRef .tc main_arg11) = (m ((c.tc : Thread nD τ).loc main_arg11)) := by
  show StableHlo.after hostOps0 (W0 m ρ c) (Proc.devRef .tc main_arg11) = _
  after_results_simp
theorem W1_arg2 (c : Dev nD) : W1 m ρ c (Proc.devRef .tc main_arg2) = (m ((c.tc : Thread nD τ).loc main_arg2)) := by
  show StableHlo.after hostOps0 (W0 m ρ c) (Proc.devRef .tc main_arg2) = _
  after_results_simp
theorem W1_arg3 (c : Dev nD) : W1 m ρ c (Proc.devRef .tc main_arg3) = (m ((c.tc : Thread nD τ).loc main_arg3)) := by
  show StableHlo.after hostOps0 (W0 m ρ c) (Proc.devRef .tc main_arg3) = _
  after_results_simp
theorem W1_arg12 (c : Dev nD) : W1 m ρ c (Proc.devRef .tc main_arg12) = (m ((c.tc : Thread nD τ).loc main_arg12)) := by
  show StableHlo.after hostOps0 (W0 m ρ c) (Proc.devRef .tc main_arg12) = _
  after_results_simp
theorem W1_arg13 (c : Dev nD) : W1 m ρ c (Proc.devRef .tc main_arg13) = (m ((c.tc : Thread nD τ).loc main_arg13)) := by
  show StableHlo.after hostOps0 (W0 m ρ c) (Proc.devRef .tc main_arg13) = _
  after_results_simp
theorem W1_arg14 (c : Dev nD) : W1 m ρ c (Proc.devRef .tc main_arg14) = (m ((c.tc : Thread nD τ).loc main_arg14)) := by
  show StableHlo.after hostOps0 (W0 m ρ c) (Proc.devRef .tc main_arg14) = _
  after_results_simp
theorem W1_arg15 (c : Dev nD) : W1 m ρ c (Proc.devRef .tc main_arg15) = (m ((c.tc : Thread nD τ).loc main_arg15)) := by
  show StableHlo.after hostOps0 (W0 m ρ c) (Proc.devRef .tc main_arg15) = _
  after_results_simp
attribute [local irreducible] Host.gather Host.scatterAdd in
theorem W1_v13 (c : Dev nD) : W1 m ρ c (Proc.devRef .tc main_v13) = Cert.ReferenceIdeal.Model.agg1 (F := F) (m ((c.tc : Thread nD τ).loc main_arg0)) (m ((c.tc : Thread nD τ).loc main_arg1)) := by
  show StableHlo.after hostOps0 (W0 m ρ c) (Proc.devRef .tc main_v13) = _
  after_results_simp
  rfl
theorem W1_v1 (c : Dev nD) : W1 m ρ c (Proc.devRef .tc main_v1) = Cert.ReferenceIdeal.Model.e1 (F := F) (m ((c.tc : Thread nD τ).loc main_arg1)) := by
  show StableHlo.after hostOps0 (W0 m ρ c) (Proc.devRef .tc main_v1) = _
  after_results_simp
  rfl
theorem W1_v3 (c : Dev nD) : W1 m ρ c (Proc.devRef .tc main_v3) = Cert.ReferenceIdeal.Model.e2 (F := F) (m ((c.tc : Thread nD τ).loc main_arg1)) := by
  show StableHlo.after hostOps0 (W0 m ρ c) (Proc.devRef .tc main_v3) = _
  after_results_simp
  rfl
theorem W1_v14 (c : Dev nD) : W1 m ρ c (Proc.devRef .tc main_v14) = shapeCast S1x64 (m ((c.tc : Thread nD τ).loc main_arg5)) shapeCasts_S64_S1x64 := by
  show StableHlo.after hostOps0 (W0 m ρ c) (Proc.devRef .tc main_v14) = _
  after_results_simp
  rfl
theorem W1_v15 (c : Dev nD) : W1 m ρ c (Proc.devRef .tc main_v15) = shapeCast S1x64 (m ((c.tc : Thread nD τ).loc main_arg7)) shapeCasts_S64_S1x64 := by
  show StableHlo.after hostOps0 (W0 m ρ c) (Proc.devRef .tc main_v15) = _
  after_results_simp
  rfl
theorem W2_v1 (c : Dev nD) : W2 m ρ c (Proc.devRef .tc main_v1) = Cert.ReferenceIdeal.Model.e1 (F := F) (m ((c.tc : Thread nD τ).loc main_arg1)) :=
  (W2_of_ne m ρ c main_v1 (by decide)).trans (W1_v1 m ρ c)
theorem W2_v3 (c : Dev nD) : W2 m ρ c (Proc.devRef .tc main_v3) = Cert.ReferenceIdeal.Model.e2 (F := F) (m ((c.tc : Thread nD τ).loc main_arg1)) :=
  (W2_of_ne m ρ c main_v3 (by decide)).trans (W1_v3 m ρ c)
theorem W2_arg8 (c : Dev nD) : W2 m ρ c (Proc.devRef .tc main_arg8) = (m ((c.tc : Thread nD τ).loc main_arg8)) :=
  (W2_of_ne m ρ c main_arg8 (by decide)).trans (W1_arg8 m ρ c)
theorem W2_arg9 (c : Dev nD) : W2 m ρ c (Proc.devRef .tc main_arg9) = (m ((c.tc : Thread nD τ).loc main_arg9)) :=
  (W2_of_ne m ρ c main_arg9 (by decide)).trans (W1_arg9 m ρ c)
theorem W2_arg10 (c : Dev nD) : W2 m ρ c (Proc.devRef .tc main_arg10) = (m ((c.tc : Thread nD τ).loc main_arg10)) :=
  (W2_of_ne m ρ c main_arg10 (by decide)).trans (W1_arg10 m ρ c)
theorem W2_arg11 (c : Dev nD) : W2 m ρ c (Proc.devRef .tc main_arg11) = (m ((c.tc : Thread nD τ).loc main_arg11)) :=
  (W2_of_ne m ρ c main_arg11 (by decide)).trans (W1_arg11 m ρ c)
theorem W2_arg2 (c : Dev nD) : W2 m ρ c (Proc.devRef .tc main_arg2) = (m ((c.tc : Thread nD τ).loc main_arg2)) :=
  (W2_of_ne m ρ c main_arg2 (by decide)).trans (W1_arg2 m ρ c)
theorem W2_arg3 (c : Dev nD) : W2 m ρ c (Proc.devRef .tc main_arg3) = (m ((c.tc : Thread nD τ).loc main_arg3)) :=
  (W2_of_ne m ρ c main_arg3 (by decide)).trans (W1_arg3 m ρ c)
theorem W2_arg12 (c : Dev nD) : W2 m ρ c (Proc.devRef .tc main_arg12) = (m ((c.tc : Thread nD τ).loc main_arg12)) :=
  (W2_of_ne m ρ c main_arg12 (by decide)).trans (W1_arg12 m ρ c)
theorem W2_arg13 (c : Dev nD) : W2 m ρ c (Proc.devRef .tc main_arg13) = (m ((c.tc : Thread nD τ).loc main_arg13)) :=
  (W2_of_ne m ρ c main_arg13 (by decide)).trans (W1_arg13 m ρ c)
theorem W2_arg14 (c : Dev nD) : W2 m ρ c (Proc.devRef .tc main_arg14) = (m ((c.tc : Thread nD τ).loc main_arg14)) :=
  (W2_of_ne m ρ c main_arg14 (by decide)).trans (W1_arg14 m ρ c)
theorem W2_arg15 (c : Dev nD) : W2 m ρ c (Proc.devRef .tc main_arg15) = (m ((c.tc : Thread nD τ).loc main_arg15)) :=
  (W2_of_ne m ρ c main_arg15 (by decide)).trans (W1_arg15 m ρ c)
theorem W3_v1 (c : Dev nD) : W3 m ρ c (Proc.devRef .tc main_v1) = Cert.ReferenceIdeal.Model.e1 (F := F) (m ((c.tc : Thread nD τ).loc main_arg1)) := by
  show StableHlo.after hostOps1 (W2 m ρ c) (Proc.devRef .tc main_v1) = _
  after_results_simp
  exact W2_v1 m ρ c
theorem W3_v3 (c : Dev nD) : W3 m ρ c (Proc.devRef .tc main_v3) = Cert.ReferenceIdeal.Model.e2 (F := F) (m ((c.tc : Thread nD τ).loc main_arg1)) := by
  show StableHlo.after hostOps1 (W2 m ρ c) (Proc.devRef .tc main_v3) = _
  after_results_simp
  exact W2_v3 m ρ c
theorem W3_arg8 (c : Dev nD) : W3 m ρ c (Proc.devRef .tc main_arg8) = (m ((c.tc : Thread nD τ).loc main_arg8)) := by
  show StableHlo.after hostOps1 (W2 m ρ c) (Proc.devRef .tc main_arg8) = _
  after_results_simp
  exact W2_arg8 m ρ c
theorem W3_arg9 (c : Dev nD) : W3 m ρ c (Proc.devRef .tc main_arg9) = (m ((c.tc : Thread nD τ).loc main_arg9)) := by
  show StableHlo.after hostOps1 (W2 m ρ c) (Proc.devRef .tc main_arg9) = _
  after_results_simp
  exact W2_arg9 m ρ c
theorem W3_arg10 (c : Dev nD) : W3 m ρ c (Proc.devRef .tc main_arg10) = (m ((c.tc : Thread nD τ).loc main_arg10)) := by
  show StableHlo.after hostOps1 (W2 m ρ c) (Proc.devRef .tc main_arg10) = _
  after_results_simp
  exact W2_arg10 m ρ c
theorem W3_arg11 (c : Dev nD) : W3 m ρ c (Proc.devRef .tc main_arg11) = (m ((c.tc : Thread nD τ).loc main_arg11)) := by
  show StableHlo.after hostOps1 (W2 m ρ c) (Proc.devRef .tc main_arg11) = _
  after_results_simp
  exact W2_arg11 m ρ c
theorem W3_arg2 (c : Dev nD) : W3 m ρ c (Proc.devRef .tc main_arg2) = (m ((c.tc : Thread nD τ).loc main_arg2)) := by
  show StableHlo.after hostOps1 (W2 m ρ c) (Proc.devRef .tc main_arg2) = _
  after_results_simp
  exact W2_arg2 m ρ c
theorem W3_arg3 (c : Dev nD) : W3 m ρ c (Proc.devRef .tc main_arg3) = (m ((c.tc : Thread nD τ).loc main_arg3)) := by
  show StableHlo.after hostOps1 (W2 m ρ c) (Proc.devRef .tc main_arg3) = _
  after_results_simp
  exact W2_arg3 m ρ c
theorem W3_arg12 (c : Dev nD) : W3 m ρ c (Proc.devRef .tc main_arg12) = (m ((c.tc : Thread nD τ).loc main_arg12)) := by
  show StableHlo.after hostOps1 (W2 m ρ c) (Proc.devRef .tc main_arg12) = _
  after_results_simp
  exact W2_arg12 m ρ c
theorem W3_arg13 (c : Dev nD) : W3 m ρ c (Proc.devRef .tc main_arg13) = (m ((c.tc : Thread nD τ).loc main_arg13)) := by
  show StableHlo.after hostOps1 (W2 m ρ c) (Proc.devRef .tc main_arg13) = _
  after_results_simp
  exact W2_arg13 m ρ c
theorem W3_arg14 (c : Dev nD) : W3 m ρ c (Proc.devRef .tc main_arg14) = (m ((c.tc : Thread nD τ).loc main_arg14)) := by
  show StableHlo.after hostOps1 (W2 m ρ c) (Proc.devRef .tc main_arg14) = _
  after_results_simp
  exact W2_arg14 m ρ c
theorem W3_arg15 (c : Dev nD) : W3 m ρ c (Proc.devRef .tc main_arg15) = (m ((c.tc : Thread nD τ).loc main_arg15)) := by
  show StableHlo.after hostOps1 (W2 m ρ c) (Proc.devRef .tc main_arg15) = _
  after_results_simp
  exact W2_arg15 m ρ c
theorem W4_v1 (c : Dev nD) : W4 m ρ c (Proc.devRef .tc main_v1) = Cert.ReferenceIdeal.Model.e1 (F := F) (m ((c.tc : Thread nD τ).loc main_arg1)) :=
  (W4_of_ne m ρ c main_v1 (by decide)).trans (W3_v1 m ρ c)
theorem W4_v3 (c : Dev nD) : W4 m ρ c (Proc.devRef .tc main_v3) = Cert.ReferenceIdeal.Model.e2 (F := F) (m ((c.tc : Thread nD τ).loc main_arg1)) :=
  (W4_of_ne m ρ c main_v3 (by decide)).trans (W3_v3 m ρ c)
theorem W4_arg8 (c : Dev nD) : W4 m ρ c (Proc.devRef .tc main_arg8) = (m ((c.tc : Thread nD τ).loc main_arg8)) :=
  (W4_of_ne m ρ c main_arg8 (by decide)).trans (W3_arg8 m ρ c)
theorem W4_arg9 (c : Dev nD) : W4 m ρ c (Proc.devRef .tc main_arg9) = (m ((c.tc : Thread nD τ).loc main_arg9)) :=
  (W4_of_ne m ρ c main_arg9 (by decide)).trans (W3_arg9 m ρ c)
theorem W4_arg10 (c : Dev nD) : W4 m ρ c (Proc.devRef .tc main_arg10) = (m ((c.tc : Thread nD τ).loc main_arg10)) :=
  (W4_of_ne m ρ c main_arg10 (by decide)).trans (W3_arg10 m ρ c)
theorem W4_arg11 (c : Dev nD) : W4 m ρ c (Proc.devRef .tc main_arg11) = (m ((c.tc : Thread nD τ).loc main_arg11)) :=
  (W4_of_ne m ρ c main_arg11 (by decide)).trans (W3_arg11 m ρ c)
theorem W4_arg2 (c : Dev nD) : W4 m ρ c (Proc.devRef .tc main_arg2) = (m ((c.tc : Thread nD τ).loc main_arg2)) :=
  (W4_of_ne m ρ c main_arg2 (by decide)).trans (W3_arg2 m ρ c)
theorem W4_arg3 (c : Dev nD) : W4 m ρ c (Proc.devRef .tc main_arg3) = (m ((c.tc : Thread nD τ).loc main_arg3)) :=
  (W4_of_ne m ρ c main_arg3 (by decide)).trans (W3_arg3 m ρ c)
theorem W4_arg12 (c : Dev nD) : W4 m ρ c (Proc.devRef .tc main_arg12) = (m ((c.tc : Thread nD τ).loc main_arg12)) :=
  (W4_of_ne m ρ c main_arg12 (by decide)).trans (W3_arg12 m ρ c)
theorem W4_arg13 (c : Dev nD) : W4 m ρ c (Proc.devRef .tc main_arg13) = (m ((c.tc : Thread nD τ).loc main_arg13)) :=
  (W4_of_ne m ρ c main_arg13 (by decide)).trans (W3_arg13 m ρ c)
theorem W4_arg14 (c : Dev nD) : W4 m ρ c (Proc.devRef .tc main_arg14) = (m ((c.tc : Thread nD τ).loc main_arg14)) :=
  (W4_of_ne m ρ c main_arg14 (by decide)).trans (W3_arg14 m ρ c)
theorem W4_arg15 (c : Dev nD) : W4 m ρ c (Proc.devRef .tc main_arg15) = (m ((c.tc : Thread nD τ).loc main_arg15)) :=
  (W4_of_ne m ρ c main_arg15 (by decide)).trans (W3_arg15 m ρ c)
theorem W5_v1 (c : Dev nD) : W5 m ρ c (Proc.devRef .tc main_v1) = Cert.ReferenceIdeal.Model.e1 (F := F) (m ((c.tc : Thread nD τ).loc main_arg1)) := by
  show StableHlo.after hostOps2 (W4 m ρ c) (Proc.devRef .tc main_v1) = _
  after_results_simp
  exact W4_v1 m ρ c
theorem W5_v3 (c : Dev nD) : W5 m ρ c (Proc.devRef .tc main_v3) = Cert.ReferenceIdeal.Model.e2 (F := F) (m ((c.tc : Thread nD τ).loc main_arg1)) := by
  show StableHlo.after hostOps2 (W4 m ρ c) (Proc.devRef .tc main_v3) = _
  after_results_simp
  exact W4_v3 m ρ c
theorem W5_arg8 (c : Dev nD) : W5 m ρ c (Proc.devRef .tc main_arg8) = (m ((c.tc : Thread nD τ).loc main_arg8)) := by
  show StableHlo.after hostOps2 (W4 m ρ c) (Proc.devRef .tc main_arg8) = _
  after_results_simp
  exact W4_arg8 m ρ c
theorem W5_arg9 (c : Dev nD) : W5 m ρ c (Proc.devRef .tc main_arg9) = (m ((c.tc : Thread nD τ).loc main_arg9)) := by
  show StableHlo.after hostOps2 (W4 m ρ c) (Proc.devRef .tc main_arg9) = _
  after_results_simp
  exact W4_arg9 m ρ c
theorem W5_arg10 (c : Dev nD) : W5 m ρ c (Proc.devRef .tc main_arg10) = (m ((c.tc : Thread nD τ).loc main_arg10)) := by
  show StableHlo.after hostOps2 (W4 m ρ c) (Proc.devRef .tc main_arg10) = _
  after_results_simp
  exact W4_arg10 m ρ c
theorem W5_arg11 (c : Dev nD) : W5 m ρ c (Proc.devRef .tc main_arg11) = (m ((c.tc : Thread nD τ).loc main_arg11)) := by
  show StableHlo.after hostOps2 (W4 m ρ c) (Proc.devRef .tc main_arg11) = _
  after_results_simp
  exact W4_arg11 m ρ c
theorem W5_arg2 (c : Dev nD) : W5 m ρ c (Proc.devRef .tc main_arg2) = (m ((c.tc : Thread nD τ).loc main_arg2)) := by
  show StableHlo.after hostOps2 (W4 m ρ c) (Proc.devRef .tc main_arg2) = _
  after_results_simp
  exact W4_arg2 m ρ c
theorem W5_arg3 (c : Dev nD) : W5 m ρ c (Proc.devRef .tc main_arg3) = (m ((c.tc : Thread nD τ).loc main_arg3)) := by
  show StableHlo.after hostOps2 (W4 m ρ c) (Proc.devRef .tc main_arg3) = _
  after_results_simp
  exact W4_arg3 m ρ c
theorem W5_arg12 (c : Dev nD) : W5 m ρ c (Proc.devRef .tc main_arg12) = (m ((c.tc : Thread nD τ).loc main_arg12)) := by
  show StableHlo.after hostOps2 (W4 m ρ c) (Proc.devRef .tc main_arg12) = _
  after_results_simp
  exact W4_arg12 m ρ c
theorem W5_arg13 (c : Dev nD) : W5 m ρ c (Proc.devRef .tc main_arg13) = (m ((c.tc : Thread nD τ).loc main_arg13)) := by
  show StableHlo.after hostOps2 (W4 m ρ c) (Proc.devRef .tc main_arg13) = _
  after_results_simp
  exact W4_arg13 m ρ c
theorem W5_arg14 (c : Dev nD) : W5 m ρ c (Proc.devRef .tc main_arg14) = (m ((c.tc : Thread nD τ).loc main_arg14)) := by
  show StableHlo.after hostOps2 (W4 m ρ c) (Proc.devRef .tc main_arg14) = _
  after_results_simp
  exact W4_arg14 m ρ c
theorem W5_arg15 (c : Dev nD) : W5 m ρ c (Proc.devRef .tc main_arg15) = (m ((c.tc : Thread nD τ).loc main_arg15)) := by
  show StableHlo.after hostOps2 (W4 m ρ c) (Proc.devRef .tc main_arg15) = _
  after_results_simp
  exact W4_arg15 m ρ c
theorem W6_v1 (c : Dev nD) : W6 m ρ c (Proc.devRef .tc main_v1) = Cert.ReferenceIdeal.Model.e1 (F := F) (m ((c.tc : Thread nD τ).loc main_arg1)) :=
  (W6_of_ne m ρ c main_v1 (by decide)).trans (W5_v1 m ρ c)
theorem W6_v3 (c : Dev nD) : W6 m ρ c (Proc.devRef .tc main_v3) = Cert.ReferenceIdeal.Model.e2 (F := F) (m ((c.tc : Thread nD τ).loc main_arg1)) :=
  (W6_of_ne m ρ c main_v3 (by decide)).trans (W5_v3 m ρ c)
theorem W6_arg8 (c : Dev nD) : W6 m ρ c (Proc.devRef .tc main_arg8) = (m ((c.tc : Thread nD τ).loc main_arg8)) :=
  (W6_of_ne m ρ c main_arg8 (by decide)).trans (W5_arg8 m ρ c)
theorem W6_arg9 (c : Dev nD) : W6 m ρ c (Proc.devRef .tc main_arg9) = (m ((c.tc : Thread nD τ).loc main_arg9)) :=
  (W6_of_ne m ρ c main_arg9 (by decide)).trans (W5_arg9 m ρ c)
theorem W6_arg10 (c : Dev nD) : W6 m ρ c (Proc.devRef .tc main_arg10) = (m ((c.tc : Thread nD τ).loc main_arg10)) :=
  (W6_of_ne m ρ c main_arg10 (by decide)).trans (W5_arg10 m ρ c)
theorem W6_arg11 (c : Dev nD) : W6 m ρ c (Proc.devRef .tc main_arg11) = (m ((c.tc : Thread nD τ).loc main_arg11)) :=
  (W6_of_ne m ρ c main_arg11 (by decide)).trans (W5_arg11 m ρ c)
theorem W6_arg2 (c : Dev nD) : W6 m ρ c (Proc.devRef .tc main_arg2) = (m ((c.tc : Thread nD τ).loc main_arg2)) :=
  (W6_of_ne m ρ c main_arg2 (by decide)).trans (W5_arg2 m ρ c)
theorem W6_arg3 (c : Dev nD) : W6 m ρ c (Proc.devRef .tc main_arg3) = (m ((c.tc : Thread nD τ).loc main_arg3)) :=
  (W6_of_ne m ρ c main_arg3 (by decide)).trans (W5_arg3 m ρ c)
theorem W6_arg12 (c : Dev nD) : W6 m ρ c (Proc.devRef .tc main_arg12) = (m ((c.tc : Thread nD τ).loc main_arg12)) :=
  (W6_of_ne m ρ c main_arg12 (by decide)).trans (W5_arg12 m ρ c)
theorem W6_arg13 (c : Dev nD) : W6 m ρ c (Proc.devRef .tc main_arg13) = (m ((c.tc : Thread nD τ).loc main_arg13)) :=
  (W6_of_ne m ρ c main_arg13 (by decide)).trans (W5_arg13 m ρ c)
theorem W6_arg14 (c : Dev nD) : W6 m ρ c (Proc.devRef .tc main_arg14) = (m ((c.tc : Thread nD τ).loc main_arg14)) :=
  (W6_of_ne m ρ c main_arg14 (by decide)).trans (W5_arg14 m ρ c)
theorem W6_arg15 (c : Dev nD) : W6 m ρ c (Proc.devRef .tc main_arg15) = (m ((c.tc : Thread nD τ).loc main_arg15)) :=
  (W6_of_ne m ρ c main_arg15 (by decide)).trans (W5_arg15 m ρ c)
theorem W7_v1 (c : Dev nD) : W7 m ρ c (Proc.devRef .tc main_v1) = Cert.ReferenceIdeal.Model.e1 (F := F) (m ((c.tc : Thread nD τ).loc main_arg1)) := by
  show StableHlo.after hostOps3 (W6 m ρ c) (Proc.devRef .tc main_v1) = _
  after_results_simp
  exact W6_v1 m ρ c
theorem W7_v3 (c : Dev nD) : W7 m ρ c (Proc.devRef .tc main_v3) = Cert.ReferenceIdeal.Model.e2 (F := F) (m ((c.tc : Thread nD τ).loc main_arg1)) := by
  show StableHlo.after hostOps3 (W6 m ρ c) (Proc.devRef .tc main_v3) = _
  after_results_simp
  exact W6_v3 m ρ c
theorem W7_arg8 (c : Dev nD) : W7 m ρ c (Proc.devRef .tc main_arg8) = (m ((c.tc : Thread nD τ).loc main_arg8)) := by
  show StableHlo.after hostOps3 (W6 m ρ c) (Proc.devRef .tc main_arg8) = _
  after_results_simp
  exact W6_arg8 m ρ c
theorem W7_arg9 (c : Dev nD) : W7 m ρ c (Proc.devRef .tc main_arg9) = (m ((c.tc : Thread nD τ).loc main_arg9)) := by
  show StableHlo.after hostOps3 (W6 m ρ c) (Proc.devRef .tc main_arg9) = _
  after_results_simp
  exact W6_arg9 m ρ c
theorem W7_arg10 (c : Dev nD) : W7 m ρ c (Proc.devRef .tc main_arg10) = (m ((c.tc : Thread nD τ).loc main_arg10)) := by
  show StableHlo.after hostOps3 (W6 m ρ c) (Proc.devRef .tc main_arg10) = _
  after_results_simp
  exact W6_arg10 m ρ c
theorem W7_arg11 (c : Dev nD) : W7 m ρ c (Proc.devRef .tc main_arg11) = (m ((c.tc : Thread nD τ).loc main_arg11)) := by
  show StableHlo.after hostOps3 (W6 m ρ c) (Proc.devRef .tc main_arg11) = _
  after_results_simp
  exact W6_arg11 m ρ c
theorem W7_arg2 (c : Dev nD) : W7 m ρ c (Proc.devRef .tc main_arg2) = (m ((c.tc : Thread nD τ).loc main_arg2)) := by
  show StableHlo.after hostOps3 (W6 m ρ c) (Proc.devRef .tc main_arg2) = _
  after_results_simp
  exact W6_arg2 m ρ c
theorem W7_arg3 (c : Dev nD) : W7 m ρ c (Proc.devRef .tc main_arg3) = (m ((c.tc : Thread nD τ).loc main_arg3)) := by
  show StableHlo.after hostOps3 (W6 m ρ c) (Proc.devRef .tc main_arg3) = _
  after_results_simp
  exact W6_arg3 m ρ c
theorem W7_arg12 (c : Dev nD) : W7 m ρ c (Proc.devRef .tc main_arg12) = (m ((c.tc : Thread nD τ).loc main_arg12)) := by
  show StableHlo.after hostOps3 (W6 m ρ c) (Proc.devRef .tc main_arg12) = _
  after_results_simp
  exact W6_arg12 m ρ c
theorem W7_arg13 (c : Dev nD) : W7 m ρ c (Proc.devRef .tc main_arg13) = (m ((c.tc : Thread nD τ).loc main_arg13)) := by
  show StableHlo.after hostOps3 (W6 m ρ c) (Proc.devRef .tc main_arg13) = _
  after_results_simp
  exact W6_arg13 m ρ c
theorem W7_arg14 (c : Dev nD) : W7 m ρ c (Proc.devRef .tc main_arg14) = (m ((c.tc : Thread nD τ).loc main_arg14)) := by
  show StableHlo.after hostOps3 (W6 m ρ c) (Proc.devRef .tc main_arg14) = _
  after_results_simp
  exact W6_arg14 m ρ c
theorem W7_arg15 (c : Dev nD) : W7 m ρ c (Proc.devRef .tc main_arg15) = (m ((c.tc : Thread nD τ).loc main_arg15)) := by
  show StableHlo.after hostOps3 (W6 m ρ c) (Proc.devRef .tc main_arg15) = _
  after_results_simp
  exact W6_arg15 m ρ c
theorem W8_arg2 (c : Dev nD) : W8 m ρ c (Proc.devRef .tc main_arg2) = (m ((c.tc : Thread nD τ).loc main_arg2)) :=
  (W8_of_ne m ρ c main_arg2 (by decide)).trans (W7_arg2 m ρ c)
theorem W8_arg3 (c : Dev nD) : W8 m ρ c (Proc.devRef .tc main_arg3) = (m ((c.tc : Thread nD τ).loc main_arg3)) :=
  (W8_of_ne m ρ c main_arg3 (by decide)).trans (W7_arg3 m ρ c)
theorem W8_arg12 (c : Dev nD) : W8 m ρ c (Proc.devRef .tc main_arg12) = (m ((c.tc : Thread nD τ).loc main_arg12)) :=
  (W8_of_ne m ρ c main_arg12 (by decide)).trans (W7_arg12 m ρ c)
theorem W8_arg13 (c : Dev nD) : W8 m ρ c (Proc.devRef .tc main_arg13) = (m ((c.tc : Thread nD τ).loc main_arg13)) :=
  (W8_of_ne m ρ c main_arg13 (by decide)).trans (W7_arg13 m ρ c)
theorem W8_arg14 (c : Dev nD) : W8 m ρ c (Proc.devRef .tc main_arg14) = (m ((c.tc : Thread nD τ).loc main_arg14)) :=
  (W8_of_ne m ρ c main_arg14 (by decide)).trans (W7_arg14 m ρ c)
theorem W8_arg15 (c : Dev nD) : W8 m ρ c (Proc.devRef .tc main_arg15) = (m ((c.tc : Thread nD τ).loc main_arg15)) :=
  (W8_of_ne m ρ c main_arg15 (by decide)).trans (W7_arg15 m ρ c)
theorem W3_v16 (c : Dev nD) : W3 m ρ c (Proc.devRef .tc main_v16) = W2 m ρ c (Proc.devRef .tc main_v16) := by
  show StableHlo.after hostOps1 (W2 m ρ c) (Proc.devRef .tc main_v16) = _
  after_results_simp

attribute [local irreducible] Host.gather Host.scatterAdd in
theorem W3_v34 (c : Dev nD) : W3 m ρ c (Proc.devRef .tc main_v34) = Cert.ReferenceIdeal.Model.agg (F := F) (W2 m ρ c (Proc.devRef .tc main_v16)) (m ((c.tc : Thread nD τ).loc main_arg1)) := by
  show StableHlo.after hostOps1 (W2 m ρ c) (Proc.devRef .tc main_v34) = _
  after_results_simp
  rw [W2_v1 m ρ c, W2_v3 m ρ c]
  rfl
theorem W3_v18 (c : Dev nD) : W3 m ρ c (Proc.devRef .tc main_v18) = Cert.ReferenceIdeal.Model.wsl0 (F := F) (m ((c.tc : Thread nD τ).loc main_arg8)) := by
  show StableHlo.after hostOps1 (W2 m ρ c) (Proc.devRef .tc main_v18) = _
  after_results_simp
  rw [W2_arg8 m ρ c]
  rfl
theorem W3_v35 (c : Dev nD) : W3 m ρ c (Proc.devRef .tc main_v35) = shapeCast S1x64 (Cert.ReferenceIdeal.Model.bsl0 (F := F) (m ((c.tc : Thread nD τ).loc main_arg9))) shapeCasts_S64_S1x64 := by
  show StableHlo.after hostOps1 (W2 m ρ c) (Proc.devRef .tc main_v35) = _
  after_results_simp
  rw [W2_arg9 m ρ c]
  rfl
theorem W3_v22 (c : Dev nD) : W3 m ρ c (Proc.devRef .tc main_v22) = Cert.ReferenceIdeal.Model.wsl0 (F := F) (m ((c.tc : Thread nD τ).loc main_arg10)) := by
  show StableHlo.after hostOps1 (W2 m ρ c) (Proc.devRef .tc main_v22) = _
  after_results_simp
  rw [W2_arg10 m ρ c]
  rfl
theorem W3_v36 (c : Dev nD) : W3 m ρ c (Proc.devRef .tc main_v36) = shapeCast S1x64 (Cert.ReferenceIdeal.Model.bsl0 (F := F) (m ((c.tc : Thread nD τ).loc main_arg11))) shapeCasts_S64_S1x64 := by
  show StableHlo.after hostOps1 (W2 m ρ c) (Proc.devRef .tc main_v36) = _
  after_results_simp
  rw [W2_arg11 m ρ c]
  rfl
theorem W5_v37 (c : Dev nD) : W5 m ρ c (Proc.devRef .tc main_v37) = W4 m ρ c (Proc.devRef .tc main_v37) := by
  show StableHlo.after hostOps2 (W4 m ρ c) (Proc.devRef .tc main_v37) = _
  after_results_simp

attribute [local irreducible] Host.gather Host.scatterAdd in
theorem W5_v55 (c : Dev nD) : W5 m ρ c (Proc.devRef .tc main_v55) = Cert.ReferenceIdeal.Model.agg (F := F) (W4 m ρ c (Proc.devRef .tc main_v37)) (m ((c.tc : Thread nD τ).loc main_arg1)) := by
  show StableHlo.after hostOps2 (W4 m ρ c) (Proc.devRef .tc main_v55) = _
  after_results_simp
  rw [W4_v1 m ρ c, W4_v3 m ρ c]
  rfl
theorem W5_v39 (c : Dev nD) : W5 m ρ c (Proc.devRef .tc main_v39) = Cert.ReferenceIdeal.Model.wsl1 (F := F) (m ((c.tc : Thread nD τ).loc main_arg8)) := by
  show StableHlo.after hostOps2 (W4 m ρ c) (Proc.devRef .tc main_v39) = _
  after_results_simp
  rw [W4_arg8 m ρ c]
  rfl
theorem W5_v56 (c : Dev nD) : W5 m ρ c (Proc.devRef .tc main_v56) = shapeCast S1x64 (Cert.ReferenceIdeal.Model.bsl1 (F := F) (m ((c.tc : Thread nD τ).loc main_arg9))) shapeCasts_S64_S1x64 := by
  show StableHlo.after hostOps2 (W4 m ρ c) (Proc.devRef .tc main_v56) = _
  after_results_simp
  rw [W4_arg9 m ρ c]
  rfl
theorem W5_v43 (c : Dev nD) : W5 m ρ c (Proc.devRef .tc main_v43) = Cert.ReferenceIdeal.Model.wsl1 (F := F) (m ((c.tc : Thread nD τ).loc main_arg10)) := by
  show StableHlo.after hostOps2 (W4 m ρ c) (Proc.devRef .tc main_v43) = _
  after_results_simp
  rw [W4_arg10 m ρ c]
  rfl
theorem W5_v57 (c : Dev nD) : W5 m ρ c (Proc.devRef .tc main_v57) = shapeCast S1x64 (Cert.ReferenceIdeal.Model.bsl1 (F := F) (m ((c.tc : Thread nD τ).loc main_arg11))) shapeCasts_S64_S1x64 := by
  show StableHlo.after hostOps2 (W4 m ρ c) (Proc.devRef .tc main_v57) = _
  after_results_simp
  rw [W4_arg11 m ρ c]
  rfl
theorem W7_v58 (c : Dev nD) : W7 m ρ c (Proc.devRef .tc main_v58) = W6 m ρ c (Proc.devRef .tc main_v58) := by
  show StableHlo.after hostOps3 (W6 m ρ c) (Proc.devRef .tc main_v58) = _
  after_results_simp

attribute [local irreducible] Host.gather Host.scatterAdd in
theorem W7_v76 (c : Dev nD) : W7 m ρ c (Proc.devRef .tc main_v76) = Cert.ReferenceIdeal.Model.agg (F := F) (W6 m ρ c (Proc.devRef .tc main_v58)) (m ((c.tc : Thread nD τ).loc main_arg1)) := by
  show StableHlo.after hostOps3 (W6 m ρ c) (Proc.devRef .tc main_v76) = _
  after_results_simp
  rw [W6_v1 m ρ c, W6_v3 m ρ c]
  rfl
theorem W7_v60 (c : Dev nD) : W7 m ρ c (Proc.devRef .tc main_v60) = Cert.ReferenceIdeal.Model.wsl2 (F := F) (m ((c.tc : Thread nD τ).loc main_arg8)) := by
  show StableHlo.after hostOps3 (W6 m ρ c) (Proc.devRef .tc main_v60) = _
  after_results_simp
  rw [W6_arg8 m ρ c]
  rfl
theorem W7_v77 (c : Dev nD) : W7 m ρ c (Proc.devRef .tc main_v77) = shapeCast S1x64 (Cert.ReferenceIdeal.Model.bsl2 (F := F) (m ((c.tc : Thread nD τ).loc main_arg9))) shapeCasts_S64_S1x64 := by
  show StableHlo.after hostOps3 (W6 m ρ c) (Proc.devRef .tc main_v77) = _
  after_results_simp
  rw [W6_arg9 m ρ c]
  rfl
theorem W7_v64 (c : Dev nD) : W7 m ρ c (Proc.devRef .tc main_v64) = Cert.ReferenceIdeal.Model.wsl2 (F := F) (m ((c.tc : Thread nD τ).loc main_arg10)) := by
  show StableHlo.after hostOps3 (W6 m ρ c) (Proc.devRef .tc main_v64) = _
  after_results_simp
  rw [W6_arg10 m ρ c]
  rfl
theorem W7_v78 (c : Dev nD) : W7 m ρ c (Proc.devRef .tc main_v78) = shapeCast S1x64 (Cert.ReferenceIdeal.Model.bsl2 (F := F) (m ((c.tc : Thread nD τ).loc main_arg11))) shapeCasts_S64_S1x64 := by
  show StableHlo.after hostOps3 (W6 m ρ c) (Proc.devRef .tc main_v78) = _
  after_results_simp
  rw [W6_arg11 m ρ c]
  rfl
attribute [local irreducible] Host.scatterAdd in
theorem W9_v85 (c : Dev nD) : W9 m ρ c (Proc.devRef .tc main_v85) = Cert.ReferenceIdeal.Model.pool (F := F) (W8 m ρ c (Proc.devRef .tc main_v79)) (m ((c.tc : Thread nD τ).loc main_arg2)) (m ((c.tc : Thread nD τ).loc main_arg3)) := by
  show StableHlo.after hostOps4 (W8 m ρ c) (Proc.devRef .tc main_v85) = _
  after_results_simp
  rw [W8_arg2 m ρ c, W8_arg3 m ρ c]
  rfl
theorem W9_arg12 (c : Dev nD) : W9 m ρ c (Proc.devRef .tc main_arg12) = (m ((c.tc : Thread nD τ).loc main_arg12)) := by
  show StableHlo.after hostOps4 (W8 m ρ c) (Proc.devRef .tc main_arg12) = _
  after_results_simp
  exact W8_arg12 m ρ c
theorem W9_arg14 (c : Dev nD) : W9 m ρ c (Proc.devRef .tc main_arg14) = (m ((c.tc : Thread nD τ).loc main_arg14)) := by
  show StableHlo.after hostOps4 (W8 m ρ c) (Proc.devRef .tc main_arg14) = _
  after_results_simp
  exact W8_arg14 m ρ c
theorem W9_v86 (c : Dev nD) : W9 m ρ c (Proc.devRef .tc main_v86) = shapeCast S1x64 (m ((c.tc : Thread nD τ).loc main_arg13)) shapeCasts_S64_S1x64 := by
  show StableHlo.after hostOps4 (W8 m ρ c) (Proc.devRef .tc main_v86) = _
  after_results_simp
  rw [W8_arg13 m ρ c]
  rfl
theorem W9_v87 (c : Dev nD) : W9 m ρ c (Proc.devRef .tc main_v87) = shapeCast S1x16 (m ((c.tc : Thread nD τ).loc main_arg15)) shapeCasts_S16_S1x16 := by
  show StableHlo.after hostOps4 (W8 m ρ c) (Proc.devRef .tc main_v87) = _
  after_results_simp
  rw [W8_arg15 m ρ c]
  rfl

end Cert.KernelIdeal.Val

end
-- ==== Proof.BridgeLIdx.lean ====
/-
  One layer's perceptron, the pieces read at an index (at the ideal values, where every float is an extended real and
  every operation exact).

  A plain product of an m×k by a k×n matrix, the contraction on the left operand's columns and the right operand's
  rows, read at (a, b) is the sum over c of A(a, c) · B(c, b): for the host's dot_general, and for the kernel's matrix
  unit accumulating into the zero splat (0 + s = s). A bias of n entries laid along every one of m rows reads its entry
  t at (r, t): for the host, which first makes the vector a one-row matrix and then repeats the row, and for the
  kernel, which repeats a one-row block. A splat of a constant reads the constant everywhere. Last, the common form both
  programs' layers are read to: one row through the two products, the two biases and the two clippings (mlp).
-/
import Idealize.ShloMosaic.PureOps.Ideal.Laws
import Idealize.ShloMosaic.Lib.ValueIdx
import Idealize.ShloMosaic.Lib.ValueLayout
import Idealize.ShloMosaic.Lib.Pipeline.Value
import Idealize.ShloMosaic.Lib.KernelVsHost
import Idealize.ShloMosaic.Lib.StackMember

noncomputable section

open scoped BigOperators

namespace Cert.Bridge

open Idealize.ShloMosaic Idealize.ShloMosaic.ValueIdx

/-- The clipping level of both programs: the extended real the all-zero f32 word denotes. It is never evaluated. -/
abbrev Z : EReal := Ideal.ofBits .f32 0x00000000#32

/-- The host's plain product read at (a, b). -/
theorem hostDot_apply {m k n : Nat} {φ₁ φ₂ : FTy} (prec : Option ContractPrecision)
    (A : FVec Ideal ⟨2, ![m, k]⟩ φ₁) (B : FVec Ideal ⟨2, ![k, n]⟩ φ₂) (a : Fin m) (b : Fin n) :
    Host.dotGeneral (DotDims.plain m k n) prec A B (ix2 a b) = ∑ c : Fin k, A (ix2 a c) * B (ix2 c b) :=
  StackMember.dotGeneral_plain_apply prec A B a b

/-- The kernel's plain product into the zero splat read at (a, b): the same sum. -/
theorem kerDot_apply {m k n : Nat} {φ₁ φ₂ : FTy} (prec : Option ContractPrecision)
    (A : FVec Ideal ⟨2, ![m, k]⟩ φ₁) (B : FVec Ideal ⟨2, ![k, n]⟩ φ₂) (a : Fin m) (b : Fin n) :
    matmul (DotDims.plain m k n) prec A B (constant ⟨2, ![m, n]⟩ .f32 0x00000000#32) (ix2 a b)
      = ∑ c : Fin k, A (ix2 a c) * B (ix2 c b) :=
  (congrFun (matmul_zero_eq_dotGeneral (DotDims.plain m k n) prec A B) (ix2 a b)).trans (hostDot_apply prec A B a b)

/-- The host's bias row: a vector made a one-row matrix, the row repeated down m rows, reads entry t at (r, t). -/
theorem hostRow_apply {α : Type} {m n : Nat} (h1 : (⟨1, ![n]⟩ : Shape).BroadcastsInDim ⟨2, ![1, n]⟩ ![1])
    (h2 : (⟨2, ![1, n]⟩ : Shape).BroadcastsInDim ⟨2, ![m, n]⟩ ![0, 1]) (v : (⟨1, ![n]⟩ : Shape).Idx → α)
    (r : Fin m) (t : Fin n) :
    broadcastInDim ⟨2, ![m, n]⟩ ![0, 1] h2 (broadcastInDim ⟨2, ![1, n]⟩ ![1] h1 v) (ix2 r t) = v (ix1 t) := by
  refine (broadcastInDim_oneRow_apply h2 _ r t).trans ?_
  refine broadcastInDim_apply ![1] h1 v (ix2 (0 : Fin 1) t) (ix1 t) ?_
  intro a
  match a with
  | ⟨0, _⟩ =>
    show t.val = if n = 1 then 0 else t.val
    split
    · have := t.isLt; omega
    · rfl

/-- The kernel's bias row: a one-row block (cast to its own shape) repeated down m rows reads the row at (0, t). -/
theorem kerRow_apply {α : Type} {m n : Nat} (hc : (⟨2, ![1, n]⟩ : Shape).ShapeCasts ⟨2, ![1, n]⟩)
    (hb : (⟨2, ![1, n]⟩ : Shape).Broadcasts ⟨2, ![m, n]⟩) (v : (⟨2, ![1, n]⟩ : Shape).Idx → α) (r : Fin m) (t : Fin n) :
    broadcastTo ⟨2, ![m, n]⟩ (shapeCast ⟨2, ![1, n]⟩ v hc) hb (ix2 r t) = v (ix2 (0 : Fin 1) t) := by
  rw [shapeCast_self]
  exact broadcastTo_1b_ab_apply v hb r t

/-- The host's splat of the zero word reads the clipping level everywhere. -/
theorem hostZero_apply {t : Shape} (h : (⟨0, ![]⟩ : Shape).BroadcastsInDim t ![]) (j : t.Idx) :
    broadcastInDim t ![] h (constant (F := Ideal) ⟨0, ![]⟩ .f32 0x00000000#32) j = Z := rfl

/-- The kernel's splat of the zero scalar reads the clipping level everywhere. -/
theorem kerZero_apply {t : Shape} (j : t.Idx) :
    broadcast t (Scalar.ofBits (F := Ideal) .f32 0x00000000#32) j = Z := rfl

/-- One node's row through a layer's perceptron, as a function of the row's entries: with u the row of the summed
    input (the node's features plus its neighbours' sum), the value at output column q is
    max (∑ k, max (∑ l, u l · Wa l k + ba k) Z · Wb k q + bb q) Z, with Z the clipping level. -/
def mlp {K : Nat} (u : Fin K → EReal) (Wa : Fin K → Fin 64 → EReal) (ba : Fin 64 → EReal)
    (Wb : Fin 64 → Fin 64 → EReal) (bb : Fin 64 → EReal) (q : Fin 64) : EReal :=
  max ((∑ k : Fin 64, max ((∑ l : Fin K, u l * Wa l k) + ba k) Z * Wb k q) + bb q) Z

end Cert.Bridge

end
-- ==== Proof.BridgeLK.lean ====
/-
  The kernel's layer bodies read at an index (at the ideal values).

  The value a layer's body stores for its block of 10000 rows, read at row p and column q, is the perceptron of row p:
  the two blocks it loads are added entry by entry, multiplied by the first weight matrix on the matrix unit into a
  zero accumulator (so the bare sum over the 64 — for the first layer, the one — input columns), the first bias row is
  added, negative parts are clipped, and the same again with the second weight matrix and bias row. The casts of a
  block to its own shape change nothing. The three later layers' bodies are the same text, so is their reading.
-/
import proofs.«159217_j87393994539011_1_alg».proof.Proof.Gen.KernelIdeal.Skeleton
import proofs.«159217_j87393994539011_1_alg».proof.Proof.BridgeLIdx

noncomputable section

open scoped BigOperators

namespace Cert.Bridge

open Idealize.ShloMosaic Idealize.ShloMosaic.ValueIdx

/-- The first layer's body at (p, q): one input column. -/
theorem k0_pay1_apply (x0 x1 : Vec Ideal Cert.KernelIdeal.S10000x1 .f32) (Wa : Vec Ideal Cert.KernelIdeal.S1x64 .f32)
    (x3 : Vec Ideal Cert.KernelIdeal.S1x64 .f32) (Wb : Vec Ideal Cert.KernelIdeal.S64x64 .f32)
    (x5 : Vec Ideal Cert.KernelIdeal.S1x64 .f32) (p : Fin 10000) (q : Fin 64) :
    Cert.KernelIdeal.Gen.k0_pay1 (F := Ideal) x0 x1 Wa x3 Wb x5 (ix2 p q)
      = mlp (fun l : Fin 1 => x0 (ix2 p l) + x1 (ix2 p l)) (fun l k => Wa (ix2 l k)) (fun k => x3 (ix2 (0 : Fin 1) k))
          (fun k c => Wb (ix2 k c)) (fun c => x5 (ix2 (0 : Fin 1) c)) q := by
  unfold Cert.KernelIdeal.Gen.k0_pay1 mlp
  simp only [shapeCast_self]
  refine (maximumf_apply _ _ _).trans ?_
  refine congrArg₂ max ?_ rfl
  refine (addf_apply _ _ _).trans ?_
  refine congrArg₂ (· + ·) ?_ (broadcastTo_1b_ab_apply x5 _ p q)
  refine (kerDot_apply (m := 10000) (k := 64) (n := 64) none _ Wb p q).trans ?_
  refine Finset.sum_congr rfl fun k _ => ?_
  refine congrArg (· * Wb (ix2 k q)) ?_
  refine (maximumf_apply _ _ _).trans ?_
  refine congrArg₂ max ?_ rfl
  refine (addf_apply _ _ _).trans ?_
  refine congrArg₂ (· + ·) ?_ (broadcastTo_1b_ab_apply x3 _ p k)
  exact kerDot_apply (m := 10000) (k := 1) (n := 64) none (addf x0 x1) Wa p k

/-- The second layer's body at (p, q). -/
theorem k1_pay1_apply (x0 x1 : Vec Ideal Cert.KernelIdeal.S10000x64 .f32) (Wa : Vec Ideal Cert.KernelIdeal.S64x64 .f32)
    (x3 : Vec Ideal Cert.KernelIdeal.S1x64 .f32) (Wb : Vec Ideal Cert.KernelIdeal.S64x64 .f32)
    (x5 : Vec Ideal Cert.KernelIdeal.S1x64 .f32) (p : Fin 10000) (q : Fin 64) :
    Cert.KernelIdeal.Gen.k1_pay1 (F := Ideal) x0 x1 Wa x3 Wb x5 (ix2 p q)
      = mlp (fun l : Fin 64 => x0 (ix2 p l) + x1 (ix2 p l)) (fun l k => Wa (ix2 l k)) (fun k => x3 (ix2 (0 : Fin 1) k))
          (fun k c => Wb (ix2 k c)) (fun c => x5 (ix2 (0 : Fin 1) c)) q := by
  unfold Cert.KernelIdeal.Gen.k1_pay1 mlp
  simp only [shapeCast_self]
  refine (maximumf_apply _ _ _).trans ?_
  refine congrArg₂ max ?_ rfl
  refine (addf_apply _ _ _).trans ?_
  refine congrArg₂ (· + ·) ?_ (broadcastTo_1b_ab_apply x5 _ p q)
  refine (kerDot_apply (m := 10000) (k := 64) (n := 64) none _ Wb p q).trans ?_
  refine Finset.sum_congr rfl fun k _ => ?_
  refine congrArg (· * Wb (ix2 k q)) ?_
  refine (maximumf_apply _ _ _).trans ?_
  refine congrArg₂ max ?_ rfl
  refine (addf_apply _ _ _).trans ?_
  refine congrArg₂ (· + ·) ?_ (broadcastTo_1b_ab_apply x3 _ p k)
  exact kerDot_apply (m := 10000) (k := 64) (n := 64) none (addf x0 x1) Wa p k

/-- The third layer's body at (p, q). -/
theorem k2_pay1_apply (x0 x1 : Vec Ideal Cert.KernelIdeal.S10000x64 .f32) (Wa : Vec Ideal Cert.KernelIdeal.S64x64 .f32)
    (x3 : Vec Ideal Cert.KernelIdeal.S1x64 .f32) (Wb : Vec Ideal Cert.KernelIdeal.S64x64 .f32)
    (x5 : Vec Ideal Cert.KernelIdeal.S1x64 .f32) (p : Fin 10000) (q : Fin 64) :
    Cert.KernelIdeal.Gen.k2_pay1 (F := Ideal) x0 x1 Wa x3 Wb x5 (ix2 p q)
      = mlp (fun l : Fin 64 => x0 (ix2 p l) + x1 (ix2 p l)) (fun l k => Wa (ix2 l k)) (fun k => x3 (ix2 (0 : Fin 1) k))
          (fun k c => Wb (ix2 k c)) (fun c => x5 (ix2 (0 : Fin 1) c)) q := by
  unfold Cert.KernelIdeal.Gen.k2_pay1 mlp
  simp only [shapeCast_self]
  refine (maximumf_apply _ _ _).trans ?_
  refine congrArg₂ max ?_ rfl
  refine (addf_apply _ _ _).trans ?_
  refine congrArg₂ (· + ·) ?_ (broadcastTo_1b_ab_apply x5 _ p q)
  refine (kerDot_apply (m := 10000) (k := 64) (n := 64) none _ Wb p q).trans ?_
  refine Finset.sum_congr rfl fun k _ => ?_
  refine congrArg (· * Wb (ix2 k q)) ?_
  refine (maximumf_apply _ _ _).trans ?_
  refine congrArg₂ max ?_ rfl
  refine (addf_apply _ _ _).trans ?_
  refine congrArg₂ (· + ·) ?_ (broadcastTo_1b_ab_apply x3 _ p k)
  exact kerDot_apply (m := 10000) (k := 64) (n := 64) none (addf x0 x1) Wa p k

/-- The fourth layer's body at (p, q). -/
theorem k3_pay1_apply (x0 x1 : Vec Ideal Cert.KernelIdeal.S10000x64 .f32) (Wa : Vec Ideal Cert.KernelIdeal.S64x64 .f32)
    (x3 : Vec Ideal Cert.KernelIdeal.S1x64 .f32) (Wb : Vec Ideal Cert.KernelIdeal.S64x64 .f32)
    (x5 : Vec Ideal Cert.KernelIdeal.S1x64 .f32) (p : Fin 10000) (q : Fin 64) :
    Cert.KernelIdeal.Gen.k3_pay1 (F := Ideal) x0 x1 Wa x3 Wb x5 (ix2 p q)
      = mlp (fun l : Fin 64 => x0 (ix2 p l) + x1 (ix2 p l)) (fun l k => Wa (ix2 l k)) (fun k => x3 (ix2 (0 : Fin 1) k))
          (fun k c => Wb (ix2 k c)) (fun c => x5 (ix2 (0 : Fin 1) c)) q := by
  unfold Cert.KernelIdeal.Gen.k3_pay1 mlp
  simp only [shapeCast_self]
  refine (maximumf_apply _ _ _).trans ?_
  refine congrArg₂ max ?_ rfl
  refine (addf_apply _ _ _).trans ?_
  refine congrArg₂ (· + ·) ?_ (broadcastTo_1b_ab_apply x5 _ p q)
  refine (kerDot_apply (m := 10000) (k := 64) (n := 64) none _ Wb p q).trans ?_
  refine Finset.sum_congr rfl fun k _ => ?_
  refine congrArg (· * Wb (ix2 k q)) ?_
  refine (maximumf_apply _ _ _).trans ?_
  refine congrArg₂ max ?_ rfl
  refine (addf_apply _ _ _).trans ?_
  refine congrArg₂ (· + ·) ?_ (broadcastTo_1b_ab_apply x3 _ p k)
  exact kerDot_apply (m := 10000) (k := 64) (n := 64) none (addf x0 x1) Wa p k

end Cert.Bridge

end
-- ==== Proof.BridgeLR.lean ====
/-
  The reference's layers read at an index (at the ideal values).

  A layer of the reference network, read at node r and column q, is the perceptron of row r: the node's features and
  its neighbours' sum are added entry by entry, multiplied by the first weight matrix (the host's product: the bare sum
  over the 64 — for the first layer, the one — input columns), the first bias is added along every row, negative parts
  are clipped, and the same again with the second weight matrix and bias.
-/
import proofs.«159217_j87393994539011_1_alg».proof.Proof.Model
import proofs.«159217_j87393994539011_1_alg».proof.Proof.BridgeLIdx

noncomputable section

open scoped BigOperators

namespace Cert.Bridge

open Idealize.ShloMosaic Idealize.ShloMosaic.ValueIdx

/-- A later layer at (r, q). -/
theorem layer_apply (X A : FVec Ideal Cert.ReferenceIdeal.S500000x64 .f32) (Wa : FVec Ideal Cert.ReferenceIdeal.S64x64 .f32)
    (ba : FVec Ideal Cert.ReferenceIdeal.S64 .f32) (Wb : FVec Ideal Cert.ReferenceIdeal.S64x64 .f32)
    (bb : FVec Ideal Cert.ReferenceIdeal.S64 .f32) (r : Fin 500000) (q : Fin 64) :
    Cert.ReferenceIdeal.Model.layer (F := Ideal) X A Wa ba Wb bb (ix2 r q)
      = mlp (fun l : Fin 64 => X (ix2 r l) + A (ix2 r l)) (fun l k => Wa (ix2 l k)) (fun k => ba (ix1 k))
          (fun k c => Wb (ix2 k c)) (fun c => bb (ix1 c)) q := by
  unfold Cert.ReferenceIdeal.Model.layer Cert.ReferenceIdeal.Model.relu Cert.ReferenceIdeal.Model.rowB
    Cert.ReferenceIdeal.Model.zeros64 mlp
  refine (maximumf_apply _ _ _).trans ?_
  refine congrArg₂ max ?_ rfl
  refine (addf_apply _ _ _).trans ?_
  refine congrArg₂ (· + ·) ?_ (hostRow_apply _ _ bb r q)
  refine (hostDot_apply (m := 500000) (k := 64) (n := 64) none _ Wb r q).trans ?_
  refine Finset.sum_congr rfl fun k _ => ?_
  refine congrArg (· * Wb (ix2 k q)) ?_
  refine (maximumf_apply _ _ _).trans ?_
  refine congrArg₂ max ?_ rfl
  refine (addf_apply _ _ _).trans ?_
  refine congrArg₂ (· + ·) ?_ (hostRow_apply _ _ ba r k)
  exact hostDot_apply (m := 500000) (k := 64) (n := 64) none (addf X A) Wa r k

/-- The first layer at (r, q): one input column. -/
theorem layer1_apply (X A : FVec Ideal Cert.ReferenceIdeal.S500000x1 .f32) (Wa : FVec Ideal Cert.ReferenceIdeal.S1x64 .f32)
    (ba : FVec Ideal Cert.ReferenceIdeal.S64 .f32) (Wb : FVec Ideal Cert.ReferenceIdeal.S64x64 .f32)
    (bb : FVec Ideal Cert.ReferenceIdeal.S64 .f32) (r : Fin 500000) (q : Fin 64) :
    Cert.ReferenceIdeal.Model.layer1 (F := Ideal) X A Wa ba Wb bb (ix2 r q)
      = mlp (fun l : Fin 1 => X (ix2 r l) + A (ix2 r l)) (fun l k => Wa (ix2 l k)) (fun k => ba (ix1 k))
          (fun k c => Wb (ix2 k c)) (fun c => bb (ix1 c)) q := by
  unfold Cert.ReferenceIdeal.Model.layer1 Cert.ReferenceIdeal.Model.relu Cert.ReferenceIdeal.Model.rowB
    Cert.ReferenceIdeal.Model.zeros64 mlp
  refine (maximumf_apply _ _ _).trans ?_
  refine congrArg₂ max ?_ rfl
  refine (addf_apply _ _ _).trans ?_
  refine congrArg₂ (· + ·) ?_ (hostRow_apply _ _ bb r q)
  refine (hostDot_apply (m := 500000) (k := 64) (n := 64) none _ Wb r q).trans ?_
  refine Finset.sum_congr rfl fun k _ => ?_
  refine congrArg (· * Wb (ix2 k q)) ?_
  refine (maximumf_apply _ _ _).trans ?_
  refine congrArg₂ max ?_ rfl
  refine (addf_apply _ _ _).trans ?_
  refine congrArg₂ (· + ·) ?_ (hostRow_apply _ _ ba r k)
  exact hostDot_apply (m := 500000) (k := 1) (n := 64) none (addf X A) Wa r k

end Cert.Bridge

end
-- ==== Proof.BridgeL.lean ====
/-
  The layer bridge (at the ideal values): what a layer's kernel body stores for one block of 10000 rows, read at row p
  and column q, is the reference network's layer read at node r and column q, whenever the body's two loaded blocks
  hold, along row p, the reference's two operands along row r (the node's features and its neighbours' sum), and its
  two loaded bias rows hold the reference's two bias vectors. The weight matrices are the same arrays on both sides.

  Both sides are the same function of row p / row r, the two weight matrices and the two biases — the perceptron
  max (∑ k, max (∑ l, u l · Wa l k + ba k) Z · Wb k q + bb q) Z with u the summed input row and Z the clipping level —
  so the hypotheses carry one into the other entry by entry. Nothing is asked of the values: only congruence.
-/
import proofs.«159217_j87393994539011_1_alg».proof.Proof.BridgeLK
import proofs.«159217_j87393994539011_1_alg».proof.Proof.BridgeLR

noncomputable section

open scoped BigOperators

namespace Cert.Bridge

open Idealize.ShloMosaic Idealize.ShloMosaic.ValueIdx

/-- The perceptron depends only on the summed input row and the two bias rows, entry by entry. -/
theorem mlp_congr {K : Nat} {u u' : Fin K → EReal} {Wa : Fin K → Fin 64 → EReal} {ba ba' : Fin 64 → EReal}
    {Wb : Fin 64 → Fin 64 → EReal} {bb bb' : Fin 64 → EReal} {q : Fin 64}
    (hu : ∀ l, u l = u' l) (ha : ∀ k, ba k = ba' k) (hb : ∀ k, bb k = bb' k) :
    mlp u Wa ba Wb bb q = mlp u' Wa ba' Wb bb' q := by
  obtain rfl : u = u' := funext hu
  obtain rfl : ba = ba' := funext ha
  obtain rfl : bb = bb' := funext hb
  rfl

/-- The second layer. -/
theorem layer_bridge (X A : FVec Ideal Cert.ReferenceIdeal.S500000x64 .f32) (Wa Wb : FVec Ideal Cert.ReferenceIdeal.S64x64 .f32)
    (ba bb : FVec Ideal Cert.ReferenceIdeal.S64 .f32)
    (x0 x1 : Vec Ideal Cert.KernelIdeal.S10000x64 .f32) (x3 x5 : Vec Ideal Cert.KernelIdeal.S1x64 .f32)
    (p : Fin 10000) (q : Fin 64) (r : Fin 500000)
    (hx0 : ∀ l : Fin 64, x0 (ix2 p l) = X (ix2 r l)) (hx1 : ∀ l : Fin 64, x1 (ix2 p l) = A (ix2 r l))
    (hx3 : ∀ k : Fin 64, x3 (ix2 (0 : Fin 1) k) = ba (ix1 k)) (hx5 : ∀ k : Fin 64, x5 (ix2 (0 : Fin 1) k) = bb (ix1 k)) :
    Cert.KernelIdeal.Gen.k1_pay1 (F := Ideal) x0 x1 Wa x3 Wb x5 (ix2 p q)
      = Cert.ReferenceIdeal.Model.layer (F := Ideal) X A Wa ba Wb bb (ix2 r q) := by
  refine (k1_pay1_apply x0 x1 Wa x3 Wb x5 p q).trans (Eq.trans ?_ (layer_apply X A Wa ba Wb bb r q).symm)
  exact mlp_congr (fun l => by rw [hx0 l, hx1 l]) hx3 hx5

/-- The third layer. -/
theorem layer_bridge2 (X A : FVec Ideal Cert.ReferenceIdeal.S500000x64 .f32) (Wa Wb : FVec Ideal Cert.ReferenceIdeal.S64x64 .f32)
    (ba bb : FVec Ideal Cert.ReferenceIdeal.S64 .f32)
    (x0 x1 : Vec Ideal Cert.KernelIdeal.S10000x64 .f32) (x3 x5 : Vec Ideal Cert.KernelIdeal.S1x64 .f32)
    (p : Fin 10000) (q : Fin 64) (r : Fin 500000)
    (hx0 : ∀ l : Fin 64, x0 (ix2 p l) = X (ix2 r l)) (hx1 : ∀ l : Fin 64, x1 (ix2 p l) = A (ix2 r l))
    (hx3 : ∀ k : Fin 64, x3 (ix2 (0 : Fin 1) k) = ba (ix1 k)) (hx5 : ∀ k : Fin 64, x5 (ix2 (0 : Fin 1) k) = bb (ix1 k)) :
    Cert.KernelIdeal.Gen.k2_pay1 (F := Ideal) x0 x1 Wa x3 Wb x5 (ix2 p q)
      = Cert.ReferenceIdeal.Model.layer (F := Ideal) X A Wa ba Wb bb (ix2 r q) := by
  refine (k2_pay1_apply x0 x1 Wa x3 Wb x5 p q).trans (Eq.trans ?_ (layer_apply X A Wa ba Wb bb r q).symm)
  exact mlp_congr (fun l => by rw [hx0 l, hx1 l]) hx3 hx5

/-- The fourth layer. -/
theorem layer_bridge3 (X A : FVec Ideal Cert.ReferenceIdeal.S500000x64 .f32) (Wa Wb : FVec Ideal Cert.ReferenceIdeal.S64x64 .f32)
    (ba bb : FVec Ideal Cert.ReferenceIdeal.S64 .f32)
    (x0 x1 : Vec Ideal Cert.KernelIdeal.S10000x64 .f32) (x3 x5 : Vec Ideal Cert.KernelIdeal.S1x64 .f32)
    (p : Fin 10000) (q : Fin 64) (r : Fin 500000)
    (hx0 : ∀ l : Fin 64, x0 (ix2 p l) = X (ix2 r l)) (hx1 : ∀ l : Fin 64, x1 (ix2 p l) = A (ix2 r l))
    (hx3 : ∀ k : Fin 64, x3 (ix2 (0 : Fin 1) k) = ba (ix1 k)) (hx5 : ∀ k : Fin 64, x5 (ix2 (0 : Fin 1) k) = bb (ix1 k)) :
    Cert.KernelIdeal.Gen.k3_pay1 (F := Ideal) x0 x1 Wa x3 Wb x5 (ix2 p q)
      = Cert.ReferenceIdeal.Model.layer (F := Ideal) X A Wa ba Wb bb (ix2 r q) := by
  refine (k3_pay1_apply x0 x1 Wa x3 Wb x5 p q).trans (Eq.trans ?_ (layer_apply X A Wa ba Wb bb r q).symm)
  exact mlp_congr (fun l => by rw [hx0 l, hx1 l]) hx3 hx5

/-- The first layer: one input column. -/
theorem layer1_bridge (Z A : FVec Ideal Cert.ReferenceIdeal.S500000x1 .f32) (Wa : FVec Ideal Cert.ReferenceIdeal.S1x64 .f32)
    (Wb : FVec Ideal Cert.ReferenceIdeal.S64x64 .f32) (ba bb : FVec Ideal Cert.ReferenceIdeal.S64 .f32)
    (x0 x1 : Vec Ideal Cert.KernelIdeal.S10000x1 .f32) (x3 x5 : Vec Ideal Cert.KernelIdeal.S1x64 .f32)
    (p : Fin 10000) (q : Fin 64) (r : Fin 500000)
    (hx0 : ∀ l : Fin 1, x0 (ix2 p l) = Z (ix2 r l)) (hx1 : ∀ l : Fin 1, x1 (ix2 p l) = A (ix2 r l))
    (hx3 : ∀ k : Fin 64, x3 (ix2 (0 : Fin 1) k) = ba (ix1 k)) (hx5 : ∀ k : Fin 64, x5 (ix2 (0 : Fin 1) k) = bb (ix1 k)) :
    Cert.KernelIdeal.Gen.k0_pay1 (F := Ideal) x0 x1 Wa x3 Wb x5 (ix2 p q)
      = Cert.ReferenceIdeal.Model.layer1 (F := Ideal) Z A Wa ba Wb bb (ix2 r q) := by
  refine (k0_pay1_apply x0 x1 Wa x3 Wb x5 p q).trans (Eq.trans ?_ (layer1_apply Z A Wa ba Wb bb r q).symm)
  exact mlp_congr (fun l => by rw [hx0 l, hx1 l]) hx3 hx5

end Cert.Bridge

end
-- ==== Proof.KReg0.lean ====
/-
  Region 0 (the first layer's perceptron, one input feature, over fifty blocks of ten thousand rows) as one whole-array
  function: the block a grid point writes back is that point's rows of the reference layer applied to the
  arrays the region finds — the point's rows of the features and of the neighbour sums are rows
  10000·t … 10000·t + 9999 of those arrays, the weight and bias blocks are their whole arrays — and the
  fifty blocks tile the result, so the result array ends holding the reference layer of the inputs.
-/
import proofs.«159217_j87393994539011_1_alg».proof.Proof.Gen.KernelIdeal.Frame
import proofs.«159217_j87393994539011_1_alg».proof.Proof.Model
import proofs.«159217_j87393994539011_1_alg».proof.Proof.BridgeL
import Idealize.ShloMosaic.Lib.Pipeline.Value
import Idealize.ShloMosaic.Lib.ValueIdx
import Idealize.ShloMosaic.Lib.ValueLayout

set_option maxRecDepth 16384

noncomputable section

namespace Cert.KernelIdeal.Val

open Cert.KernelIdeal Cert.KernelIdeal.Gen
open Idealize.ShloMosaic Idealize.ShloMosaic.TcCoe Idealize.ShloMosaic.Tactic Idealize.ShloMosaic.StableHlo
open Idealize.SL.Sem

open Idealize.ShloMosaic.ValueIdx
open Idealize.ShloMosaic.Pipeline (Dat)

variable (V : (c : Dev nD) → (b : Ref sig .tc) → Buf (Elt Ideal) ((c : Thread nD τ).loc b))

theorem hz0 : (![0, 0] : Fin 2 → Nat) = fun _ => 0 := funext fun a => by fin_cases a <;> rfl

/-- The printed index maps over the grid: the row-blocked windows move with the point, the others stay. -/
theorem idx0 : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-- Point `t`'s block of the features: rows `10000·t + p` of the array. -/
theorem iblk0_0_apply (c : Dev nD) (t : Fin cfg0.N) (p : Fin 10000) (l : Fin 1) (r : Fin 500000) (hr : r.val = t.val * 10000 + p.val) :
    (iblk0 V c 0 t : Vec Ideal S10000x1 .f32) (ix2 p l) = (V c main_arg0 : S500000x1.Idx → EReal) (ix2 r l) := by
  unfold iblk0
  rw [View.read_apply]
  show V c main_arg0 _ = V c main_arg0 _
  refine congrArg _ (funext fun a => Fin.ext ?_)
  match a with
  | ⟨0, _⟩ => show win0_0.index t 0 * 10000 + 1 * p.val = r.val; rw [(idx0 t).1, hr]; omega
  | ⟨1, _⟩ => show win0_0.index t 1 * 1 + 1 * l.val = l.val; rw [(idx0 t).2.1]; omega

/-- Point `t`'s block of the neighbour sums: the same rows. -/
theorem iblk0_1_apply (c : Dev nD) (t : Fin cfg0.N) (p : Fin 10000) (l : Fin 1) (r : Fin 500000) (hr : r.val = t.val * 10000 + p.val) :
    (iblk0 V c 1 t : Vec Ideal S10000x1 .f32) (ix2 p l) = (V c main_v13 : S500000x1.Idx → EReal) (ix2 r l) := by
  unfold iblk0
  rw [View.read_apply]
  show V c main_v13 _ = V c main_v13 _
  refine congrArg _ (funext fun a => Fin.ext ?_)
  match a with
  | ⟨0, _⟩ => show win0_1.index t 0 * 10000 + 1 * p.val = r.val; rw [(idx0 t).2.2.1, hr]; omega
  | ⟨1, _⟩ => show win0_1.index t 1 * 1 + 1 * l.val = l.val; rw [(idx0 t).2.2.2.1]; omega

/-- The weight and bias windows' blocks are their whole arrays at every point. -/
theorem iblk0_2_eq (c : Dev nD) (t : Fin cfg0.N) : (iblk0 V c 2 t : Vec Ideal S1x64 .f32) = (V c main_arg4 : S1x64.Idx → EReal) := by
  funext y
  unfold iblk0
  rw [View.read_apply]
  show V c main_arg4 _ = V c main_arg4 _
  refine congrArg _ (funext fun a => Fin.ext ?_)
  match a with
  | ⟨0, _⟩ => show win0_2.index t 0 * 1 + 1 * (y 0).val = (y 0).val; rw [(idx0 t).2.2.2.2.1]; omega
  | ⟨1, _⟩ => show win0_2.index t 1 * 64 + 1 * (y 1).val = (y 1).val; rw [(idx0 t).2.2.2.2.2.1]; omega
theorem iblk0_3_eq (c : Dev nD) (t : Fin cfg0.N) : (iblk0 V c 3 t : Vec Ideal S1x64 .f32) = (V c main_v14 : S1x64.Idx → EReal) := by
  funext y
  unfold iblk0
  rw [View.read_apply]
  show V c main_v14 _ = V c main_v14 _
  refine congrArg _ (funext fun a => Fin.ext ?_)
  match a with
  | ⟨0, _⟩ => show win0_3.index t 0 * 1 + 1 * (y 0).val = (y 0).val; rw [(idx0 t).2.2.2.2.2.2.1]; omega
  | ⟨1, _⟩ => show win0_3.index t 1 * 64 + 1 * (y 1).val = (y 1).val; rw [(idx0 t).2.2.2.2.2.2.2.1]; omega
theorem iblk0_4_eq (c : Dev nD) (t : Fin cfg0.N) : (iblk0 V c 4 t : Vec Ideal S64x64 .f32) = (V c main_arg6 : S64x64.Idx → EReal) := by
  funext y
  unfold iblk0
  rw [View.read_apply]
  show V c main_arg6 _ = V c main_arg6 _
  refine congrArg _ (funext fun a => Fin.ext ?_)
  match a with
  | ⟨0, _⟩ => show win0_4.index t 0 * 64 + 1 * (y 0).val = (y 0).val; rw [(idx0 t).2.2.2.2.2.2.2.2.1]; omega
  | ⟨1, _⟩ => show win0_4.index t 1 * 64 + 1 * (y 1).val = (y 1).val; rw [(idx0 t).2.2.2.2.2.2.2.2.2.1]; omega
theorem iblk0_5_eq (c : Dev nD) (t : Fin cfg0.N) : (iblk0 V c 5 t : Vec Ideal S1x64 .f32) = (V c main_v15 : S1x64.Idx → EReal) := by
  funext y
  unfold iblk0
  rw [View.read_apply]
  show V c main_v15 _ = V c main_v15 _
  refine congrArg _ (funext fun a => Fin.ext ?_)
  match a with
  | ⟨0, _⟩ => show win0_5.index t 0 * 1 + 1 * (y 0).val = (y 0).val; rw [(idx0 t).2.2.2.2.2.2.2.2.2.2.1]; omega
  | ⟨1, _⟩ => show win0_5.index t 1 * 64 + 1 * (y 1).val = (y 1).val; rw [(idx0 t).2.2.2.2.2.2.2.2.2.2.2.1]; omega

variable (ba bb : FVec Ideal Cert.ReferenceIdeal.S64 .f32)

/-- The reference layer of the arrays the region finds (the two biases given as vectors). -/
def G0 (c : Dev nD) : S500000x64.Idx → EReal :=
  Cert.ReferenceIdeal.Model.layer1 (F := Ideal) (V c main_arg0) (V c main_v13) (V c main_arg4) ba (V c main_arg6) bb

/-- What point `t` writes back is its block of the reference layer. -/
theorem flushed0_eq (c : Dev nD)
    (h3 : ∀ k : Fin 64, (V c main_v14 : S1x64.Idx → EReal) (ix2 (0 : Fin 1) k) = ba (ix1 k))
    (h5 : ∀ k : Fin 64, (V c main_v15 : S1x64.Idx → EReal) (ix2 (0 : Fin 1) k) = bb (ix1 k)) (t : Fin cfg0.N) :
    (dat0 V c).flushed 6 t = ((cfg0.win 6).blk t).view.read (Elt Ideal) (G0 V ba bb c) := by
  have hN : grid0.N = 50 := N_0
  show (cfg0.win 6).cut (grid0.coords t) ((dat0 V c).after 6 t) = _
  rw [after0_6]
  unfold out0_6
  rw [View.canon_unit_zero hz0]
  simp only [View.ld_unit_zero (S := S10000x1) hz0, View.ld_unit_zero (S := S64x64) hz0, View.ld_unit_zero (S := S1x64) hz0]
  rw [iblk0_2_eq, iblk0_3_eq, iblk0_4_eq, iblk0_5_eq]
  funext j
  obtain ⟨p, q, rfl⟩ : ∃ (p : Fin 10000) (q : Fin 64), j = ix2 p q := ⟨j 0, j 1, eq_ix2 j⟩
  have ht : t.val < 50 := lt_of_lt_of_eq t.isLt hN
  have hemb : ((cfg0.win 6).blk t).view.emb (ix2 p q) = (ix2 (⟨t.val * 10000 + p.val, by have := p.isLt; omega⟩ : Fin 500000) q : S500000x64.Idx) := by
    funext a; apply Fin.ext
    match a with
    | ⟨0, _⟩ => show win0_6.index t 0 * 10000 + 1 * p.val = t.val * 10000 + p.val; rw [(idx0 t).2.2.2.2.2.2.2.2.2.2.2.2.1]; omega
    | ⟨1, _⟩ => show win0_6.index t 1 * 64 + 1 * q.val = q.val; rw [(idx0 t).2.2.2.2.2.2.2.2.2.2.2.2.2]; omega
  rw [View.read_apply, hemb]
  exact Cert.Bridge.layer1_bridge (V c main_arg0) (V c main_v13) (V c main_arg4) (V c main_arg6) ba bb _ _ _ _ p q _
    (fun l => iblk0_0_apply V c t p l _ rfl) (fun l => iblk0_1_apply V c t p l _ rfl) h3 h5

/-- Every index of the result array is in the block of the point that owns its row. -/
theorem cover0 (i : S500000x64.Idx) : ∃ t : Fin cfg0.N, (cfg0.win 6).flush t = true ∧ i ∈ ((cfg0.win 6).blk t).view.set := by
  have hN : grid0.N = 50 := N_0
  have hi0 : (i 0).val < 500000 := (i 0).isLt
  have hi1 : (i 1).val < 64 := (i 1).isLt
  obtain ⟨t, ht⟩ : ∃ t : Fin cfg0.N, t.val = (i 0).val / 10000 := ⟨⟨(i 0).val / 10000, by rw [show cfg0.N = 50 from hN]; omega⟩, rfl⟩
  refine ⟨t, flush0_6 t, ?_⟩
  show i ∈ ((View.whole main_v16).slice (win0_6.rect t)).set
  rw [View.set_slice_whole, Rect.mem_set_unit]
  intro a
  match a with
  | ⟨0, _⟩ =>
    show win0_6.index t 0 * 10000 ≤ (i 0).val ∧ (i 0).val < win0_6.index t 0 * 10000 + 10000
    rw [(idx0 t).2.2.2.2.2.2.2.2.2.2.2.2.1, ht]
    omega
  | ⟨1, _⟩ =>
    show win0_6.index t 1 * 64 ≤ (i 1).val ∧ (i 1).val < win0_6.index t 1 * 64 + 64
    rw [(idx0 t).2.2.2.2.2.2.2.2.2.2.2.2.2]
    omega

/-- The result array after the region: the reference layer of the arrays the region found. -/
theorem final0 (c : Dev nD)
    (h3 : ∀ k : Fin 64, (V c main_v14 : S1x64.Idx → EReal) (ix2 (0 : Fin 1) k) = ba (ix1 k))
    (h5 : ∀ k : Fin 64, (V c main_v15 : S1x64.Idx → EReal) (ix2 (0 : Fin 1) k) = bb (ix1 k)) :
    (dat0 V c).arrAt 6 cfg0.N = G0 V ba bb c :=
  (dat0 V c).arrAt_eq_of_cover 6 (G0 V ba bb c) (fun t _ => flushed0_eq V ba bb c h3 h5 t) (cover0)

end Cert.KernelIdeal.Val

end
-- ==== Proof.KReg1.lean ====
/-
  Region 1 (a later layer's perceptron over fifty blocks of ten thousand rows) as one whole-array
  function: the block a grid point writes back is that point's rows of the reference layer applied to the
  arrays the region finds — the point's rows of the features and of the neighbour sums are rows
  10000·t … 10000·t + 9999 of those arrays, the weight and bias blocks are their whole arrays — and the
  fifty blocks tile the result, so the result array ends holding the reference layer of the inputs.
-/
import proofs.«159217_j87393994539011_1_alg».proof.Proof.Gen.KernelIdeal.Frame
import proofs.«159217_j87393994539011_1_alg».proof.Proof.Model
import proofs.«159217_j87393994539011_1_alg».proof.Proof.BridgeL
import Idealize.ShloMosaic.Lib.Pipeline.Value
import Idealize.ShloMosaic.Lib.ValueIdx
import Idealize.ShloMosaic.Lib.ValueLayout

set_option maxRecDepth 16384

noncomputable section

namespace Cert.KernelIdeal.Val

open Cert.KernelIdeal Cert.KernelIdeal.Gen
open Idealize.ShloMosaic Idealize.ShloMosaic.TcCoe Idealize.ShloMosaic.Tactic Idealize.ShloMosaic.StableHlo
open Idealize.SL.Sem

open Idealize.ShloMosaic.ValueIdx
open Idealize.ShloMosaic.Pipeline (Dat)

variable (V : (c : Dev nD) → (b : Ref sig .tc) → Buf (Elt Ideal) ((c : Thread nD τ).loc b))

theorem hz1 : (![0, 0] : Fin 2 → Nat) = fun _ => 0 := funext fun a => by fin_cases a <;> rfl

/-- The printed index maps over the grid: the row-blocked windows move with the point, the others stay. -/
theorem idx1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

/-- Point `t`'s block of the features: rows `10000·t + p` of the array. -/
theorem iblk1_0_apply (c : Dev nD) (t : Fin cfg1.N) (p : Fin 10000) (l : Fin 64) (r : Fin 500000) (hr : r.val = t.val * 10000 + p.val) :
    (iblk1 V c 0 t : Vec Ideal S10000x64 .f32) (ix2 p l) = (V c main_v16 : S500000x64.Idx → EReal) (ix2 r l) := by
  unfold iblk1
  rw [View.read_apply]
  show V c main_v16 _ = V c main_v16 _
  refine congrArg _ (funext fun a => Fin.ext ?_)
  match a with
  | ⟨0, _⟩ => show win1_0.index t 0 * 10000 + 1 * p.val = r.val; rw [(idx1 t).1, hr]; omega
  | ⟨1, _⟩ => show win1_0.index t 1 * 64 + 1 * l.val = l.val; rw [(idx1 t).2.1]; omega

/-- Point `t`'s block of the neighbour sums: the same rows. -/
theorem iblk1_1_apply (c : Dev nD) (t : Fin cfg1.N) (p : Fin 10000) (l : Fin 64) (r : Fin 500000) (hr : r.val = t.val * 10000 + p.val) :
    (iblk1 V c 1 t : Vec Ideal S10000x64 .f32) (ix2 p l) = (V c main_v34 : S500000x64.Idx → EReal) (ix2 r l) := by
  unfold iblk1
  rw [View.read_apply]
  show V c main_v34 _ = V c main_v34 _
  refine congrArg _ (funext fun a => Fin.ext ?_)
  match a with
  | ⟨0, _⟩ => show win1_1.index t 0 * 10000 + 1 * p.val = r.val; rw [(idx1 t).2.2.1, hr]; omega
  | ⟨1, _⟩ => show win1_1.index t 1 * 64 + 1 * l.val = l.val; rw [(idx1 t).2.2.2.1]; omega

/-- The weight and bias windows' blocks are their whole arrays at every point. -/
theorem iblk1_2_eq (c : Dev nD) (t : Fin cfg1.N) : (iblk1 V c 2 t : Vec Ideal S64x64 .f32) = (V c main_v18 : S64x64.Idx → EReal) := by
  funext y
  unfold iblk1
  rw [View.read_apply]
  show V c main_v18 _ = V c main_v18 _
  refine congrArg _ (funext fun a => Fin.ext ?_)
  match a with
  | ⟨0, _⟩ => show win1_2.index t 0 * 64 + 1 * (y 0).val = (y 0).val; rw [(idx1 t).2.2.2.2.1]; omega
  | ⟨1, _⟩ => show win1_2.index t 1 * 64 + 1 * (y 1).val = (y 1).val; rw [(idx1 t).2.2.2.2.2.1]; omega
theorem iblk1_3_eq (c : Dev nD) (t : Fin cfg1.N) : (iblk1 V c 3 t : Vec Ideal S1x64 .f32) = (V c main_v35 : S1x64.Idx → EReal) := by
  funext y
  unfold iblk1
  rw [View.read_apply]
  show V c main_v35 _ = V c main_v35 _
  refine congrArg _ (funext fun a => Fin.ext ?_)
  match a with
  | ⟨0, _⟩ => show win1_3.index t 0 * 1 + 1 * (y 0).val = (y 0).val; rw [(idx1 t).2.2.2.2.2.2.1]; omega
  | ⟨1, _⟩ => show win1_3.index t 1 * 64 + 1 * (y 1).val = (y 1).val; rw [(idx1 t).2.2.2.2.2.2.2.1]; omega
theorem iblk1_4_eq (c : Dev nD) (t : Fin cfg1.N) : (iblk1 V c 4 t : Vec Ideal S64x64 .f32) = (V c main_v22 : S64x64.Idx → EReal) := by
  funext y
  unfold iblk1
  rw [View.read_apply]
  show V c main_v22 _ = V c main_v22 _
  refine congrArg _ (funext fun a => Fin.ext ?_)
  match a with
  | ⟨0, _⟩ => show win1_4.index t 0 * 64 + 1 * (y 0).val = (y 0).val; rw [(idx1 t).2.2.2.2.2.2.2.2.1]; omega
  | ⟨1, _⟩ => show win1_4.index t 1 * 64 + 1 * (y 1).val = (y 1).val; rw [(idx1 t).2.2.2.2.2.2.2.2.2.1]; omega
theorem iblk1_5_eq (c : Dev nD) (t : Fin cfg1.N) : (iblk1 V c 5 t : Vec Ideal S1x64 .f32) = (V c main_v36 : S1x64.Idx → EReal) := by
  funext y
  unfold iblk1
  rw [View.read_apply]
  show V c main_v36 _ = V c main_v36 _
  refine congrArg _ (funext fun a => Fin.ext ?_)
  match a with
  | ⟨0, _⟩ => show win1_5.index t 0 * 1 + 1 * (y 0).val = (y 0).val; rw [(idx1 t).2.2.2.2.2.2.2.2.2.2.1]; omega
  | ⟨1, _⟩ => show win1_5.index t 1 * 64 + 1 * (y 1).val = (y 1).val; rw [(idx1 t).2.2.2.2.2.2.2.2.2.2.2.1]; omega

variable (ba bb : FVec Ideal Cert.ReferenceIdeal.S64 .f32)

/-- The reference layer of the arrays the region finds (the two biases given as vectors). -/
def G1 (c : Dev nD) : S500000x64.Idx → EReal :=
  Cert.ReferenceIdeal.Model.layer (F := Ideal) (V c main_v16) (V c main_v34) (V c main_v18) ba (V c main_v22) bb

/-- What point `t` writes back is its block of the reference layer. -/
theorem flushed1_eq (c : Dev nD)
    (h3 : ∀ k : Fin 64, (V c main_v35 : S1x64.Idx → EReal) (ix2 (0 : Fin 1) k) = ba (ix1 k))
    (h5 : ∀ k : Fin 64, (V c main_v36 : S1x64.Idx → EReal) (ix2 (0 : Fin 1) k) = bb (ix1 k)) (t : Fin cfg1.N) :
    (dat1 V c).flushed 6 t = ((cfg1.win 6).blk t).view.read (Elt Ideal) (G1 V ba bb c) := by
  have hN : grid1.N = 50 := N_1
  show (cfg1.win 6).cut (grid1.coords t) ((dat1 V c).after 6 t) = _
  rw [after1_6]
  unfold out1_6
  rw [View.canon_unit_zero hz1]
  simp only [View.ld_unit_zero (S := S10000x64) hz1, View.ld_unit_zero (S := S64x64) hz1, View.ld_unit_zero (S := S1x64) hz1]
  rw [iblk1_2_eq, iblk1_3_eq, iblk1_4_eq, iblk1_5_eq]
  funext j
  obtain ⟨p, q, rfl⟩ : ∃ (p : Fin 10000) (q : Fin 64), j = ix2 p q := ⟨j 0, j 1, eq_ix2 j⟩
  have ht : t.val < 50 := lt_of_lt_of_eq t.isLt hN
  have hemb : ((cfg1.win 6).blk t).view.emb (ix2 p q) = (ix2 (⟨t.val * 10000 + p.val, by have := p.isLt; omega⟩ : Fin 500000) q : S500000x64.Idx) := by
    funext a; apply Fin.ext
    match a with
    | ⟨0, _⟩ => show win1_6.index t 0 * 10000 + 1 * p.val = t.val * 10000 + p.val; rw [(idx1 t).2.2.2.2.2.2.2.2.2.2.2.2.1]; omega
    | ⟨1, _⟩ => show win1_6.index t 1 * 64 + 1 * q.val = q.val; rw [(idx1 t).2.2.2.2.2.2.2.2.2.2.2.2.2]; omega
  rw [View.read_apply, hemb]
  exact Cert.Bridge.layer_bridge (V c main_v16) (V c main_v34) (V c main_v18) (V c main_v22) ba bb _ _ _ _ p q _
    (fun l => iblk1_0_apply V c t p l _ rfl) (fun l => iblk1_1_apply V c t p l _ rfl) h3 h5

/-- Every index of the result array is in the block of the point that owns its row. -/
theorem cover1 (i : S500000x64.Idx) : ∃ t : Fin cfg1.N, (cfg1.win 6).flush t = true ∧ i ∈ ((cfg1.win 6).blk t).view.set := by
  have hN : grid1.N = 50 := N_1
  have hi0 : (i 0).val < 500000 := (i 0).isLt
  have hi1 : (i 1).val < 64 := (i 1).isLt
  obtain ⟨t, ht⟩ : ∃ t : Fin cfg1.N, t.val = (i 0).val / 10000 := ⟨⟨(i 0).val / 10000, by rw [show cfg1.N = 50 from hN]; omega⟩, rfl⟩
  refine ⟨t, flush1_6 t, ?_⟩
  show i ∈ ((View.whole main_v37).slice (win1_6.rect t)).set
  rw [View.set_slice_whole, Rect.mem_set_unit]
  intro a
  match a with
  | ⟨0, _⟩ =>
    show win1_6.index t 0 * 10000 ≤ (i 0).val ∧ (i 0).val < win1_6.index t 0 * 10000 + 10000
    rw [(idx1 t).2.2.2.2.2.2.2.2.2.2.2.2.1, ht]
    omega
  | ⟨1, _⟩ =>
    show win1_6.index t 1 * 64 ≤ (i 1).val ∧ (i 1).val < win1_6.index t 1 * 64 + 64
    rw [(idx1 t).2.2.2.2.2.2.2.2.2.2.2.2.2]
    omega

/-- The result array after the region: the reference layer of the arrays the region found. -/
theorem final1 (c : Dev nD)
    (h3 : ∀ k : Fin 64, (V c main_v35 : S1x64.Idx → EReal) (ix2 (0 : Fin 1) k) = ba (ix1 k))
    (h5 : ∀ k : Fin 64, (V c main_v36 : S1x64.Idx → EReal) (ix2 (0 : Fin 1) k) = bb (ix1 k)) :
    (dat1 V c).arrAt 6 cfg1.N = G1 V ba bb c :=
  (dat1 V c).arrAt_eq_of_cover 6 (G1 V ba bb c) (fun t _ => flushed1_eq V ba bb c h3 h5 t) (cover1)

end Cert.KernelIdeal.Val

end
-- ==== Proof.KReg2.lean ====
/-
  Region 2 (a later layer's perceptron over fifty blocks of ten thousand rows) as one whole-array
  function: the block a grid point writes back is that point's rows of the reference layer applied to the
  arrays the region finds — the point's rows of the features and of the neighbour sums are rows
  10000·t … 10000·t + 9999 of those arrays, the weight and bias blocks are their whole arrays — and the
  fifty blocks tile the result, so the result array ends holding the reference layer of the inputs.
-/
import proofs.«159217_j87393994539011_1_alg».proof.Proof.Gen.KernelIdeal.Frame
import proofs.«159217_j87393994539011_1_alg».proof.Proof.Model
import proofs.«159217_j87393994539011_1_alg».proof.Proof.BridgeL
import Idealize.ShloMosaic.Lib.Pipeline.Value
import Idealize.ShloMosaic.Lib.ValueIdx
import Idealize.ShloMosaic.Lib.ValueLayout

set_option maxRecDepth 16384

noncomputable section

namespace Cert.KernelIdeal.Val

open Cert.KernelIdeal Cert.KernelIdeal.Gen
open Idealize.ShloMosaic Idealize.ShloMosaic.TcCoe Idealize.ShloMosaic.Tactic Idealize.ShloMosaic.StableHlo
open Idealize.SL.Sem

open Idealize.ShloMosaic.ValueIdx
open Idealize.ShloMosaic.Pipeline (Dat)

variable (V : (c : Dev nD) → (b : Ref sig .tc) → Buf (Elt Ideal) ((c : Thread nD τ).loc b))

theorem hz2 : (![0, 0] : Fin 2 → Nat) = fun _ => 0 := funext fun a => by fin_cases a <;> rfl

/-- The printed index maps over the grid: the row-blocked windows move with the point, the others stay. -/
theorem idx2 : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = t.val ∧ win2_6.index t (1 : Fin 2) = 0 :=
  (by decide +kernel : ∀ t : Fin grid2.N, _)

/-- Point `t`'s block of the features: rows `10000·t + p` of the array. -/
theorem iblk2_0_apply (c : Dev nD) (t : Fin cfg2.N) (p : Fin 10000) (l : Fin 64) (r : Fin 500000) (hr : r.val = t.val * 10000 + p.val) :
    (iblk2 V c 0 t : Vec Ideal S10000x64 .f32) (ix2 p l) = (V c main_v37 : S500000x64.Idx → EReal) (ix2 r l) := by
  unfold iblk2
  rw [View.read_apply]
  show V c main_v37 _ = V c main_v37 _
  refine congrArg _ (funext fun a => Fin.ext ?_)
  match a with
  | ⟨0, _⟩ => show win2_0.index t 0 * 10000 + 1 * p.val = r.val; rw [(idx2 t).1, hr]; omega
  | ⟨1, _⟩ => show win2_0.index t 1 * 64 + 1 * l.val = l.val; rw [(idx2 t).2.1]; omega

/-- Point `t`'s block of the neighbour sums: the same rows. -/
theorem iblk2_1_apply (c : Dev nD) (t : Fin cfg2.N) (p : Fin 10000) (l : Fin 64) (r : Fin 500000) (hr : r.val = t.val * 10000 + p.val) :
    (iblk2 V c 1 t : Vec Ideal S10000x64 .f32) (ix2 p l) = (V c main_v55 : S500000x64.Idx → EReal) (ix2 r l) := by
  unfold iblk2
  rw [View.read_apply]
  show V c main_v55 _ = V c main_v55 _
  refine congrArg _ (funext fun a => Fin.ext ?_)
  match a with
  | ⟨0, _⟩ => show win2_1.index t 0 * 10000 + 1 * p.val = r.val; rw [(idx2 t).2.2.1, hr]; omega
  | ⟨1, _⟩ => show win2_1.index t 1 * 64 + 1 * l.val = l.val; rw [(idx2 t).2.2.2.1]; omega

/-- The weight and bias windows' blocks are their whole arrays at every point. -/
theorem iblk2_2_eq (c : Dev nD) (t : Fin cfg2.N) : (iblk2 V c 2 t : Vec Ideal S64x64 .f32) = (V c main_v39 : S64x64.Idx → EReal) := by
  funext y
  unfold iblk2
  rw [View.read_apply]
  show V c main_v39 _ = V c main_v39 _
  refine congrArg _ (funext fun a => Fin.ext ?_)
  match a with
  | ⟨0, _⟩ => show win2_2.index t 0 * 64 + 1 * (y 0).val = (y 0).val; rw [(idx2 t).2.2.2.2.1]; omega
  | ⟨1, _⟩ => show win2_2.index t 1 * 64 + 1 * (y 1).val = (y 1).val; rw [(idx2 t).2.2.2.2.2.1]; omega
theorem iblk2_3_eq (c : Dev nD) (t : Fin cfg2.N) : (iblk2 V c 3 t : Vec Ideal S1x64 .f32) = (V c main_v56 : S1x64.Idx → EReal) := by
  funext y
  unfold iblk2
  rw [View.read_apply]
  show V c main_v56 _ = V c main_v56 _
  refine congrArg _ (funext fun a => Fin.ext ?_)
  match a with
  | ⟨0, _⟩ => show win2_3.index t 0 * 1 + 1 * (y 0).val = (y 0).val; rw [(idx2 t).2.2.2.2.2.2.1]; omega
  | ⟨1, _⟩ => show win2_3.index t 1 * 64 + 1 * (y 1).val = (y 1).val; rw [(idx2 t).2.2.2.2.2.2.2.1]; omega
theorem iblk2_4_eq (c : Dev nD) (t : Fin cfg2.N) : (iblk2 V c 4 t : Vec Ideal S64x64 .f32) = (V c main_v43 : S64x64.Idx → EReal) := by
  funext y
  unfold iblk2
  rw [View.read_apply]
  show V c main_v43 _ = V c main_v43 _
  refine congrArg _ (funext fun a => Fin.ext ?_)
  match a with
  | ⟨0, _⟩ => show win2_4.index t 0 * 64 + 1 * (y 0).val = (y 0).val; rw [(idx2 t).2.2.2.2.2.2.2.2.1]; omega
  | ⟨1, _⟩ => show win2_4.index t 1 * 64 + 1 * (y 1).val = (y 1).val; rw [(idx2 t).2.2.2.2.2.2.2.2.2.1]; omega
theorem iblk2_5_eq (c : Dev nD) (t : Fin cfg2.N) : (iblk2 V c 5 t : Vec Ideal S1x64 .f32) = (V c main_v57 : S1x64.Idx → EReal) := by
  funext y
  unfold iblk2
  rw [View.read_apply]
  show V c main_v57 _ = V c main_v57 _
  refine congrArg _ (funext fun a => Fin.ext ?_)
  match a with
  | ⟨0, _⟩ => show win2_5.index t 0 * 1 + 1 * (y 0).val = (y 0).val; rw [(idx2 t).2.2.2.2.2.2.2.2.2.2.1]; omega
  | ⟨1, _⟩ => show win2_5.index t 1 * 64 + 1 * (y 1).val = (y 1).val; rw [(idx2 t).2.2.2.2.2.2.2.2.2.2.2.1]; omega

variable (ba bb : FVec Ideal Cert.ReferenceIdeal.S64 .f32)

/-- The reference layer of the arrays the region finds (the two biases given as vectors). -/
def G2 (c : Dev nD) : S500000x64.Idx → EReal :=
  Cert.ReferenceIdeal.Model.layer (F := Ideal) (V c main_v37) (V c main_v55) (V c main_v39) ba (V c main_v43) bb

/-- What point `t` writes back is its block of the reference layer. -/
theorem flushed2_eq (c : Dev nD)
    (h3 : ∀ k : Fin 64, (V c main_v56 : S1x64.Idx → EReal) (ix2 (0 : Fin 1) k) = ba (ix1 k))
    (h5 : ∀ k : Fin 64, (V c main_v57 : S1x64.Idx → EReal) (ix2 (0 : Fin 1) k) = bb (ix1 k)) (t : Fin cfg2.N) :
    (dat2 V c).flushed 6 t = ((cfg2.win 6).blk t).view.read (Elt Ideal) (G2 V ba bb c) := by
  have hN : grid2.N = 50 := N_2
  show (cfg2.win 6).cut (grid2.coords t) ((dat2 V c).after 6 t) = _
  rw [after2_6]
  unfold out2_6
  rw [View.canon_unit_zero hz2]
  simp only [View.ld_unit_zero (S := S10000x64) hz2, View.ld_unit_zero (S := S64x64) hz2, View.ld_unit_zero (S := S1x64) hz2]
  rw [iblk2_2_eq, iblk2_3_eq, iblk2_4_eq, iblk2_5_eq]
  funext j
  obtain ⟨p, q, rfl⟩ : ∃ (p : Fin 10000) (q : Fin 64), j = ix2 p q := ⟨j 0, j 1, eq_ix2 j⟩
  have ht : t.val < 50 := lt_of_lt_of_eq t.isLt hN
  have hemb : ((cfg2.win 6).blk t).view.emb (ix2 p q) = (ix2 (⟨t.val * 10000 + p.val, by have := p.isLt; omega⟩ : Fin 500000) q : S500000x64.Idx) := by
    funext a; apply Fin.ext
    match a with
    | ⟨0, _⟩ => show win2_6.index t 0 * 10000 + 1 * p.val = t.val * 10000 + p.val; rw [(idx2 t).2.2.2.2.2.2.2.2.2.2.2.2.1]; omega
    | ⟨1, _⟩ => show win2_6.index t 1 * 64 + 1 * q.val = q.val; rw [(idx2 t).2.2.2.2.2.2.2.2.2.2.2.2.2]; omega
  rw [View.read_apply, hemb]
  exact Cert.Bridge.layer_bridge2 (V c main_v37) (V c main_v55) (V c main_v39) (V c main_v43) ba bb _ _ _ _ p q _
    (fun l => iblk2_0_apply V c t p l _ rfl) (fun l => iblk2_1_apply V c t p l _ rfl) h3 h5

/-- Every index of the result array is in the block of the point that owns its row. -/
theorem cover2 (i : S500000x64.Idx) : ∃ t : Fin cfg2.N, (cfg2.win 6).flush t = true ∧ i ∈ ((cfg2.win 6).blk t).view.set := by
  have hN : grid2.N = 50 := N_2
  have hi0 : (i 0).val < 500000 := (i 0).isLt
  have hi1 : (i 1).val < 64 := (i 1).isLt
  obtain ⟨t, ht⟩ : ∃ t : Fin cfg2.N, t.val = (i 0).val / 10000 := ⟨⟨(i 0).val / 10000, by rw [show cfg2.N = 50 from hN]; omega⟩, rfl⟩
  refine ⟨t, flush2_6 t, ?_⟩
  show i ∈ ((View.whole main_v58).slice (win2_6.rect t)).set
  rw [View.set_slice_whole, Rect.mem_set_unit]
  intro a
  match a with
  | ⟨0, _⟩ =>
    show win2_6.index t 0 * 10000 ≤ (i 0).val ∧ (i 0).val < win2_6.index t 0 * 10000 + 10000
    rw [(idx2 t).2.2.2.2.2.2.2.2.2.2.2.2.1, ht]
    omega
  | ⟨1, _⟩ =>
    show win2_6.index t 1 * 64 ≤ (i 1).val ∧ (i 1).val < win2_6.index t 1 * 64 + 64
    rw [(idx2 t).2.2.2.2.2.2.2.2.2.2.2.2.2]
    omega

/-- The result array after the region: the reference layer of the arrays the region found. -/
theorem final2 (c : Dev nD)
    (h3 : ∀ k : Fin 64, (V c main_v56 : S1x64.Idx → EReal) (ix2 (0 : Fin 1) k) = ba (ix1 k))
    (h5 : ∀ k : Fin 64, (V c main_v57 : S1x64.Idx → EReal) (ix2 (0 : Fin 1) k) = bb (ix1 k)) :
    (dat2 V c).arrAt 6 cfg2.N = G2 V ba bb c :=
  (dat2 V c).arrAt_eq_of_cover 6 (G2 V ba bb c) (fun t _ => flushed2_eq V ba bb c h3 h5 t) (cover2)

end Cert.KernelIdeal.Val

end
-- ==== Proof.KReg3.lean ====
/-
  Region 3 (a later layer's perceptron over fifty blocks of ten thousand rows) as one whole-array
  function: the block a grid point writes back is that point's rows of the reference layer applied to the
  arrays the region finds — the point's rows of the features and of the neighbour sums are rows
  10000·t … 10000·t + 9999 of those arrays, the weight and bias blocks are their whole arrays — and the
  fifty blocks tile the result, so the result array ends holding the reference layer of the inputs.
-/
import proofs.«159217_j87393994539011_1_alg».proof.Proof.Gen.KernelIdeal.Frame
import proofs.«159217_j87393994539011_1_alg».proof.Proof.Model
import proofs.«159217_j87393994539011_1_alg».proof.Proof.BridgeL
import Idealize.ShloMosaic.Lib.Pipeline.Value
import Idealize.ShloMosaic.Lib.ValueIdx
import Idealize.ShloMosaic.Lib.ValueLayout

set_option maxRecDepth 16384

noncomputable section

namespace Cert.KernelIdeal.Val

open Cert.KernelIdeal Cert.KernelIdeal.Gen
open Idealize.ShloMosaic Idealize.ShloMosaic.TcCoe Idealize.ShloMosaic.Tactic Idealize.ShloMosaic.StableHlo
open Idealize.SL.Sem

open Idealize.ShloMosaic.ValueIdx
open Idealize.ShloMosaic.Pipeline (Dat)

variable (V : (c : Dev nD) → (b : Ref sig .tc) → Buf (Elt Ideal) ((c : Thread nD τ).loc b))

theorem hz3 : (![0, 0] : Fin 2 → Nat) = fun _ => 0 := funext fun a => by fin_cases a <;> rfl

/-- The printed index maps over the grid: the row-blocked windows move with the point, the others stay. -/
theorem idx3 : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = 0 ∧ win3_5.index t (1 : Fin 2) = 0
    ∧ win3_6.index t (0 : Fin 2) = t.val ∧ win3_6.index t (1 : Fin 2) = 0 :=
  (by decide +kernel : ∀ t : Fin grid3.N, _)

/-- Point `t`'s block of the features: rows `10000·t + p` of the array. -/
theorem iblk3_0_apply (c : Dev nD) (t : Fin cfg3.N) (p : Fin 10000) (l : Fin 64) (r : Fin 500000) (hr : r.val = t.val * 10000 + p.val) :
    (iblk3 V c 0 t : Vec Ideal S10000x64 .f32) (ix2 p l) = (V c main_v58 : S500000x64.Idx → EReal) (ix2 r l) := by
  unfold iblk3
  rw [View.read_apply]
  show V c main_v58 _ = V c main_v58 _
  refine congrArg _ (funext fun a => Fin.ext ?_)
  match a with
  | ⟨0, _⟩ => show win3_0.index t 0 * 10000 + 1 * p.val = r.val; rw [(idx3 t).1, hr]; omega
  | ⟨1, _⟩ => show win3_0.index t 1 * 64 + 1 * l.val = l.val; rw [(idx3 t).2.1]; omega

/-- Point `t`'s block of the neighbour sums: the same rows. -/
theorem iblk3_1_apply (c : Dev nD) (t : Fin cfg3.N) (p : Fin 10000) (l : Fin 64) (r : Fin 500000) (hr : r.val = t.val * 10000 + p.val) :
    (iblk3 V c 1 t : Vec Ideal S10000x64 .f32) (ix2 p l) = (V c main_v76 : S500000x64.Idx → EReal) (ix2 r l) := by
  unfold iblk3
  rw [View.read_apply]
  show V c main_v76 _ = V c main_v76 _
  refine congrArg _ (funext fun a => Fin.ext ?_)
  match a with
  | ⟨0, _⟩ => show win3_1.index t 0 * 10000 + 1 * p.val = r.val; rw [(idx3 t).2.2.1, hr]; omega
  | ⟨1, _⟩ => show win3_1.index t 1 * 64 + 1 * l.val = l.val; rw [(idx3 t).2.2.2.1]; omega

/-- The weight and bias windows' blocks are their whole arrays at every point. -/
theorem iblk3_2_eq (c : Dev nD) (t : Fin cfg3.N) : (iblk3 V c 2 t : Vec Ideal S64x64 .f32) = (V c main_v60 : S64x64.Idx → EReal) := by
  funext y
  unfold iblk3
  rw [View.read_apply]
  show V c main_v60 _ = V c main_v60 _
  refine congrArg _ (funext fun a => Fin.ext ?_)
  match a with
  | ⟨0, _⟩ => show win3_2.index t 0 * 64 + 1 * (y 0).val = (y 0).val; rw [(idx3 t).2.2.2.2.1]; omega
  | ⟨1, _⟩ => show win3_2.index t 1 * 64 + 1 * (y 1).val = (y 1).val; rw [(idx3 t).2.2.2.2.2.1]; omega
theorem iblk3_3_eq (c : Dev nD) (t : Fin cfg3.N) : (iblk3 V c 3 t : Vec Ideal S1x64 .f32) = (V c main_v77 : S1x64.Idx → EReal) := by
  funext y
  unfold iblk3
  rw [View.read_apply]
  show V c main_v77 _ = V c main_v77 _
  refine congrArg _ (funext fun a => Fin.ext ?_)
  match a with
  | ⟨0, _⟩ => show win3_3.index t 0 * 1 + 1 * (y 0).val = (y 0).val; rw [(idx3 t).2.2.2.2.2.2.1]; omega
  | ⟨1, _⟩ => show win3_3.index t 1 * 64 + 1 * (y 1).val = (y 1).val; rw [(idx3 t).2.2.2.2.2.2.2.1]; omega
theorem iblk3_4_eq (c : Dev nD) (t : Fin cfg3.N) : (iblk3 V c 4 t : Vec Ideal S64x64 .f32) = (V c main_v64 : S64x64.Idx → EReal) := by
  funext y
  unfold iblk3
  rw [View.read_apply]
  show V c main_v64 _ = V c main_v64 _
  refine congrArg _ (funext fun a => Fin.ext ?_)
  match a with
  | ⟨0, _⟩ => show win3_4.index t 0 * 64 + 1 * (y 0).val = (y 0).val; rw [(idx3 t).2.2.2.2.2.2.2.2.1]; omega
  | ⟨1, _⟩ => show win3_4.index t 1 * 64 + 1 * (y 1).val = (y 1).val; rw [(idx3 t).2.2.2.2.2.2.2.2.2.1]; omega
theorem iblk3_5_eq (c : Dev nD) (t : Fin cfg3.N) : (iblk3 V c 5 t : Vec Ideal S1x64 .f32) = (V c main_v78 : S1x64.Idx → EReal) := by
  funext y
  unfold iblk3
  rw [View.read_apply]
  show V c main_v78 _ = V c main_v78 _
  refine congrArg _ (funext fun a => Fin.ext ?_)
  match a with
  | ⟨0, _⟩ => show win3_5.index t 0 * 1 + 1 * (y 0).val = (y 0).val; rw [(idx3 t).2.2.2.2.2.2.2.2.2.2.1]; omega
  | ⟨1, _⟩ => show win3_5.index t 1 * 64 + 1 * (y 1).val = (y 1).val; rw [(idx3 t).2.2.2.2.2.2.2.2.2.2.2.1]; omega

variable (ba bb : FVec Ideal Cert.ReferenceIdeal.S64 .f32)

/-- The reference layer of the arrays the region finds (the two biases given as vectors). -/
def G3 (c : Dev nD) : S500000x64.Idx → EReal :=
  Cert.ReferenceIdeal.Model.layer (F := Ideal) (V c main_v58) (V c main_v76) (V c main_v60) ba (V c main_v64) bb

/-- What point `t` writes back is its block of the reference layer. -/
theorem flushed3_eq (c : Dev nD)
    (h3 : ∀ k : Fin 64, (V c main_v77 : S1x64.Idx → EReal) (ix2 (0 : Fin 1) k) = ba (ix1 k))
    (h5 : ∀ k : Fin 64, (V c main_v78 : S1x64.Idx → EReal) (ix2 (0 : Fin 1) k) = bb (ix1 k)) (t : Fin cfg3.N) :
    (dat3 V c).flushed 6 t = ((cfg3.win 6).blk t).view.read (Elt Ideal) (G3 V ba bb c) := by
  have hN : grid3.N = 50 := N_3
  show (cfg3.win 6).cut (grid3.coords t) ((dat3 V c).after 6 t) = _
  rw [after3_6]
  unfold out3_6
  rw [View.canon_unit_zero hz3]
  simp only [View.ld_unit_zero (S := S10000x64) hz3, View.ld_unit_zero (S := S64x64) hz3, View.ld_unit_zero (S := S1x64) hz3]
  rw [iblk3_2_eq, iblk3_3_eq, iblk3_4_eq, iblk3_5_eq]
  funext j
  obtain ⟨p, q, rfl⟩ : ∃ (p : Fin 10000) (q : Fin 64), j = ix2 p q := ⟨j 0, j 1, eq_ix2 j⟩
  have ht : t.val < 50 := lt_of_lt_of_eq t.isLt hN
  have hemb : ((cfg3.win 6).blk t).view.emb (ix2 p q) = (ix2 (⟨t.val * 10000 + p.val, by have := p.isLt; omega⟩ : Fin 500000) q : S500000x64.Idx) := by
    funext a; apply Fin.ext
    match a with
    | ⟨0, _⟩ => show win3_6.index t 0 * 10000 + 1 * p.val = t.val * 10000 + p.val; rw [(idx3 t).2.2.2.2.2.2.2.2.2.2.2.2.1]; omega
    | ⟨1, _⟩ => show win3_6.index t 1 * 64 + 1 * q.val = q.val; rw [(idx3 t).2.2.2.2.2.2.2.2.2.2.2.2.2]; omega
  rw [View.read_apply, hemb]
  exact Cert.Bridge.layer_bridge3 (V c main_v58) (V c main_v76) (V c main_v60) (V c main_v64) ba bb _ _ _ _ p q _
    (fun l => iblk3_0_apply V c t p l _ rfl) (fun l => iblk3_1_apply V c t p l _ rfl) h3 h5

/-- Every index of the result array is in the block of the point that owns its row. -/
theorem cover3 (i : S500000x64.Idx) : ∃ t : Fin cfg3.N, (cfg3.win 6).flush t = true ∧ i ∈ ((cfg3.win 6).blk t).view.set := by
  have hN : grid3.N = 50 := N_3
  have hi0 : (i 0).val < 500000 := (i 0).isLt
  have hi1 : (i 1).val < 64 := (i 1).isLt
  obtain ⟨t, ht⟩ : ∃ t : Fin cfg3.N, t.val = (i 0).val / 10000 := ⟨⟨(i 0).val / 10000, by rw [show cfg3.N = 50 from hN]; omega⟩, rfl⟩
  refine ⟨t, flush3_6 t, ?_⟩
  show i ∈ ((View.whole main_v79).slice (win3_6.rect t)).set
  rw [View.set_slice_whole, Rect.mem_set_unit]
  intro a
  match a with
  | ⟨0, _⟩ =>
    show win3_6.index t 0 * 10000 ≤ (i 0).val ∧ (i 0).val < win3_6.index t 0 * 10000 + 10000
    rw [(idx3 t).2.2.2.2.2.2.2.2.2.2.2.2.1, ht]
    omega
  | ⟨1, _⟩ =>
    show win3_6.index t 1 * 64 ≤ (i 1).val ∧ (i 1).val < win3_6.index t 1 * 64 + 64
    rw [(idx3 t).2.2.2.2.2.2.2.2.2.2.2.2.2]
    omega

/-- The result array after the region: the reference layer of the arrays the region found. -/
theorem final3 (c : Dev nD)
    (h3 : ∀ k : Fin 64, (V c main_v77 : S1x64.Idx → EReal) (ix2 (0 : Fin 1) k) = ba (ix1 k))
    (h5 : ∀ k : Fin 64, (V c main_v78 : S1x64.Idx → EReal) (ix2 (0 : Fin 1) k) = bb (ix1 k)) :
    (dat3 V c).arrAt 6 cfg3.N = G3 V ba bb c :=
  (dat3 V c).arrAt_eq_of_cover 6 (G3 V ba bb c) (fun t _ => flushed3_eq V ba bb c h3 h5 t) (cover3)

end Cert.KernelIdeal.Val

end
-- ==== Proof.BridgeHScalar.lean ====
/-
  Facts about extended reals that the read-out comparison rests on.

  * The two float literals of the read-out: the pattern of `100.0` denotes the real 100, and the pattern of the
    small constant added to the variance denotes a positive real.
  * A square is never negative, at the infinities too (`⊥ · ⊥ = ⊤`); a finite sum of squares is therefore never
    negative, and neither is its quotient by 100; adding a positive number to it gives a positive number. None of
    this needs the summands to be finite.
  * For a positive `v` (possibly `⊤`) the product with the reciprocal square root is the quotient by the square
    root: `a · rsqrt v = a / sqrt v`. At `v = ⊤` both sides are `a · 0`; at a positive real `v` the root is a
    positive real and the quotient is the product with its inverse. (At `v = 0` and below the two conventions
    differ, which is why positivity is proved first.)
  * The variance's divisor as the reference writes it, `100 − (0 as a float)`, is the same 100, and it is above
    zero, so the guard on it is true.
-/
import Idealize.ShloMosaic.PureOps.Ideal.Laws

noncomputable section

namespace Cert.Bridge.Scalar

open Idealize.ShloMosaic
open scoped BigOperators

/-! ## The literals -/

/-- The pattern of `100.0` denotes the real 100. -/
theorem ofBits_hundred : Ideal.ofBits .f32 0x42C80000#32 = ((100 : ℝ) : EReal) := by
  simp [Ideal.ofBits, Ideal.ieee, -EReal.coe_mul]; norm_num

/-- The pattern of the constant added to the variance denotes `10995116 · 2⁻⁴⁰`. -/
theorem ofBits_eps : Ideal.ofBits .f32 0x3727C5AC#32 = ((10995116 * (2 : ℝ) ^ (-40 : Int) : ℝ) : EReal) := by
  simp [Ideal.ofBits, Ideal.ieee, -EReal.coe_mul]

/-- … which is positive. -/
theorem ofBits_eps_pos : (0 : EReal) < Ideal.ofBits .f32 0x3727C5AC#32 := by
  rw [ofBits_eps]
  have h : (0 : ℝ) < 10995116 * (2 : ℝ) ^ (-40 : Int) := by positivity
  exact_mod_cast h

/-- A hundred is not zero. -/
theorem ofBits_hundred_ne_zero : Ideal.ofBits .f32 0x42C80000#32 ≠ 0 := by
  rw [ofBits_hundred]
  have h : (100 : ℝ) ≠ 0 := by norm_num
  exact_mod_cast h

/-! ## Squares, their sums, their mean -/

/-- A square is never negative on the extended reals. -/
theorem mul_self_nonneg (d : EReal) : 0 ≤ d * d := by
  induction d using EReal.rec with
  | bot => rw [EReal.bot_mul_bot]; exact le_top
  | top => rw [EReal.top_mul_top]; exact le_top
  | coe r =>
    rw [← EReal.coe_mul]
    have h : (0 : ℝ) ≤ r * r := _root_.mul_self_nonneg r
    exact_mod_cast h

/-- A finite sum of squares is never negative. -/
theorem sum_mul_self_nonneg {ι : Type} (s : Finset ι) (d : ι → EReal) : 0 ≤ ∑ i ∈ s, d i * d i :=
  Finset.sum_nonneg fun i _ => mul_self_nonneg (d i)

/-- The quotient of a non-negative number by the literal 100 is non-negative. -/
theorem div_hundred_nonneg {a : EReal} (h : 0 ≤ a) : 0 ≤ Ideal.div a (Ideal.ofBits .f32 0x42C80000#32) := by
  rw [ofBits_hundred, Ideal.div_coe (by norm_num : (100 : ℝ) ≠ 0)]
  have h' : (0 : EReal) ≤ ((1 / 100 : ℝ) : EReal) := by
    have : (0 : ℝ) ≤ 1 / 100 := by norm_num
    exact_mod_cast this
  exact mul_nonneg h h'

/-- A non-negative number plus the small constant is positive. -/
theorem add_eps_pos {a : EReal} (h : 0 ≤ a) : 0 < a + Ideal.ofBits .f32 0x3727C5AC#32 :=
  calc (0 : EReal) < Ideal.ofBits .f32 0x3727C5AC#32 := ofBits_eps_pos
    _ = 0 + Ideal.ofBits .f32 0x3727C5AC#32 := (zero_add _).symm
    _ ≤ a + Ideal.ofBits .f32 0x3727C5AC#32 := add_le_add h le_rfl

/-- The mean of a finite family of squares, plus the small constant, is positive: whatever the family. -/
theorem var_add_eps_pos {ι : Type} (s : Finset ι) (d : ι → EReal) :
    0 < Ideal.div (∑ i ∈ s, d i * d i) (Ideal.ofBits .f32 0x42C80000#32) + Ideal.ofBits .f32 0x3727C5AC#32 :=
  add_eps_pos (div_hundred_nonneg (sum_mul_self_nonneg s d))

/-! ## The reciprocal square root against the quotient by the square root -/

/-- For a positive `v`, `⊤` included, `a · rsqrt v = a / sqrt v`. -/
theorem mul_rsqrt_eq_div_sqrt (a v : EReal) (hv : 0 < v) : a * Ideal.rsqrt v = Ideal.div a (Ideal.sqrt v) := by
  induction v using EReal.rec with
  | bot => exact absurd hv (not_lt.mpr bot_le)
  | top => rw [Ideal.rsqrt_top, Ideal.sqrt_top, Ideal.div, if_neg EReal.top_ne_zero, EReal.inv_top]
  | coe r =>
    have hr : 0 < r := EReal.coe_pos.mp hv
    have hs : 0 < Real.sqrt r := Real.sqrt_pos.mpr hr
    have hne : ((Real.sqrt r : ℝ) : EReal) ≠ 0 := by exact_mod_cast hs.ne'
    rw [Ideal.rsqrt_coe, Ideal.sqrt_coe, if_neg (not_lt.mpr hr.le), if_neg hr.ne', if_neg (not_lt.mpr hr.le),
      Ideal.div, if_neg hne, EReal.coe_inv]

/-! ## The variance's divisor and its guard -/

/-- The integer zero read as a float is zero. -/
theorem sitofp_zero : FloatOps.sitofp (F := Ideal) .f32 (0#32 : BitVec 32) = (0 : EReal) := by
  show (((0#32 : BitVec 32).toInt : ℝ) : EReal) = 0
  simp

/-- The divisor `100 − 0` is the literal 100. -/
theorem varN_eq : FloatOps.subf (F := Ideal) (φ := .f32) (Ideal.ofBits .f32 0x42C80000#32)
      (FloatOps.sitofp (F := Ideal) .f32 (0#32 : BitVec 32)) = Ideal.ofBits .f32 0x42C80000#32 := by
  rw [sitofp_zero]; exact sub_zero _

/-- The literal 100 is above the literal zero: the guard is true. -/
theorem guard_eq : FloatOps.cmpf (F := Ideal) (φ := .f32) .ogt (Ideal.ofBits .f32 0x42C80000#32)
      (Ideal.ofBits .f32 0x00000000#32) = 1#1 := by
  show Ideal.cmp .ogt _ _ = 1#1
  rw [Ideal.ofBits_zero_f32, ofBits_hundred]
  have h : (0 : EReal) < ((100 : ℝ) : EReal) := by
    have : (0 : ℝ) < 100 := by norm_num
    exact_mod_cast this
  simp [Ideal.cmp, h]

end Cert.Bridge.Scalar

end
-- ==== Proof.BridgeHIdx.lean ====
/-
  Layout operations and column sums of the read-out, read at an index given by its coordinates.

  * The host's row broadcast is two steps, a vector of length `b` laid as the one row of a `1 × b` array and that row
    repeated down `a` rows; read at `(p, c)` it is the vector at `c`, whatever the row `p`.
  * A sum down the rows of an `n × b` array, read at column `c`, is `∑ k, y (k, c)`: the source indices over the
    reduced index `c` are exactly the `(k, c)`. This is so of the kernel's reduction (a bare sum) and of the host's (the
    initial value plus the sum).
-/
import Idealize.ShloMosaic.PureOps.Ideal.Laws
import Idealize.ShloMosaic.Lib.ValueIdx
import Idealize.ShloMosaic.Lib.ValueLayout
import Idealize.ShloMosaic.Lib.Pipeline.Value

noncomputable section

namespace Cert.Bridge.Idx

open Idealize.ShloMosaic Idealize.ShloMosaic.ValueIdx
open scoped BigOperators

/-! ## The host's row broadcast -/

section Layout
variable {α : Type}

/-- A vector of length `b` laid as the row of a `1 × b` array reads, at `(u, c)`, the vector at `c`. -/
theorem bid_b_1b_apply {b : ℕ} (v : (⟨1, ![b]⟩ : Shape).Idx → α)
    (h : (⟨1, ![b]⟩ : Shape).BroadcastsInDim ⟨2, ![1, b]⟩ ![1]) (u : Fin 1) (c : Fin b) :
    broadcastInDim ⟨2, ![1, b]⟩ ![1] h v (ix2 u c) = v (ix1 c) := by
  refine broadcastInDim_apply _ h v (ix2 u c) (ix1 c) fun ax => ?_
  match ax with
  | ⟨0, _⟩ =>
    show c.val = if b = 1 then 0 else c.val
    split
    · have := c.isLt; omega
    · rfl

/-- The one row of a `1 × b` array repeated down `a` rows reads, at `(p, c)`, the row at `c`. -/
theorem bid_1b_ab_apply {a b : ℕ} (v : (⟨2, ![1, b]⟩ : Shape).Idx → α)
    (h : (⟨2, ![1, b]⟩ : Shape).BroadcastsInDim ⟨2, ![a, b]⟩ ![0, 1]) (p : Fin a) (c : Fin b) :
    broadcastInDim ⟨2, ![a, b]⟩ ![0, 1] h v (ix2 p c) = v (ix2 (0 : Fin 1) c) := by
  refine broadcastInDim_apply _ h v (ix2 p c) (ix2 (0 : Fin 1) c) fun ax => ?_
  match ax with
  | ⟨0, _⟩ => rfl
  | ⟨1, _⟩ =>
    show c.val = if b = 1 then 0 else c.val
    split
    · have := c.isLt; omega
    · rfl

/-- The two steps together: a vector repeated down `a` rows reads, at `(p, c)`, the vector at `c`. -/
theorem bid_row_apply {a b : ℕ} (v : (⟨1, ![b]⟩ : Shape).Idx → α)
    (h1 : (⟨1, ![b]⟩ : Shape).BroadcastsInDim ⟨2, ![1, b]⟩ ![1])
    (h2 : (⟨2, ![1, b]⟩ : Shape).BroadcastsInDim ⟨2, ![a, b]⟩ ![0, 1]) (p : Fin a) (c : Fin b) :
    broadcastInDim ⟨2, ![a, b]⟩ ![0, 1] h2 (broadcastInDim ⟨2, ![1, b]⟩ ![1] h1 v) (ix2 p c) = v (ix1 c) :=
  (bid_1b_ab_apply _ h2 p c).trans (bid_b_1b_apply v h1 0 c)

end Layout

/-! ## Sums down the rows -/

section Sums

/-- The source index over column `c` with row coordinate `k` is `(k, c)`. -/
theorem lift_col {n b : ℕ} (h : (⟨2, ![n, b]⟩ : Shape).Reduces [0] ⟨1, ![b]⟩) (c : Fin b) (k : Fin n) :
    h.lift (ix1 c) k = ix2 k c := by
  funext ax
  apply Fin.ext
  match ax with
  | ⟨0, _⟩ => rfl
  | ⟨1, _⟩ => rfl

/-- The kernel's sum down the rows, at column `c`: `∑ k, y (k, c)`. The accumulator's hypothesis is typed as a
    printed program writes it. -/
theorem multiReduction_col {n b : ℕ} (y : FVec Ideal ⟨2, ![n, b]⟩ .f32)
    (h : (⟨2, ![n, b]⟩ : Shape).Reduces [0] ⟨1, ![b]⟩) (hφ : FKind.Formats .f32)
    (hacc : (0x00000000#32 : BitVec 32) = 0x00000000#32) (c : Fin b) :
    multiReduction .add [0] ⟨1, ![b]⟩ y 0x00000000#32 h hφ hacc (ix1 c) = ∑ k : Fin n, y (ix2 k c) := by
  refine (Ideal.multiReduction_add_single y 0x00000000#32 h hφ hacc (ix1 c)).trans ?_
  exact Finset.sum_congr rfl fun k _ => congrArg y (lift_col h c k)

/-- The host's sum down the rows, at column `c`: the initial value plus `∑ k, y (k, c)`. -/
theorem hostReduceAdd_col {n b : ℕ} (y : FVec Ideal ⟨2, ![n, b]⟩ .f32) (init : FVec Ideal ⟨0, ![]⟩ .f32)
    (h' : (⟨2, ![n, b]⟩ : Shape).ReducesTo [0] ⟨1, ![b]⟩) (hu : 0 < (⟨0, ![]⟩ : Shape).numel) (c : Fin b) :
    Host.reduceAdd y init h' hu (ix1 c) = init (Shape.Idx.first hu) + ∑ k : Fin n, y (ix2 k c) := by
  have h : (⟨2, ![n, b]⟩ : Shape).Reduces [0] ⟨1, ![b]⟩ := ⟨h'.1, Nat.one_pos, h'.2⟩
  refine (Ideal.hostReduceAdd_single h' h y (init (Shape.Idx.first hu)) (ix1 c)).trans ?_
  exact congrArg (init (Shape.Idx.first hu) + ·) (Finset.sum_congr rfl fun k _ => congrArg y (lift_col h c k))

end Sums

end Cert.Bridge.Idx

end
-- ==== Proof.BridgeHK.lean ====
/-
  The read-out kernel's stored value, read at an index.

  Written `y` for the 100 × 16 array `relu (p·W₁ + b₁)·W₂ + b₂` (two matrix products into zero accumulators, the bias
  rows repeated down the hundred rows, negative parts clipped), the kernel stores, at `(r, c)`,

      (y (r, c) − m c) · rsqrt (v c + ε),   m c = (∑ k, y (k, c)) / 100,   v c = (∑ k, (y (k, c) − m c)²) / 100,

  with `100` and `ε` the two float literals of the program. The stored value is stated here as a composition of four
  functions of `y` (column mean, centred array, column variance, standardised array), the printed value is that
  composition by unfolding, and each function is read at an index: the sums down the rows are sums over the row
  coordinate, the length-16 results laid as a `1 × 16` row and repeated down the rows read the same entry at every row.
-/
import proofs.«159217_j87393994539011_1_alg».proof.Proof.Gen.KernelIdeal.Skeleton
import proofs.«159217_j87393994539011_1_alg».proof.Proof.BridgeHScalar
import proofs.«159217_j87393994539011_1_alg».proof.Proof.BridgeHIdx

noncomputable section

namespace Cert.Bridge

open Idealize.ShloMosaic Idealize.ShloMosaic.ValueIdx
open scoped BigOperators

/-! ## The column statistics of a 100 × 16 array, as extended reals -/

/-- The column mean: the column's sum over the literal 100. -/
def colMean (y : FVec Ideal ⟨2, ![100, 16]⟩ .f32) (c : Fin 16) : EReal :=
  Ideal.div (∑ k : Fin 100, y (ix2 k c)) (Ideal.ofBits .f32 0x42C80000#32)

/-- An entry less its column's mean. -/
def colDev (y : FVec Ideal ⟨2, ![100, 16]⟩ .f32) (k : Fin 100) (c : Fin 16) : EReal := y (ix2 k c) - colMean y c

/-- The column variance: the sum of the squared deviations over the literal 100. -/
def colVar (y : FVec Ideal ⟨2, ![100, 16]⟩ .f32) (c : Fin 16) : EReal :=
  Ideal.div (∑ k : Fin 100, colDev y k c * colDev y k c) (Ideal.ofBits .f32 0x42C80000#32)

/-- The variance plus the small constant is positive, whatever the array (no entry need be finite). -/
theorem colVar_add_eps_pos (y : FVec Ideal ⟨2, ![100, 16]⟩ .f32) (c : Fin 16) :
    0 < colVar y c + Ideal.ofBits .f32 0x3727C5AC#32 :=
  Scalar.var_add_eps_pos Finset.univ fun k => colDev y k c

/-! ## The kernel's value as a composition -/

section Kernel
open Cert.KernelIdeal

section AnyInstance
variable {F : FTy → Type} [FloatOps F]

/-- The sum down the rows. -/
def sumK (y : FVec F S100x16 .f32) : FVec F S16 .f32 :=
  multiReduction .add [0] S16 y 0x00000000#32 Gen.reduces_S100x16_S16 (.inl rfl) rfl

/-- The column means, as a `1 × 16` row. -/
def meanK (y : FVec F S100x16 .f32) : FVec F S1x16 .f32 :=
  divf (shapeCast S1x16 (sumK y) Gen.shapeCasts_S16_S1x16) (broadcast S1x16 (Scalar.ofBits .f32 0x42C80000#32))

/-- The array less its column means. -/
def centK (y : FVec F S100x16 .f32) : FVec F S100x16 .f32 :=
  subf y (broadcastTo S100x16 (meanK y) Gen.broadcasts_S1x16_S100x16)

/-- The column variances, as a `1 × 16` row. -/
def varK (y : FVec F S100x16 .f32) : FVec F S1x16 .f32 :=
  divf (shapeCast S1x16 (sumK (mulf (centK y) (centK y))) Gen.shapeCasts_S16_S1x16)
    (broadcast S1x16 (Scalar.ofBits .f32 0x42C80000#32))

/-- The standardised array. -/
def tailK (y : FVec F S100x16 .f32) : FVec F S100x16 .f32 :=
  mulf (centK y)
    (broadcastTo S100x16 (rsqrt (addf (varK y) (broadcast S1x16 (Scalar.ofBits .f32 0x3727C5AC#32))))
      Gen.broadcasts_S1x16_S100x16)

/-- The hidden layer `relu (p·W₁ + b₁)`. -/
def hidK (P : Vec F S100x64 .f32) (Wl1 : Vec F S64x64 .f32) (x2 : Vec F S1x64 .f32) : FVec F S100x64 .f32 :=
  maximumf
    (addf (matmul dot_S100x64_S64x64_S100x64_1_0_0_1_n_n none (shapeCast S100x64 P Gen.shapeCasts_S100x64_S100x64) Wl1
        (constant S100x64 .f32 0x00000000#32))
      (broadcastTo S100x64 (shapeCast S1x64 x2 Gen.shapeCasts_S1x64_S1x64) Gen.broadcasts_S1x64_S100x64))
    (broadcast S100x64 (Scalar.ofBits .f32 0x00000000#32))

/-- The array `y = relu (p·W₁ + b₁)·W₂ + b₂`. -/
def yK (P : Vec F S100x64 .f32) (Wl1 : Vec F S64x64 .f32) (x2 : Vec F S1x64 .f32) (Wl2 : Vec F S64x16 .f32)
    (x4 : Vec F S1x16 .f32) : FVec F S100x16 .f32 :=
  addf (matmul dot_S100x64_S64x16_S100x16_1_0_0_1_n_n none (hidK P Wl1 x2) Wl2 (constant S100x16 .f32 0x00000000#32))
    (broadcastTo S100x16 (shapeCast S1x16 x4 Gen.shapeCasts_S1x16_S1x16) Gen.broadcasts_S1x16_S100x16)

/-- The printed stored value is the standardisation of `y`: the printed sequence is this composition, step for step,
    at every float instance. -/
theorem k4_pay1_eq (P : Vec F S100x64 .f32) (Wl1 : Vec F S64x64 .f32) (x2 : Vec F S1x64 .f32)
    (Wl2 : Vec F S64x16 .f32) (x4 : Vec F S1x16 .f32) :
    Gen.k4_pay1 P Wl1 x2 Wl2 x4 = tailK (yK P Wl1 x2 Wl2 x4) := rfl

end AnyInstance

/-! ## Each step at an index -/

theorem sumK_apply (y : FVec Ideal S100x16 .f32) (c : Fin 16) : sumK (F := Ideal) y (ix1 c) = ∑ k : Fin 100, y (ix2 k c) :=
  Idx.multiReduction_col y Gen.reduces_S100x16_S16 (.inl rfl) rfl c

theorem meanK_apply (y : FVec Ideal S100x16 .f32) (u : Fin 1) (c : Fin 16) : meanK (F := Ideal) y (ix2 u c) = colMean y c := by
  show Ideal.div (shapeCast S1x16 (sumK (F := Ideal) y) Gen.shapeCasts_S16_S1x16 (ix2 u c)) (Ideal.ofBits .f32 0x42C80000#32) = _
  refine congrArg (fun t => Ideal.div t (Ideal.ofBits .f32 0x42C80000#32)) ?_
  exact (shapeCast_a_1a_apply (sumK (F := Ideal) y) Gen.shapeCasts_S16_S1x16 u c).trans (sumK_apply y c)

theorem centK_apply (y : FVec Ideal S100x16 .f32) (r : Fin 100) (c : Fin 16) : centK (F := Ideal) y (ix2 r c) = colDev y r c := by
  show y (ix2 r c) - broadcastTo S100x16 (meanK (F := Ideal) y) Gen.broadcasts_S1x16_S100x16 (ix2 r c) = y (ix2 r c) - colMean y c
  refine congrArg (fun t => y (ix2 r c) - t) ?_
  exact (broadcastTo_1b_ab_apply (meanK (F := Ideal) y) Gen.broadcasts_S1x16_S100x16 r c).trans (meanK_apply y 0 c)

theorem varK_apply (y : FVec Ideal S100x16 .f32) (u : Fin 1) (c : Fin 16) : varK (F := Ideal) y (ix2 u c) = colVar y c := by
  show Ideal.div
      (shapeCast S1x16 (sumK (F := Ideal) (mulf (centK (F := Ideal) y) (centK (F := Ideal) y))) Gen.shapeCasts_S16_S1x16 (ix2 u c))
      (Ideal.ofBits .f32 0x42C80000#32) = _
  refine congrArg (fun t => Ideal.div t (Ideal.ofBits .f32 0x42C80000#32)) ?_
  refine (shapeCast_a_1a_apply (sumK (F := Ideal) (mulf (centK (F := Ideal) y) (centK (F := Ideal) y)))
    Gen.shapeCasts_S16_S1x16 u c).trans ?_
  refine (sumK_apply (mulf (centK (F := Ideal) y) (centK (F := Ideal) y)) c).trans ?_
  refine Finset.sum_congr rfl fun k _ => ?_
  show centK (F := Ideal) y (ix2 k c) * centK (F := Ideal) y (ix2 k c) = _
  rw [centK_apply]

/-- The kernel's standardised array at `(r, c)`. -/
theorem tailK_apply (y : FVec Ideal S100x16 .f32) (r : Fin 100) (c : Fin 16) :
    tailK (F := Ideal) y (ix2 r c) = colDev y r c * Ideal.rsqrt (colVar y c + Ideal.ofBits .f32 0x3727C5AC#32) := by
  show centK (F := Ideal) y (ix2 r c)
      * broadcastTo S100x16 (rsqrt (addf (varK (F := Ideal) y) (broadcast S1x16 (Scalar.ofBits (F := Ideal) .f32 0x3727C5AC#32))))
          Gen.broadcasts_S1x16_S100x16 (ix2 r c) = _
  rw [centK_apply]
  refine congrArg (fun t => colDev y r c * t) ?_
  refine (broadcastTo_1b_ab_apply _ Gen.broadcasts_S1x16_S100x16 r c).trans ?_
  show Ideal.rsqrt (varK (F := Ideal) y (ix2 (0 : Fin 1) c) + Ideal.ofBits .f32 0x3727C5AC#32) = _
  rw [varK_apply]

end Kernel

end Cert.Bridge

end
-- ==== Proof.BridgeHRef.lean ====
/-
  The reference's read-out, read at an index.

  Written `y` for the 100 × 16 array `relu (p·W₁ + b₁)·W₂ + b₂`, the reference returns, at `(r, c)`,

      (y (r, c) − m c) / sqrt (v c + ε),   m c = (0 + ∑ k, y (k, c)) / 100,   v c = (0 + ∑ k, (y (k, c) − m c)²) / (100 − 0),

  the variance under a guard `100 − 0 > 0` whose other branch is never taken: the integer zero read as a float is
  zero, so the divisor is the literal 100, which is above zero. The sums down the rows start from the literal zero,
  which adds nothing. The mean the variance subtracts is computed a second time by the reference, through a
  `1 × 16` row; it is the same number. So the reference's mean, squared deviations and variance are the column
  statistics `colMean`, `colDev`, `colVar` of `y`, and the result is `colDev / sqrt (colVar + ε)`.
-/
import proofs.«159217_j87393994539011_1_alg».proof.Proof.Model
import proofs.«159217_j87393994539011_1_alg».proof.Proof.BridgeHK

noncomputable section

namespace Cert.Bridge

open Idealize.ShloMosaic Idealize.ShloMosaic.ValueIdx
open scoped BigOperators

namespace RefSide
open Cert.ReferenceIdeal Cert.ReferenceIdeal.Facts₀ Cert.ReferenceIdeal.Facts

section AnyInstance
variable {F : FTy → Type} [FloatOps F]

/-- The reference's standardisation of a 100 × 16 array. -/
def tailR (y : Model.C F S100x16 .f32) : Model.C F S100x16 .f32 :=
  Host.divf (subf y (Model.rowO (Model.mean16 y)))
    (Model.rowO (Host.sqrt (addf (Model.var16 y) (broadcastInDim S16 ![] bcast_S_S16 (constant S_ .f32 0x3727C5AC#32)))))

/-- The reference's read-out is the standardisation of its `y`, at every float instance. -/
theorem head_eq (p : Model.C F S100x64 .f32) (Wl1 : Model.C F S64x64 .f32) (bl1 : Model.C F S64 .f32)
    (Wl2 : Model.C F S64x16 .f32) (bl2 : Model.C F S16 .f32) :
    Model.head p Wl1 bl1 Wl2 bl2 = tailR (Model.headY p Wl1 bl1 Wl2 bl2) := rfl

end AnyInstance

/-- A sixteen-vector repeated down the rows reads, at `(r, c)`, the vector at `c`. -/
theorem rowO_apply (v : FVec Ideal S16 .f32) (r : Fin 100) (c : Fin 16) : Model.rowO (F := Ideal) v (ix2 r c) = v (ix1 c) :=
  Idx.bid_row_apply v bcast_S16_S1x16_1 bcast_S1x16_S100x16_0_1 r c

/-- The reference's sum down the rows from the literal zero, at column `c`. -/
theorem sumR_apply (y : FVec Ideal S100x16 .f32) (c : Fin 16) :
    Host.reduceAdd (F := Ideal) y (constant (F := Ideal) S_ .f32 0x00000000#32) reducesTo_S100x16_S16_d0 h_S_ (ix1 c)
      = ∑ k : Fin 100, y (ix2 k c) := by
  refine (Idx.hostReduceAdd_col y (constant (F := Ideal) S_ .f32 0x00000000#32) reducesTo_S100x16_S16_d0 h_S_ c).trans ?_
  show Ideal.ofBits .f32 0x00000000#32 + _ = _
  rw [Ideal.ofBits_zero_f32, zero_add]

/-- The reference's column means. -/
theorem mean16_apply (y : FVec Ideal S100x16 .f32) (c : Fin 16) : Model.mean16 (F := Ideal) y (ix1 c) = colMean y c := by
  show Ideal.div (Host.reduceAdd (F := Ideal) y (constant (F := Ideal) S_ .f32 0x00000000#32) reducesTo_S100x16_S16_d0 h_S_ (ix1 c))
      (Ideal.ofBits .f32 0x42C80000#32) = _
  exact congrArg (fun t => Ideal.div t (Ideal.ofBits .f32 0x42C80000#32)) (sumR_apply y c)

/-- The mean the variance subtracts, computed through a `1 × 16` row and repeated down the rows: the same column mean. -/
theorem varMean_apply (y : FVec Ideal S100x16 .f32) (k : Fin 100) (c : Fin 16) :
    broadcastInDim S100x16 ![0, 1] bcast_S1x16_S100x16_0_1
        (Host.divf (F := Ideal)
          (broadcastInDim S1x16 ![1] bcast_S16_S1x16_1
            (Host.reduceAdd (F := Ideal) y (constant (F := Ideal) S_ .f32 0x00000000#32) reducesTo_S100x16_S16_d0 h_S_))
          (broadcastInDim S1x16 ![] bcast_S_S1x16 (constant (F := Ideal) S_ .f32 0x42C80000#32))) (ix2 k c)
      = colMean y c := by
  refine (Idx.bid_1b_ab_apply _ bcast_S1x16_S100x16_0_1 k c).trans ?_
  show Ideal.div
      (broadcastInDim S1x16 ![1] bcast_S16_S1x16_1
        (Host.reduceAdd (F := Ideal) y (constant (F := Ideal) S_ .f32 0x00000000#32) reducesTo_S100x16_S16_d0 h_S_) (ix2 (0 : Fin 1) c))
      (Ideal.ofBits .f32 0x42C80000#32) = _
  refine congrArg (fun t => Ideal.div t (Ideal.ofBits .f32 0x42C80000#32)) ?_
  exact (Idx.bid_b_1b_apply _ bcast_S16_S1x16_1 0 c).trans (sumR_apply y c)

/-- The reference's squared deviations. -/
theorem varSq_apply (y : FVec Ideal S100x16 .f32) (k : Fin 100) (c : Fin 16) :
    Model.varSq (F := Ideal) y (ix2 k c) = colDev y k c * colDev y k c :=
  congrArg₂ (fun s t : EReal => (y (ix2 k c) - s) * (y (ix2 k c) - t)) (varMean_apply y k c) (varMean_apply y k c)

/-- The reference's column variances: the guard is true and the divisor is the literal 100. -/
theorem var16_apply (y : FVec Ideal S100x16 .f32) (c : Fin 16) : Model.var16 (F := Ideal) y (ix1 c) = colVar y c := by
  show Scalar.select
      (FloatOps.cmpf (F := Ideal) (φ := .f32) .ogt
        (FloatOps.subf (F := Ideal) (φ := .f32) (Ideal.ofBits .f32 0x42C80000#32)
          (FloatOps.sitofp (F := Ideal) .f32 (0#32 : BitVec 32)))
        (Ideal.ofBits .f32 0x00000000#32))
      (Ideal.div
        (Host.reduceAdd (F := Ideal) (Model.varSq (F := Ideal) y) (constant (F := Ideal) S_ .f32 0x00000000#32) reducesTo_S100x16_S16_d0 h_S_
          (ix1 c))
        (FloatOps.subf (F := Ideal) (φ := .f32) (Ideal.ofBits .f32 0x42C80000#32)
          (FloatOps.sitofp (F := Ideal) .f32 (0#32 : BitVec 32))))
      (Ideal.ofBits .f32 0x7FC00000#32) = _
  rw [Scalar.varN_eq, Scalar.guard_eq, select_one]
  refine congrArg (fun t => Ideal.div t (Ideal.ofBits .f32 0x42C80000#32)) ?_
  exact (sumR_apply (Model.varSq (F := Ideal) y) c).trans (Finset.sum_congr rfl fun k _ => varSq_apply y k c)

/-- The reference's standardised array at `(r, c)`. -/
theorem tailR_apply (y : FVec Ideal S100x16 .f32) (r : Fin 100) (c : Fin 16) :
    tailR (F := Ideal) y (ix2 r c) = Ideal.div (colDev y r c) (Ideal.sqrt (colVar y c + Ideal.ofBits .f32 0x3727C5AC#32)) := by
  show Ideal.div (y (ix2 r c) - Model.rowO (F := Ideal) (Model.mean16 (F := Ideal) y) (ix2 r c))
      (Model.rowO (F := Ideal)
        (Host.sqrt (F := Ideal)
          (addf (Model.var16 (F := Ideal) y) (broadcastInDim S16 ![] bcast_S_S16 (constant (F := Ideal) S_ .f32 0x3727C5AC#32))))
        (ix2 r c)) = _
  rw [rowO_apply, rowO_apply, mean16_apply]
  show Ideal.div (y (ix2 r c) - colMean y c)
      (Ideal.sqrt (Model.var16 (F := Ideal) y (ix1 c) + Ideal.ofBits .f32 0x3727C5AC#32)) = _
  rw [var16_apply]
  rfl

end RefSide

open RefSide

/-! ## The two standardisations are one function -/

/-- For every 100 × 16 array the kernel's standardisation is the reference's: the product with the reciprocal
    square root against the quotient by the square root, of a number that is positive whatever the array. -/
theorem tailK_eq_tailR (y : FVec Ideal ⟨2, ![100, 16]⟩ .f32) : tailK (F := Ideal) y = tailR (F := Ideal) y := by
  funext i
  obtain ⟨r, c, rfl⟩ : ∃ r c, i = ix2 r c := ⟨i 0, i 1, eq_ix2 i⟩
  rw [tailK_apply, tailR_apply]
  exact Scalar.mul_rsqrt_eq_div_sqrt _ _ (colVar_add_eps_pos y c)

end Cert.Bridge

end
-- ==== Proof.BridgeH.lean ====
/-
  The read-out kernel's stored value is the reference's read-out.

  Both are the standardisation, column by column, of the array `y = relu (p·W₁ + b₁)·W₂ + b₂`.

  * `y` is one array on both sides. The kernel's two matrix products accumulate into the zero array, the reference's
    have no accumulator: both are the bare sum over the contraction index of the products of the operands' entries,
    and the two programs state one and the same contraction record, so the sums are over the same index set with the
    same operand entries. The kernel reads each bias as the one row of a `1 × n` array repeated down the hundred rows,
    the reference lays the bias vector as such a row and repeats it: the same entry at every row, given that the row
    the kernel is handed holds the bias vector. The clip at zero is the maximum with the same literal zero.
  * The standardisations of one array agree (the product with the reciprocal square root against the quotient by the
    square root, of a positive number).
-/
import proofs.«159217_j87393994539011_1_alg».proof.Proof.BridgeHRef

noncomputable section

namespace Cert.Bridge

open Idealize.ShloMosaic Idealize.ShloMosaic.ValueIdx
open scoped BigOperators
open Cert.ReferenceIdeal Cert.ReferenceIdeal.Facts₀ Cert.ReferenceIdeal.Facts
open RefSide

/-! ## The reference's `y` as a composition -/

section AnyInstance
variable {F : FTy → Type} [FloatOps F]

/-- The reference's hidden layer `relu (p·W₁ + b₁)`. -/
def hidR (p : Model.C F S100x64 .f32) (Wl1 : Model.C F S64x64 .f32) (bl1 : Model.C F S64 .f32) : Model.C F S100x64 .f32 :=
  maximumf
    (addf (Host.dotGeneral dot_S100x64_S64x64_S100x64_1_0_0_1_n_n none p Wl1)
      (broadcastInDim S100x64 ![0, 1] bcast_S1x64_S100x64_0_1 (broadcastInDim S1x64 ![1] bcast_S64_S1x64_1 bl1)))
    (broadcastInDim S100x64 ![] bcast_S_S100x64 (constant S_ .f32 0x00000000#32))

/-- The reference's `y` is the second product of the hidden layer, plus the second bias. -/
theorem headY_eq (p : Model.C F S100x64 .f32) (Wl1 : Model.C F S64x64 .f32) (bl1 : Model.C F S64 .f32)
    (Wl2 : Model.C F S64x16 .f32) (bl2 : Model.C F S16 .f32) :
    Model.headY p Wl1 bl1 Wl2 bl2
      = addf (Host.dotGeneral dot_S100x64_S64x16_S100x16_1_0_0_1_n_n none (hidR p Wl1 bl1) Wl2) (Model.rowO bl2) := rfl

end AnyInstance

/-! ## The two programs' `y` are one array -/

/-- A product into the zero array is the product with no accumulator, over one contraction record. -/
theorem matmul_zero_eq_dotGeneral {sl sr so : Shape} (d : DotDims sl sr so) (lhs : FVec Ideal sl .f32) (rhs : FVec Ideal sr .f32)
    (j : so.Idx) :
    matmul (F := Ideal) d none lhs rhs (constant so .f32 0x00000000#32) j = Host.dotGeneral (F := Ideal) d none lhs rhs j :=
  (Ideal.matmul_constant_zero_apply d none lhs rhs j).trans (Ideal.dotGeneral_apply d none .single lhs rhs j).symm

/-- The hidden layers agree. -/
theorem hid_eq (P : FVec Ideal S100x64 .f32) (Wl1 : FVec Ideal S64x64 .f32) (x2 : FVec Ideal S1x64 .f32) (bl1 : FVec Ideal S64 .f32)
    (h2 : ∀ k : Fin 64, x2 (ix2 (0 : Fin 1) k) = bl1 (ix1 k)) :
    hidK (F := Ideal) P Wl1 x2 = hidR (F := Ideal) P Wl1 bl1 := by
  funext i
  obtain ⟨a, b, rfl⟩ : ∃ a b, i = ix2 a b := ⟨i 0, i 1, eq_ix2 i⟩
  have e1 : matmul (F := Ideal) (φ₁ := .f32) (φ₂ := .f32) Cert.KernelIdeal.dot_S100x64_S64x64_S100x64_1_0_0_1_n_n none
        (shapeCast S100x64 P Cert.KernelIdeal.Gen.shapeCasts_S100x64_S100x64) Wl1 (constant S100x64 .f32 0x00000000#32) (ix2 a b)
      = Host.dotGeneral (F := Ideal) (φ₁ := .f32) (φ₂ := .f32) dot_S100x64_S64x64_S100x64_1_0_0_1_n_n none P Wl1 (ix2 a b) := by
    rw [shapeCast_self]
    exact matmul_zero_eq_dotGeneral dot_S100x64_S64x64_S100x64_1_0_0_1_n_n P Wl1 (ix2 a b)
  have e2 : broadcastTo S100x64 (shapeCast S1x64 x2 Cert.KernelIdeal.Gen.shapeCasts_S1x64_S1x64)
        Cert.KernelIdeal.Gen.broadcasts_S1x64_S100x64 (ix2 a b)
      = broadcastInDim S100x64 ![0, 1] bcast_S1x64_S100x64_0_1 (broadcastInDim S1x64 ![1] bcast_S64_S1x64_1 bl1) (ix2 a b) :=
    ((broadcastTo_1b_ab_apply _ Cert.KernelIdeal.Gen.broadcasts_S1x64_S100x64 a b).trans
      ((congrFun (shapeCast_self x2 Cert.KernelIdeal.Gen.shapeCasts_S1x64_S1x64) (ix2 (0 : Fin 1) b)).trans (h2 b))).trans
      (Idx.bid_row_apply bl1 bcast_S64_S1x64_1 bcast_S1x64_S100x64_0_1 a b).symm
  exact congrArg₂ (fun s t : EReal => max (s + t) (Ideal.ofBits .f32 0x00000000#32)) e1 e2

/-- The two `y` arrays agree. -/
theorem y_eq (P : FVec Ideal S100x64 .f32) (Wl1 : FVec Ideal S64x64 .f32) (x2 : FVec Ideal S1x64 .f32) (Wl2 : FVec Ideal S64x16 .f32)
    (x4 : FVec Ideal S1x16 .f32) (bl1 : FVec Ideal S64 .f32) (bl2 : FVec Ideal S16 .f32)
    (h2 : ∀ k : Fin 64, x2 (ix2 (0 : Fin 1) k) = bl1 (ix1 k)) (h4 : ∀ k : Fin 16, x4 (ix2 (0 : Fin 1) k) = bl2 (ix1 k)) :
    yK (F := Ideal) P Wl1 x2 Wl2 x4 = Model.headY (F := Ideal) P Wl1 bl1 Wl2 bl2 := by
  rw [headY_eq]
  funext i
  obtain ⟨r, c, rfl⟩ : ∃ r c, i = ix2 r c := ⟨i 0, i 1, eq_ix2 i⟩
  have e1 : matmul (F := Ideal) (φ₁ := .f32) (φ₂ := .f32) Cert.KernelIdeal.dot_S100x64_S64x16_S100x16_1_0_0_1_n_n none
        (hidK (F := Ideal) P Wl1 x2) Wl2 (constant S100x16 .f32 0x00000000#32) (ix2 r c)
      = Host.dotGeneral (F := Ideal) (φ₁ := .f32) (φ₂ := .f32) dot_S100x64_S64x16_S100x16_1_0_0_1_n_n none
          (hidR (F := Ideal) P Wl1 bl1) Wl2 (ix2 r c) := by
    rw [hid_eq P Wl1 x2 bl1 h2]
    exact matmul_zero_eq_dotGeneral dot_S100x64_S64x16_S100x16_1_0_0_1_n_n (hidR (F := Ideal) P Wl1 bl1) Wl2 (ix2 r c)
  have e2 : broadcastTo S100x16 (shapeCast S1x16 x4 Cert.KernelIdeal.Gen.shapeCasts_S1x16_S1x16)
        Cert.KernelIdeal.Gen.broadcasts_S1x16_S100x16 (ix2 r c)
      = Model.rowO (F := Ideal) bl2 (ix2 r c) :=
    ((broadcastTo_1b_ab_apply _ Cert.KernelIdeal.Gen.broadcasts_S1x16_S100x16 r c).trans
      ((congrFun (shapeCast_self x4 Cert.KernelIdeal.Gen.shapeCasts_S1x16_S1x16) (ix2 (0 : Fin 1) c)).trans (h4 c))).trans
      (rowO_apply bl2 r c).symm
  exact congrArg₂ (fun s t : EReal => s + t) e1 e2

/-! ## The bridge -/

/-- The read-out kernel's stored value is the reference's read-out, as arrays over `100 × 16`, whenever the two bias
    rows the kernel is handed hold the reference's bias vectors. -/
theorem head_bridge (P : Vec Ideal Cert.KernelIdeal.S100x64 .f32) (Wl1 : Vec Ideal Cert.KernelIdeal.S64x64 .f32)
    (x2 : Vec Ideal Cert.KernelIdeal.S1x64 .f32) (Wl2 : Vec Ideal Cert.KernelIdeal.S64x16 .f32)
    (x4 : Vec Ideal Cert.KernelIdeal.S1x16 .f32)
    (bl1 : FVec Ideal Cert.ReferenceIdeal.S64 .f32) (bl2 : FVec Ideal Cert.ReferenceIdeal.S16 .f32)
    (h2 : ∀ k : Fin 64, x2 (ix2 (0 : Fin 1) k) = bl1 (ix1 k)) (h4 : ∀ k : Fin 16, x4 (ix2 (0 : Fin 1) k) = bl2 (ix1 k)) :
    Cert.KernelIdeal.Gen.k4_pay1 (F := Ideal) P Wl1 x2 Wl2 x4
      = Cert.ReferenceIdeal.Model.head (F := Ideal) P Wl1 bl1 Wl2 bl2 :=
  (k4_pay1_eq (F := Ideal) P Wl1 x2 Wl2 x4).trans
    ((congrArg (tailK (F := Ideal)) (y_eq P Wl1 x2 Wl2 x4 bl1 bl2 h2 h4)).trans
      ((tailK_eq_tailR _).trans (head_eq (F := Ideal) P Wl1 bl1 Wl2 bl2).symm))

end Cert.Bridge

end
-- ==== Proof.KReg4.lean ====
/-
  Region 4 (the read-out, one grid point) as one whole-array function: every window's block is its whole
  array, so what the one point writes back is the reference read-out of the arrays the region finds, and
  that one block is the whole result.
-/
import proofs.«159217_j87393994539011_1_alg».proof.Proof.Gen.KernelIdeal.Frame
import proofs.«159217_j87393994539011_1_alg».proof.Proof.Model
import proofs.«159217_j87393994539011_1_alg».proof.Proof.BridgeH
import Idealize.ShloMosaic.Lib.Pipeline.Value
import Idealize.ShloMosaic.Lib.ValueIdx
import Idealize.ShloMosaic.Lib.ValueLayout

set_option maxRecDepth 16384

noncomputable section

namespace Cert.KernelIdeal.Val

open Cert.KernelIdeal Cert.KernelIdeal.Gen
open Idealize.ShloMosaic Idealize.ShloMosaic.TcCoe Idealize.ShloMosaic.Tactic Idealize.ShloMosaic.StableHlo
open Idealize.SL.Sem

open Idealize.ShloMosaic.ValueIdx
open Idealize.ShloMosaic.Pipeline (Dat)

variable (V : (c : Dev nD) → (b : Ref sig .tc) → Buf (Elt Ideal) ((c : Thread nD τ).loc b))

theorem hz4 : (![0, 0] : Fin 2 → Nat) = fun _ => 0 := funext fun a => by fin_cases a <;> rfl

/-- Every printed index map is zero at the one point. -/
theorem idx4 : ∀ t : Fin cfg4.N, win4_0.index t (0 : Fin 2) = 0 ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0
    ∧ win4_5.index t (0 : Fin 2) = 0 ∧ win4_5.index t (1 : Fin 2) = 0 :=
  (by decide +kernel : ∀ t : Fin grid4.N, _)

theorem iblk4_0_eq (c : Dev nD) (t : Fin cfg4.N) : (iblk4 V c 0 t : Vec Ideal S100x64 .f32) = (V c main_v85 : S100x64.Idx → EReal) := by
  funext y
  unfold iblk4
  rw [View.read_apply]
  show V c main_v85 _ = V c main_v85 _
  refine congrArg _ (funext fun a => Fin.ext ?_)
  match a with
  | ⟨0, _⟩ => show win4_0.index t 0 * 100 + 1 * (y 0).val = (y 0).val; rw [(idx4 t).1]; omega
  | ⟨1, _⟩ => show win4_0.index t 1 * 64 + 1 * (y 1).val = (y 1).val; rw [(idx4 t).2.1]; omega
theorem iblk4_1_eq (c : Dev nD) (t : Fin cfg4.N) : (iblk4 V c 1 t : Vec Ideal S64x64 .f32) = (V c main_arg12 : S64x64.Idx → EReal) := by
  funext y
  unfold iblk4
  rw [View.read_apply]
  show V c main_arg12 _ = V c main_arg12 _
  refine congrArg _ (funext fun a => Fin.ext ?_)
  match a with
  | ⟨0, _⟩ => show win4_1.index t 0 * 64 + 1 * (y 0).val = (y 0).val; rw [(idx4 t).2.2.1]; omega
  | ⟨1, _⟩ => show win4_1.index t 1 * 64 + 1 * (y 1).val = (y 1).val; rw [(idx4 t).2.2.2.1]; omega
theorem iblk4_2_eq (c : Dev nD) (t : Fin cfg4.N) : (iblk4 V c 2 t : Vec Ideal S1x64 .f32) = (V c main_v86 : S1x64.Idx → EReal) := by
  funext y
  unfold iblk4
  rw [View.read_apply]
  show V c main_v86 _ = V c main_v86 _
  refine congrArg _ (funext fun a => Fin.ext ?_)
  match a with
  | ⟨0, _⟩ => show win4_2.index t 0 * 1 + 1 * (y 0).val = (y 0).val; rw [(idx4 t).2.2.2.2.1]; omega
  | ⟨1, _⟩ => show win4_2.index t 1 * 64 + 1 * (y 1).val = (y 1).val; rw [(idx4 t).2.2.2.2.2.1]; omega
theorem iblk4_3_eq (c : Dev nD) (t : Fin cfg4.N) : (iblk4 V c 3 t : Vec Ideal S64x16 .f32) = (V c main_arg14 : S64x16.Idx → EReal) := by
  funext y
  unfold iblk4
  rw [View.read_apply]
  show V c main_arg14 _ = V c main_arg14 _
  refine congrArg _ (funext fun a => Fin.ext ?_)
  match a with
  | ⟨0, _⟩ => show win4_3.index t 0 * 64 + 1 * (y 0).val = (y 0).val; rw [(idx4 t).2.2.2.2.2.2.1]; omega
  | ⟨1, _⟩ => show win4_3.index t 1 * 16 + 1 * (y 1).val = (y 1).val; rw [(idx4 t).2.2.2.2.2.2.2.1]; omega
theorem iblk4_4_eq (c : Dev nD) (t : Fin cfg4.N) : (iblk4 V c 4 t : Vec Ideal S1x16 .f32) = (V c main_v87 : S1x16.Idx → EReal) := by
  funext y
  unfold iblk4
  rw [View.read_apply]
  show V c main_v87 _ = V c main_v87 _
  refine congrArg _ (funext fun a => Fin.ext ?_)
  match a with
  | ⟨0, _⟩ => show win4_4.index t 0 * 1 + 1 * (y 0).val = (y 0).val; rw [(idx4 t).2.2.2.2.2.2.2.2.1]; omega
  | ⟨1, _⟩ => show win4_4.index t 1 * 16 + 1 * (y 1).val = (y 1).val; rw [(idx4 t).2.2.2.2.2.2.2.2.2.1]; omega

variable (bl1 : FVec Ideal Cert.ReferenceIdeal.S64 .f32) (bl2 : FVec Ideal Cert.ReferenceIdeal.S16 .f32)

/-- The reference read-out of the arrays the region finds (the two biases given as vectors). -/
def G4 (c : Dev nD) : S100x16.Idx → EReal :=
  Cert.ReferenceIdeal.Model.head (F := Ideal) (V c main_v85) (V c main_arg12) bl1 (V c main_arg14) bl2

/-- What the one point writes back is the reference read-out. -/
theorem flushed4_eq (c : Dev nD)
    (h2 : ∀ k : Fin 64, (V c main_v86 : S1x64.Idx → EReal) (ix2 (0 : Fin 1) k) = bl1 (ix1 k))
    (h4 : ∀ k : Fin 16, (V c main_v87 : S1x16.Idx → EReal) (ix2 (0 : Fin 1) k) = bl2 (ix1 k)) (t : Fin cfg4.N) :
    (dat4 V c).flushed 5 t = ((cfg4.win 5).blk t).view.read (Elt Ideal) (G4 V bl1 bl2 c) := by
  show (cfg4.win 5).cut (grid4.coords t) ((dat4 V c).after 5 t) = _
  rw [after4_5]
  unfold out4_5
  rw [View.canon_unit_zero hz4]
  simp only [View.ld_unit_zero (S := S100x64) hz4, View.ld_unit_zero (S := S64x64) hz4, View.ld_unit_zero (S := S1x64) hz4,
    View.ld_unit_zero (S := S64x16) hz4, View.ld_unit_zero (S := S1x16) hz4]
  rw [iblk4_0_eq, iblk4_1_eq, iblk4_2_eq, iblk4_3_eq, iblk4_4_eq]
  rw [Cert.Bridge.head_bridge (V c main_v85) (V c main_arg12) (V c main_v86) (V c main_arg14) (V c main_v87) bl1 bl2 h2 h4]
  funext y
  rw [View.read_apply]
  show G4 V bl1 bl2 c y = G4 V bl1 bl2 c _
  refine congrArg _ (funext fun a => Fin.ext ?_)
  match a with
  | ⟨0, _⟩ => show (y 0).val = win4_5.index t 0 * 100 + 1 * (y 0).val; rw [(idx4 t).2.2.2.2.2.2.2.2.2.2.1]; omega
  | ⟨1, _⟩ => show (y 1).val = win4_5.index t 1 * 16 + 1 * (y 1).val; rw [(idx4 t).2.2.2.2.2.2.2.2.2.2.2]; omega

/-- The one block is the whole result array. -/
theorem cover4 (i : S100x16.Idx) : ∃ t : Fin cfg4.N, (cfg4.win 5).flush t = true ∧ i ∈ ((cfg4.win 5).blk t).view.set := by
  have hi0 : (i 0).val < 100 := (i 0).isLt
  have hi1 : (i 1).val < 16 := (i 1).isLt
  refine ⟨t4_0, by decide +kernel, ?_⟩
  show i ∈ ((View.whole main_v88).slice (win4_5.rect t4_0)).set
  rw [View.set_slice_whole, Rect.mem_set_unit]
  intro a
  match a with
  | ⟨0, _⟩ =>
    show win4_5.index t4_0 0 * 100 ≤ (i 0).val ∧ (i 0).val < win4_5.index t4_0 0 * 100 + 100
    rw [(idx4 t4_0).2.2.2.2.2.2.2.2.2.2.1]; omega
  | ⟨1, _⟩ =>
    show win4_5.index t4_0 1 * 16 ≤ (i 1).val ∧ (i 1).val < win4_5.index t4_0 1 * 16 + 16
    rw [(idx4 t4_0).2.2.2.2.2.2.2.2.2.2.2]; omega

/-- The result array after the region: the reference read-out of the arrays the region found. -/
theorem final4 (c : Dev nD)
    (h2 : ∀ k : Fin 64, (V c main_v86 : S1x64.Idx → EReal) (ix2 (0 : Fin 1) k) = bl1 (ix1 k))
    (h4 : ∀ k : Fin 16, (V c main_v87 : S1x16.Idx → EReal) (ix2 (0 : Fin 1) k) = bl2 (ix1 k)) :
    (dat4 V c).arrAt 5 cfg4.N = G4 V bl1 bl2 c :=
  (dat4 V c).arrAt_eq_of_cover 5 (G4 V bl1 bl2 c) (fun t _ => flushed4_eq V bl1 bl2 c h2 h4 t) (cover4)

end Cert.KernelIdeal.Val

end
-- ==== Proof.KAll.lean ====
/-
  The idealised kernel's result as the reference network of the launch arguments: each region's result
  array is the reference layer (or read-out) of the arrays the region finds, those arrays are the previous
  region's result, its neighbour sum, and the weights' slices (the biases one-row matrices of the bias
  vectors), and the chain starts at the arguments themselves.
-/
import proofs.«159217_j87393994539011_1_alg».proof.Proof.KRun
import proofs.«159217_j87393994539011_1_alg».proof.Proof.KHost
import proofs.«159217_j87393994539011_1_alg».proof.Proof.KReg0
import proofs.«159217_j87393994539011_1_alg».proof.Proof.KReg1
import proofs.«159217_j87393994539011_1_alg».proof.Proof.KReg2
import proofs.«159217_j87393994539011_1_alg».proof.Proof.KReg3
import proofs.«159217_j87393994539011_1_alg».proof.Proof.KReg4

set_option maxRecDepth 16384

noncomputable section

namespace Cert.KernelIdeal.Val

open Cert.KernelIdeal Cert.KernelIdeal.Gen
open Idealize.ShloMosaic Idealize.ShloMosaic.TcCoe Idealize.ShloMosaic.Tactic Idealize.ShloMosaic.StableHlo
open Idealize.SL.Sem

open Idealize.ShloMosaic.ValueIdx

variable (m : (ℓ : Loc nD τ sig) → Buf (Elt Ideal) ℓ) (ρ : Dev nD → PrngReg)

/-- After region 0: the first layer of the node features. -/
theorem W2_v16 (c : Dev nD) : W2 m ρ c (Proc.devRef .tc main_v16) = (Cert.ReferenceIdeal.Model.x1 (F := Ideal) (m ((c.tc : Thread nD τ).loc main_arg0)) (m ((c.tc : Thread nD τ).loc main_arg1)) (m ((c.tc : Thread nD τ).loc main_arg4)) (m ((c.tc : Thread nD τ).loc main_arg5)) (m ((c.tc : Thread nD τ).loc main_arg6)) (m ((c.tc : Thread nD τ).loc main_arg7))) := by
  refine (W2_arr m ρ c 6).trans ?_
  rw [final0 (V1 m ρ) (m ((c.tc : Thread nD τ).loc main_arg5)) (m ((c.tc : Thread nD τ).loc main_arg7)) c
    (fun k => by rw [show V1 m ρ c main_v14 = _ from W1_v14 m ρ c]; exact shapeCast_a_1a_apply _ _ 0 k)
    (fun k => by rw [show V1 m ρ c main_v15 = _ from W1_v15 m ρ c]; exact shapeCast_a_1a_apply _ _ 0 k)]
  unfold G0
  rw [show V1 m ρ c main_arg0 = _ from W1_arg0 m ρ c, show V1 m ρ c main_v13 = _ from W1_v13 m ρ c,
    show V1 m ρ c main_arg4 = _ from W1_arg4 m ρ c, show V1 m ρ c main_arg6 = _ from W1_arg6 m ρ c]
  rfl

/-- After region 1: the second layer. -/
theorem W4_v37 (c : Dev nD) : W4 m ρ c (Proc.devRef .tc main_v37) = (Cert.ReferenceIdeal.Model.layer (F := Ideal) (Cert.ReferenceIdeal.Model.x1 (F := Ideal) (m ((c.tc : Thread nD τ).loc main_arg0)) (m ((c.tc : Thread nD τ).loc main_arg1)) (m ((c.tc : Thread nD τ).loc main_arg4)) (m ((c.tc : Thread nD τ).loc main_arg5)) (m ((c.tc : Thread nD τ).loc main_arg6)) (m ((c.tc : Thread nD τ).loc main_arg7))) (Cert.ReferenceIdeal.Model.agg (F := Ideal) (Cert.ReferenceIdeal.Model.x1 (F := Ideal) (m ((c.tc : Thread nD τ).loc main_arg0)) (m ((c.tc : Thread nD τ).loc main_arg1)) (m ((c.tc : Thread nD τ).loc main_arg4)) (m ((c.tc : Thread nD τ).loc main_arg5)) (m ((c.tc : Thread nD τ).loc main_arg6)) (m ((c.tc : Thread nD τ).loc main_arg7))) (m ((c.tc : Thread nD τ).loc main_arg1))) (Cert.ReferenceIdeal.Model.wsl0 (F := Ideal) (m ((c.tc : Thread nD τ).loc main_arg8))) (Cert.ReferenceIdeal.Model.bsl0 (F := Ideal) (m ((c.tc : Thread nD τ).loc main_arg9))) (Cert.ReferenceIdeal.Model.wsl0 (F := Ideal) (m ((c.tc : Thread nD τ).loc main_arg10))) (Cert.ReferenceIdeal.Model.bsl0 (F := Ideal) (m ((c.tc : Thread nD τ).loc main_arg11)))) := by
  refine (W4_arr m ρ c 6).trans ?_
  rw [final1 (V3 m ρ) (Cert.ReferenceIdeal.Model.bsl0 (F := Ideal) (m ((c.tc : Thread nD τ).loc main_arg9))) (Cert.ReferenceIdeal.Model.bsl0 (F := Ideal) (m ((c.tc : Thread nD τ).loc main_arg11))) c
    (fun k => by rw [show V3 m ρ c main_v35 = _ from W3_v35 m ρ c]; exact shapeCast_a_1a_apply _ _ 0 k)
    (fun k => by rw [show V3 m ρ c main_v36 = _ from W3_v36 m ρ c]; exact shapeCast_a_1a_apply _ _ 0 k)]
  unfold G1
  rw [show V3 m ρ c main_v16 = _ from (W3_v16 m ρ c).trans (W2_v16 m ρ c), show V3 m ρ c main_v34 = _ from W3_v34 m ρ c,
    show V3 m ρ c main_v18 = _ from W3_v18 m ρ c, show V3 m ρ c main_v22 = _ from W3_v22 m ρ c, W2_v16 m ρ c]

/-- After region 2: the third layer. -/
theorem W6_v58 (c : Dev nD) : W6 m ρ c (Proc.devRef .tc main_v58) = (Cert.ReferenceIdeal.Model.layer (F := Ideal) (Cert.ReferenceIdeal.Model.layer (F := Ideal) (Cert.ReferenceIdeal.Model.x1 (F := Ideal) (m ((c.tc : Thread nD τ).loc main_arg0)) (m ((c.tc : Thread nD τ).loc main_arg1)) (m ((c.tc : Thread nD τ).loc main_arg4)) (m ((c.tc : Thread nD τ).loc main_arg5)) (m ((c.tc : Thread nD τ).loc main_arg6)) (m ((c.tc : Thread nD τ).loc main_arg7))) (Cert.ReferenceIdeal.Model.agg (F := Ideal) (Cert.ReferenceIdeal.Model.x1 (F := Ideal) (m ((c.tc : Thread nD τ).loc main_arg0)) (m ((c.tc : Thread nD τ).loc main_arg1)) (m ((c.tc : Thread nD τ).loc main_arg4)) (m ((c.tc : Thread nD τ).loc main_arg5)) (m ((c.tc : Thread nD τ).loc main_arg6)) (m ((c.tc : Thread nD τ).loc main_arg7))) (m ((c.tc : Thread nD τ).loc main_arg1))) (Cert.ReferenceIdeal.Model.wsl0 (F := Ideal) (m ((c.tc : Thread nD τ).loc main_arg8))) (Cert.ReferenceIdeal.Model.bsl0 (F := Ideal) (m ((c.tc : Thread nD τ).loc main_arg9))) (Cert.ReferenceIdeal.Model.wsl0 (F := Ideal) (m ((c.tc : Thread nD τ).loc main_arg10))) (Cert.ReferenceIdeal.Model.bsl0 (F := Ideal) (m ((c.tc : Thread nD τ).loc main_arg11)))) (Cert.ReferenceIdeal.Model.agg (F := Ideal) (Cert.ReferenceIdeal.Model.layer (F := Ideal) (Cert.ReferenceIdeal.Model.x1 (F := Ideal) (m ((c.tc : Thread nD τ).loc main_arg0)) (m ((c.tc : Thread nD τ).loc main_arg1)) (m ((c.tc : Thread nD τ).loc main_arg4)) (m ((c.tc : Thread nD τ).loc main_arg5)) (m ((c.tc : Thread nD τ).loc main_arg6)) (m ((c.tc : Thread nD τ).loc main_arg7))) (Cert.ReferenceIdeal.Model.agg (F := Ideal) (Cert.ReferenceIdeal.Model.x1 (F := Ideal) (m ((c.tc : Thread nD τ).loc main_arg0)) (m ((c.tc : Thread nD τ).loc main_arg1)) (m ((c.tc : Thread nD τ).loc main_arg4)) (m ((c.tc : Thread nD τ).loc main_arg5)) (m ((c.tc : Thread nD τ).loc main_arg6)) (m ((c.tc : Thread nD τ).loc main_arg7))) (m ((c.tc : Thread nD τ).loc main_arg1))) (Cert.ReferenceIdeal.Model.wsl0 (F := Ideal) (m ((c.tc : Thread nD τ).loc main_arg8))) (Cert.ReferenceIdeal.Model.bsl0 (F := Ideal) (m ((c.tc : Thread nD τ).loc main_arg9))) (Cert.ReferenceIdeal.Model.wsl0 (F := Ideal) (m ((c.tc : Thread nD τ).loc main_arg10))) (Cert.ReferenceIdeal.Model.bsl0 (F := Ideal) (m ((c.tc : Thread nD τ).loc main_arg11)))) (m ((c.tc : Thread nD τ).loc main_arg1))) (Cert.ReferenceIdeal.Model.wsl1 (F := Ideal) (m ((c.tc : Thread nD τ).loc main_arg8))) (Cert.ReferenceIdeal.Model.bsl1 (F := Ideal) (m ((c.tc : Thread nD τ).loc main_arg9))) (Cert.ReferenceIdeal.Model.wsl1 (F := Ideal) (m ((c.tc : Thread nD τ).loc main_arg10))) (Cert.ReferenceIdeal.Model.bsl1 (F := Ideal) (m ((c.tc : Thread nD τ).loc main_arg11)))) := by
  refine (W6_arr m ρ c 6).trans ?_
  rw [final2 (V5 m ρ) (Cert.ReferenceIdeal.Model.bsl1 (F := Ideal) (m ((c.tc : Thread nD τ).loc main_arg9))) (Cert.ReferenceIdeal.Model.bsl1 (F := Ideal) (m ((c.tc : Thread nD τ).loc main_arg11))) c
    (fun k => by rw [show V5 m ρ c main_v56 = _ from W5_v56 m ρ c]; exact shapeCast_a_1a_apply _ _ 0 k)
    (fun k => by rw [show V5 m ρ c main_v57 = _ from W5_v57 m ρ c]; exact shapeCast_a_1a_apply _ _ 0 k)]
  unfold G2
  rw [show V5 m ρ c main_v37 = _ from (W5_v37 m ρ c).trans (W4_v37 m ρ c), show V5 m ρ c main_v55 = _ from W5_v55 m ρ c,
    show V5 m ρ c main_v39 = _ from W5_v39 m ρ c, show V5 m ρ c main_v43 = _ from W5_v43 m ρ c, W4_v37 m ρ c]

/-- After region 3: the fourth layer. -/
theorem W8_v79 (c : Dev nD) : W8 m ρ c (Proc.devRef .tc main_v79) = (Cert.ReferenceIdeal.Model.layer (F := Ideal) (Cert.ReferenceIdeal.Model.layer (F := Ideal) (Cert.ReferenceIdeal.Model.layer (F := Ideal) (Cert.ReferenceIdeal.Model.x1 (F := Ideal) (m ((c.tc : Thread nD τ).loc main_arg0)) (m ((c.tc : Thread nD τ).loc main_arg1)) (m ((c.tc : Thread nD τ).loc main_arg4)) (m ((c.tc : Thread nD τ).loc main_arg5)) (m ((c.tc : Thread nD τ).loc main_arg6)) (m ((c.tc : Thread nD τ).loc main_arg7))) (Cert.ReferenceIdeal.Model.agg (F := Ideal) (Cert.ReferenceIdeal.Model.x1 (F := Ideal) (m ((c.tc : Thread nD τ).loc main_arg0)) (m ((c.tc : Thread nD τ).loc main_arg1)) (m ((c.tc : Thread nD τ).loc main_arg4)) (m ((c.tc : Thread nD τ).loc main_arg5)) (m ((c.tc : Thread nD τ).loc main_arg6)) (m ((c.tc : Thread nD τ).loc main_arg7))) (m ((c.tc : Thread nD τ).loc main_arg1))) (Cert.ReferenceIdeal.Model.wsl0 (F := Ideal) (m ((c.tc : Thread nD τ).loc main_arg8))) (Cert.ReferenceIdeal.Model.bsl0 (F := Ideal) (m ((c.tc : Thread nD τ).loc main_arg9))) (Cert.ReferenceIdeal.Model.wsl0 (F := Ideal) (m ((c.tc : Thread nD τ).loc main_arg10))) (Cert.ReferenceIdeal.Model.bsl0 (F := Ideal) (m ((c.tc : Thread nD τ).loc main_arg11)))) (Cert.ReferenceIdeal.Model.agg (F := Ideal) (Cert.ReferenceIdeal.Model.layer (F := Ideal) (Cert.ReferenceIdeal.Model.x1 (F := Ideal) (m ((c.tc : Thread nD τ).loc main_arg0)) (m ((c.tc : Thread nD τ).loc main_arg1)) (m ((c.tc : Thread nD τ).loc main_arg4)) (m ((c.tc : Thread nD τ).loc main_arg5)) (m ((c.tc : Thread nD τ).loc main_arg6)) (m ((c.tc : Thread nD τ).loc main_arg7))) (Cert.ReferenceIdeal.Model.agg (F := Ideal) (Cert.ReferenceIdeal.Model.x1 (F := Ideal) (m ((c.tc : Thread nD τ).loc main_arg0)) (m ((c.tc : Thread nD τ).loc main_arg1)) (m ((c.tc : Thread nD τ).loc main_arg4)) (m ((c.tc : Thread nD τ).loc main_arg5)) (m ((c.tc : Thread nD τ).loc main_arg6)) (m ((c.tc : Thread nD τ).loc main_arg7))) (m ((c.tc : Thread nD τ).loc main_arg1))) (Cert.ReferenceIdeal.Model.wsl0 (F := Ideal) (m ((c.tc : Thread nD τ).loc main_arg8))) (Cert.ReferenceIdeal.Model.bsl0 (F := Ideal) (m ((c.tc : Thread nD τ).loc main_arg9))) (Cert.ReferenceIdeal.Model.wsl0 (F := Ideal) (m ((c.tc : Thread nD τ).loc main_arg10))) (Cert.ReferenceIdeal.Model.bsl0 (F := Ideal) (m ((c.tc : Thread nD τ).loc main_arg11)))) (m ((c.tc : Thread nD τ).loc main_arg1))) (Cert.ReferenceIdeal.Model.wsl1 (F := Ideal) (m ((c.tc : Thread nD τ).loc main_arg8))) (Cert.ReferenceIdeal.Model.bsl1 (F := Ideal) (m ((c.tc : Thread nD τ).loc main_arg9))) (Cert.ReferenceIdeal.Model.wsl1 (F := Ideal) (m ((c.tc : Thread nD τ).loc main_arg10))) (Cert.ReferenceIdeal.Model.bsl1 (F := Ideal) (m ((c.tc : Thread nD τ).loc main_arg11)))) (Cert.ReferenceIdeal.Model.agg (F := Ideal) (Cert.ReferenceIdeal.Model.layer (F := Ideal) (Cert.ReferenceIdeal.Model.layer (F := Ideal) (Cert.ReferenceIdeal.Model.x1 (F := Ideal) (m ((c.tc : Thread nD τ).loc main_arg0)) (m ((c.tc : Thread nD τ).loc main_arg1)) (m ((c.tc : Thread nD τ).loc main_arg4)) (m ((c.tc : Thread nD τ).loc main_arg5)) (m ((c.tc : Thread nD τ).loc main_arg6)) (m ((c.tc : Thread nD τ).loc main_arg7))) (Cert.ReferenceIdeal.Model.agg (F := Ideal) (Cert.ReferenceIdeal.Model.x1 (F := Ideal) (m ((c.tc : Thread nD τ).loc main_arg0)) (m ((c.tc : Thread nD τ).loc main_arg1)) (m ((c.tc : Thread nD τ).loc main_arg4)) (m ((c.tc : Thread nD τ).loc main_arg5)) (m ((c.tc : Thread nD τ).loc main_arg6)) (m ((c.tc : Thread nD τ).loc main_arg7))) (m ((c.tc : Thread nD τ).loc main_arg1))) (Cert.ReferenceIdeal.Model.wsl0 (F := Ideal) (m ((c.tc : Thread nD τ).loc main_arg8))) (Cert.ReferenceIdeal.Model.bsl0 (F := Ideal) (m ((c.tc : Thread nD τ).loc main_arg9))) (Cert.ReferenceIdeal.Model.wsl0 (F := Ideal) (m ((c.tc : Thread nD τ).loc main_arg10))) (Cert.ReferenceIdeal.Model.bsl0 (F := Ideal) (m ((c.tc : Thread nD τ).loc main_arg11)))) (Cert.ReferenceIdeal.Model.agg (F := Ideal) (Cert.ReferenceIdeal.Model.layer (F := Ideal) (Cert.ReferenceIdeal.Model.x1 (F := Ideal) (m ((c.tc : Thread nD τ).loc main_arg0)) (m ((c.tc : Thread nD τ).loc main_arg1)) (m ((c.tc : Thread nD τ).loc main_arg4)) (m ((c.tc : Thread nD τ).loc main_arg5)) (m ((c.tc : Thread nD τ).loc main_arg6)) (m ((c.tc : Thread nD τ).loc main_arg7))) (Cert.ReferenceIdeal.Model.agg (F := Ideal) (Cert.ReferenceIdeal.Model.x1 (F := Ideal) (m ((c.tc : Thread nD τ).loc main_arg0)) (m ((c.tc : Thread nD τ).loc main_arg1)) (m ((c.tc : Thread nD τ).loc main_arg4)) (m ((c.tc : Thread nD τ).loc main_arg5)) (m ((c.tc : Thread nD τ).loc main_arg6)) (m ((c.tc : Thread nD τ).loc main_arg7))) (m ((c.tc : Thread nD τ).loc main_arg1))) (Cert.ReferenceIdeal.Model.wsl0 (F := Ideal) (m ((c.tc : Thread nD τ).loc main_arg8))) (Cert.ReferenceIdeal.Model.bsl0 (F := Ideal) (m ((c.tc : Thread nD τ).loc main_arg9))) (Cert.ReferenceIdeal.Model.wsl0 (F := Ideal) (m ((c.tc : Thread nD τ).loc main_arg10))) (Cert.ReferenceIdeal.Model.bsl0 (F := Ideal) (m ((c.tc : Thread nD τ).loc main_arg11)))) (m ((c.tc : Thread nD τ).loc main_arg1))) (Cert.ReferenceIdeal.Model.wsl1 (F := Ideal) (m ((c.tc : Thread nD τ).loc main_arg8))) (Cert.ReferenceIdeal.Model.bsl1 (F := Ideal) (m ((c.tc : Thread nD τ).loc main_arg9))) (Cert.ReferenceIdeal.Model.wsl1 (F := Ideal) (m ((c.tc : Thread nD τ).loc main_arg10))) (Cert.ReferenceIdeal.Model.bsl1 (F := Ideal) (m ((c.tc : Thread nD τ).loc main_arg11)))) (m ((c.tc : Thread nD τ).loc main_arg1))) (Cert.ReferenceIdeal.Model.wsl2 (F := Ideal) (m ((c.tc : Thread nD τ).loc main_arg8))) (Cert.ReferenceIdeal.Model.bsl2 (F := Ideal) (m ((c.tc : Thread nD τ).loc main_arg9))) (Cert.ReferenceIdeal.Model.wsl2 (F := Ideal) (m ((c.tc : Thread nD τ).loc main_arg10))) (Cert.ReferenceIdeal.Model.bsl2 (F := Ideal) (m ((c.tc : Thread nD τ).loc main_arg11)))) := by
  refine (W8_arr m ρ c 6).trans ?_
  rw [final3 (V7 m ρ) (Cert.ReferenceIdeal.Model.bsl2 (F := Ideal) (m ((c.tc : Thread nD τ).loc main_arg9))) (Cert.ReferenceIdeal.Model.bsl2 (F := Ideal) (m ((c.tc : Thread nD τ).loc main_arg11))) c
    (fun k => by rw [show V7 m ρ c main_v77 = _ from W7_v77 m ρ c]; exact shapeCast_a_1a_apply _ _ 0 k)
    (fun k => by rw [show V7 m ρ c main_v78 = _ from W7_v78 m ρ c]; exact shapeCast_a_1a_apply _ _ 0 k)]
  unfold G3
  rw [show V7 m ρ c main_v58 = _ from (W7_v58 m ρ c).trans (W6_v58 m ρ c), show V7 m ρ c main_v76 = _ from W7_v76 m ρ c,
    show V7 m ρ c main_v60 = _ from W7_v60 m ρ c, show V7 m ρ c main_v64 = _ from W7_v64 m ρ c, W6_v58 m ρ c]

/-- After region 4: the read-out of the pooled fourth layer — the reference network of the arguments. -/
theorem W10_v88 (c : Dev nD) : W10 m ρ c (Proc.devRef .tc main_v88)
    = Cert.ReferenceIdeal.Model.out (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) := by
  refine (W10_arr m ρ c 5).trans ?_
  rw [final4 (V9 m ρ) (m ((c.tc : Thread nD τ).loc main_arg13)) (m ((c.tc : Thread nD τ).loc main_arg15)) c
    (fun k => by rw [show V9 m ρ c main_v86 = _ from W9_v86 m ρ c]; exact shapeCast_a_1a_apply _ _ 0 k)
    (fun k => by rw [show V9 m ρ c main_v87 = _ from W9_v87 m ρ c]; exact shapeCast_a_1a_apply _ _ 0 k)]
  unfold G4
  rw [show V9 m ρ c main_v85 = _ from W9_v85 m ρ c, show V9 m ρ c main_arg12 = _ from W9_arg12 m ρ c,
    show V9 m ρ c main_arg14 = _ from W9_arg14 m ρ c, W8_v79 m ρ c]
  rfl

/-- The idealised kernel's run, read: the result buffer ends at the reference network of the arguments. -/
theorem run : θ_run defs (onTc (τ := τ) (main (F := Ideal))) ⟨m, fun _ => 0, ρ⟩ (fun r => ∀ c : Dev nD,
      r.2.mem ((c.tc : Thread nD τ).loc main_v88) = Cert.ReferenceIdeal.Model.out (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  (θ_run defs _ _).mono (fun r h c => ⟨(h c).1.trans (W10_v88 m ρ c), (h c).2⟩) (run_main m ρ)

end Cert.KernelIdeal.Val

end
-- ==== Proof.RefOps.lean ====
/-
  The reference's @main as the list of its host operations, in program order, with each outlined function's
  body written out at its call site over that call's own buffers (the clip `max(x, 0)` is three operations:
  the zero, its broadcast, the maximum; the variance is twenty-one, and the selection it ends in three more).
  The 197 operations are cut into six consecutive stretches:
    0. the edge list's two rows and the first layer (one input feature);
    1. the second layer, with the first slices of the stacked weights;
    2. the third layer, with the second slices;
    3. the fourth layer up to its second matrix product, with the third slices;
    4. the fourth layer's last bias and clip, the two pooling sums, and the read-out's two-matrix perceptron;
    5. the read-out's standardisation: column means, column variances (the variance's own mean, squares, divisor and guard), and the quotient.
  Beside each stretch is the list of the buffers it writes (every operation writes exactly one buffer and no
  buffer is written twice), and a few sub-terms of the network named so that a stretch's result can be stated
  from the buffers the stretch reads: the neighbour sum from the edge list's two rows, a layer before its last
  bias, the standardisation of a read-out. Running two lists one after the other is running their concatenation.
-/
import proofs.«159217_j87393994539011_1_alg».proof.Proof.Gen.ReferenceIdeal
import proofs.«159217_j87393994539011_1_alg».proof.Proof.Model
import Idealize.ShloMosaic.Lib.StableHlo.Run

noncomputable section

namespace Cert.ReferenceIdeal.HandRun

open Idealize.ShloMosaic Idealize.ShloMosaic.TcCoe Idealize.SL.Sem Idealize.ShloMosaic.StableHlo
open Cert.ReferenceIdeal Cert.ReferenceIdeal.Facts₀ Cert.ReferenceIdeal.Facts

variable {F : FTy → Type} [FloatOps F]

/-! ## The operations -/

/-- Operations 1 … 32 of 197: the edge list's two rows and the first layer (one input feature). -/
def ops0 : List (HloOp τ sig (Elt F)) :=
  [ StableHlo.unary main_arg1 main_v0 ((extractStridedSlice S1x4000000 ![0, 0] · slices_S2x4000000_S1x4000000_0_0) : (⟨S2x4000000, .i32⟩ : BufTy).Contents (Elt F) → (⟨S1x4000000, .i32⟩ : BufTy).Contents (Elt F)),
    StableHlo.reshape main_v0 main_v1 rfl shapeCasts_S1x4000000_S4000000,
    StableHlo.unary main_arg1 main_v2 ((extractStridedSlice S1x4000000 ![1, 0] · slices_S2x4000000_S1x4000000_1_0) : (⟨S2x4000000, .i32⟩ : BufTy).Contents (Elt F) → (⟨S1x4000000, .i32⟩ : BufTy).Contents (Elt F)),
    StableHlo.reshape main_v2 main_v3 rfl shapeCasts_S1x4000000_S4000000,
    StableHlo.nullary main_c (constantI S_ 32 0#32),
    StableHlo.unary main_c main_v4 (broadcastInDim S4000000 ![] bcast_S_S4000000 : (⟨S_, .i32⟩ : BufTy).Contents (Elt F) → (⟨S4000000, .i32⟩ : BufTy).Contents (Elt F)),
    StableHlo.binary main_v1 main_v4 main_v5 (cmpi .slt : (⟨S4000000, .i32⟩ : BufTy).Contents (Elt F) → (⟨S4000000, .i32⟩ : BufTy).Contents (Elt F) → (⟨S4000000, .i1⟩ : BufTy).Contents (Elt F)),
    StableHlo.nullary main_c_0 (constantI S_ 32 500000#32),
    StableHlo.unary main_c_0 main_v6 (broadcastInDim S4000000 ![] bcast_S_S4000000 : (⟨S_, .i32⟩ : BufTy).Contents (Elt F) → (⟨S4000000, .i32⟩ : BufTy).Contents (Elt F)),
    StableHlo.binary main_v1 main_v6 main_v7 (addi : (⟨S4000000, .i32⟩ : BufTy).Contents (Elt F) → (⟨S4000000, .i32⟩ : BufTy).Contents (Elt F) → (⟨S4000000, .i32⟩ : BufTy).Contents (Elt F)),
    StableHlo.ternary main_v5 main_v7 main_v1 main_v8 (select : (⟨S4000000, .i1⟩ : BufTy).Contents (Elt F) → (⟨S4000000, .i32⟩ : BufTy).Contents (Elt F) → (⟨S4000000, .i32⟩ : BufTy).Contents (Elt F) → (⟨S4000000, .i32⟩ : BufTy).Contents (Elt F)),
    StableHlo.unary main_v8 main_v9 (broadcastInDim S4000000x1 ![0] bcast_S4000000_S4000000x1_0 : (⟨S4000000, .i32⟩ : BufTy).Contents (Elt F) → (⟨S4000000x1, .i32⟩ : BufTy).Contents (Elt F)),
    StableHlo.binary main_arg0 main_v9 main_v10 ((fun x i => Host.gather gather_S500000x1_S4000000x1_S4000000x1_1_0_n_n_0_1_11 x i) : (⟨S500000x1, .f32⟩ : BufTy).Contents (Elt F) → (⟨S4000000x1, .i32⟩ : BufTy).Contents (Elt F) → (⟨S4000000x1, .f32⟩ : BufTy).Contents (Elt F)),
    StableHlo.nullary main_cst (constant S_ .f32 0x00000000#32),
    StableHlo.unary main_cst main_v11 (broadcastInDim S500000x1 ![] bcast_S_S500000x1 : (⟨S_, .f32⟩ : BufTy).Contents (Elt F) → (⟨S500000x1, .f32⟩ : BufTy).Contents (Elt F)),
    StableHlo.unary main_v3 main_v12 (broadcastInDim S4000000x1 ![0] bcast_S4000000_S4000000x1_0 : (⟨S4000000, .i32⟩ : BufTy).Contents (Elt F) → (⟨S4000000x1, .i32⟩ : BufTy).Contents (Elt F)),
    StableHlo.ternary main_v11 main_v12 main_v10 main_v13 ((fun x i u => Host.scatterAdd scatter_S500000x1_S4000000x1_S4000000x1_1_0_0_1 x i u) : (⟨S500000x1, .f32⟩ : BufTy).Contents (Elt F) → (⟨S4000000x1, .i32⟩ : BufTy).Contents (Elt F) → (⟨S4000000x1, .f32⟩ : BufTy).Contents (Elt F) → (⟨S500000x1, .f32⟩ : BufTy).Contents (Elt F)),
    StableHlo.binary main_arg0 main_v13 main_v14 (addf : (⟨S500000x1, .f32⟩ : BufTy).Contents (Elt F) → (⟨S500000x1, .f32⟩ : BufTy).Contents (Elt F) → (⟨S500000x1, .f32⟩ : BufTy).Contents (Elt F)),
    StableHlo.binary main_v14 main_arg4 main_v15 ((fun l r => Host.dotGeneral dot_S500000x1_S1x64_S500000x64_1_0_0_1_n_n none l r) : (⟨S500000x1, .f32⟩ : BufTy).Contents (Elt F) → (⟨S1x64, .f32⟩ : BufTy).Contents (Elt F) → (⟨S500000x64, .f32⟩ : BufTy).Contents (Elt F)),
    StableHlo.unary main_arg5 main_v16 (broadcastInDim S1x64 ![1] bcast_S64_S1x64_1 : (⟨S64, .f32⟩ : BufTy).Contents (Elt F) → (⟨S1x64, .f32⟩ : BufTy).Contents (Elt F)),
    StableHlo.unary main_v16 main_v17 (broadcastInDim S500000x64 ![0, 1] bcast_S1x64_S500000x64_0_1 : (⟨S1x64, .f32⟩ : BufTy).Contents (Elt F) → (⟨S500000x64, .f32⟩ : BufTy).Contents (Elt F)),
    StableHlo.binary main_v15 main_v17 main_v18 (addf : (⟨S500000x64, .f32⟩ : BufTy).Contents (Elt F) → (⟨S500000x64, .f32⟩ : BufTy).Contents (Elt F) → (⟨S500000x64, .f32⟩ : BufTy).Contents (Elt F)),
    StableHlo.TRef.nullary main_call0.cst (constant S_ .f32 0x00000000#32),
    StableHlo.TRef.unary main_call0.cst main_call0.v0 (broadcastInDim S500000x64 ![] bcast_S_S500000x64),
    StableHlo.TRef.binary (.of main_v18 : StableHlo.TRef sig ⟨S500000x64, .f32⟩) main_call0.v0 main_call0.v1 maximumf,
    StableHlo.binary main_v19 main_arg6 main_v20 ((fun l r => Host.dotGeneral dot_S500000x64_S64x64_S500000x64_1_0_0_1_n_n none l r) : (⟨S500000x64, .f32⟩ : BufTy).Contents (Elt F) → (⟨S64x64, .f32⟩ : BufTy).Contents (Elt F) → (⟨S500000x64, .f32⟩ : BufTy).Contents (Elt F)),
    StableHlo.unary main_arg7 main_v21 (broadcastInDim S1x64 ![1] bcast_S64_S1x64_1 : (⟨S64, .f32⟩ : BufTy).Contents (Elt F) → (⟨S1x64, .f32⟩ : BufTy).Contents (Elt F)),
    StableHlo.unary main_v21 main_v22 (broadcastInDim S500000x64 ![0, 1] bcast_S1x64_S500000x64_0_1 : (⟨S1x64, .f32⟩ : BufTy).Contents (Elt F) → (⟨S500000x64, .f32⟩ : BufTy).Contents (Elt F)),
    StableHlo.binary main_v20 main_v22 main_v23 (addf : (⟨S500000x64, .f32⟩ : BufTy).Contents (Elt F) → (⟨S500000x64, .f32⟩ : BufTy).Contents (Elt F) → (⟨S500000x64, .f32⟩ : BufTy).Contents (Elt F)),
    StableHlo.TRef.nullary main_call1.cst (constant S_ .f32 0x00000000#32),
    StableHlo.TRef.unary main_call1.cst main_call1.v0 (broadcastInDim S500000x64 ![] bcast_S_S500000x64),
    StableHlo.TRef.binary (.of main_v23 : StableHlo.TRef sig ⟨S500000x64, .f32⟩) main_call1.v0 main_call1.v1 maximumf ]

/-- Operations 33 … 68 of 197: the second layer, with the first slices of the stacked weights. -/
def ops1 : List (HloOp τ sig (Elt F)) :=
  [ StableHlo.unary main_arg8 main_v25 ((extractStridedSlice S1x64x64 ![0, 0, 0] · slices_S3x64x64_S1x64x64_0_0_0) : (⟨S3x64x64, .f32⟩ : BufTy).Contents (Elt F) → (⟨S1x64x64, .f32⟩ : BufTy).Contents (Elt F)),
    StableHlo.reshape main_v25 main_v26 rfl shapeCasts_S1x64x64_S64x64,
    StableHlo.unary main_arg9 main_v27 ((extractStridedSlice S1x64 ![0, 0] · slices_S3x64_S1x64_0_0) : (⟨S3x64, .f32⟩ : BufTy).Contents (Elt F) → (⟨S1x64, .f32⟩ : BufTy).Contents (Elt F)),
    StableHlo.reshape main_v27 main_v28 rfl shapeCasts_S1x64_S64,
    StableHlo.unary main_arg10 main_v29 ((extractStridedSlice S1x64x64 ![0, 0, 0] · slices_S3x64x64_S1x64x64_0_0_0) : (⟨S3x64x64, .f32⟩ : BufTy).Contents (Elt F) → (⟨S1x64x64, .f32⟩ : BufTy).Contents (Elt F)),
    StableHlo.reshape main_v29 main_v30 rfl shapeCasts_S1x64x64_S64x64,
    StableHlo.unary main_arg11 main_v31 ((extractStridedSlice S1x64 ![0, 0] · slices_S3x64_S1x64_0_0) : (⟨S3x64, .f32⟩ : BufTy).Contents (Elt F) → (⟨S1x64, .f32⟩ : BufTy).Contents (Elt F)),
    StableHlo.reshape main_v31 main_v32 rfl shapeCasts_S1x64_S64,
    StableHlo.nullary main_c_1 (constantI S_ 32 0#32),
    StableHlo.unary main_c_1 main_v33 (broadcastInDim S4000000 ![] bcast_S_S4000000 : (⟨S_, .i32⟩ : BufTy).Contents (Elt F) → (⟨S4000000, .i32⟩ : BufTy).Contents (Elt F)),
    StableHlo.binary main_v1 main_v33 main_v34 (cmpi .slt : (⟨S4000000, .i32⟩ : BufTy).Contents (Elt F) → (⟨S4000000, .i32⟩ : BufTy).Contents (Elt F) → (⟨S4000000, .i1⟩ : BufTy).Contents (Elt F)),
    StableHlo.nullary main_c_2 (constantI S_ 32 500000#32),
    StableHlo.unary main_c_2 main_v35 (broadcastInDim S4000000 ![] bcast_S_S4000000 : (⟨S_, .i32⟩ : BufTy).Contents (Elt F) → (⟨S4000000, .i32⟩ : BufTy).Contents (Elt F)),
    StableHlo.binary main_v1 main_v35 main_v36 (addi : (⟨S4000000, .i32⟩ : BufTy).Contents (Elt F) → (⟨S4000000, .i32⟩ : BufTy).Contents (Elt F) → (⟨S4000000, .i32⟩ : BufTy).Contents (Elt F)),
    StableHlo.ternary main_v34 main_v36 main_v1 main_v37 (select : (⟨S4000000, .i1⟩ : BufTy).Contents (Elt F) → (⟨S4000000, .i32⟩ : BufTy).Contents (Elt F) → (⟨S4000000, .i32⟩ : BufTy).Contents (Elt F) → (⟨S4000000, .i32⟩ : BufTy).Contents (Elt F)),
    StableHlo.unary main_v37 main_v38 (broadcastInDim S4000000x1 ![0] bcast_S4000000_S4000000x1_0 : (⟨S4000000, .i32⟩ : BufTy).Contents (Elt F) → (⟨S4000000x1, .i32⟩ : BufTy).Contents (Elt F)),
    StableHlo.binary main_v24 main_v38 main_v39 ((fun x i => Host.gather gather_S500000x64_S4000000x1_S4000000x64_1_0_n_n_0_1_164 x i) : (⟨S500000x64, .f32⟩ : BufTy).Contents (Elt F) → (⟨S4000000x1, .i32⟩ : BufTy).Contents (Elt F) → (⟨S4000000x64, .f32⟩ : BufTy).Contents (Elt F)),
    StableHlo.nullary main_cst_3 (constant S_ .f32 0x00000000#32),
    StableHlo.unary main_cst_3 main_v40 (broadcastInDim S500000x64 ![] bcast_S_S500000x64 : (⟨S_, .f32⟩ : BufTy).Contents (Elt F) → (⟨S500000x64, .f32⟩ : BufTy).Contents (Elt F)),
    StableHlo.unary main_v3 main_v41 (broadcastInDim S4000000x1 ![0] bcast_S4000000_S4000000x1_0 : (⟨S4000000, .i32⟩ : BufTy).Contents (Elt F) → (⟨S4000000x1, .i32⟩ : BufTy).Contents (Elt F)),
    StableHlo.ternary main_v40 main_v41 main_v39 main_v42 ((fun x i u => Host.scatterAdd scatter_S500000x64_S4000000x1_S4000000x64_1_0_0_1 x i u) : (⟨S500000x64, .f32⟩ : BufTy).Contents (Elt F) → (⟨S4000000x1, .i32⟩ : BufTy).Contents (Elt F) → (⟨S4000000x64, .f32⟩ : BufTy).Contents (Elt F) → (⟨S500000x64, .f32⟩ : BufTy).Contents (Elt F)),
    StableHlo.binary main_v24 main_v42 main_v43 (addf : (⟨S500000x64, .f32⟩ : BufTy).Contents (Elt F) → (⟨S500000x64, .f32⟩ : BufTy).Contents (Elt F) → (⟨S500000x64, .f32⟩ : BufTy).Contents (Elt F)),
    StableHlo.binary main_v43 main_v26 main_v44 ((fun l r => Host.dotGeneral dot_S500000x64_S64x64_S500000x64_1_0_0_1_n_n none l r) : (⟨S500000x64, .f32⟩ : BufTy).Contents (Elt F) → (⟨S64x64, .f32⟩ : BufTy).Contents (Elt F) → (⟨S500000x64, .f32⟩ : BufTy).Contents (Elt F)),
    StableHlo.unary main_v28 main_v45 (broadcastInDim S1x64 ![1] bcast_S64_S1x64_1 : (⟨S64, .f32⟩ : BufTy).Contents (Elt F) → (⟨S1x64, .f32⟩ : BufTy).Contents (Elt F)),
    StableHlo.unary main_v45 main_v46 (broadcastInDim S500000x64 ![0, 1] bcast_S1x64_S500000x64_0_1 : (⟨S1x64, .f32⟩ : BufTy).Contents (Elt F) → (⟨S500000x64, .f32⟩ : BufTy).Contents (Elt F)),
    StableHlo.binary main_v44 main_v46 main_v47 (addf : (⟨S500000x64, .f32⟩ : BufTy).Contents (Elt F) → (⟨S500000x64, .f32⟩ : BufTy).Contents (Elt F) → (⟨S500000x64, .f32⟩ : BufTy).Contents (Elt F)),
    StableHlo.TRef.nullary main_call2.cst (constant S_ .f32 0x00000000#32),
    StableHlo.TRef.unary main_call2.cst main_call2.v0 (broadcastInDim S500000x64 ![] bcast_S_S500000x64),
    StableHlo.TRef.binary (.of main_v47 : StableHlo.TRef sig ⟨S500000x64, .f32⟩) main_call2.v0 main_call2.v1 maximumf,
    StableHlo.binary main_v48 main_v30 main_v49 ((fun l r => Host.dotGeneral dot_S500000x64_S64x64_S500000x64_1_0_0_1_n_n none l r) : (⟨S500000x64, .f32⟩ : BufTy).Contents (Elt F) → (⟨S64x64, .f32⟩ : BufTy).Contents (Elt F) → (⟨S500000x64, .f32⟩ : BufTy).Contents (Elt F)),
    StableHlo.unary main_v32 main_v50 (broadcastInDim S1x64 ![1] bcast_S64_S1x64_1 : (⟨S64, .f32⟩ : BufTy).Contents (Elt F) → (⟨S1x64, .f32⟩ : BufTy).Contents (Elt F)),
    StableHlo.unary main_v50 main_v51 (broadcastInDim S500000x64 ![0, 1] bcast_S1x64_S500000x64_0_1 : (⟨S1x64, .f32⟩ : BufTy).Contents (Elt F) → (⟨S500000x64, .f32⟩ : BufTy).Contents (Elt F)),
    StableHlo.binary main_v49 main_v51 main_v52 (addf : (⟨S500000x64, .f32⟩ : BufTy).Contents (Elt F) → (⟨S500000x64, .f32⟩ : BufTy).Contents (Elt F) → (⟨S500000x64, .f32⟩ : BufTy).Contents (Elt F)),
    StableHlo.TRef.nullary main_call3.cst (constant S_ .f32 0x00000000#32),
    StableHlo.TRef.unary main_call3.cst main_call3.v0 (broadcastInDim S500000x64 ![] bcast_S_S500000x64),
    StableHlo.TRef.binary (.of main_v52 : StableHlo.TRef sig ⟨S500000x64, .f32⟩) main_call3.v0 main_call3.v1 maximumf ]

/-- Operations 69 … 104 of 197: the third layer, with the second slices. -/
def ops2 : List (HloOp τ sig (Elt F)) :=
  [ StableHlo.unary main_arg8 main_v54 ((extractStridedSlice S1x64x64 ![1, 0, 0] · slices_S3x64x64_S1x64x64_1_0_0) : (⟨S3x64x64, .f32⟩ : BufTy).Contents (Elt F) → (⟨S1x64x64, .f32⟩ : BufTy).Contents (Elt F)),
    StableHlo.reshape main_v54 main_v55 rfl shapeCasts_S1x64x64_S64x64,
    StableHlo.unary main_arg9 main_v56 ((extractStridedSlice S1x64 ![1, 0] · slices_S3x64_S1x64_1_0) : (⟨S3x64, .f32⟩ : BufTy).Contents (Elt F) → (⟨S1x64, .f32⟩ : BufTy).Contents (Elt F)),
    StableHlo.reshape main_v56 main_v57 rfl shapeCasts_S1x64_S64,
    StableHlo.unary main_arg10 main_v58 ((extractStridedSlice S1x64x64 ![1, 0, 0] · slices_S3x64x64_S1x64x64_1_0_0) : (⟨S3x64x64, .f32⟩ : BufTy).Contents (Elt F) → (⟨S1x64x64, .f32⟩ : BufTy).Contents (Elt F)),
    StableHlo.reshape main_v58 main_v59 rfl shapeCasts_S1x64x64_S64x64,
    StableHlo.unary main_arg11 main_v60 ((extractStridedSlice S1x64 ![1, 0] · slices_S3x64_S1x64_1_0) : (⟨S3x64, .f32⟩ : BufTy).Contents (Elt F) → (⟨S1x64, .f32⟩ : BufTy).Contents (Elt F)),
    StableHlo.reshape main_v60 main_v61 rfl shapeCasts_S1x64_S64,
    StableHlo.nullary main_c_4 (constantI S_ 32 0#32),
    StableHlo.unary main_c_4 main_v62 (broadcastInDim S4000000 ![] bcast_S_S4000000 : (⟨S_, .i32⟩ : BufTy).Contents (Elt F) → (⟨S4000000, .i32⟩ : BufTy).Contents (Elt F)),
    StableHlo.binary main_v1 main_v62 main_v63 (cmpi .slt : (⟨S4000000, .i32⟩ : BufTy).Contents (Elt F) → (⟨S4000000, .i32⟩ : BufTy).Contents (Elt F) → (⟨S4000000, .i1⟩ : BufTy).Contents (Elt F)),
    StableHlo.nullary main_c_5 (constantI S_ 32 500000#32),
    StableHlo.unary main_c_5 main_v64 (broadcastInDim S4000000 ![] bcast_S_S4000000 : (⟨S_, .i32⟩ : BufTy).Contents (Elt F) → (⟨S4000000, .i32⟩ : BufTy).Contents (Elt F)),
    StableHlo.binary main_v1 main_v64 main_v65 (addi : (⟨S4000000, .i32⟩ : BufTy).Contents (Elt F) → (⟨S4000000, .i32⟩ : BufTy).Contents (Elt F) → (⟨S4000000, .i32⟩ : BufTy).Contents (Elt F)),
    StableHlo.ternary main_v63 main_v65 main_v1 main_v66 (select : (⟨S4000000, .i1⟩ : BufTy).Contents (Elt F) → (⟨S4000000, .i32⟩ : BufTy).Contents (Elt F) → (⟨S4000000, .i32⟩ : BufTy).Contents (Elt F) → (⟨S4000000, .i32⟩ : BufTy).Contents (Elt F)),
    StableHlo.unary main_v66 main_v67 (broadcastInDim S4000000x1 ![0] bcast_S4000000_S4000000x1_0 : (⟨S4000000, .i32⟩ : BufTy).Contents (Elt F) → (⟨S4000000x1, .i32⟩ : BufTy).Contents (Elt F)),
    StableHlo.binary main_v53 main_v67 main_v68 ((fun x i => Host.gather gather_S500000x64_S4000000x1_S4000000x64_1_0_n_n_0_1_164 x i) : (⟨S500000x64, .f32⟩ : BufTy).Contents (Elt F) → (⟨S4000000x1, .i32⟩ : BufTy).Contents (Elt F) → (⟨S4000000x64, .f32⟩ : BufTy).Contents (Elt F)),
    StableHlo.nullary main_cst_6 (constant S_ .f32 0x00000000#32),
    StableHlo.unary main_cst_6 main_v69 (broadcastInDim S500000x64 ![] bcast_S_S500000x64 : (⟨S_, .f32⟩ : BufTy).Contents (Elt F) → (⟨S500000x64, .f32⟩ : BufTy).Contents (Elt F)),
    StableHlo.unary main_v3 main_v70 (broadcastInDim S4000000x1 ![0] bcast_S4000000_S4000000x1_0 : (⟨S4000000, .i32⟩ : BufTy).Contents (Elt F) → (⟨S4000000x1, .i32⟩ : BufTy).Contents (Elt F)),
    StableHlo.ternary main_v69 main_v70 main_v68 main_v71 ((fun x i u => Host.scatterAdd scatter_S500000x64_S4000000x1_S4000000x64_1_0_0_1 x i u) : (⟨S500000x64, .f32⟩ : BufTy).Contents (Elt F) → (⟨S4000000x1, .i32⟩ : BufTy).Contents (Elt F) → (⟨S4000000x64, .f32⟩ : BufTy).Contents (Elt F) → (⟨S500000x64, .f32⟩ : BufTy).Contents (Elt F)),
    StableHlo.binary main_v53 main_v71 main_v72 (addf : (⟨S500000x64, .f32⟩ : BufTy).Contents (Elt F) → (⟨S500000x64, .f32⟩ : BufTy).Contents (Elt F) → (⟨S500000x64, .f32⟩ : BufTy).Contents (Elt F)),
    StableHlo.binary main_v72 main_v55 main_v73 ((fun l r => Host.dotGeneral dot_S500000x64_S64x64_S500000x64_1_0_0_1_n_n none l r) : (⟨S500000x64, .f32⟩ : BufTy).Contents (Elt F) → (⟨S64x64, .f32⟩ : BufTy).Contents (Elt F) → (⟨S500000x64, .f32⟩ : BufTy).Contents (Elt F)),
    StableHlo.unary main_v57 main_v74 (broadcastInDim S1x64 ![1] bcast_S64_S1x64_1 : (⟨S64, .f32⟩ : BufTy).Contents (Elt F) → (⟨S1x64, .f32⟩ : BufTy).Contents (Elt F)),
    StableHlo.unary main_v74 main_v75 (broadcastInDim S500000x64 ![0, 1] bcast_S1x64_S500000x64_0_1 : (⟨S1x64, .f32⟩ : BufTy).Contents (Elt F) → (⟨S500000x64, .f32⟩ : BufTy).Contents (Elt F)),
    StableHlo.binary main_v73 main_v75 main_v76 (addf : (⟨S500000x64, .f32⟩ : BufTy).Contents (Elt F) → (⟨S500000x64, .f32⟩ : BufTy).Contents (Elt F) → (⟨S500000x64, .f32⟩ : BufTy).Contents (Elt F)),
    StableHlo.TRef.nullary main_call4.cst (constant S_ .f32 0x00000000#32),
    StableHlo.TRef.unary main_call4.cst main_call4.v0 (broadcastInDim S500000x64 ![] bcast_S_S500000x64),
    StableHlo.TRef.binary (.of main_v76 : StableHlo.TRef sig ⟨S500000x64, .f32⟩) main_call4.v0 main_call4.v1 maximumf,
    StableHlo.binary main_v77 main_v59 main_v78 ((fun l r => Host.dotGeneral dot_S500000x64_S64x64_S500000x64_1_0_0_1_n_n none l r) : (⟨S500000x64, .f32⟩ : BufTy).Contents (Elt F) → (⟨S64x64, .f32⟩ : BufTy).Contents (Elt F) → (⟨S500000x64, .f32⟩ : BufTy).Contents (Elt F)),
    StableHlo.unary main_v61 main_v79 (broadcastInDim S1x64 ![1] bcast_S64_S1x64_1 : (⟨S64, .f32⟩ : BufTy).Contents (Elt F) → (⟨S1x64, .f32⟩ : BufTy).Contents (Elt F)),
    StableHlo.unary main_v79 main_v80 (broadcastInDim S500000x64 ![0, 1] bcast_S1x64_S500000x64_0_1 : (⟨S1x64, .f32⟩ : BufTy).Contents (Elt F) → (⟨S500000x64, .f32⟩ : BufTy).Contents (Elt F)),
    StableHlo.binary main_v78 main_v80 main_v81 (addf : (⟨S500000x64, .f32⟩ : BufTy).Contents (Elt F) → (⟨S500000x64, .f32⟩ : BufTy).Contents (Elt F) → (⟨S500000x64, .f32⟩ : BufTy).Contents (Elt F)),
    StableHlo.TRef.nullary main_call5.cst (constant S_ .f32 0x00000000#32),
    StableHlo.TRef.unary main_call5.cst main_call5.v0 (broadcastInDim S500000x64 ![] bcast_S_S500000x64),
    StableHlo.TRef.binary (.of main_v81 : StableHlo.TRef sig ⟨S500000x64, .f32⟩) main_call5.v0 main_call5.v1 maximumf ]

/-- Operations 105 … 134 of 197: the fourth layer up to its second matrix product, with the third slices. -/
def ops3 : List (HloOp τ sig (Elt F)) :=
  [ StableHlo.unary main_arg8 main_v83 ((extractStridedSlice S1x64x64 ![2, 0, 0] · slices_S3x64x64_S1x64x64_2_0_0) : (⟨S3x64x64, .f32⟩ : BufTy).Contents (Elt F) → (⟨S1x64x64, .f32⟩ : BufTy).Contents (Elt F)),
    StableHlo.reshape main_v83 main_v84 rfl shapeCasts_S1x64x64_S64x64,
    StableHlo.unary main_arg9 main_v85 ((extractStridedSlice S1x64 ![2, 0] · slices_S3x64_S1x64_2_0) : (⟨S3x64, .f32⟩ : BufTy).Contents (Elt F) → (⟨S1x64, .f32⟩ : BufTy).Contents (Elt F)),
    StableHlo.reshape main_v85 main_v86 rfl shapeCasts_S1x64_S64,
    StableHlo.unary main_arg10 main_v87 ((extractStridedSlice S1x64x64 ![2, 0, 0] · slices_S3x64x64_S1x64x64_2_0_0) : (⟨S3x64x64, .f32⟩ : BufTy).Contents (Elt F) → (⟨S1x64x64, .f32⟩ : BufTy).Contents (Elt F)),
    StableHlo.reshape main_v87 main_v88 rfl shapeCasts_S1x64x64_S64x64,
    StableHlo.unary main_arg11 main_v89 ((extractStridedSlice S1x64 ![2, 0] · slices_S3x64_S1x64_2_0) : (⟨S3x64, .f32⟩ : BufTy).Contents (Elt F) → (⟨S1x64, .f32⟩ : BufTy).Contents (Elt F)),
    StableHlo.reshape main_v89 main_v90 rfl shapeCasts_S1x64_S64,
    StableHlo.nullary main_c_7 (constantI S_ 32 0#32),
    StableHlo.unary main_c_7 main_v91 (broadcastInDim S4000000 ![] bcast_S_S4000000 : (⟨S_, .i32⟩ : BufTy).Contents (Elt F) → (⟨S4000000, .i32⟩ : BufTy).Contents (Elt F)),
    StableHlo.binary main_v1 main_v91 main_v92 (cmpi .slt : (⟨S4000000, .i32⟩ : BufTy).Contents (Elt F) → (⟨S4000000, .i32⟩ : BufTy).Contents (Elt F) → (⟨S4000000, .i1⟩ : BufTy).Contents (Elt F)),
    StableHlo.nullary main_c_8 (constantI S_ 32 500000#32),
    StableHlo.unary main_c_8 main_v93 (broadcastInDim S4000000 ![] bcast_S_S4000000 : (⟨S_, .i32⟩ : BufTy).Contents (Elt F) → (⟨S4000000, .i32⟩ : BufTy).Contents (Elt F)),
    StableHlo.binary main_v1 main_v93 main_v94 (addi : (⟨S4000000, .i32⟩ : BufTy).Contents (Elt F) → (⟨S4000000, .i32⟩ : BufTy).Contents (Elt F) → (⟨S4000000, .i32⟩ : BufTy).Contents (Elt F)),
    StableHlo.ternary main_v92 main_v94 main_v1 main_v95 (select : (⟨S4000000, .i1⟩ : BufTy).Contents (Elt F) → (⟨S4000000, .i32⟩ : BufTy).Contents (Elt F) → (⟨S4000000, .i32⟩ : BufTy).Contents (Elt F) → (⟨S4000000, .i32⟩ : BufTy).Contents (Elt F)),
    StableHlo.unary main_v95 main_v96 (broadcastInDim S4000000x1 ![0] bcast_S4000000_S4000000x1_0 : (⟨S4000000, .i32⟩ : BufTy).Contents (Elt F) → (⟨S4000000x1, .i32⟩ : BufTy).Contents (Elt F)),
    StableHlo.binary main_v82 main_v96 main_v97 ((fun x i => Host.gather gather_S500000x64_S4000000x1_S4000000x64_1_0_n_n_0_1_164 x i) : (⟨S500000x64, .f32⟩ : BufTy).Contents (Elt F) → (⟨S4000000x1, .i32⟩ : BufTy).Contents (Elt F) → (⟨S4000000x64, .f32⟩ : BufTy).Contents (Elt F)),
    StableHlo.nullary main_cst_9 (constant S_ .f32 0x00000000#32),
    StableHlo.unary main_cst_9 main_v98 (broadcastInDim S500000x64 ![] bcast_S_S500000x64 : (⟨S_, .f32⟩ : BufTy).Contents (Elt F) → (⟨S500000x64, .f32⟩ : BufTy).Contents (Elt F)),
    StableHlo.unary main_v3 main_v99 (broadcastInDim S4000000x1 ![0] bcast_S4000000_S4000000x1_0 : (⟨S4000000, .i32⟩ : BufTy).Contents (Elt F) → (⟨S4000000x1, .i32⟩ : BufTy).Contents (Elt F)),
    StableHlo.ternary main_v98 main_v99 main_v97 main_v100 ((fun x i u => Host.scatterAdd scatter_S500000x64_S4000000x1_S4000000x64_1_0_0_1 x i u) : (⟨S500000x64, .f32⟩ : BufTy).Contents (Elt F) → (⟨S4000000x1, .i32⟩ : BufTy).Contents (Elt F) → (⟨S4000000x64, .f32⟩ : BufTy).Contents (Elt F) → (⟨S500000x64, .f32⟩ : BufTy).Contents (Elt F)),
    StableHlo.binary main_v82 main_v100 main_v101 (addf : (⟨S500000x64, .f32⟩ : BufTy).Contents (Elt F) → (⟨S500000x64, .f32⟩ : BufTy).Contents (Elt F) → (⟨S500000x64, .f32⟩ : BufTy).Contents (Elt F)),
    StableHlo.binary main_v101 main_v84 main_v102 ((fun l r => Host.dotGeneral dot_S500000x64_S64x64_S500000x64_1_0_0_1_n_n none l r) : (⟨S500000x64, .f32⟩ : BufTy).Contents (Elt F) → (⟨S64x64, .f32⟩ : BufTy).Contents (Elt F) → (⟨S500000x64, .f32⟩ : BufTy).Contents (Elt F)),
    StableHlo.unary main_v86 main_v103 (broadcastInDim S1x64 ![1] bcast_S64_S1x64_1 : (⟨S64, .f32⟩ : BufTy).Contents (Elt F) → (⟨S1x64, .f32⟩ : BufTy).Contents (Elt F)),
    StableHlo.unary main_v103 main_v104 (broadcastInDim S500000x64 ![0, 1] bcast_S1x64_S500000x64_0_1 : (⟨S1x64, .f32⟩ : BufTy).Contents (Elt F) → (⟨S500000x64, .f32⟩ : BufTy).Contents (Elt F)),
    StableHlo.binary main_v102 main_v104 main_v105 (addf : (⟨S500000x64, .f32⟩ : BufTy).Contents (Elt F) → (⟨S500000x64, .f32⟩ : BufTy).Contents (Elt F) → (⟨S500000x64, .f32⟩ : BufTy).Contents (Elt F)),
    StableHlo.TRef.nullary main_call6.cst (constant S_ .f32 0x00000000#32),
    StableHlo.TRef.unary main_call6.cst main_call6.v0 (broadcastInDim S500000x64 ![] bcast_S_S500000x64),
    StableHlo.TRef.binary (.of main_v105 : StableHlo.TRef sig ⟨S500000x64, .f32⟩) main_call6.v0 main_call6.v1 maximumf,
    StableHlo.binary main_v106 main_v88 main_v107 ((fun l r => Host.dotGeneral dot_S500000x64_S64x64_S500000x64_1_0_0_1_n_n none l r) : (⟨S500000x64, .f32⟩ : BufTy).Contents (Elt F) → (⟨S64x64, .f32⟩ : BufTy).Contents (Elt F) → (⟨S500000x64, .f32⟩ : BufTy).Contents (Elt F)) ]

/-- Operations 135 … 159 of 197: the fourth layer's last bias and clip, the two pooling sums, and the read-out's two-matrix perceptron. -/
def ops4 : List (HloOp τ sig (Elt F)) :=
  [ StableHlo.unary main_v90 main_v108 (broadcastInDim S1x64 ![1] bcast_S64_S1x64_1 : (⟨S64, .f32⟩ : BufTy).Contents (Elt F) → (⟨S1x64, .f32⟩ : BufTy).Contents (Elt F)),
    StableHlo.unary main_v108 main_v109 (broadcastInDim S500000x64 ![0, 1] bcast_S1x64_S500000x64_0_1 : (⟨S1x64, .f32⟩ : BufTy).Contents (Elt F) → (⟨S500000x64, .f32⟩ : BufTy).Contents (Elt F)),
    StableHlo.binary main_v107 main_v109 main_v110 (addf : (⟨S500000x64, .f32⟩ : BufTy).Contents (Elt F) → (⟨S500000x64, .f32⟩ : BufTy).Contents (Elt F) → (⟨S500000x64, .f32⟩ : BufTy).Contents (Elt F)),
    StableHlo.TRef.nullary main_call7.cst (constant S_ .f32 0x00000000#32),
    StableHlo.TRef.unary main_call7.cst main_call7.v0 (broadcastInDim S500000x64 ![] bcast_S_S500000x64),
    StableHlo.TRef.binary (.of main_v110 : StableHlo.TRef sig ⟨S500000x64, .f32⟩) main_call7.v0 main_call7.v1 maximumf,
    StableHlo.nullary main_cst_10 (constant S_ .f32 0x00000000#32),
    StableHlo.unary main_cst_10 main_v112 (broadcastInDim S10000x64 ![] bcast_S_S10000x64 : (⟨S_, .f32⟩ : BufTy).Contents (Elt F) → (⟨S10000x64, .f32⟩ : BufTy).Contents (Elt F)),
    StableHlo.unary main_arg2 main_v113 (broadcastInDim S500000x1 ![0] bcast_S500000_S500000x1_0 : (⟨S500000, .i32⟩ : BufTy).Contents (Elt F) → (⟨S500000x1, .i32⟩ : BufTy).Contents (Elt F)),
    StableHlo.ternary main_v112 main_v113 main_v111 main_v114 ((fun x i u => Host.scatterAdd scatter_S10000x64_S500000x1_S500000x64_1_0_0_1 x i u) : (⟨S10000x64, .f32⟩ : BufTy).Contents (Elt F) → (⟨S500000x1, .i32⟩ : BufTy).Contents (Elt F) → (⟨S500000x64, .f32⟩ : BufTy).Contents (Elt F) → (⟨S10000x64, .f32⟩ : BufTy).Contents (Elt F)),
    StableHlo.nullary main_cst_11 (constant S_ .f32 0x00000000#32),
    StableHlo.unary main_cst_11 main_v115 (broadcastInDim S100x64 ![] bcast_S_S100x64 : (⟨S_, .f32⟩ : BufTy).Contents (Elt F) → (⟨S100x64, .f32⟩ : BufTy).Contents (Elt F)),
    StableHlo.unary main_arg3 main_v116 (broadcastInDim S10000x1 ![0] bcast_S10000_S10000x1_0 : (⟨S10000, .i32⟩ : BufTy).Contents (Elt F) → (⟨S10000x1, .i32⟩ : BufTy).Contents (Elt F)),
    StableHlo.ternary main_v115 main_v116 main_v114 main_v117 ((fun x i u => Host.scatterAdd scatter_S100x64_S10000x1_S10000x64_1_0_0_1 x i u) : (⟨S100x64, .f32⟩ : BufTy).Contents (Elt F) → (⟨S10000x1, .i32⟩ : BufTy).Contents (Elt F) → (⟨S10000x64, .f32⟩ : BufTy).Contents (Elt F) → (⟨S100x64, .f32⟩ : BufTy).Contents (Elt F)),
    StableHlo.binary main_v117 main_arg12 main_v118 ((fun l r => Host.dotGeneral dot_S100x64_S64x64_S100x64_1_0_0_1_n_n none l r) : (⟨S100x64, .f32⟩ : BufTy).Contents (Elt F) → (⟨S64x64, .f32⟩ : BufTy).Contents (Elt F) → (⟨S100x64, .f32⟩ : BufTy).Contents (Elt F)),
    StableHlo.unary main_arg13 main_v119 (broadcastInDim S1x64 ![1] bcast_S64_S1x64_1 : (⟨S64, .f32⟩ : BufTy).Contents (Elt F) → (⟨S1x64, .f32⟩ : BufTy).Contents (Elt F)),
    StableHlo.unary main_v119 main_v120 (broadcastInDim S100x64 ![0, 1] bcast_S1x64_S100x64_0_1 : (⟨S1x64, .f32⟩ : BufTy).Contents (Elt F) → (⟨S100x64, .f32⟩ : BufTy).Contents (Elt F)),
    StableHlo.binary main_v118 main_v120 main_v121 (addf : (⟨S100x64, .f32⟩ : BufTy).Contents (Elt F) → (⟨S100x64, .f32⟩ : BufTy).Contents (Elt F) → (⟨S100x64, .f32⟩ : BufTy).Contents (Elt F)),
    StableHlo.TRef.nullary main_call8.cst (constant S_ .f32 0x00000000#32),
    StableHlo.TRef.unary main_call8.cst main_call8.v0 (broadcastInDim S100x64 ![] bcast_S_S100x64),
    StableHlo.TRef.binary (.of main_v121 : StableHlo.TRef sig ⟨S100x64, .f32⟩) main_call8.v0 main_call8.v1 maximumf,
    StableHlo.binary main_v122 main_arg14 main_v123 ((fun l r => Host.dotGeneral dot_S100x64_S64x16_S100x16_1_0_0_1_n_n none l r) : (⟨S100x64, .f32⟩ : BufTy).Contents (Elt F) → (⟨S64x16, .f32⟩ : BufTy).Contents (Elt F) → (⟨S100x16, .f32⟩ : BufTy).Contents (Elt F)),
    StableHlo.unary main_arg15 main_v124 (broadcastInDim S1x16 ![1] bcast_S16_S1x16_1 : (⟨S16, .f32⟩ : BufTy).Contents (Elt F) → (⟨S1x16, .f32⟩ : BufTy).Contents (Elt F)),
    StableHlo.unary main_v124 main_v125 (broadcastInDim S100x16 ![0, 1] bcast_S1x16_S100x16_0_1 : (⟨S1x16, .f32⟩ : BufTy).Contents (Elt F) → (⟨S100x16, .f32⟩ : BufTy).Contents (Elt F)),
    StableHlo.binary main_v123 main_v125 main_v126 (addf : (⟨S100x16, .f32⟩ : BufTy).Contents (Elt F) → (⟨S100x16, .f32⟩ : BufTy).Contents (Elt F) → (⟨S100x16, .f32⟩ : BufTy).Contents (Elt F)) ]

/-- Operations 160 … 197 of 197: the read-out's standardisation: column means, column variances (the variance's own mean, squares, divisor and guard), and the quotient. -/
def ops5 : List (HloOp τ sig (Elt F)) :=
  [ StableHlo.nullary main_cst_12 (constant S_ .f32 0x00000000#32),
    StableHlo.binary main_v126 main_cst_12 main_v127 ((fun x v => Host.reduceAdd x v reducesTo_S100x16_S16_d0 h_S_) : (⟨S100x16, .f32⟩ : BufTy).Contents (Elt F) → (⟨S_, .f32⟩ : BufTy).Contents (Elt F) → (⟨S16, .f32⟩ : BufTy).Contents (Elt F)),
    StableHlo.nullary main_cst_13 (constant S_ .f32 0x42C80000#32),
    StableHlo.unary main_cst_13 main_v128 (broadcastInDim S16 ![] bcast_S_S16 : (⟨S_, .f32⟩ : BufTy).Contents (Elt F) → (⟨S16, .f32⟩ : BufTy).Contents (Elt F)),
    StableHlo.binary main_v127 main_v128 main_v129 (Host.divf : (⟨S16, .f32⟩ : BufTy).Contents (Elt F) → (⟨S16, .f32⟩ : BufTy).Contents (Elt F) → (⟨S16, .f32⟩ : BufTy).Contents (Elt F)),
    StableHlo.nullary main_c_14 (constantI S_ 32 0#32),
    StableHlo.TRef.nullary main_call9.cst (constant S_ .f32 0x00000000#32),
    StableHlo.TRef.binary (.of main_v126 : StableHlo.TRef sig ⟨S100x16, .f32⟩) main_call9.cst main_call9.v0 (fun x v => Host.reduceAdd x v reducesTo_S100x16_S16_d0 h_S_),
    StableHlo.TRef.unary main_call9.v0 main_call9.v1 (broadcastInDim S1x16 ![1] bcast_S16_S1x16_1),
    StableHlo.TRef.nullary main_call9.cst_0 (constant S_ .f32 0x42C80000#32),
    StableHlo.TRef.unary main_call9.cst_0 main_call9.v2 (broadcastInDim S1x16 ![] bcast_S_S1x16),
    StableHlo.TRef.binary main_call9.v1 main_call9.v2 main_call9.v3 Host.divf,
    StableHlo.TRef.unary main_call9.v3 main_call9.v4 (broadcastInDim S100x16 ![0, 1] bcast_S1x16_S100x16_0_1),
    StableHlo.TRef.binary (.of main_v126 : StableHlo.TRef sig ⟨S100x16, .f32⟩) main_call9.v4 main_call9.v5 subf,
    StableHlo.TRef.binary main_call9.v5 main_call9.v5 main_call9.v6 mulf,
    StableHlo.TRef.unary (.of main_c_14 : StableHlo.TRef sig ⟨S_, .i32⟩) main_call9.v7 (sitofp .f32),
    StableHlo.TRef.nullary main_call9.cst_1 (constant S_ .f32 0x42C80000#32),
    StableHlo.TRef.binary main_call9.cst_1 main_call9.v7 main_call9.v8 subf,
    StableHlo.TRef.nullary main_call9.cst_2 (constant S_ .f32 0x00000000#32),
    StableHlo.TRef.binary main_call9.v6 main_call9.cst_2 main_call9.v9 (fun x v => Host.reduceAdd x v reducesTo_S100x16_S16_d0 h_S_),
    StableHlo.TRef.unary main_call9.v8 main_call9.v10 (broadcastInDim S16 ![] bcast_S_S16),
    StableHlo.TRef.binary main_call9.v9 main_call9.v10 main_call9.v11 Host.divf,
    StableHlo.TRef.nullary main_call9.cst_3 (constant S_ .f32 0x00000000#32),
    StableHlo.TRef.binary main_call9.v8 main_call9.cst_3 main_call9.v12 (cmpf .ogt),
    StableHlo.TRef.nullary main_call9.cst_4 (constant S_ .f32 0x7FC00000#32),
    StableHlo.TRef.unary main_call9.cst_4 main_call9.call0.v0 id,
    StableHlo.TRef.unary main_call9.call0.v0 main_call9.call0.v1 (broadcastInDim S16 ![] bcast_S_S16),
    StableHlo.TRef.ternary main_call9.v12 main_call9.v11 main_call9.call0.v1 main_call9.call0.v2 (fun p a b => select (broadcastInDim S16 ![] bcast_S_S16 p) a b),
    StableHlo.unary main_v129 main_v131 (broadcastInDim S1x16 ![1] bcast_S16_S1x16_1 : (⟨S16, .f32⟩ : BufTy).Contents (Elt F) → (⟨S1x16, .f32⟩ : BufTy).Contents (Elt F)),
    StableHlo.unary main_v131 main_v132 (broadcastInDim S100x16 ![0, 1] bcast_S1x16_S100x16_0_1 : (⟨S1x16, .f32⟩ : BufTy).Contents (Elt F) → (⟨S100x16, .f32⟩ : BufTy).Contents (Elt F)),
    StableHlo.binary main_v126 main_v132 main_v133 (subf : (⟨S100x16, .f32⟩ : BufTy).Contents (Elt F) → (⟨S100x16, .f32⟩ : BufTy).Contents (Elt F) → (⟨S100x16, .f32⟩ : BufTy).Contents (Elt F)),
    StableHlo.nullary main_cst_15 (constant S_ .f32 0x3727C5AC#32),
    StableHlo.unary main_cst_15 main_v134 (broadcastInDim S16 ![] bcast_S_S16 : (⟨S_, .f32⟩ : BufTy).Contents (Elt F) → (⟨S16, .f32⟩ : BufTy).Contents (Elt F)),
    StableHlo.binary main_v130 main_v134 main_v135 (addf : (⟨S16, .f32⟩ : BufTy).Contents (Elt F) → (⟨S16, .f32⟩ : BufTy).Contents (Elt F) → (⟨S16, .f32⟩ : BufTy).Contents (Elt F)),
    StableHlo.unary main_v135 main_v136 (Host.sqrt : (⟨S16, .f32⟩ : BufTy).Contents (Elt F) → (⟨S16, .f32⟩ : BufTy).Contents (Elt F)),
    StableHlo.unary main_v136 main_v137 (broadcastInDim S1x16 ![1] bcast_S16_S1x16_1 : (⟨S16, .f32⟩ : BufTy).Contents (Elt F) → (⟨S1x16, .f32⟩ : BufTy).Contents (Elt F)),
    StableHlo.unary main_v137 main_v138 (broadcastInDim S100x16 ![0, 1] bcast_S1x16_S100x16_0_1 : (⟨S1x16, .f32⟩ : BufTy).Contents (Elt F) → (⟨S100x16, .f32⟩ : BufTy).Contents (Elt F)),
    StableHlo.binary main_v133 main_v138 main_v139 (Host.divf : (⟨S100x16, .f32⟩ : BufTy).Contents (Elt F) → (⟨S100x16, .f32⟩ : BufTy).Contents (Elt F) → (⟨S100x16, .f32⟩ : BufTy).Contents (Elt F)) ]

/-- @main's operations, in order. -/
def ops : List (HloOp τ sig (Elt F)) := ops0 ++ (ops1 ++ (ops2 ++ (ops3 ++ (ops4 ++ ops5))))

/-! ## What each stretch writes -/

/-- The buffers stretch 0 writes, in order. -/
def W0 : List (Ref sig .tc) :=
  [ main_v0, main_v1, main_v2, main_v3, main_c, main_v4, main_v5, main_c_0,
    main_v6, main_v7, main_v8, main_v9, main_v10, main_cst, main_v11, main_v12,
    main_v13, main_v14, main_v15, main_v16, main_v17, main_v18, main_call0_cst, main_call0_v0,
    main_v19, main_v20, main_v21, main_v22, main_v23, main_call1_cst, main_call1_v0, main_v24 ]

/-- The buffers stretch 1 writes, in order. -/
def W1 : List (Ref sig .tc) :=
  [ main_v25, main_v26, main_v27, main_v28, main_v29, main_v30, main_v31, main_v32,
    main_c_1, main_v33, main_v34, main_c_2, main_v35, main_v36, main_v37, main_v38,
    main_v39, main_cst_3, main_v40, main_v41, main_v42, main_v43, main_v44, main_v45,
    main_v46, main_v47, main_call2_cst, main_call2_v0, main_v48, main_v49, main_v50, main_v51,
    main_v52, main_call3_cst, main_call3_v0, main_v53 ]

/-- The buffers stretch 2 writes, in order. -/
def W2 : List (Ref sig .tc) :=
  [ main_v54, main_v55, main_v56, main_v57, main_v58, main_v59, main_v60, main_v61,
    main_c_4, main_v62, main_v63, main_c_5, main_v64, main_v65, main_v66, main_v67,
    main_v68, main_cst_6, main_v69, main_v70, main_v71, main_v72, main_v73, main_v74,
    main_v75, main_v76, main_call4_cst, main_call4_v0, main_v77, main_v78, main_v79, main_v80,
    main_v81, main_call5_cst, main_call5_v0, main_v82 ]

/-- The buffers stretch 3 writes, in order. -/
def W3 : List (Ref sig .tc) :=
  [ main_v83, main_v84, main_v85, main_v86, main_v87, main_v88, main_v89, main_v90,
    main_c_7, main_v91, main_v92, main_c_8, main_v93, main_v94, main_v95, main_v96,
    main_v97, main_cst_9, main_v98, main_v99, main_v100, main_v101, main_v102, main_v103,
    main_v104, main_v105, main_call6_cst, main_call6_v0, main_v106, main_v107 ]

/-- The buffers stretch 4 writes, in order. -/
def W4 : List (Ref sig .tc) :=
  [ main_v108, main_v109, main_v110, main_call7_cst, main_call7_v0, main_v111, main_cst_10, main_v112,
    main_v113, main_v114, main_cst_11, main_v115, main_v116, main_v117, main_v118, main_v119,
    main_v120, main_v121, main_call8_cst, main_call8_v0, main_v122, main_v123, main_v124, main_v125,
    main_v126 ]

/-- The buffers stretch 5 writes, in order. -/
def W5 : List (Ref sig .tc) :=
  [ main_cst_12, main_v127, main_cst_13, main_v128, main_v129, main_c_14, main_call9_cst, main_call9_v0,
    main_call9_v1, main_call9_cst_0, main_call9_v2, main_call9_v3, main_call9_v4, main_call9_v5, main_call9_v6, main_call9_v7,
    main_call9_cst_1, main_call9_v8, main_call9_cst_2, main_call9_v9, main_call9_v10, main_call9_v11, main_call9_cst_3, main_call9_v12,
    main_call9_cst_4, main_call9_call0_v0, main_call9_call0_v1, main_v130, main_v131, main_v132, main_v133, main_cst_15,
    main_v134, main_v135, main_v136, main_v137, main_v138, main_v139 ]

/-! ## Running a concatenation -/

theorem after_append (l₁ l₂ : List (HloOp τ sig (Elt F))) (V : Valuation τ sig (Elt F)) :
    after (l₁ ++ l₂) V = after l₂ (after l₁ V) := by
  induction l₁ generalizing V with
  | nil => rfl
  | cons op l ih => simp only [List.cons_append, after_cons, ih]

/-- An operation whose one written buffer is in a list writes inside the list. -/
theorem writes_sub_of_mem {W : List (Ref sig .tc)} {op : HloOp τ sig (Elt F)} (y : Ref sig .tc)
    (hw : op.writes = {Proc.devRef .tc y}) (hy : y ∈ W) :
    op.writes ⊆ (W.map (Proc.devRef (τ := τ) .tc)).toFinset := by
  rw [hw, Finset.singleton_subset_iff, List.mem_toFinset]
  exact List.mem_map.mpr ⟨y, hy, rfl⟩

/-! ## Sub-terms of the network, from what a stretch reads -/

/-- The gather's index column from the sources' row: a negative source counted from the end. -/
def srcOf (a : Model.C F S4000000 .i32) : Model.C F S4000000x1 .i32 :=
  broadcastInDim S4000000x1 ![0] bcast_S4000000_S4000000x1_0
    (select (cmpi .slt a (broadcastInDim S4000000 ![] bcast_S_S4000000 (constantI S_ 32 0#32)))
      (addi a (broadcastInDim S4000000 ![] bcast_S_S4000000 (constantI S_ 32 500000#32)))
      a)
/-- The scatter's index column from the destinations' row. -/
def dstOf (b : Model.C F S4000000 .i32) : Model.C F S4000000x1 .i32 :=
  broadcastInDim S4000000x1 ![0] bcast_S4000000_S4000000x1_0 b

/-- The neighbour sum of sixty-four features from the edge list's two rows. -/
def aggOf (x : Model.C F S500000x64 .f32) (a b : Model.C F S4000000 .i32) : Model.C F S500000x64 .f32 :=
  Host.scatterAdd scatter_S500000x64_S4000000x1_S4000000x64_1_0_0_1 (Model.zeros64 (F := F)) (dstOf (F := F) b)
    (Host.gather gather_S500000x64_S4000000x1_S4000000x64_1_0_n_n_0_1_164 x (srcOf (F := F) a))

theorem agg_eq (x : Model.C F S500000x64 .f32) (ei : Model.C F S2x4000000 .i32) :
    Model.agg x ei = aggOf x (Model.e1 (F := F) ei) (Model.e2 (F := F) ei) := rfl

/-- A later layer before its last bias and clip: `relu ((x + A)·Wa + ba)·Wb`. -/
def layerPre (x A : Model.C F S500000x64 .f32) (Wa : Model.C F S64x64 .f32) (ba : Model.C F S64 .f32) (Wb : Model.C F S64x64 .f32) :
    Model.C F S500000x64 .f32 :=
  Host.dotGeneral dot_S500000x64_S64x64_S500000x64_1_0_0_1_n_n none
    (Model.relu (addf (Host.dotGeneral dot_S500000x64_S64x64_S500000x64_1_0_0_1_n_n none (addf x A) Wa) (Model.rowB ba))) Wb

theorem layer_eq (x A : Model.C F S500000x64 .f32) (Wa : Model.C F S64x64 .f32) (ba : Model.C F S64 .f32) (Wb : Model.C F S64x64 .f32) (bb : Model.C F S64 .f32) :
    Model.layer x A Wa ba Wb bb = Model.relu (addf (layerPre x A Wa ba Wb) (Model.rowB bb)) := rfl

/-- The standardisation of a read-out: `(y − mean) / sqrt (var + ε)`, column by column. -/
def norm (y : Model.C F S100x16 .f32) : Model.C F S100x16 .f32 :=
  Host.divf (subf y (Model.rowO (Model.mean16 y)))
    (Model.rowO (Host.sqrt (addf (Model.var16 y) (broadcastInDim S16 ![] bcast_S_S16 (constant S_ .f32 0x3727C5AC#32)))))

theorem head_eq (p : Model.C F S100x64 .f32) (Wl1 : Model.C F S64x64 .f32) (bl1 : Model.C F S64 .f32) (Wl2 : Model.C F S64x16 .f32) (bl2 : Model.C F S16 .f32) :
    Model.head p Wl1 bl1 Wl2 bl2 = norm (Model.headY p Wl1 bl1 Wl2 bl2) := rfl

end Cert.ReferenceIdeal.HandRun

end
-- ==== Proof.RefMain0.lean ====
/-
  Window 0 of the reference's @main is the straight line of stretches 0 and 1: with each call replaced by
  its callee's body over the call's own buffers and the sequencing re-associated to the right, the window and
  the run of the two lists are the same chain of host steps.
-/
import proofs.«159217_j87393994539011_1_alg».proof.Proof.RefOps

noncomputable section

namespace Cert.ReferenceIdeal.HandRun

open Idealize.ShloMosaic Idealize.ShloMosaic.TcCoe Idealize.SL.Sem Idealize.ShloMosaic.StableHlo
open Cert.ReferenceIdeal Cert.ReferenceIdeal.Facts₀ Cert.ReferenceIdeal.Facts

variable {F : FTy → Type} [FloatOps F]

theorem part0_eq (d : Dev nD) : main_part0 (F := F) d = seq (ops0 ++ ops1) := by
  rw [seq_append]
  simp only [main_part0, fn_relu.body, ops0, ops1, seq, bind_assoc, pure_bind]

end Cert.ReferenceIdeal.HandRun

end
-- ==== Proof.RefMain1.lean ====
/-
  Window 1 of the reference's @main is the straight line of stretches 2 and 3: with each call replaced by
  its callee's body over the call's own buffers and the sequencing re-associated to the right, the window and
  the run of the two lists are the same chain of host steps.
-/
import proofs.«159217_j87393994539011_1_alg».proof.Proof.RefOps

noncomputable section

namespace Cert.ReferenceIdeal.HandRun

open Idealize.ShloMosaic Idealize.ShloMosaic.TcCoe Idealize.SL.Sem Idealize.ShloMosaic.StableHlo
open Cert.ReferenceIdeal Cert.ReferenceIdeal.Facts₀ Cert.ReferenceIdeal.Facts

variable {F : FTy → Type} [FloatOps F]

theorem part1_eq (d : Dev nD) : main_part1 (F := F) d = seq (ops2 ++ ops3) := by
  rw [seq_append]
  simp only [main_part1, fn_relu.body, ops2, ops3, seq, bind_assoc, pure_bind]
  try rfl

end Cert.ReferenceIdeal.HandRun

end
-- ==== Proof.RefMain2.lean ====
/-
  Window 2 of the reference's @main is the straight line of stretches 4 and 5: with each call replaced by
  its callee's body over the call's own buffers and the sequencing re-associated to the right, the window and
  the run of the two lists are the same chain of host steps.
-/
import proofs.«159217_j87393994539011_1_alg».proof.Proof.RefOps

noncomputable section

namespace Cert.ReferenceIdeal.HandRun

open Idealize.ShloMosaic Idealize.ShloMosaic.TcCoe Idealize.SL.Sem Idealize.ShloMosaic.StableHlo
open Cert.ReferenceIdeal Cert.ReferenceIdeal.Facts₀ Cert.ReferenceIdeal.Facts

variable {F : FTy → Type} [FloatOps F]

theorem part2_eq (d : Dev nD) : main_part2 (F := F) d = seq (ops4 ++ ops5) := by
  rw [seq_append]
  simp only [main_part2, fn_relu.body, fn_relu_0.body, fn_var.body, fn_where.body, ops4, ops5, seq, bind_assoc, pure_bind]
  try rfl

end Cert.ReferenceIdeal.HandRun

end
-- ==== Proof.RefS0.lean ====
/-
  Stretch 0 of the reference's operations (the edge list's two rows and the first layer (one input feature)): its operations touch only the TensorCore's buffers,
  determine their results, and write only the buffers listed for it, so every other buffer keeps its contents; and
  what the stretch leaves in the buffers later stretches read, as a term of the buffers it reads: the operations'
  functions composed in program order, which is the network's own term.
-/
import proofs.«159217_j87393994539011_1_alg».proof.Proof.RefOps

noncomputable section

namespace Cert.ReferenceIdeal.HandRun

open Idealize.ShloMosaic Idealize.ShloMosaic.TcCoe Idealize.SL.Sem Idealize.ShloMosaic.StableHlo
open Cert.ReferenceIdeal Cert.ReferenceIdeal.Facts₀ Cert.ReferenceIdeal.Facts

variable {F : FTy → Type} [FloatOps F]

theorem ops0_sub : (ops0 : List (HloOp τ sig (Elt F))).Forall fun op => op.bufs ⊆ tcRefs τ sig :=
  ⟨unary_bufs_sub .., reshape_bufs_sub .., unary_bufs_sub .., reshape_bufs_sub .., nullary_bufs_sub .., unary_bufs_sub ..,
    binary_bufs_sub .., nullary_bufs_sub .., unary_bufs_sub .., binary_bufs_sub .., ternary_bufs_sub .., unary_bufs_sub ..,
    binary_bufs_sub .., nullary_bufs_sub .., unary_bufs_sub .., unary_bufs_sub .., ternary_bufs_sub .., binary_bufs_sub ..,
    binary_bufs_sub .., unary_bufs_sub .., unary_bufs_sub .., binary_bufs_sub .., nullary_bufs_sub .., unary_bufs_sub ..,
    binary_bufs_sub .., binary_bufs_sub .., unary_bufs_sub .., unary_bufs_sub .., binary_bufs_sub .., nullary_bufs_sub ..,
    unary_bufs_sub .., binary_bufs_sub ..⟩

theorem ops0_fresh : (ops0 : List (HloOp τ sig (Elt F))).Forall fun op => op.fresh = ∅ :=
  ⟨rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl⟩

theorem ops0_writes : (ops0 : List (HloOp τ sig (Elt F))).Forall fun op =>
    op.writes ⊆ (W0.map (Proc.devRef (τ := τ) .tc)).toFinset :=
  ⟨writes_sub_of_mem main_v0 rfl (by decide), writes_sub_of_mem main_v1 rfl (by decide), writes_sub_of_mem main_v2 rfl (by decide),
    writes_sub_of_mem main_v3 rfl (by decide), writes_sub_of_mem main_c rfl (by decide), writes_sub_of_mem main_v4 rfl (by decide),
    writes_sub_of_mem main_v5 rfl (by decide), writes_sub_of_mem main_c_0 rfl (by decide), writes_sub_of_mem main_v6 rfl (by decide),
    writes_sub_of_mem main_v7 rfl (by decide), writes_sub_of_mem main_v8 rfl (by decide), writes_sub_of_mem main_v9 rfl (by decide),
    writes_sub_of_mem main_v10 rfl (by decide), writes_sub_of_mem main_cst rfl (by decide), writes_sub_of_mem main_v11 rfl (by decide),
    writes_sub_of_mem main_v12 rfl (by decide), writes_sub_of_mem main_v13 rfl (by decide), writes_sub_of_mem main_v14 rfl (by decide),
    writes_sub_of_mem main_v15 rfl (by decide), writes_sub_of_mem main_v16 rfl (by decide), writes_sub_of_mem main_v17 rfl (by decide),
    writes_sub_of_mem main_v18 rfl (by decide), writes_sub_of_mem main_call0_cst rfl (by decide), writes_sub_of_mem main_call0_v0 rfl (by decide),
    writes_sub_of_mem main_v19 rfl (by decide), writes_sub_of_mem main_v20 rfl (by decide), writes_sub_of_mem main_v21 rfl (by decide),
    writes_sub_of_mem main_v22 rfl (by decide), writes_sub_of_mem main_v23 rfl (by decide), writes_sub_of_mem main_call1_cst rfl (by decide),
    writes_sub_of_mem main_call1_v0 rfl (by decide), writes_sub_of_mem main_v24 rfl (by decide)⟩

/-- A buffer the stretch does not write keeps its contents. -/
theorem frame0 (V : Valuation τ sig (Elt F)) {r : Ref sig .tc} (hr : r ∉ W0) :
    after ops0 V (Proc.devRef .tc r) = V (Proc.devRef .tc r) :=
  after_of_writes_sub ops0 V ops0_writes hr

attribute [local irreducible] Host.gather Host.scatterAdd Host.reduceAdd in
/-- The first layer's output from the features, the edge list and the first layer's four parameters. -/
theorem read0_x (V : Valuation τ sig (Elt F)) :
    after ops0 V (main_v24 : DevRef τ sig)
      = Model.x1 (V (main_arg0 : DevRef τ sig)) (V (main_arg1 : DevRef τ sig)) (V (main_arg4 : DevRef τ sig)) (V (main_arg5 : DevRef τ sig)) (V (main_arg6 : DevRef τ sig)) (V (main_arg7 : DevRef τ sig)) := by
  simp only [ops0, after_cons, after_nil]
  rfl

attribute [local irreducible] Host.gather Host.scatterAdd Host.reduceAdd in
/-- The sources' row of the edge list. -/
theorem read0_e1 (V : Valuation τ sig (Elt F)) :
    after ops0 V (main_v1 : DevRef τ sig)
      = Model.e1 (F := F) (V (main_arg1 : DevRef τ sig)) := by
  simp only [ops0, after_cons, after_nil]
  rfl

attribute [local irreducible] Host.gather Host.scatterAdd Host.reduceAdd in
/-- The destinations' row of the edge list. -/
theorem read0_e2 (V : Valuation τ sig (Elt F)) :
    after ops0 V (main_v3 : DevRef τ sig)
      = Model.e2 (F := F) (V (main_arg1 : DevRef τ sig)) := by
  simp only [ops0, after_cons, after_nil]
  rfl

end Cert.ReferenceIdeal.HandRun

end
-- ==== Proof.RefS1.lean ====
/-
  Stretch 1 of the reference's operations (the second layer, with the first slices of the stacked weights): its operations touch only the TensorCore's buffers,
  determine their results, and write only the buffers listed for it, so every other buffer keeps its contents; and
  what the stretch leaves in the buffers later stretches read, as a term of the buffers it reads: the operations'
  functions composed in program order, which is the network's own term.
-/
import proofs.«159217_j87393994539011_1_alg».proof.Proof.RefOps

noncomputable section

namespace Cert.ReferenceIdeal.HandRun

open Idealize.ShloMosaic Idealize.ShloMosaic.TcCoe Idealize.SL.Sem Idealize.ShloMosaic.StableHlo
open Cert.ReferenceIdeal Cert.ReferenceIdeal.Facts₀ Cert.ReferenceIdeal.Facts

variable {F : FTy → Type} [FloatOps F]

theorem ops1_sub : (ops1 : List (HloOp τ sig (Elt F))).Forall fun op => op.bufs ⊆ tcRefs τ sig :=
  ⟨unary_bufs_sub .., reshape_bufs_sub .., unary_bufs_sub .., reshape_bufs_sub .., unary_bufs_sub .., reshape_bufs_sub ..,
    unary_bufs_sub .., reshape_bufs_sub .., nullary_bufs_sub .., unary_bufs_sub .., binary_bufs_sub .., nullary_bufs_sub ..,
    unary_bufs_sub .., binary_bufs_sub .., ternary_bufs_sub .., unary_bufs_sub .., binary_bufs_sub .., nullary_bufs_sub ..,
    unary_bufs_sub .., unary_bufs_sub .., ternary_bufs_sub .., binary_bufs_sub .., binary_bufs_sub .., unary_bufs_sub ..,
    unary_bufs_sub .., binary_bufs_sub .., nullary_bufs_sub .., unary_bufs_sub .., binary_bufs_sub .., binary_bufs_sub ..,
    unary_bufs_sub .., unary_bufs_sub .., binary_bufs_sub .., nullary_bufs_sub .., unary_bufs_sub .., binary_bufs_sub ..⟩

theorem ops1_fresh : (ops1 : List (HloOp τ sig (Elt F))).Forall fun op => op.fresh = ∅ :=
  ⟨rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl,
    rfl, rfl, rfl, rfl⟩

theorem ops1_writes : (ops1 : List (HloOp τ sig (Elt F))).Forall fun op =>
    op.writes ⊆ (W1.map (Proc.devRef (τ := τ) .tc)).toFinset :=
  ⟨writes_sub_of_mem main_v25 rfl (by decide), writes_sub_of_mem main_v26 rfl (by decide), writes_sub_of_mem main_v27 rfl (by decide),
    writes_sub_of_mem main_v28 rfl (by decide), writes_sub_of_mem main_v29 rfl (by decide), writes_sub_of_mem main_v30 rfl (by decide),
    writes_sub_of_mem main_v31 rfl (by decide), writes_sub_of_mem main_v32 rfl (by decide), writes_sub_of_mem main_c_1 rfl (by decide),
    writes_sub_of_mem main_v33 rfl (by decide), writes_sub_of_mem main_v34 rfl (by decide), writes_sub_of_mem main_c_2 rfl (by decide),
    writes_sub_of_mem main_v35 rfl (by decide), writes_sub_of_mem main_v36 rfl (by decide), writes_sub_of_mem main_v37 rfl (by decide),
    writes_sub_of_mem main_v38 rfl (by decide), writes_sub_of_mem main_v39 rfl (by decide), writes_sub_of_mem main_cst_3 rfl (by decide),
    writes_sub_of_mem main_v40 rfl (by decide), writes_sub_of_mem main_v41 rfl (by decide), writes_sub_of_mem main_v42 rfl (by decide),
    writes_sub_of_mem main_v43 rfl (by decide), writes_sub_of_mem main_v44 rfl (by decide), writes_sub_of_mem main_v45 rfl (by decide),
    writes_sub_of_mem main_v46 rfl (by decide), writes_sub_of_mem main_v47 rfl (by decide), writes_sub_of_mem main_call2_cst rfl (by decide),
    writes_sub_of_mem main_call2_v0 rfl (by decide), writes_sub_of_mem main_v48 rfl (by decide), writes_sub_of_mem main_v49 rfl (by decide),
    writes_sub_of_mem main_v50 rfl (by decide), writes_sub_of_mem main_v51 rfl (by decide), writes_sub_of_mem main_v52 rfl (by decide),
    writes_sub_of_mem main_call3_cst rfl (by decide), writes_sub_of_mem main_call3_v0 rfl (by decide), writes_sub_of_mem main_v53 rfl (by decide)⟩

/-- A buffer the stretch does not write keeps its contents. -/
theorem frame1 (V : Valuation τ sig (Elt F)) {r : Ref sig .tc} (hr : r ∉ W1) :
    after ops1 V (Proc.devRef .tc r) = V (Proc.devRef .tc r) :=
  after_of_writes_sub ops1 V ops1_writes hr

attribute [local irreducible] Host.gather Host.scatterAdd Host.reduceAdd in
/-- The second layer's output from the first's, the edge list's two rows and the stacked parameters' first slices. -/
theorem read1 (V : Valuation τ sig (Elt F)) :
    after ops1 V (main_v53 : DevRef τ sig)
      = Model.layer (V (main_v24 : DevRef τ sig)) (aggOf (V (main_v24 : DevRef τ sig)) (V (main_v1 : DevRef τ sig)) (V (main_v3 : DevRef τ sig))) (Model.wsl0 (V (main_arg8 : DevRef τ sig))) (Model.bsl0 (V (main_arg9 : DevRef τ sig))) (Model.wsl0 (V (main_arg10 : DevRef τ sig))) (Model.bsl0 (V (main_arg11 : DevRef τ sig))) := by
  simp only [ops1, after_cons, after_nil]
  rfl

end Cert.ReferenceIdeal.HandRun

end
-- ==== Proof.RefS2.lean ====
/-
  Stretch 2 of the reference's operations (the third layer, with the second slices): its operations touch only the TensorCore's buffers,
  determine their results, and write only the buffers listed for it, so every other buffer keeps its contents; and
  what the stretch leaves in the buffers later stretches read, as a term of the buffers it reads: the operations'
  functions composed in program order, which is the network's own term.
-/
import proofs.«159217_j87393994539011_1_alg».proof.Proof.RefOps

noncomputable section

namespace Cert.ReferenceIdeal.HandRun

open Idealize.ShloMosaic Idealize.ShloMosaic.TcCoe Idealize.SL.Sem Idealize.ShloMosaic.StableHlo
open Cert.ReferenceIdeal Cert.ReferenceIdeal.Facts₀ Cert.ReferenceIdeal.Facts

variable {F : FTy → Type} [FloatOps F]

theorem ops2_sub : (ops2 : List (HloOp τ sig (Elt F))).Forall fun op => op.bufs ⊆ tcRefs τ sig :=
  ⟨unary_bufs_sub .., reshape_bufs_sub .., unary_bufs_sub .., reshape_bufs_sub .., unary_bufs_sub .., reshape_bufs_sub ..,
    unary_bufs_sub .., reshape_bufs_sub .., nullary_bufs_sub .., unary_bufs_sub .., binary_bufs_sub .., nullary_bufs_sub ..,
    unary_bufs_sub .., binary_bufs_sub .., ternary_bufs_sub .., unary_bufs_sub .., binary_bufs_sub .., nullary_bufs_sub ..,
    unary_bufs_sub .., unary_bufs_sub .., ternary_bufs_sub .., binary_bufs_sub .., binary_bufs_sub .., unary_bufs_sub ..,
    unary_bufs_sub .., binary_bufs_sub .., nullary_bufs_sub .., unary_bufs_sub .., binary_bufs_sub .., binary_bufs_sub ..,
    unary_bufs_sub .., unary_bufs_sub .., binary_bufs_sub .., nullary_bufs_sub .., unary_bufs_sub .., binary_bufs_sub ..⟩

theorem ops2_fresh : (ops2 : List (HloOp τ sig (Elt F))).Forall fun op => op.fresh = ∅ :=
  ⟨rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl,
    rfl, rfl, rfl, rfl⟩

theorem ops2_writes : (ops2 : List (HloOp τ sig (Elt F))).Forall fun op =>
    op.writes ⊆ (W2.map (Proc.devRef (τ := τ) .tc)).toFinset :=
  ⟨writes_sub_of_mem main_v54 rfl (by decide), writes_sub_of_mem main_v55 rfl (by decide), writes_sub_of_mem main_v56 rfl (by decide),
    writes_sub_of_mem main_v57 rfl (by decide), writes_sub_of_mem main_v58 rfl (by decide), writes_sub_of_mem main_v59 rfl (by decide),
    writes_sub_of_mem main_v60 rfl (by decide), writes_sub_of_mem main_v61 rfl (by decide), writes_sub_of_mem main_c_4 rfl (by decide),
    writes_sub_of_mem main_v62 rfl (by decide), writes_sub_of_mem main_v63 rfl (by decide), writes_sub_of_mem main_c_5 rfl (by decide),
    writes_sub_of_mem main_v64 rfl (by decide), writes_sub_of_mem main_v65 rfl (by decide), writes_sub_of_mem main_v66 rfl (by decide),
    writes_sub_of_mem main_v67 rfl (by decide), writes_sub_of_mem main_v68 rfl (by decide), writes_sub_of_mem main_cst_6 rfl (by decide),
    writes_sub_of_mem main_v69 rfl (by decide), writes_sub_of_mem main_v70 rfl (by decide), writes_sub_of_mem main_v71 rfl (by decide),
    writes_sub_of_mem main_v72 rfl (by decide), writes_sub_of_mem main_v73 rfl (by decide), writes_sub_of_mem main_v74 rfl (by decide),
    writes_sub_of_mem main_v75 rfl (by decide), writes_sub_of_mem main_v76 rfl (by decide), writes_sub_of_mem main_call4_cst rfl (by decide),
    writes_sub_of_mem main_call4_v0 rfl (by decide), writes_sub_of_mem main_v77 rfl (by decide), writes_sub_of_mem main_v78 rfl (by decide),
    writes_sub_of_mem main_v79 rfl (by decide), writes_sub_of_mem main_v80 rfl (by decide), writes_sub_of_mem main_v81 rfl (by decide),
    writes_sub_of_mem main_call5_cst rfl (by decide), writes_sub_of_mem main_call5_v0 rfl (by decide), writes_sub_of_mem main_v82 rfl (by decide)⟩

/-- A buffer the stretch does not write keeps its contents. -/
theorem frame2 (V : Valuation τ sig (Elt F)) {r : Ref sig .tc} (hr : r ∉ W2) :
    after ops2 V (Proc.devRef .tc r) = V (Proc.devRef .tc r) :=
  after_of_writes_sub ops2 V ops2_writes hr

attribute [local irreducible] Host.gather Host.scatterAdd Host.reduceAdd in
/-- The third layer's output from the second's, the edge list's two rows and the stacked parameters' second slices. -/
theorem read2 (V : Valuation τ sig (Elt F)) :
    after ops2 V (main_v82 : DevRef τ sig)
      = Model.layer (V (main_v53 : DevRef τ sig)) (aggOf (V (main_v53 : DevRef τ sig)) (V (main_v1 : DevRef τ sig)) (V (main_v3 : DevRef τ sig))) (Model.wsl1 (V (main_arg8 : DevRef τ sig))) (Model.bsl1 (V (main_arg9 : DevRef τ sig))) (Model.wsl1 (V (main_arg10 : DevRef τ sig))) (Model.bsl1 (V (main_arg11 : DevRef τ sig))) := by
  simp only [ops2, after_cons, after_nil]
  rfl

end Cert.ReferenceIdeal.HandRun

end
-- ==== Proof.RefS3.lean ====
/-
  Stretch 3 of the reference's operations (the fourth layer up to its second matrix product, with the third slices): its operations touch only the TensorCore's buffers,
  determine their results, and write only the buffers listed for it, so every other buffer keeps its contents; and
  what the stretch leaves in the buffers later stretches read, as a term of the buffers it reads: the operations'
  functions composed in program order, which is the network's own term.
-/
import proofs.«159217_j87393994539011_1_alg».proof.Proof.RefOps

noncomputable section

namespace Cert.ReferenceIdeal.HandRun

open Idealize.ShloMosaic Idealize.ShloMosaic.TcCoe Idealize.SL.Sem Idealize.ShloMosaic.StableHlo
open Cert.ReferenceIdeal Cert.ReferenceIdeal.Facts₀ Cert.ReferenceIdeal.Facts

variable {F : FTy → Type} [FloatOps F]

theorem ops3_sub : (ops3 : List (HloOp τ sig (Elt F))).Forall fun op => op.bufs ⊆ tcRefs τ sig :=
  ⟨unary_bufs_sub .., reshape_bufs_sub .., unary_bufs_sub .., reshape_bufs_sub .., unary_bufs_sub .., reshape_bufs_sub ..,
    unary_bufs_sub .., reshape_bufs_sub .., nullary_bufs_sub .., unary_bufs_sub .., binary_bufs_sub .., nullary_bufs_sub ..,
    unary_bufs_sub .., binary_bufs_sub .., ternary_bufs_sub .., unary_bufs_sub .., binary_bufs_sub .., nullary_bufs_sub ..,
    unary_bufs_sub .., unary_bufs_sub .., ternary_bufs_sub .., binary_bufs_sub .., binary_bufs_sub .., unary_bufs_sub ..,
    unary_bufs_sub .., binary_bufs_sub .., nullary_bufs_sub .., unary_bufs_sub .., binary_bufs_sub .., binary_bufs_sub ..⟩

theorem ops3_fresh : (ops3 : List (HloOp τ sig (Elt F))).Forall fun op => op.fresh = ∅ :=
  ⟨rfl, rfl, rfl, rfl, rfl, rfl, rfl, rfl, rfl, rfl, rfl, rfl, rfl, rfl, rfl, rfl,
    rfl, rfl, rfl, rfl, rfl, rfl, rfl, rfl, rfl, rfl, rfl, rfl, rfl, rfl⟩

theorem ops3_writes : (ops3 : List (HloOp τ sig (Elt F))).Forall fun op =>
    op.writes ⊆ (W3.map (Proc.devRef (τ := τ) .tc)).toFinset :=
  ⟨writes_sub_of_mem main_v83 rfl (by decide), writes_sub_of_mem main_v84 rfl (by decide), writes_sub_of_mem main_v85 rfl (by decide),
    writes_sub_of_mem main_v86 rfl (by decide), writes_sub_of_mem main_v87 rfl (by decide), writes_sub_of_mem main_v88 rfl (by decide),
    writes_sub_of_mem main_v89 rfl (by decide), writes_sub_of_mem main_v90 rfl (by decide), writes_sub_of_mem main_c_7 rfl (by decide),
    writes_sub_of_mem main_v91 rfl (by decide), writes_sub_of_mem main_v92 rfl (by decide), writes_sub_of_mem main_c_8 rfl (by decide),
    writes_sub_of_mem main_v93 rfl (by decide), writes_sub_of_mem main_v94 rfl (by decide), writes_sub_of_mem main_v95 rfl (by decide),
    writes_sub_of_mem main_v96 rfl (by decide), writes_sub_of_mem main_v97 rfl (by decide), writes_sub_of_mem main_cst_9 rfl (by decide),
    writes_sub_of_mem main_v98 rfl (by decide), writes_sub_of_mem main_v99 rfl (by decide), writes_sub_of_mem main_v100 rfl (by decide),
    writes_sub_of_mem main_v101 rfl (by decide), writes_sub_of_mem main_v102 rfl (by decide), writes_sub_of_mem main_v103 rfl (by decide),
    writes_sub_of_mem main_v104 rfl (by decide), writes_sub_of_mem main_v105 rfl (by decide), writes_sub_of_mem main_call6_cst rfl (by decide),
    writes_sub_of_mem main_call6_v0 rfl (by decide), writes_sub_of_mem main_v106 rfl (by decide), writes_sub_of_mem main_v107 rfl (by decide)⟩

/-- A buffer the stretch does not write keeps its contents. -/
theorem frame3 (V : Valuation τ sig (Elt F)) {r : Ref sig .tc} (hr : r ∉ W3) :
    after ops3 V (Proc.devRef .tc r) = V (Proc.devRef .tc r) :=
  after_of_writes_sub ops3 V ops3_writes hr

attribute [local irreducible] Host.gather Host.scatterAdd Host.reduceAdd in
/-- The fourth layer before its last bias, from the third's output, the edge list's two rows and the third slices. -/
theorem read3_pre (V : Valuation τ sig (Elt F)) :
    after ops3 V (main_v107 : DevRef τ sig)
      = layerPre (V (main_v82 : DevRef τ sig)) (aggOf (V (main_v82 : DevRef τ sig)) (V (main_v1 : DevRef τ sig)) (V (main_v3 : DevRef τ sig))) (Model.wsl2 (V (main_arg8 : DevRef τ sig))) (Model.bsl2 (V (main_arg9 : DevRef τ sig))) (Model.wsl2 (V (main_arg10 : DevRef τ sig))) := by
  simp only [ops3, after_cons, after_nil]
  rfl

attribute [local irreducible] Host.gather Host.scatterAdd Host.reduceAdd in
/-- The fourth layer's last bias: the third slice of the stacked second biases. -/
theorem read3_b (V : Valuation τ sig (Elt F)) :
    after ops3 V (main_v90 : DevRef τ sig)
      = Model.bsl2 (F := F) (V (main_arg11 : DevRef τ sig)) := by
  simp only [ops3, after_cons, after_nil]
  rfl

end Cert.ReferenceIdeal.HandRun

end
-- ==== Proof.RefS4.lean ====
/-
  Stretch 4 of the reference's operations (the fourth layer's last bias and clip, the two pooling sums, and the read-out's two-matrix perceptron): its operations touch only the TensorCore's buffers,
  determine their results, and write only the buffers listed for it, so every other buffer keeps its contents; and
  what the stretch leaves in the buffers later stretches read, as a term of the buffers it reads: the operations'
  functions composed in program order, which is the network's own term.
-/
import proofs.«159217_j87393994539011_1_alg».proof.Proof.RefOps

noncomputable section

namespace Cert.ReferenceIdeal.HandRun

open Idealize.ShloMosaic Idealize.ShloMosaic.TcCoe Idealize.SL.Sem Idealize.ShloMosaic.StableHlo
open Cert.ReferenceIdeal Cert.ReferenceIdeal.Facts₀ Cert.ReferenceIdeal.Facts

variable {F : FTy → Type} [FloatOps F]

theorem ops4_sub : (ops4 : List (HloOp τ sig (Elt F))).Forall fun op => op.bufs ⊆ tcRefs τ sig :=
  ⟨unary_bufs_sub .., unary_bufs_sub .., binary_bufs_sub .., nullary_bufs_sub .., unary_bufs_sub .., binary_bufs_sub ..,
    nullary_bufs_sub .., unary_bufs_sub .., unary_bufs_sub .., ternary_bufs_sub .., nullary_bufs_sub .., unary_bufs_sub ..,
    unary_bufs_sub .., ternary_bufs_sub .., binary_bufs_sub .., unary_bufs_sub .., unary_bufs_sub .., binary_bufs_sub ..,
    nullary_bufs_sub .., unary_bufs_sub .., binary_bufs_sub .., binary_bufs_sub .., unary_bufs_sub .., unary_bufs_sub ..,
    binary_bufs_sub ..⟩

theorem ops4_fresh : (ops4 : List (HloOp τ sig (Elt F))).Forall fun op => op.fresh = ∅ :=
  ⟨rfl, rfl, rfl, rfl, rfl, rfl, rfl, rfl, rfl, rfl, rfl, rfl, rfl, rfl, rfl, rfl,
    rfl, rfl, rfl, rfl, rfl, rfl, rfl, rfl, rfl⟩

theorem ops4_writes : (ops4 : List (HloOp τ sig (Elt F))).Forall fun op =>
    op.writes ⊆ (W4.map (Proc.devRef (τ := τ) .tc)).toFinset :=
  ⟨writes_sub_of_mem main_v108 rfl (by decide), writes_sub_of_mem main_v109 rfl (by decide), writes_sub_of_mem main_v110 rfl (by decide),
    writes_sub_of_mem main_call7_cst rfl (by decide), writes_sub_of_mem main_call7_v0 rfl (by decide), writes_sub_of_mem main_v111 rfl (by decide),
    writes_sub_of_mem main_cst_10 rfl (by decide), writes_sub_of_mem main_v112 rfl (by decide), writes_sub_of_mem main_v113 rfl (by decide),
    writes_sub_of_mem main_v114 rfl (by decide), writes_sub_of_mem main_cst_11 rfl (by decide), writes_sub_of_mem main_v115 rfl (by decide),
    writes_sub_of_mem main_v116 rfl (by decide), writes_sub_of_mem main_v117 rfl (by decide), writes_sub_of_mem main_v118 rfl (by decide),
    writes_sub_of_mem main_v119 rfl (by decide), writes_sub_of_mem main_v120 rfl (by decide), writes_sub_of_mem main_v121 rfl (by decide),
    writes_sub_of_mem main_call8_cst rfl (by decide), writes_sub_of_mem main_call8_v0 rfl (by decide), writes_sub_of_mem main_v122 rfl (by decide),
    writes_sub_of_mem main_v123 rfl (by decide), writes_sub_of_mem main_v124 rfl (by decide), writes_sub_of_mem main_v125 rfl (by decide),
    writes_sub_of_mem main_v126 rfl (by decide)⟩

/-- A buffer the stretch does not write keeps its contents. -/
theorem frame4 (V : Valuation τ sig (Elt F)) {r : Ref sig .tc} (hr : r ∉ W4) :
    after ops4 V (Proc.devRef .tc r) = V (Proc.devRef .tc r) :=
  after_of_writes_sub ops4 V ops4_writes hr

attribute [local irreducible] Host.gather Host.scatterAdd Host.reduceAdd in
/-- The read-out before standardisation: the fourth layer finished, pooled twice, through the read-out's perceptron. -/
theorem read4 (V : Valuation τ sig (Elt F)) :
    after ops4 V (main_v126 : DevRef τ sig)
      = Model.headY (Model.pool (Model.relu (addf (V (main_v107 : DevRef τ sig)) (Model.rowB (V (main_v90 : DevRef τ sig))))) (V (main_arg2 : DevRef τ sig)) (V (main_arg3 : DevRef τ sig))) (V (main_arg12 : DevRef τ sig)) (V (main_arg13 : DevRef τ sig)) (V (main_arg14 : DevRef τ sig)) (V (main_arg15 : DevRef τ sig)) := by
  simp only [ops4, after_cons, after_nil]
  rfl

end Cert.ReferenceIdeal.HandRun

end
-- ==== Proof.RefS5.lean ====
/-
  Stretch 5 of the reference's operations (the read-out's standardisation: column means, column variances (the variance's own mean, squares, divisor and guard), and the quotient): its operations touch only the TensorCore's buffers,
  determine their results, and write only the buffers listed for it, so every other buffer keeps its contents; and
  what the stretch leaves in the buffers later stretches read, as a term of the buffers it reads: the operations'
  functions composed in program order, which is the network's own term.
-/
import proofs.«159217_j87393994539011_1_alg».proof.Proof.RefOps

noncomputable section

namespace Cert.ReferenceIdeal.HandRun

open Idealize.ShloMosaic Idealize.ShloMosaic.TcCoe Idealize.SL.Sem Idealize.ShloMosaic.StableHlo
open Cert.ReferenceIdeal Cert.ReferenceIdeal.Facts₀ Cert.ReferenceIdeal.Facts

variable {F : FTy → Type} [FloatOps F]

theorem ops5_sub : (ops5 : List (HloOp τ sig (Elt F))).Forall fun op => op.bufs ⊆ tcRefs τ sig :=
  ⟨nullary_bufs_sub .., binary_bufs_sub .., nullary_bufs_sub .., unary_bufs_sub .., binary_bufs_sub .., nullary_bufs_sub ..,
    nullary_bufs_sub .., binary_bufs_sub .., unary_bufs_sub .., nullary_bufs_sub .., unary_bufs_sub .., binary_bufs_sub ..,
    unary_bufs_sub .., binary_bufs_sub .., binary_bufs_sub .., unary_bufs_sub .., nullary_bufs_sub .., binary_bufs_sub ..,
    nullary_bufs_sub .., binary_bufs_sub .., unary_bufs_sub .., binary_bufs_sub .., nullary_bufs_sub .., binary_bufs_sub ..,
    nullary_bufs_sub .., unary_bufs_sub .., unary_bufs_sub .., ternary_bufs_sub .., unary_bufs_sub .., unary_bufs_sub ..,
    binary_bufs_sub .., nullary_bufs_sub .., unary_bufs_sub .., binary_bufs_sub .., unary_bufs_sub .., unary_bufs_sub ..,
    unary_bufs_sub .., binary_bufs_sub ..⟩

theorem ops5_fresh : (ops5 : List (HloOp τ sig (Elt F))).Forall fun op => op.fresh = ∅ :=
  ⟨rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl,
    rfl, rfl, rfl, rfl, rfl, rfl⟩

theorem ops5_writes : (ops5 : List (HloOp τ sig (Elt F))).Forall fun op =>
    op.writes ⊆ (W5.map (Proc.devRef (τ := τ) .tc)).toFinset :=
  ⟨writes_sub_of_mem main_cst_12 rfl (by decide), writes_sub_of_mem main_v127 rfl (by decide), writes_sub_of_mem main_cst_13 rfl (by decide),
    writes_sub_of_mem main_v128 rfl (by decide), writes_sub_of_mem main_v129 rfl (by decide), writes_sub_of_mem main_c_14 rfl (by decide),
    writes_sub_of_mem main_call9_cst rfl (by decide), writes_sub_of_mem main_call9_v0 rfl (by decide), writes_sub_of_mem main_call9_v1 rfl (by decide),
    writes_sub_of_mem main_call9_cst_0 rfl (by decide), writes_sub_of_mem main_call9_v2 rfl (by decide), writes_sub_of_mem main_call9_v3 rfl (by decide),
    writes_sub_of_mem main_call9_v4 rfl (by decide), writes_sub_of_mem main_call9_v5 rfl (by decide), writes_sub_of_mem main_call9_v6 rfl (by decide),
    writes_sub_of_mem main_call9_v7 rfl (by decide), writes_sub_of_mem main_call9_cst_1 rfl (by decide), writes_sub_of_mem main_call9_v8 rfl (by decide),
    writes_sub_of_mem main_call9_cst_2 rfl (by decide), writes_sub_of_mem main_call9_v9 rfl (by decide), writes_sub_of_mem main_call9_v10 rfl (by decide),
    writes_sub_of_mem main_call9_v11 rfl (by decide), writes_sub_of_mem main_call9_cst_3 rfl (by decide), writes_sub_of_mem main_call9_v12 rfl (by decide),
    writes_sub_of_mem main_call9_cst_4 rfl (by decide), writes_sub_of_mem main_call9_call0_v0 rfl (by decide), writes_sub_of_mem main_call9_call0_v1 rfl (by decide),
    writes_sub_of_mem main_v130 rfl (by decide), writes_sub_of_mem main_v131 rfl (by decide), writes_sub_of_mem main_v132 rfl (by decide),
    writes_sub_of_mem main_v133 rfl (by decide), writes_sub_of_mem main_cst_15 rfl (by decide), writes_sub_of_mem main_v134 rfl (by decide),
    writes_sub_of_mem main_v135 rfl (by decide), writes_sub_of_mem main_v136 rfl (by decide), writes_sub_of_mem main_v137 rfl (by decide),
    writes_sub_of_mem main_v138 rfl (by decide), writes_sub_of_mem main_v139 rfl (by decide)⟩

/-- A buffer the stretch does not write keeps its contents. -/
theorem frame5 (V : Valuation τ sig (Elt F)) {r : Ref sig .tc} (hr : r ∉ W5) :
    after ops5 V (Proc.devRef .tc r) = V (Proc.devRef .tc r) :=
  after_of_writes_sub ops5 V ops5_writes hr

attribute [local irreducible] Host.gather Host.scatterAdd Host.reduceAdd in
/-- The result: the read-out standardised column by column. -/
theorem read5 (V : Valuation τ sig (Elt F)) :
    after ops5 V (main_v139 : DevRef τ sig)
      = norm (V (main_v126 : DevRef τ sig)) := by
  simp only [ops5, after_cons, after_nil]
  rfl

end Cert.ReferenceIdeal.HandRun

end
-- ==== Proof.RefRun.lean ====
/-
  The reference's run. Its @main is the straight line of the 197 host operations (the three windows one after the
  other, each the run of two stretches), every operation touches TensorCore buffers only and determines its
  result, and the signature scopes no buffer and no semaphore: so from any memory with zero counters every weakly
  fair execution terminates with each buffer at the operations' fold over its launch contents. At the result
  buffer that fold is the network's term of the sixteen argument arrays — each stretch's result read from the
  buffers it reads, the buffers in between carried unchanged by the stretches that do not write them — and at an
  argument buffer, which no operation writes, it is the launch contents.
-/
import proofs.«159217_j87393994539011_1_alg».proof.Proof.RefOps
import proofs.«159217_j87393994539011_1_alg».proof.Proof.RefMain0
import proofs.«159217_j87393994539011_1_alg».proof.Proof.RefMain1
import proofs.«159217_j87393994539011_1_alg».proof.Proof.RefMain2
import proofs.«159217_j87393994539011_1_alg».proof.Proof.RefS0
import proofs.«159217_j87393994539011_1_alg».proof.Proof.RefS1
import proofs.«159217_j87393994539011_1_alg».proof.Proof.RefS2
import proofs.«159217_j87393994539011_1_alg».proof.Proof.RefS3
import proofs.«159217_j87393994539011_1_alg».proof.Proof.RefS4
import proofs.«159217_j87393994539011_1_alg».proof.Proof.RefS5

noncomputable section

namespace Cert.ReferenceIdeal.HandRun

open Idealize.ShloMosaic Idealize.ShloMosaic.TcCoe Idealize.SL.Sem Idealize.ShloMosaic.StableHlo
open Cert.ReferenceIdeal Cert.ReferenceIdeal.Facts₀ Cert.ReferenceIdeal.Facts

variable {F : FTy → Type} [FloatOps F]

/-! ## @main is the straight line -/

theorem main_eq (d : Dev nD) : main (F := F) d = seq (ops : List (HloOp τ sig (Elt F))) := by
  show (main_part0 (F := F) d >>= fun _ => main_part1 (F := F) d >>= fun _ => main_part2 (F := F) d) = _
  rw [part0_eq, part1_eq, part2_eq, ← seq_append, ← seq_append]
  simp only [ops, List.append_assoc]

theorem forall_append {α : Type} {p : α → Prop} {l₁ l₂ : List α} (h₁ : l₁.Forall p) (h₂ : l₂.Forall p) :
    (l₁ ++ l₂).Forall p :=
  List.forall_iff_forall_mem.mpr fun x hx =>
    (List.mem_append.mp hx).elim (List.forall_iff_forall_mem.mp h₁ x) (List.forall_iff_forall_mem.mp h₂ x)

theorem ops_sub : (ops : List (HloOp τ sig (Elt F))).Forall fun op => op.bufs ⊆ tcRefs τ sig :=
  forall_append ops0_sub (forall_append ops1_sub (forall_append ops2_sub (forall_append ops3_sub (forall_append ops4_sub ops5_sub))))

theorem ops_fresh : (ops : List (HloOp τ sig (Elt F))).Forall fun op => op.fresh = ∅ :=
  forall_append ops0_fresh (forall_append ops1_fresh (forall_append ops2_fresh (forall_append ops3_fresh (forall_append ops4_fresh ops5_fresh))))

theorem scopedRefs_eq : (Finset.univ.filter fun b : Ref sig .tc => b.isScoped) = ∅ := by decide
theorem scopedSems_eq : (Finset.univ.filter fun sm : SemLoc sig => sm.isScoped .tc) = ∅ := by decide

/-- From any memory with zero counters every weakly fair execution of @main terminates, each TensorCore buffer
    at the operations' fold over the launch contents. -/
theorem run_main (m : (ℓ : Loc nD τ sig) → Buf (Elt F) ℓ) (ρ : Dev nD → PrngReg) :
    θ_run (defs (F := F)) (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ
    (fun _ => List.forall_iff_forall_mem.mp ops_fresh)

/-! ## The fold at the result and at the arguments -/

theorem after_ops (V : Valuation τ sig (Elt F)) :
    after ops V = after ops5 (after ops4 (after ops3 (after ops2 (after ops1 (after ops0 V))))) := by
  simp only [ops, after_append]

/-- A buffer no stretch writes keeps its contents through the whole line. -/
theorem frame_all (V : Valuation τ sig (Elt F)) {r : Ref sig .tc} (h0 : r ∉ W0) (h1 : r ∉ W1) (h2 : r ∉ W2) (h3 : r ∉ W3)
    (h4 : r ∉ W4) (h5 : r ∉ W5) : after ops V (Proc.devRef .tc r) = V (Proc.devRef .tc r) := by
  rw [after_ops, frame5 _ h5, frame4 _ h4, frame3 _ h3, frame2 _ h2, frame1 _ h1, frame0 _ h0]

/-- The fold at the result buffer is the network's term of the argument arrays. -/
theorem out_eq (V : Valuation τ sig (Elt F)) :
    after ops V (main_v139 : DevRef τ sig)
      = Model.out (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig)) (V (main_arg11 : DevRef τ sig)) (V (main_arg12 : DevRef τ sig)) (V (main_arg13 : DevRef τ sig)) (V (main_arg14 : DevRef τ sig)) (V (main_arg15 : DevRef τ sig)) := by
  rw [after_ops, read5, read4]
  rw [read3_pre, read3_b, frame3 _ (r := main_arg2) (by decide), frame3 _ (r := main_arg3) (by decide),
    frame3 _ (r := main_arg12) (by decide), frame3 _ (r := main_arg13) (by decide), frame3 _ (r := main_arg14) (by decide),
    frame3 _ (r := main_arg15) (by decide)]
  rw [read2, frame2 _ (r := main_v1) (by decide), frame2 _ (r := main_v3) (by decide),
    frame2 _ (r := main_arg2) (by decide), frame2 _ (r := main_arg3) (by decide),
    frame2 _ (r := main_arg8) (by decide), frame2 _ (r := main_arg9) (by decide), frame2 _ (r := main_arg10) (by decide),
    frame2 _ (r := main_arg11) (by decide),
    frame2 _ (r := main_arg12) (by decide), frame2 _ (r := main_arg13) (by decide), frame2 _ (r := main_arg14) (by decide),
    frame2 _ (r := main_arg15) (by decide)]
  rw [read1, frame1 _ (r := main_v1) (by decide), frame1 _ (r := main_v3) (by decide),
    frame1 _ (r := main_arg2) (by decide), frame1 _ (r := main_arg3) (by decide),
    frame1 _ (r := main_arg8) (by decide), frame1 _ (r := main_arg9) (by decide), frame1 _ (r := main_arg10) (by decide),
    frame1 _ (r := main_arg11) (by decide),
    frame1 _ (r := main_arg12) (by decide), frame1 _ (r := main_arg13) (by decide), frame1 _ (r := main_arg14) (by decide),
    frame1 _ (r := main_arg15) (by decide)]
  rw [read0_x, read0_e1, read0_e2,
    frame0 _ (r := main_arg2) (by decide), frame0 _ (r := main_arg3) (by decide),
    frame0 _ (r := main_arg8) (by decide), frame0 _ (r := main_arg9) (by decide), frame0 _ (r := main_arg10) (by decide),
    frame0 _ (r := main_arg11) (by decide),
    frame0 _ (r := main_arg12) (by decide), frame0 _ (r := main_arg13) (by decide), frame0 _ (r := main_arg14) (by decide),
    frame0 _ (r := main_arg15) (by decide)]
  simp only [Model.out, head_eq, layer_eq, agg_eq]

/-! ## The run -/

/-- On the device, for any float values, from any memory with zero counters: every weakly fair execution of @main
    terminates with the result buffer at the network's term of the sixteen arguments' launch contents and the
    arguments unchanged. -/
theorem run (m : (ℓ : Loc nD τ sig) → Buf (Elt F) ℓ) (ρ : Dev nD → PrngReg) :
    θ_run (defs (F := F)) (onTc (τ := τ) (main (F := F))) ⟨m, fun _ => 0, ρ⟩ fun r => ∀ c : Dev nD,
      r.2.mem ((c.tc : Thread nD τ).loc main_v139)
        = Model.out (F := F) (m ((c.tc : Thread nD τ).loc main_arg0))
            (m ((c.tc : Thread nD τ).loc main_arg1))
            (m ((c.tc : Thread nD τ).loc main_arg2))
            (m ((c.tc : Thread nD τ).loc main_arg3))
            (m ((c.tc : Thread nD τ).loc main_arg4))
            (m ((c.tc : Thread nD τ).loc main_arg5))
            (m ((c.tc : Thread nD τ).loc main_arg6))
            (m ((c.tc : Thread nD τ).loc main_arg7))
            (m ((c.tc : Thread nD τ).loc main_arg8))
            (m ((c.tc : Thread nD τ).loc main_arg9))
            (m ((c.tc : Thread nD τ).loc main_arg10))
            (m ((c.tc : Thread nD τ).loc main_arg11))
            (m ((c.tc : Thread nD τ).loc main_arg12))
            (m ((c.tc : Thread nD τ).loc main_arg13))
            (m ((c.tc : Thread nD τ).loc main_arg14))
            (m ((c.tc : Thread nD τ).loc main_arg15))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15) :=
  (θ_run defs _ _).mono (fun _ h c => ⟨(h c main_v139).trans (out_eq _),
      (h c main_arg0).trans (frame_all _ (by decide) (by decide) (by decide) (by decide) (by decide) (by decide)),
      (h c main_arg1).trans (frame_all _ (by decide) (by decide) (by decide) (by decide) (by decide) (by decide)),
      (h c main_arg2).trans (frame_all _ (by decide) (by decide) (by decide) (by decide) (by decide) (by decide)),
      (h c main_arg3).trans (frame_all _ (by decide) (by decide) (by decide) (by decide) (by decide) (by decide)),
      (h c main_arg4).trans (frame_all _ (by decide) (by decide) (by decide) (by decide) (by decide) (by decide)),
      (h c main_arg5).trans (frame_all _ (by decide) (by decide) (by decide) (by decide) (by decide) (by decide)),
      (h c main_arg6).trans (frame_all _ (by decide) (by decide) (by decide) (by decide) (by decide) (by decide)),
      (h c main_arg7).trans (frame_all _ (by decide) (by decide) (by decide) (by decide) (by decide) (by decide)),
      (h c main_arg8).trans (frame_all _ (by decide) (by decide) (by decide) (by decide) (by decide) (by decide)),
      (h c main_arg9).trans (frame_all _ (by decide) (by decide) (by decide) (by decide) (by decide) (by decide)),
      (h c main_arg10).trans (frame_all _ (by decide) (by decide) (by decide) (by decide) (by decide) (by decide)),
      (h c main_arg11).trans (frame_all _ (by decide) (by decide) (by decide) (by decide) (by decide) (by decide)),
      (h c main_arg12).trans (frame_all _ (by decide) (by decide) (by decide) (by decide) (by decide) (by decide)),
      (h c main_arg13).trans (frame_all _ (by decide) (by decide) (by decide) (by decide) (by decide) (by decide)),
      (h c main_arg14).trans (frame_all _ (by decide) (by decide) (by decide) (by decide) (by decide) (by decide)),
      (h c main_arg15).trans (frame_all _ (by decide) (by decide) (by decide) (by decide) (by decide) (by decide))⟩)
    (run_main m ρ)

end Cert.ReferenceIdeal.HandRun

end
-- ==== Proof.lean ====
/-
  The certificate of the four-layer graph network with nested pooling: the kernel (four row-blocked
  two-matrix perceptrons and a standardising read-out as five regions, the neighbour sums and the two
  pooling sums as host operations between them) against the plain reference. At the ideal values both
  programs end at ONE function of the sixteen arguments — the reference network `Model.out` —: the
  kernel's run read region by region (each region's result array is the reference layer, or read-out, of
  the arrays it finds; the host stretches are the reference's own operations), the reference's run read
  back operation by operation. The three frames are the runs with the value dropped (the word-level
  kernel's is its generated frame); the idealisation rewrote nothing.
-/
import proofs.«159217_j87393994539011_1_alg».proof.Defs
import proofs.«159217_j87393994539011_1_alg».proof.Proof.Gen.Kernel
import proofs.«159217_j87393994539011_1_alg».proof.Proof.Gen.Kernel.Frame
import proofs.«159217_j87393994539011_1_alg».proof.Proof.Gen.KernelIdeal
import proofs.«159217_j87393994539011_1_alg».proof.Proof.Gen.KernelIdeal.Frame
import proofs.«159217_j87393994539011_1_alg».proof.Proof.Gen.ReferenceIdeal
import proofs.«159217_j87393994539011_1_alg».proof.Proof.Gen.Pre_finite_inputs
import proofs.«159217_j87393994539011_1_alg».proof.Proof.KAll
import proofs.«159217_j87393994539011_1_alg».proof.Proof.RefRun
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.HandRun.run m ρ)

/-- Both programs end at the reference network of the (agreeing) arguments. -/
theorem algebraic : Cert.algebraic_KernelIdeal_ReferenceIdeal := by
  intro m ρ m' ρ' _ hagree
  refine ⟨_, Cert.KernelIdeal.Val.run m ρ, ?_⟩
  refine (θ_run Cert.ReferenceIdeal.defs _ _).mono (fun _ h c => ⟨(h c).1.trans ?_, (h c).2⟩)
    (Cert.ReferenceIdeal.HandRun.run m' ρ')
  obtain ⟨e0, e1, e2, e3, e4, e5, e6, e7, e8, e9, e10, e11, e12, e13, e14, e15⟩ := hagree c
  rw [e0, e1, e2, e3, e4, e5, e6, e7, e8, e9, e10, e11, e12, e13, e14, e15]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
